-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v147_0)) (v1 : (c : Dev Cert.KernelIdeal.nD) → Buf (Elt Ideal) ((c.tc : Thread Cert.KernelIdeal.nD Cert.KernelIdeal.τ).loc Cert.KernelIdeal.main_v147_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147_0) = v0 c
          ∧ r.2.mem ((c.tc : Thread Cert.KernelIdeal.nD Cert.KernelIdeal.τ).loc Cert.KernelIdeal.main_v147_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v200) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S128x64 .f32) (main_arg12 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S3x128 .f32) (main_arg7 : FVec F S3x128 .f32) (main_arg8 : FVec F S3x128 .f32) (main_arg9 : FVec F S128x64 .f32) (main_arg10 : FVec F S64 .f32) (main_arg11 : FVec F S128x64 .f32) (main_arg12 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x400000 32) (main_arg2 : IVec S100000 32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) (main_arg9 : FVec F S128x64 .f32) (main_arg10 : FVec F S64 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x400000 : Shape := ⟨2, ![2, 400000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S2048x128 : Shape := ⟨2, ![2048, 128]⟩
abbrev S100000x1 : Shape := ⟨2, ![100000, 1]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩

abbrev nBuf : Space → Nat
  | .hbm => 193
  | .vmem => 67
  | .smem => 0
  | _ => 0

abbrev hbmTy0_0 (i : Nat) : BufTy := match i % 128 with
  | 0 => ⟨S100000x128, .f32⟩
  | 1 => ⟨S2x400000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S128x64, .f32⟩
  | 10 => ⟨S64, .f32⟩
  | 11 => ⟨S128x64, .f32⟩
  | 12 => ⟨S64, .f32⟩
  | 13 => ⟨S1x400000, .i32⟩
  | 14 => ⟨S400000, .i32⟩
  | 15 => ⟨S1x400000, .i32⟩
  | 16 => ⟨S400000, .i32⟩
  | 17 => ⟨S_, .f32⟩
  | 18 => ⟨S100000x128, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S100000x128, .f32⟩
  | 37 => ⟨S1x128x128, .f32⟩
  | 38 => ⟨S128x128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S1x128, .f32⟩
  | 47 => ⟨S100000x128, .f32⟩
  | 48 => ⟨S1x128, .f32⟩
  | 49 => ⟨S1x128, .f32⟩
  | 50 => ⟨S128, .f32⟩
  | 51 => ⟨S_, .f32⟩
  | 52 => ⟨S128, .f32⟩
  | 53 => ⟨S128, .f32⟩
  | 54 => ⟨S128, .f32⟩
  | 55 => ⟨S_, .f32⟩
  | 56 => ⟨S128, .f32⟩
  | 57 => ⟨S128, .f32⟩
  | 58 => ⟨S128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S1x128, .f32⟩
  | 66 => ⟨S1x128, .f32⟩
  | 67 => ⟨S1x128, .f32⟩
  | 68 => ⟨S100000x128, .f32⟩
  | 69 => ⟨S_, .f32⟩
  | 70 => ⟨S100000x128, .f32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S400000x128, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S100000x128, .f32⟩
  | 89 => ⟨S1x128x128, .f32⟩
  | 90 => ⟨S128x128, .f32⟩
  | 91 => ⟨S1x128, .f32⟩
  | 92 => ⟨S128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S1x128, .f32⟩
  | 99 => ⟨S100000x128, .f32⟩
  | 100 => ⟨S1x128, .f32⟩
  | 101 => ⟨S1x128, .f32⟩
  | 102 => ⟨S128, .f32⟩
  | 103 => ⟨S_, .f32⟩
  | 104 => ⟨S128, .f32⟩
  | 105 => ⟨S128, .f32⟩
  | 106 => ⟨S128, .f32⟩
  | 107 => ⟨S_, .f32⟩
  | 108 => ⟨S128, .f32⟩
  | 109 => ⟨S128, .f32⟩
  | 110 => ⟨S128, .f32⟩
  | 111 => ⟨S128, .f32⟩
  | 112 => ⟨S1x128, .f32⟩
  | 113 => ⟨S128, .f32⟩
  | 114 => ⟨S1x128, .f32⟩
  | 115 => ⟨S128, .f32⟩
  | 116 => ⟨S1x128, .f32⟩
  | 117 => ⟨S1x128, .f32⟩
  | 118 => ⟨S1x128, .f32⟩
  | 119 => ⟨S1x128, .f32⟩
  | 120 => ⟨S100000x128, .f32⟩
  | 121 => ⟨S_, .f32⟩
  | 122 => ⟨S100000x128, .f32⟩
  | 123 => ⟨S_, .i32⟩
  | 124 => ⟨S400000, .i32⟩
  | 125 => ⟨S400000, .i1⟩
  | 126 => ⟨S_, .i32⟩
  | 127 => ⟨S400000, .i32⟩
  | _ => ⟨S100000x128, .f32⟩

abbrev hbmTy0_1 (i : Nat) : BufTy := match i % 128 with
  | 0 => ⟨S400000, .i32⟩
  | 1 => ⟨S400000, .i32⟩
  | 2 => ⟨S400000x1, .i32⟩
  | 3 => ⟨S400000x128, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S100000x128, .f32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S1x128, .f32⟩
  | 23 => ⟨S100000x128, .f32⟩
  | 24 => ⟨S1x128, .f32⟩
  | 25 => ⟨S1x128, .f32⟩
  | 26 => ⟨S128, .f32⟩
  | 27 => ⟨S_, .f32⟩
  | 28 => ⟨S128, .f32⟩
  | 29 => ⟨S128, .f32⟩
  | 30 => ⟨S128, .f32⟩
  | 31 => ⟨S_, .f32⟩
  | 32 => ⟨S128, .f32⟩
  | 33 => ⟨S128, .f32⟩
  | 34 => ⟨S128, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S1x128, .f32⟩
  | 42 => ⟨S1x128, .f32⟩
  | 43 => ⟨S1x128, .f32⟩
  | 44 => ⟨S100000x128, .f32⟩
  | 45 => ⟨S_, .f32⟩
  | 46 => ⟨S2048x128, .f32⟩
  | 47 => ⟨S100000x1, .i32⟩
  | 48 => ⟨S2048x128, .f32⟩
  | 49 => ⟨S_, .f32⟩
  | 50 => ⟨S100000, .f32⟩
  | 51 => ⟨S_, .f32⟩
  | 52 => ⟨S2048, .f32⟩
  | 53 => ⟨S100000x1, .i32⟩
  | 54 => ⟨S2048, .f32⟩
  | 55 => ⟨S_, .f32⟩
  | 56 => ⟨S2048, .f32⟩
  | 57 => ⟨S2048, .f32⟩
  | 58 => ⟨S2048x1, .f32⟩
  | 59 => ⟨S2048x128, .f32⟩
  | 60 => ⟨S2048x128, .f32⟩
  | 61 => ⟨S1x64, .f32⟩
  | 62 => ⟨S1x64, .f32⟩
  | 63 => ⟨S2048x64, .f32⟩
  | 64 => ⟨S2048x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S2048x128, .f32⟩
  | .local _ .vmem, ⟨61, _⟩ => ⟨S128x64, .f32⟩
  | .local _ .vmem, ⟨62, _⟩ => ⟨S1x64, .f32⟩
  | .local _ .vmem, ⟨63, _⟩ => ⟨S128x64, .f32⟩
  | .local _ .vmem, ⟨64, _⟩ => ⟨S1x64, .f32⟩
  | .local _ .vmem, ⟨65, _⟩ => ⟨S2048x64, .f32⟩
  | .local _ .vmem, ⟨66, _⟩ => ⟨S2048x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_5 : Ref sig .tc := ⟨.hbm, 69, rfl⟩
abbrev main_v47 : Ref sig .tc := ⟨.hbm, 70, rfl⟩
abbrev main_c_6 : Ref sig .tc := ⟨.hbm, 71, rfl⟩
abbrev main_v48 : Ref sig .tc := ⟨.hbm, 72, rfl⟩
abbrev main_v49 : Ref sig .tc := ⟨.hbm, 73, rfl⟩
abbrev main_c_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_8 : Ref sig .tc := ⟨.hbm, 80, rfl⟩
abbrev main_v55 : Ref sig .tc := ⟨.hbm, 81, rfl⟩
abbrev main_v56 : Ref sig .tc := ⟨.hbm, 82, rfl⟩
abbrev main_c_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72_0 : Ref sig .tc := ⟨.hbm, 99, rfl⟩
abbrev main_v72_1 : Ref sig .tc := ⟨.hbm, 100, rfl⟩
abbrev main_v72_2 : Ref sig .tc := ⟨.hbm, 101, rfl⟩
abbrev main_v73 : Ref sig .tc := ⟨.hbm, 102, rfl⟩
abbrev main_cst_10 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_11 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_12 : Ref sig .tc := ⟨.hbm, 121, rfl⟩
abbrev main_v90 : Ref sig .tc := ⟨.hbm, 122, rfl⟩
abbrev main_c_13 : Ref sig .tc := ⟨.hbm, 123, rfl⟩
abbrev main_v91 : Ref sig .tc := ⟨.hbm, 124, rfl⟩
abbrev main_v92 : Ref sig .tc := ⟨.hbm, 125, rfl⟩
abbrev main_c_14 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_15 : Ref sig .tc := ⟨.hbm, 132, rfl⟩
abbrev main_v98 : Ref sig .tc := ⟨.hbm, 133, rfl⟩
abbrev main_v99 : Ref sig .tc := ⟨.hbm, 134, rfl⟩
abbrev main_c_16 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115_0 : Ref sig .tc := ⟨.hbm, 151, rfl⟩
abbrev main_v115_1 : Ref sig .tc := ⟨.hbm, 152, rfl⟩
abbrev main_v115_2 : Ref sig .tc := ⟨.hbm, 153, rfl⟩
abbrev main_v116 : Ref sig .tc := ⟨.hbm, 154, rfl⟩
abbrev main_cst_17 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_18 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_19 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_20 : Ref sig .tc := ⟨.hbm, 177, rfl⟩
abbrev main_v136 : Ref sig .tc := ⟨.hbm, 178, rfl⟩
abbrev main_cst_21 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_22 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147_0 : Ref sig .tc := ⟨.hbm, 191, rfl⟩
abbrev main_v147_1 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg6_0 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem1_0 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem6_0 : DmaSem sig := 66

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2048x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S2048x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S100000x128 : S_.BroadcastsInDim S100000x128 (![] : Fin 0 → Fin S100000x128.rank)
  bcast_S_S400000 : S_.BroadcastsInDim S400000 (![] : Fin 0 → Fin S400000.rank)
  bcast_S400000_S400000x1_0 : S400000.BroadcastsInDim S400000x1 (![0] : Fin 1 → Fin S400000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  shapeCasts_S64_S1x64 : S64.ShapeCasts S1x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S5000x128_S128x128_S5000x128_1_0_0_1_n_n_wf : DotDims.WF S5000x128 S128x128 S5000x128 [1] [0] [0] [1] [] []
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x64_S2048x64_1_0_0_1_n_n_wf : DotDims.WF S2048x128 S128x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S2048x128.size a
  hwx6_0 : ∀ i : grid6.Coords, EltTy.bits .f32 = 32 ∨ (Rect.block (s := S2048x128) S2048x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S2048x64.size a ≤ S2048x64.size a
  hwx6_5 : ∀ i : grid6.Coords, EltTy.bits .f32 = 32 ∨ (Rect.block (s := S2048x64) S2048x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S2048x64.size a ≤ S2048x64.size a
  hwx6_6 : ∀ i : grid6.Coords, EltTy.bits .f32 = 32 ∨ (Rect.block (s := S2048x64) S2048x64.size (cc6_transform_6 i) (hinb6_6 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v29_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v72_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v72_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v72_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v89) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v89) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v104) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v106) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v113) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v110) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v114) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v115_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v115_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v115_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v115_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v128) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v129) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v130) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v131) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v132) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v144) S2048x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v145) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v146) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v147_0) S2048x64.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v147_1) S2048x64.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x400000 : Shape := ⟨2, ![2, 400000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2048x128 : Shape := ⟨2, ![2048, 128]⟩
abbrev S100000x1 : Shape := ⟨2, ![100000, 1]⟩
abbrev S2048 : Shape := ⟨1, ![2048]⟩
abbrev S2048x1 : Shape := ⟨2, ![2048, 1]⟩
abbrev S2048x64 : Shape := ⟨2, ![2048, 64]⟩
abbrev S1x64 : Shape := ⟨2, ![1, 64]⟩

abbrev nBuf : Space → Nat
  | .hbm => 314
  | .vmem => 0
  | .smem => 0
  | _ => 0

abbrev hbmTy0_0 (i : Nat) : BufTy := match i % 128 with
  | 0 => ⟨S100000x128, .f32⟩
  | 1 => ⟨S2x400000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S128x64, .f32⟩
  | 10 => ⟨S64, .f32⟩
  | 11 => ⟨S128x64, .f32⟩
  | 12 => ⟨S64, .f32⟩
  | 13 => ⟨S1x400000, .i32⟩
  | 14 => ⟨S400000, .i32⟩
  | 15 => ⟨S1x400000, .i32⟩
  | 16 => ⟨S400000, .i32⟩
  | 17 => ⟨S_, .f32⟩
  | 18 => ⟨S100000x128, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S1x128x128, .f32⟩
  | 50 => ⟨S128x128, .f32⟩
  | 51 => ⟨S100000x128, .f32⟩
  | 52 => ⟨S1x128, .f32⟩
  | 53 => ⟨S128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S100000x128, .f32⟩
  | 70 => ⟨S100000x128, .f32⟩
  | 71 => ⟨S100000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S_, .f32⟩
  | 109 => ⟨S100000x128, .f32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S400000x128, .f32⟩
  | 119 => ⟨S_, .i32⟩
  | 120 => ⟨S400000, .i32⟩
  | 121 => ⟨S400000, .i1⟩
  | 122 => ⟨S_, .i32⟩
  | 123 => ⟨S400000, .i32⟩
  | 124 => ⟨S400000, .i32⟩
  | 125 => ⟨S400000, .i32⟩
  | 126 => ⟨S400000x1, .i32⟩
  | 127 => ⟨S100000x128, .f32⟩
  | _ => ⟨S100000x128, .f32⟩

abbrev hbmTy0_1 (i : Nat) : BufTy := match i % 128 with
  | 0 => ⟨S100000x128, .f32⟩
  | 1 => ⟨S1x128x128, .f32⟩
  | 2 => ⟨S128x128, .f32⟩
  | 3 => ⟨S100000x128, .f32⟩
  | 4 => ⟨S1x128, .f32⟩
  | 5 => ⟨S128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S1x128x128, .f32⟩
  | 13 => ⟨S128x128, .f32⟩
  | 14 => ⟨S100000x128, .f32⟩
  | 15 => ⟨S1x128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S128, .f32⟩
  | 22 => ⟨S_, .f32⟩
  | 23 => ⟨S128, .f32⟩
  | 24 => ⟨S128, .f32⟩
  | 25 => ⟨S_, .i32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S100000x128, .f32⟩
  | 33 => ⟨S100000x128, .f32⟩
  | 34 => ⟨S100000x128, .f32⟩
  | 35 => ⟨S_, .f32⟩
  | 36 => ⟨S_, .f32⟩
  | 37 => ⟨S_, .f32⟩
  | 38 => ⟨S_, .f32⟩
  | 39 => ⟨S128, .f32⟩
  | 40 => ⟨S128, .f32⟩
  | 41 => ⟨S128, .f32⟩
  | 42 => ⟨S_, .f32⟩
  | 43 => ⟨S_, .i1⟩
  | 44 => ⟨S_, .f32⟩
  | 45 => ⟨S_, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S_, .f32⟩
  | 52 => ⟨S128, .f32⟩
  | 53 => ⟨S128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S128, .f32⟩
  | 60 => ⟨S1x128, .f32⟩
  | 61 => ⟨S100000x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S100000x128, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x128, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S100000x128, .f32⟩
  | 91 => ⟨S100000x128, .f32⟩
  | 92 => ⟨S1x128x128, .f32⟩
  | 93 => ⟨S128x128, .f32⟩
  | 94 => ⟨S100000x128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S1x128x128, .f32⟩
  | 104 => ⟨S128x128, .f32⟩
  | 105 => ⟨S100000x128, .f32⟩
  | 106 => ⟨S1x128, .f32⟩
  | 107 => ⟨S128, .f32⟩
  | 108 => ⟨S1x128, .f32⟩
  | 109 => ⟨S100000x128, .f32⟩
  | 110 => ⟨S100000x128, .f32⟩
  | 111 => ⟨S_, .f32⟩
  | 112 => ⟨S128, .f32⟩
  | 113 => ⟨S_, .f32⟩
  | 114 => ⟨S128, .f32⟩
  | 115 => ⟨S128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S_, .f32⟩
  | _ => ⟨S100000x128, .f32⟩

abbrev hbmTy0_2 (i : Nat) : BufTy := match i % 128 with
  | 0 => ⟨S_, .f32⟩
  | 1 => ⟨S_, .f32⟩
  | 2 => ⟨S128, .f32⟩
  | 3 => ⟨S128, .f32⟩
  | 4 => ⟨S128, .f32⟩
  | 5 => ⟨S_, .f32⟩
  | 6 => ⟨S_, .i1⟩
  | 7 => ⟨S_, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S128, .f32⟩
  | 23 => ⟨S1x128, .f32⟩
  | 24 => ⟨S100000x128, .f32⟩
  | 25 => ⟨S100000x128, .f32⟩
  | 26 => ⟨S1x128, .f32⟩
  | 27 => ⟨S128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S_, .f32⟩
  | 35 => ⟨S2048x128, .f32⟩
  | 36 => ⟨S100000x1, .i32⟩
  | 37 => ⟨S2048x128, .f32⟩
  | 38 => ⟨S_, .f32⟩
  | 39 => ⟨S100000, .f32⟩
  | 40 => ⟨S_, .f32⟩
  | 41 => ⟨S2048, .f32⟩
  | 42 => ⟨S100000x1, .i32⟩
  | 43 => ⟨S2048, .f32⟩
  | 44 => ⟨S_, .f32⟩
  | 45 => ⟨S2048, .f32⟩
  | 46 => ⟨S2048, .f32⟩
  | 47 => ⟨S2048x1, .f32⟩
  | 48 => ⟨S2048x128, .f32⟩
  | 49 => ⟨S2048x128, .f32⟩
  | 50 => ⟨S2048x64, .f32⟩
  | 51 => ⟨S1x64, .f32⟩
  | 52 => ⟨S2048x64, .f32⟩
  | 53 => ⟨S2048x64, .f32⟩
  | 54 => ⟨S2048x64, .f32⟩
  | 55 => ⟨S1x64, .f32⟩
  | 56 => ⟨S2048x64, .f32⟩
  | 57 => ⟨S2048x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_cst_1 : Ref sig .tc := ⟨.hbm, 73, rfl⟩
abbrev main_call0_v8 : Ref sig .tc := ⟨.hbm, 74, rfl⟩
abbrev main_call0_cst_2 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_cst_3 : Ref sig .tc := ⟨.hbm, 79, rfl⟩
abbrev main_call0_v12 : Ref sig .tc := ⟨.hbm, 80, rfl⟩
abbrev main_call0_cst_4 : Ref sig .tc := ⟨.hbm, 81, rfl⟩
abbrev main_call0_call0_v0 : Ref sig .tc := ⟨.hbm, 82, rfl⟩
abbrev main_call0_call0_v1 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_7 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_8 : Ref sig .tc := ⟨.hbm, 105, rfl⟩
abbrev main_v61 : Ref sig .tc := ⟨.hbm, 106, rfl⟩
abbrev main_v62 : Ref sig .tc := ⟨.hbm, 107, rfl⟩
abbrev main_cst_9 : Ref sig .tc := ⟨.hbm, 108, rfl⟩
abbrev main_v63 : Ref sig .tc := ⟨.hbm, 109, rfl⟩
abbrev main_c_10 : Ref sig .tc := ⟨.hbm, 110, rfl⟩
abbrev main_v64 : Ref sig .tc := ⟨.hbm, 111, rfl⟩
abbrev main_v65 : Ref sig .tc := ⟨.hbm, 112, rfl⟩
abbrev main_c_11 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_12 : Ref sig .tc := ⟨.hbm, 119, rfl⟩
abbrev main_v71 : Ref sig .tc := ⟨.hbm, 120, rfl⟩
abbrev main_v72 : Ref sig .tc := ⟨.hbm, 121, rfl⟩
abbrev main_c_13 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_14 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_15 : Ref sig .tc := ⟨.hbm, 148, rfl⟩
abbrev main_v97 : Ref sig .tc := ⟨.hbm, 149, rfl⟩
abbrev main_cst_16 : Ref sig .tc := ⟨.hbm, 150, rfl⟩
abbrev main_v98 : Ref sig .tc := ⟨.hbm, 151, rfl⟩
abbrev main_v99 : Ref sig .tc := ⟨.hbm, 152, rfl⟩
abbrev main_c_17 : Ref sig .tc := ⟨.hbm, 153, rfl⟩
abbrev main_call1_cst : Ref sig .tc := ⟨.hbm, 154, rfl⟩
abbrev main_call1_v0 : Ref sig .tc := ⟨.hbm, 155, rfl⟩
abbrev main_call1_v1 : Ref sig .tc := ⟨.hbm, 156, rfl⟩
abbrev main_call1_cst_0 : Ref sig .tc := ⟨.hbm, 157, rfl⟩
abbrev main_call1_v2 : Ref sig .tc := ⟨.hbm, 158, rfl⟩
abbrev main_call1_v3 : Ref sig .tc := ⟨.hbm, 159, rfl⟩
abbrev main_call1_v4 : Ref sig .tc := ⟨.hbm, 160, rfl⟩
abbrev main_call1_v5 : Ref sig .tc := ⟨.hbm, 161, rfl⟩
abbrev main_call1_v6 : Ref sig .tc := ⟨.hbm, 162, rfl⟩
abbrev main_call1_v7 : Ref sig .tc := ⟨.hbm, 163, rfl⟩
abbrev main_call1_cst_1 : Ref sig .tc := ⟨.hbm, 164, rfl⟩
abbrev main_call1_v8 : Ref sig .tc := ⟨.hbm, 165, rfl⟩
abbrev main_call1_cst_2 : Ref sig .tc := ⟨.hbm, 166, rfl⟩
abbrev main_call1_v9 : Ref sig .tc := ⟨.hbm, 167, rfl⟩
abbrev main_call1_v10 : Ref sig .tc := ⟨.hbm, 168, rfl⟩
abbrev main_call1_v11 : Ref sig .tc := ⟨.hbm, 169, rfl⟩
abbrev main_call1_cst_3 : Ref sig .tc := ⟨.hbm, 170, rfl⟩
abbrev main_call1_v12 : Ref sig .tc := ⟨.hbm, 171, rfl⟩
abbrev main_call1_cst_4 : Ref sig .tc := ⟨.hbm, 172, rfl⟩
abbrev main_call1_call0_v0 : Ref sig .tc := ⟨.hbm, 173, rfl⟩
abbrev main_call1_call0_v1 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_18 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_cst_19 : Ref sig .tc := ⟨.hbm, 196, rfl⟩
abbrev main_v120 : Ref sig .tc := ⟨.hbm, 197, rfl⟩
abbrev main_v121 : Ref sig .tc := ⟨.hbm, 198, rfl⟩
abbrev main_cst_20 : Ref sig .tc := ⟨.hbm, 199, rfl⟩
abbrev main_v122 : Ref sig .tc := ⟨.hbm, 200, rfl⟩
abbrev main_c_21 : Ref sig .tc := ⟨.hbm, 201, rfl⟩
abbrev main_v123 : Ref sig .tc := ⟨.hbm, 202, rfl⟩
abbrev main_v124 : Ref sig .tc := ⟨.hbm, 203, rfl⟩
abbrev main_c_22 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_c_23 : Ref sig .tc := ⟨.hbm, 210, rfl⟩
abbrev main_v130 : Ref sig .tc := ⟨.hbm, 211, rfl⟩
abbrev main_v131 : Ref sig .tc := ⟨.hbm, 212, rfl⟩
abbrev main_c_24 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_cst_25 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_cst_26 : Ref sig .tc := ⟨.hbm, 239, rfl⟩
abbrev main_v156 : Ref sig .tc := ⟨.hbm, 240, rfl⟩
abbrev main_cst_27 : Ref sig .tc := ⟨.hbm, 241, rfl⟩
abbrev main_v157 : Ref sig .tc := ⟨.hbm, 242, rfl⟩
abbrev main_v158 : Ref sig .tc := ⟨.hbm, 243, rfl⟩
abbrev main_c_28 : Ref sig .tc := ⟨.hbm, 244, rfl⟩
abbrev main_call2_cst : Ref sig .tc := ⟨.hbm, 245, rfl⟩
abbrev main_call2_v0 : Ref sig .tc := ⟨.hbm, 246, rfl⟩
abbrev main_call2_v1 : Ref sig .tc := ⟨.hbm, 247, rfl⟩
abbrev main_call2_cst_0 : Ref sig .tc := ⟨.hbm, 248, rfl⟩
abbrev main_call2_v2 : Ref sig .tc := ⟨.hbm, 249, rfl⟩
abbrev main_call2_v3 : Ref sig .tc := ⟨.hbm, 250, rfl⟩
abbrev main_call2_v4 : Ref sig .tc := ⟨.hbm, 251, rfl⟩
abbrev main_call2_v5 : Ref sig .tc := ⟨.hbm, 252, rfl⟩
abbrev main_call2_v6 : Ref sig .tc := ⟨.hbm, 253, rfl⟩
abbrev main_call2_v7 : Ref sig .tc := ⟨.hbm, 254, rfl⟩
abbrev main_call2_cst_1 : Ref sig .tc := ⟨.hbm, 255, rfl⟩
abbrev main_call2_v8 : Ref sig .tc := ⟨.hbm, 256, rfl⟩
abbrev main_call2_cst_2 : Ref sig .tc := ⟨.hbm, 257, rfl⟩
abbrev main_call2_v9 : Ref sig .tc := ⟨.hbm, 258, rfl⟩
abbrev main_call2_v10 : Ref sig .tc := ⟨.hbm, 259, rfl⟩
abbrev main_call2_v11 : Ref sig .tc := ⟨.hbm, 260, rfl⟩
abbrev main_call2_cst_3 : Ref sig .tc := ⟨.hbm, 261, rfl⟩
abbrev main_call2_v12 : Ref sig .tc := ⟨.hbm, 262, rfl⟩
abbrev main_call2_cst_4 : Ref sig .tc := ⟨.hbm, 263, rfl⟩
abbrev main_call2_call0_v0 : Ref sig .tc := ⟨.hbm, 264, rfl⟩
abbrev main_call2_call0_v1 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_cst_29 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_cst_30 : Ref sig .tc := ⟨.hbm, 287, rfl⟩
abbrev main_v179 : Ref sig .tc := ⟨.hbm, 288, rfl⟩
abbrev main_v180 : Ref sig .tc := ⟨.hbm, 289, rfl⟩
abbrev main_cst_31 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_cst_32 : Ref sig .tc := ⟨.hbm, 294, rfl⟩
abbrev main_v184 : Ref sig .tc := ⟨.hbm, 295, rfl⟩
abbrev main_cst_33 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_cst_34 : Ref sig .tc := ⟨.hbm, 300, rfl⟩
abbrev main_v188 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_v194 : Ref sig .tc := ⟨.hbm, 307, rfl⟩
abbrev main_v195 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S100000x128 : S_.BroadcastsInDim S100000x128 (![] : Fin 0 → Fin S100000x128.rank)
  bcast_S_S400000 : S_.BroadcastsInDim S400000 (![] : Fin 0 → Fin S400000.rank)
  bcast_S400000_S400000x1_0 : S400000.BroadcastsInDim S400000x1 (![0] : Fin 1 → Fin S400000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x128_S100000x128_1_0_0_1_n_n_wf : DotDims.WF S100000x128 S128x128 S100000x128 [1] [0] [0] [1] [] []
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x64_S2048x64_1_0_0_1_n_n_wf : DotDims.WF S2048x128 S128x64 S2048x64 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

class Facts : Prop extends Facts₀ where

variable [Facts]
-- ==== Proof.KRun.lean ====
/-
  The idealized kernel program's run with its two results kept: every weakly fair execution from a memory with zero
  counters terminates, nothing faulting, the argument arrays end as launched, and each result buffer ends at the
  contents the last segment boundary gives it — the fold of the host operations and of the seven regions' write-backs
  from the launch memory.
-/
import proofs.«161505_j35811437314143_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the fourteen segments, read at the two result buffers and at the arguments: the final state holds
    every unscoped TensorCore buffer at the last boundary's contents `W14`. -/
theorem run_results : θ_run defs (onTc (τ := τ) (main (F := F))) ⟨m, fun _ => 0, ρ⟩ (fun r => ∀ c : Dev nD,
      r.2.mem ((c.tc : Thread nD τ).loc main_v147_0) = W14 m ρ c (Proc.devRef .tc main_v147_0)
      ∧ r.2.mem ((c.tc : Thread nD τ).loc main_v147_1) = W14 m ρ c (Proc.devRef .tc main_v147_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v147_0 (by decide)),
       h c _ (mem_uc main_v147_1 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.KRun

end
-- ==== Proof.RefOps.lean ====
/-
  The reference program's @main as lists of host operations, one list per printed window of the program
  (statements 1-60, 61-120, 121-180, 181-238), in program order.  Each of the three calls of the outlined
  column-variance function is written out at its call site as that function's nineteen operations followed by the
  three of the select function it calls, over the call's own buffers: the column sum, the mean, the centred
  entries and their squares, the sum of squares, the divisor (the row count minus the correction, here zero),
  the quotient, and the select on the divisor being positive.  301 operations in all.
-/
import proofs.«161505_j35811437314143_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 1 … 60, the call among them written out: 81 operations. -/
abbrev opsP0 : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_cst (constant S_ .f32 0x00000000#32),
    StableHlo.unary main_cst main_v4 (broadcastInDim S100000x128 ![] bcast_S_S100000x128 : (⟨S_, .f32⟩ : BufTy).Contents (Elt F) → (⟨S100000x128, .f32⟩ : BufTy).Contents (Elt F)),
    StableHlo.nullary main_c (constantI S_ 32 0#32),
    StableHlo.unary main_c main_v5 (broadcastInDim S400000 ![] bcast_S_S400000 : (⟨S_, .i32⟩ : BufTy).Contents (Elt F) → (⟨S400000, .i32⟩ : BufTy).Contents (Elt F)),
    StableHlo.binary main_v1 main_v5 main_v6 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 100000#32),
    StableHlo.unary main_c_0 main_v7 (broadcastInDim S400000 ![] bcast_S_S400000 : (⟨S_, .i32⟩ : BufTy).Contents (Elt F) → (⟨S400000, .i32⟩ : BufTy).Contents (Elt F)),
    StableHlo.binary main_v1 main_v7 main_v8 (addi : (⟨S400000, .i32⟩ : BufTy).Contents (Elt F) → (⟨S400000, .i32⟩ : BufTy).Contents (Elt F) → (⟨S400000, .i32⟩ : BufTy).Contents (Elt F)),
    StableHlo.ternary main_v6 main_v8 main_v1 main_v9 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v9 main_v10 (broadcastInDim S400000x1 ![0] bcast_S400000_S400000x1_0 : (⟨S400000, .i32⟩ : BufTy).Contents (Elt F) → (⟨S400000x1, .i32⟩ : BufTy).Contents (Elt F)),
    StableHlo.binary main_arg0 main_v10 main_v11 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_c_1 (constantI S_ 32 0#32),
    StableHlo.unary main_c_1 main_v12 (broadcastInDim S400000 ![] bcast_S_S400000 : (⟨S_, .i32⟩ : BufTy).Contents (Elt F) → (⟨S400000, .i32⟩ : BufTy).Contents (Elt F)),
    StableHlo.binary main_v3 main_v12 main_v13 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 100000#32),
    StableHlo.unary main_c_2 main_v14 (broadcastInDim S400000 ![] bcast_S_S400000 : (⟨S_, .i32⟩ : BufTy).Contents (Elt F) → (⟨S400000, .i32⟩ : BufTy).Contents (Elt F)),
    StableHlo.binary main_v3 main_v14 main_v15 (addi : (⟨S400000, .i32⟩ : BufTy).Contents (Elt F) → (⟨S400000, .i32⟩ : BufTy).Contents (Elt F) → (⟨S400000, .i32⟩ : BufTy).Contents (Elt F)),
    StableHlo.ternary main_v13 main_v15 main_v3 main_v16 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v16 main_v17 (broadcastInDim S400000x1 ![0] bcast_S400000_S400000x1_0 : (⟨S400000, .i32⟩ : BufTy).Contents (Elt F) → (⟨S400000x1, .i32⟩ : BufTy).Contents (Elt F)),
    StableHlo.ternary main_v4 main_v17 main_v11 main_v18 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.binary main_arg0 main_v18 main_v19 (addf : (⟨S100000x128, .f32⟩ : BufTy).Contents (Elt F) → (⟨S100000x128, .f32⟩ : BufTy).Contents (Elt F) → (⟨S100000x128, .f32⟩ : BufTy).Contents (Elt F)),
    StableHlo.unary main_arg3 main_v20 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v20 main_v21 rfl shapeCasts_S1x128x128_S128x128,
    StableHlo.binary main_v19 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.unary main_v24 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v26 main_v27 (addf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x00000000#32),
    StableHlo.unary main_cst_3 main_v28 (broadcastInDim S100000x128 ![] bcast_S_S100000x128 : (⟨S_, .f32⟩ : BufTy).Contents (Elt F) → (⟨S100000x128, .f32⟩ : BufTy).Contents (Elt F)),
    StableHlo.binary main_v27 main_v28 main_v29 (maximumf : (⟨S100000x128, .f32⟩ : BufTy).Contents (Elt F) → (⟨S100000x128, .f32⟩ : BufTy).Contents (Elt F) → (⟨S100000x128, .f32⟩ : BufTy).Contents (Elt F)),
    StableHlo.unary main_arg5 main_v30 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v30 main_v31 rfl shapeCasts_S1x128x128_S128x128,
    StableHlo.binary main_v29 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v33 ((extractStridedSlice S1x128 ![0, 0] · slices_S3x128_S1x128_0_0) : (⟨S3x128, .f32⟩ : BufTy).Contents (Elt F) → (⟨S1x128, .f32⟩ : BufTy).Contents (Elt F)),
    StableHlo.reshape main_v33 main_v34 rfl shapeCasts_S1x128_S128,
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v36 main_v37 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x00000000#32),
    StableHlo.binary main_v37 main_cst_4 main_v38 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v39 (broadcastInDim S128 ![] bcast_S_S128 : (⟨S_, .f32⟩ : BufTy).Contents (Elt F) → (⟨S128, .f32⟩ : BufTy).Contents (Elt F)),
    StableHlo.binary main_v38 main_v39 main_v40 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call0.cst (constant S_ .f32 0x00000000#32),
    StableHlo.TRef.binary (.of main_v37) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v37) main_call0.v4 main_call0.v5 subf,
    StableHlo.TRef.binary main_call0.v5 main_call0.v5 main_call0.v6 mulf,
    StableHlo.TRef.unary (.of main_c_6) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v40 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v43 main_v44 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v45 (broadcastInDim S128 ![] bcast_S_S128 : (⟨S_, .f32⟩ : BufTy).Contents (Elt F) → (⟨S128, .f32⟩ : BufTy).Contents (Elt F)),
    StableHlo.binary main_v41 main_v45 main_v46 (addf : (⟨S128, .f32⟩ : BufTy).Contents (Elt F) → (⟨S128, .f32⟩ : BufTy).Contents (Elt F) → (⟨S128, .f32⟩ : BufTy).Contents (Elt F)),
    StableHlo.unary main_v46 main_v47 (Host.rsqrt : (⟨S128, .f32⟩ : BufTy).Contents (Elt F) → (⟨S128, .f32⟩ : BufTy).Contents (Elt F)),
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)) ]

/-- The operations of statements 61 … 120: 60 operations. -/
abbrev opsP1 : List (HloOp τ sig (Elt F)) :=
  [ StableHlo.binary main_v44 main_v49 main_v50 (mulf : (⟨S100000x128, .f32⟩ : BufTy).Contents (Elt F) → (⟨S100000x128, .f32⟩ : BufTy).Contents (Elt F) → (⟨S100000x128, .f32⟩ : BufTy).Contents (Elt F)),
    StableHlo.unary main_arg7 main_v51 ((extractStridedSlice S1x128 ![0, 0] · slices_S3x128_S1x128_0_0) : (⟨S3x128, .f32⟩ : BufTy).Contents (Elt F) → (⟨S1x128, .f32⟩ : BufTy).Contents (Elt F)),
    StableHlo.reshape main_v51 main_v52 rfl shapeCasts_S1x128_S128,
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v54 main_v55 (mulf : (⟨S100000x128, .f32⟩ : BufTy).Contents (Elt F) → (⟨S100000x128, .f32⟩ : BufTy).Contents (Elt F) → (⟨S100000x128, .f32⟩ : BufTy).Contents (Elt F)),
    StableHlo.unary main_arg8 main_v56 ((extractStridedSlice S1x128 ![0, 0] · slices_S3x128_S1x128_0_0) : (⟨S3x128, .f32⟩ : BufTy).Contents (Elt F) → (⟨S1x128, .f32⟩ : BufTy).Contents (Elt F)),
    StableHlo.reshape main_v56 main_v57 rfl shapeCasts_S1x128_S128,
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v59 main_v60 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.unary main_cst_8 main_v61 (broadcastInDim S100000x128 ![] bcast_S_S100000x128 : (⟨S_, .f32⟩ : BufTy).Contents (Elt F) → (⟨S100000x128, .f32⟩ : BufTy).Contents (Elt F)),
    StableHlo.binary main_v60 main_v61 main_v62 (maximumf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32),
    StableHlo.unary main_cst_9 main_v63 (broadcastInDim S100000x128 ![] bcast_S_S100000x128 : (⟨S_, .f32⟩ : BufTy).Contents (Elt F) → (⟨S100000x128, .f32⟩ : BufTy).Contents (Elt F)),
    StableHlo.nullary main_c_10 (constantI S_ 32 0#32),
    StableHlo.unary main_c_10 main_v64 (broadcastInDim S400000 ![] bcast_S_S400000 : (⟨S_, .i32⟩ : BufTy).Contents (Elt F) → (⟨S400000, .i32⟩ : BufTy).Contents (Elt F)),
    StableHlo.binary main_v1 main_v64 main_v65 (cmpi .slt : (⟨S400000, .i32⟩ : BufTy).Contents (Elt F) → (⟨S400000, .i32⟩ : BufTy).Contents (Elt F) → (⟨S400000, .i1⟩ : BufTy).Contents (Elt F)),
    StableHlo.nullary main_c_11 (constantI S_ 32 100000#32),
    StableHlo.unary main_c_11 main_v66 (broadcastInDim S400000 ![] bcast_S_S400000 : (⟨S_, .i32⟩ : BufTy).Contents (Elt F) → (⟨S400000, .i32⟩ : BufTy).Contents (Elt F)),
    StableHlo.binary main_v1 main_v66 main_v67 (addi : (⟨S400000, .i32⟩ : BufTy).Contents (Elt F) → (⟨S400000, .i32⟩ : BufTy).Contents (Elt F) → (⟨S400000, .i32⟩ : BufTy).Contents (Elt F)),
    StableHlo.ternary main_v65 main_v67 main_v1 main_v68 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v68 main_v69 (broadcastInDim S400000x1 ![0] bcast_S400000_S400000x1_0 : (⟨S400000, .i32⟩ : BufTy).Contents (Elt F) → (⟨S400000x1, .i32⟩ : BufTy).Contents (Elt F)),
    StableHlo.binary main_v62 main_v69 main_v70 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_c_12 (constantI S_ 32 0#32),
    StableHlo.unary main_c_12 main_v71 (broadcastInDim S400000 ![] bcast_S_S400000 : (⟨S_, .i32⟩ : BufTy).Contents (Elt F) → (⟨S400000, .i32⟩ : BufTy).Contents (Elt F)),
    StableHlo.binary main_v3 main_v71 main_v72 (cmpi .slt : (⟨S400000, .i32⟩ : BufTy).Contents (Elt F) → (⟨S400000, .i32⟩ : BufTy).Contents (Elt F) → (⟨S400000, .i1⟩ : BufTy).Contents (Elt F)),
    StableHlo.nullary main_c_13 (constantI S_ 32 100000#32),
    StableHlo.unary main_c_13 main_v73 (broadcastInDim S400000 ![] bcast_S_S400000 : (⟨S_, .i32⟩ : BufTy).Contents (Elt F) → (⟨S400000, .i32⟩ : BufTy).Contents (Elt F)),
    StableHlo.binary main_v3 main_v73 main_v74 (addi : (⟨S400000, .i32⟩ : BufTy).Contents (Elt F) → (⟨S400000, .i32⟩ : BufTy).Contents (Elt F) → (⟨S400000, .i32⟩ : BufTy).Contents (Elt F)),
    StableHlo.ternary main_v72 main_v74 main_v3 main_v75 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v75 main_v76 (broadcastInDim S400000x1 ![0] bcast_S400000_S400000x1_0 : (⟨S400000, .i32⟩ : BufTy).Contents (Elt F) → (⟨S400000x1, .i32⟩ : BufTy).Contents (Elt F)),
    StableHlo.ternary main_v63 main_v76 main_v70 main_v77 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.binary main_v62 main_v77 main_v78 (addf : (⟨S100000x128, .f32⟩ : BufTy).Contents (Elt F) → (⟨S100000x128, .f32⟩ : BufTy).Contents (Elt F) → (⟨S100000x128, .f32⟩ : BufTy).Contents (Elt F)),
    StableHlo.unary main_arg3 main_v79 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v79 main_v80 rfl shapeCasts_S1x128x128_S128x128,
    StableHlo.binary main_v78 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v82 ((extractStridedSlice S1x128 ![1, 0] · slices_S3x128_S1x128_1_0) : (⟨S3x128, .f32⟩ : BufTy).Contents (Elt F) → (⟨S1x128, .f32⟩ : BufTy).Contents (Elt F)),
    StableHlo.reshape main_v82 main_v83 rfl shapeCasts_S1x128_S128,
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v81 main_v85 main_v86 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x00000000#32),
    StableHlo.unary main_cst_14 main_v87 (broadcastInDim S100000x128 ![] bcast_S_S100000x128 : (⟨S_, .f32⟩ : BufTy).Contents (Elt F) → (⟨S100000x128, .f32⟩ : BufTy).Contents (Elt F)),
    StableHlo.binary main_v86 main_v87 main_v88 (maximumf : (⟨S100000x128, .f32⟩ : BufTy).Contents (Elt F) → (⟨S100000x128, .f32⟩ : BufTy).Contents (Elt F) → (⟨S100000x128, .f32⟩ : BufTy).Contents (Elt F)),
    StableHlo.unary main_arg5 main_v89 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v89 main_v90 rfl shapeCasts_S1x128x128_S128x128,
    StableHlo.binary main_v88 main_v90 main_v91 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v92 ((extractStridedSlice S1x128 ![1, 0] · slices_S3x128_S1x128_1_0) : (⟨S3x128, .f32⟩ : BufTy).Contents (Elt F) → (⟨S1x128, .f32⟩ : BufTy).Contents (Elt F)),
    StableHlo.reshape main_v92 main_v93 rfl shapeCasts_S1x128_S128,
    StableHlo.unary main_v93 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v95 main_v96 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.binary main_v96 main_cst_15 main_v97 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v98 (broadcastInDim S128 ![] bcast_S_S128 : (⟨S_, .f32⟩ : BufTy).Contents (Elt F) → (⟨S128, .f32⟩ : BufTy).Contents (Elt F)),
    StableHlo.binary main_v97 main_v98 main_v99 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32) ]

/-- The operations of statements 121 … 180, the call among them written out: 81 operations. -/
abbrev opsP2 : List (HloOp τ sig (Elt F)) :=
  [ StableHlo.TRef.nullary main_call1.cst (constant S_ .f32 0x00000000#32),
    StableHlo.TRef.binary (.of main_v96) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v96) main_call1.v4 main_call1.v5 subf,
    StableHlo.TRef.binary main_call1.v5 main_call1.v5 main_call1.v6 mulf,
    StableHlo.TRef.unary (.of main_c_17) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v99 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v102 main_v103 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v104 (broadcastInDim S128 ![] bcast_S_S128 : (⟨S_, .f32⟩ : BufTy).Contents (Elt F) → (⟨S128, .f32⟩ : BufTy).Contents (Elt F)),
    StableHlo.binary main_v100 main_v104 main_v105 (addf : (⟨S128, .f32⟩ : BufTy).Contents (Elt F) → (⟨S128, .f32⟩ : BufTy).Contents (Elt F) → (⟨S128, .f32⟩ : BufTy).Contents (Elt F)),
    StableHlo.unary main_v105 main_v106 (Host.rsqrt : (⟨S128, .f32⟩ : BufTy).Contents (Elt F) → (⟨S128, .f32⟩ : BufTy).Contents (Elt F)),
    StableHlo.unary main_v106 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v103 main_v108 main_v109 (mulf : (⟨S100000x128, .f32⟩ : BufTy).Contents (Elt F) → (⟨S100000x128, .f32⟩ : BufTy).Contents (Elt F) → (⟨S100000x128, .f32⟩ : BufTy).Contents (Elt F)),
    StableHlo.unary main_arg7 main_v110 ((extractStridedSlice S1x128 ![1, 0] · slices_S3x128_S1x128_1_0) : (⟨S3x128, .f32⟩ : BufTy).Contents (Elt F) → (⟨S1x128, .f32⟩ : BufTy).Contents (Elt F)),
    StableHlo.reshape main_v110 main_v111 rfl shapeCasts_S1x128_S128,
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v109 main_v113 main_v114 (mulf : (⟨S100000x128, .f32⟩ : BufTy).Contents (Elt F) → (⟨S100000x128, .f32⟩ : BufTy).Contents (Elt F) → (⟨S100000x128, .f32⟩ : BufTy).Contents (Elt F)),
    StableHlo.unary main_arg8 main_v115 ((extractStridedSlice S1x128 ![1, 0] · slices_S3x128_S1x128_1_0) : (⟨S3x128, .f32⟩ : BufTy).Contents (Elt F) → (⟨S1x128, .f32⟩ : BufTy).Contents (Elt F)),
    StableHlo.reshape main_v115 main_v116 rfl shapeCasts_S1x128_S128,
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v118 main_v119 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.unary main_cst_19 main_v120 (broadcastInDim S100000x128 ![] bcast_S_S100000x128 : (⟨S_, .f32⟩ : BufTy).Contents (Elt F) → (⟨S100000x128, .f32⟩ : BufTy).Contents (Elt F)),
    StableHlo.binary main_v119 main_v120 main_v121 (maximumf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x00000000#32),
    StableHlo.unary main_cst_20 main_v122 (broadcastInDim S100000x128 ![] bcast_S_S100000x128 : (⟨S_, .f32⟩ : BufTy).Contents (Elt F) → (⟨S100000x128, .f32⟩ : BufTy).Contents (Elt F)),
    StableHlo.nullary main_c_21 (constantI S_ 32 0#32),
    StableHlo.unary main_c_21 main_v123 (broadcastInDim S400000 ![] bcast_S_S400000 : (⟨S_, .i32⟩ : BufTy).Contents (Elt F) → (⟨S400000, .i32⟩ : BufTy).Contents (Elt F)),
    StableHlo.binary main_v1 main_v123 main_v124 (cmpi .slt : (⟨S400000, .i32⟩ : BufTy).Contents (Elt F) → (⟨S400000, .i32⟩ : BufTy).Contents (Elt F) → (⟨S400000, .i1⟩ : BufTy).Contents (Elt F)),
    StableHlo.nullary main_c_22 (constantI S_ 32 100000#32),
    StableHlo.unary main_c_22 main_v125 (broadcastInDim S400000 ![] bcast_S_S400000 : (⟨S_, .i32⟩ : BufTy).Contents (Elt F) → (⟨S400000, .i32⟩ : BufTy).Contents (Elt F)),
    StableHlo.binary main_v1 main_v125 main_v126 (addi : (⟨S400000, .i32⟩ : BufTy).Contents (Elt F) → (⟨S400000, .i32⟩ : BufTy).Contents (Elt F) → (⟨S400000, .i32⟩ : BufTy).Contents (Elt F)),
    StableHlo.ternary main_v124 main_v126 main_v1 main_v127 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v127 main_v128 (broadcastInDim S400000x1 ![0] bcast_S400000_S400000x1_0 : (⟨S400000, .i32⟩ : BufTy).Contents (Elt F) → (⟨S400000x1, .i32⟩ : BufTy).Contents (Elt F)),
    StableHlo.binary main_v121 main_v128 main_v129 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_c_23 (constantI S_ 32 0#32),
    StableHlo.unary main_c_23 main_v130 (broadcastInDim S400000 ![] bcast_S_S400000 : (⟨S_, .i32⟩ : BufTy).Contents (Elt F) → (⟨S400000, .i32⟩ : BufTy).Contents (Elt F)),
    StableHlo.binary main_v3 main_v130 main_v131 (cmpi .slt : (⟨S400000, .i32⟩ : BufTy).Contents (Elt F) → (⟨S400000, .i32⟩ : BufTy).Contents (Elt F) → (⟨S400000, .i1⟩ : BufTy).Contents (Elt F)),
    StableHlo.nullary main_c_24 (constantI S_ 32 100000#32),
    StableHlo.unary main_c_24 main_v132 (broadcastInDim S400000 ![] bcast_S_S400000 : (⟨S_, .i32⟩ : BufTy).Contents (Elt F) → (⟨S400000, .i32⟩ : BufTy).Contents (Elt F)),
    StableHlo.binary main_v3 main_v132 main_v133 (addi : (⟨S400000, .i32⟩ : BufTy).Contents (Elt F) → (⟨S400000, .i32⟩ : BufTy).Contents (Elt F) → (⟨S400000, .i32⟩ : BufTy).Contents (Elt F)),
    StableHlo.ternary main_v131 main_v133 main_v3 main_v134 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v134 main_v135 (broadcastInDim S400000x1 ![0] bcast_S400000_S400000x1_0 : (⟨S400000, .i32⟩ : BufTy).Contents (Elt F) → (⟨S400000x1, .i32⟩ : BufTy).Contents (Elt F)),
    StableHlo.ternary main_v122 main_v135 main_v129 main_v136 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.binary main_v121 main_v136 main_v137 (addf : (⟨S100000x128, .f32⟩ : BufTy).Contents (Elt F) → (⟨S100000x128, .f32⟩ : BufTy).Contents (Elt F) → (⟨S100000x128, .f32⟩ : BufTy).Contents (Elt F)),
    StableHlo.unary main_arg3 main_v138 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v138 main_v139 rfl shapeCasts_S1x128x128_S128x128,
    StableHlo.binary main_v137 main_v139 main_v140 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v141 ((extractStridedSlice S1x128 ![2, 0] · slices_S3x128_S1x128_2_0) : (⟨S3x128, .f32⟩ : BufTy).Contents (Elt F) → (⟨S1x128, .f32⟩ : BufTy).Contents (Elt F)),
    StableHlo.reshape main_v141 main_v142 rfl shapeCasts_S1x128_S128,
    StableHlo.unary main_v142 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v140 main_v144 main_v145 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x00000000#32),
    StableHlo.unary main_cst_25 main_v146 (broadcastInDim S100000x128 ![] bcast_S_S100000x128 : (⟨S_, .f32⟩ : BufTy).Contents (Elt F) → (⟨S100000x128, .f32⟩ : BufTy).Contents (Elt F)),
    StableHlo.binary main_v145 main_v146 main_v147 (maximumf : (⟨S100000x128, .f32⟩ : BufTy).Contents (Elt F) → (⟨S100000x128, .f32⟩ : BufTy).Contents (Elt F) → (⟨S100000x128, .f32⟩ : BufTy).Contents (Elt F)),
    StableHlo.unary main_arg5 main_v148 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v148 main_v149 rfl shapeCasts_S1x128x128_S128x128,
    StableHlo.binary main_v147 main_v149 main_v150 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v151 ((extractStridedSlice S1x128 ![2, 0] · slices_S3x128_S1x128_2_0) : (⟨S3x128, .f32⟩ : BufTy).Contents (Elt F) → (⟨S1x128, .f32⟩ : BufTy).Contents (Elt F)) ]

/-- The operations of statements 181 … 238, the call among them written out: 79 operations. -/
abbrev opsP3 : List (HloOp τ sig (Elt F)) :=
  [ StableHlo.reshape main_v151 main_v152 rfl shapeCasts_S1x128_S128,
    StableHlo.unary main_v152 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S100000x128 ![0, 1] bcast_S1x128_S100000x128_0_1 : (⟨S1x128, .f32⟩ : BufTy).Contents (Elt F) → (⟨S100000x128, .f32⟩ : BufTy).Contents (Elt F)),
    StableHlo.binary main_v150 main_v154 main_v155 (addf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x00000000#32),
    StableHlo.binary main_v155 main_cst_26 main_v156 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v157 (broadcastInDim S128 ![] bcast_S_S128 : (⟨S_, .f32⟩ : BufTy).Contents (Elt F) → (⟨S128, .f32⟩ : BufTy).Contents (Elt F)),
    StableHlo.binary main_v156 main_v157 main_v158 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call2.cst (constant S_ .f32 0x00000000#32),
    StableHlo.TRef.binary (.of main_v155) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v155) main_call2.v4 main_call2.v5 subf,
    StableHlo.TRef.binary main_call2.v5 main_call2.v5 main_call2.v6 mulf,
    StableHlo.TRef.unary (.of main_c_28) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v158 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),
    StableHlo.binary main_v155 main_v161 main_v162 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v163 (broadcastInDim S128 ![] bcast_S_S128 : (⟨S_, .f32⟩ : BufTy).Contents (Elt F) → (⟨S128, .f32⟩ : BufTy).Contents (Elt F)),
    StableHlo.binary main_v159 main_v163 main_v164 (addf : (⟨S128, .f32⟩ : BufTy).Contents (Elt F) → (⟨S128, .f32⟩ : BufTy).Contents (Elt F) → (⟨S128, .f32⟩ : BufTy).Contents (Elt F)),
    StableHlo.unary main_v164 main_v165 (Host.rsqrt : (⟨S128, .f32⟩ : BufTy).Contents (Elt F) → (⟨S128, .f32⟩ : BufTy).Contents (Elt F)),
    StableHlo.unary main_v165 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v167 main_v168 (mulf : (⟨S100000x128, .f32⟩ : BufTy).Contents (Elt F) → (⟨S100000x128, .f32⟩ : BufTy).Contents (Elt F) → (⟨S100000x128, .f32⟩ : BufTy).Contents (Elt F)),
    StableHlo.unary main_arg7 main_v169 ((extractStridedSlice S1x128 ![2, 0] · slices_S3x128_S1x128_2_0) : (⟨S3x128, .f32⟩ : BufTy).Contents (Elt F) → (⟨S1x128, .f32⟩ : BufTy).Contents (Elt F)),
    StableHlo.reshape main_v169 main_v170 rfl shapeCasts_S1x128_S128,
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v172 main_v173 (mulf : (⟨S100000x128, .f32⟩ : BufTy).Contents (Elt F) → (⟨S100000x128, .f32⟩ : BufTy).Contents (Elt F) → (⟨S100000x128, .f32⟩ : BufTy).Contents (Elt F)),
    StableHlo.unary main_arg8 main_v174 ((extractStridedSlice S1x128 ![2, 0] · slices_S3x128_S1x128_2_0) : (⟨S3x128, .f32⟩ : BufTy).Contents (Elt F) → (⟨S1x128, .f32⟩ : BufTy).Contents (Elt F)),
    StableHlo.reshape main_v174 main_v175 rfl shapeCasts_S1x128_S128,
    StableHlo.unary main_v175 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S100000x128 ![0, 1] bcast_S1x128_S100000x128_0_1 : (⟨S1x128, .f32⟩ : BufTy).Contents (Elt F) → (⟨S100000x128, .f32⟩ : BufTy).Contents (Elt F)),
    StableHlo.binary main_v173 main_v177 main_v178 (addf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x00000000#32),
    StableHlo.unary main_cst_30 main_v179 (broadcastInDim S100000x128 ![] bcast_S_S100000x128 : (⟨S_, .f32⟩ : BufTy).Contents (Elt F) → (⟨S100000x128, .f32⟩ : BufTy).Contents (Elt F)),
    StableHlo.binary main_v178 main_v179 main_v180 (maximumf : (⟨S100000x128, .f32⟩ : BufTy).Contents (Elt F) → (⟨S100000x128, .f32⟩ : BufTy).Contents (Elt F) → (⟨S100000x128, .f32⟩ : BufTy).Contents (Elt F)),
    StableHlo.nullary main_cst_31 (constant S_ .f32 0x00000000#32),
    StableHlo.unary main_cst_31 main_v181 (broadcastInDim S2048x128 ![] bcast_S_S2048x128 : (⟨S_, .f32⟩ : BufTy).Contents (Elt F) → (⟨S2048x128, .f32⟩ : BufTy).Contents (Elt F)),
    StableHlo.unary main_arg2 main_v182 (broadcastInDim S100000x1 ![0] bcast_S100000_S100000x1_0 : (⟨S100000, .i32⟩ : BufTy).Contents (Elt F) → (⟨S100000x1, .i32⟩ : BufTy).Contents (Elt F)),
    StableHlo.ternary main_v181 main_v182 main_v180 main_v183 ((fun x i u => Host.scatterAdd scatter_S2048x128_S100000x1_S100000x128_1_0_0_1 x i u) : (⟨S2048x128, .f32⟩ : BufTy).Contents (Elt F) → (⟨S100000x1, .i32⟩ : BufTy).Contents (Elt F) → (⟨S100000x128, .f32⟩ : BufTy).Contents (Elt F) → (⟨S2048x128, .f32⟩ : BufTy).Contents (Elt F)),
    StableHlo.nullary main_cst_32 (constant S_ .f32 0x3F800000#32),
    StableHlo.unary main_cst_32 main_v184 (broadcastInDim S100000 ![] bcast_S_S100000 : (⟨S_, .f32⟩ : BufTy).Contents (Elt F) → (⟨S100000, .f32⟩ : BufTy).Contents (Elt F)),
    StableHlo.nullary main_cst_33 (constant S_ .f32 0x00000000#32),
    StableHlo.unary main_cst_33 main_v185 (broadcastInDim S2048 ![] bcast_S_S2048 : (⟨S_, .f32⟩ : BufTy).Contents (Elt F) → (⟨S2048, .f32⟩ : BufTy).Contents (Elt F)),
    StableHlo.unary main_arg2 main_v186 (broadcastInDim S100000x1 ![0] bcast_S100000_S100000x1_0 : (⟨S100000, .i32⟩ : BufTy).Contents (Elt F) → (⟨S100000x1, .i32⟩ : BufTy).Contents (Elt F)),
    StableHlo.ternary main_v185 main_v186 main_v184 main_v187 ((fun x i u => Host.scatterAdd scatter_S2048_S100000x1_S100000_n_0_0_1 x i u) : (⟨S2048, .f32⟩ : BufTy).Contents (Elt F) → (⟨S100000x1, .i32⟩ : BufTy).Contents (Elt F) → (⟨S100000, .f32⟩ : BufTy).Contents (Elt F) → (⟨S2048, .f32⟩ : BufTy).Contents (Elt F)),
    StableHlo.nullary main_cst_34 (constant S_ .f32 0x3F800000#32),
    StableHlo.unary main_cst_34 main_v188 (broadcastInDim S2048 ![] bcast_S_S2048 : (⟨S_, .f32⟩ : BufTy).Contents (Elt F) → (⟨S2048, .f32⟩ : BufTy).Contents (Elt F)),
    StableHlo.binary main_v187 main_v188 main_v189 (maximumf : (⟨S2048, .f32⟩ : BufTy).Contents (Elt F) → (⟨S2048, .f32⟩ : BufTy).Contents (Elt F) → (⟨S2048, .f32⟩ : BufTy).Contents (Elt F)),
    StableHlo.unary main_v189 main_v190 (broadcastInDim S2048x1 ![0] bcast_S2048_S2048x1_0 : (⟨S2048, .f32⟩ : BufTy).Contents (Elt F) → (⟨S2048x1, .f32⟩ : BufTy).Contents (Elt F)),
    StableHlo.unary main_v190 main_v191 (broadcastInDim S2048x128 ![0, 1] bcast_S2048x1_S2048x128_0_1 : (⟨S2048x1, .f32⟩ : BufTy).Contents (Elt F) → (⟨S2048x128, .f32⟩ : BufTy).Contents (Elt F)),
    StableHlo.binary main_v183 main_v191 main_v192 (Host.divf : (⟨S2048x128, .f32⟩ : BufTy).Contents (Elt F) → (⟨S2048x128, .f32⟩ : BufTy).Contents (Elt F) → (⟨S2048x128, .f32⟩ : BufTy).Contents (Elt F)),
    StableHlo.binary main_v192 main_arg9 main_v193 ((fun l r => Host.dotGeneral dot_S2048x128_S128x64_S2048x64_1_0_0_1_n_n none l r) : (⟨S2048x128, .f32⟩ : BufTy).Contents (Elt F) → (⟨S128x64, .f32⟩ : BufTy).Contents (Elt F) → (⟨S2048x64, .f32⟩ : BufTy).Contents (Elt F)),
    StableHlo.unary main_arg10 main_v194 (broadcastInDim S1x64 ![1] bcast_S64_S1x64_1 : (⟨S64, .f32⟩ : BufTy).Contents (Elt F) → (⟨S1x64, .f32⟩ : BufTy).Contents (Elt F)),
    StableHlo.unary main_v194 main_v195 (broadcastInDim S2048x64 ![0, 1] bcast_S1x64_S2048x64_0_1 : (⟨S1x64, .f32⟩ : BufTy).Contents (Elt F) → (⟨S2048x64, .f32⟩ : BufTy).Contents (Elt F)),
    StableHlo.binary main_v193 main_v195 main_v196 (addf : (⟨S2048x64, .f32⟩ : BufTy).Contents (Elt F) → (⟨S2048x64, .f32⟩ : BufTy).Contents (Elt F) → (⟨S2048x64, .f32⟩ : BufTy).Contents (Elt F)),
    StableHlo.binary main_v192 main_arg11 main_v197 ((fun l r => Host.dotGeneral dot_S2048x128_S128x64_S2048x64_1_0_0_1_n_n none l r) : (⟨S2048x128, .f32⟩ : BufTy).Contents (Elt F) → (⟨S128x64, .f32⟩ : BufTy).Contents (Elt F) → (⟨S2048x64, .f32⟩ : BufTy).Contents (Elt F)),
    StableHlo.unary main_arg12 main_v198 (broadcastInDim S1x64 ![1] bcast_S64_S1x64_1 : (⟨S64, .f32⟩ : BufTy).Contents (Elt F) → (⟨S1x64, .f32⟩ : BufTy).Contents (Elt F)),
    StableHlo.unary main_v198 main_v199 (broadcastInDim S2048x64 ![0, 1] bcast_S1x64_S2048x64_0_1 : (⟨S1x64, .f32⟩ : BufTy).Contents (Elt F) → (⟨S2048x64, .f32⟩ : BufTy).Contents (Elt F)),
    StableHlo.binary main_v197 main_v199 main_v200 (addf : (⟨S2048x64, .f32⟩ : BufTy).Contents (Elt F) → (⟨S2048x64, .f32⟩ : BufTy).Contents (Elt F) → (⟨S2048x64, .f32⟩ : BufTy).Contents (Elt F)) ]

/-- The whole program's operations, window after window. -/
abbrev ops : List (HloOp τ sig (Elt F)) := opsP0 ++ (opsP1 ++ (opsP2 ++ opsP3))

end Cert.ReferenceIdeal.RefRun

end
-- ==== Proof.RefRun.lean ====
/-
  The reference program's run.  @main is the straight line of its 301 host operations: each printed window is the
  sequence of its own list (the outlined column-variance function and the select function it calls unfold at their
  call sites to the operations written there), and the four windows run in order are the sequence of the
  concatenated list.  Every operation touches TensorCore buffers only and determines its result, so from any
  memory with zero counters every weakly fair execution terminates with each buffer at the fold of the
  operations' results over the launch contents.
-/
import proofs.«161505_j35811437314143_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lists one after the other is the second list's fold from the first's result. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## Each window is the sequence of its list -/

set_option maxRecDepth 4096 in
theorem main_part0_eq (c : Dev nD) : main_part0 (F := F) c = seq opsP0 := by
  simp only [main_part0, fn_var.body, fn_where.body, seq, bind_assoc, pure_bind]
  rfl

set_option maxRecDepth 4096 in
theorem main_part1_eq (c : Dev nD) : main_part1 (F := F) c = seq opsP1 := rfl

set_option maxRecDepth 4096 in
theorem main_part2_eq (c : Dev nD) : main_part2 (F := F) c = seq opsP2 := by
  simp only [main_part2, fn_var.body, fn_where.body, seq, bind_assoc, pure_bind]
  rfl

set_option maxRecDepth 4096 in
theorem main_part3_eq (c : Dev nD) : main_part3 (F := F) c = seq opsP3 := by
  simp only [main_part3, fn_var.body, fn_where.body, seq, bind_assoc, pure_bind]

/-- @main is the sequence of all its operations: the four windows in order, each the sequence of its list, and a
    sequence of two lists one after the other is the sequence of their concatenation. -/
theorem main_eq (c : Dev nD) : main (F := F) c = seq ops := by
  simp only [main, main_part0_eq, main_part1_eq, main_part2_eq, main_part3_eq, seq_append]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem opsP0_sub : (opsP0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., ternary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub ..⟩

theorem opsP0_fresh : (opsP0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

theorem opsP1_sub : (opsP1 : List (HloOp τ sig (Elt F))).Forall fun op => op.bufs ⊆ tcRefs τ sig :=
  ⟨binary_bufs_sub .., unary_bufs_sub .., reshape_bufs_sub .., unary_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., nullary_bufs_sub ..⟩

theorem opsP1_fresh : (opsP1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsP2_sub : (opsP2 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., reshape_bufs_sub .., unary_bufs_sub .., unary_bufs_sub ..,
    binary_bufs_sub .., unary_bufs_sub .., reshape_bufs_sub .., unary_bufs_sub .., unary_bufs_sub .., binary_bufs_sub ..,
    nullary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., ternary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub ..⟩

theorem opsP2_fresh : (opsP2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

theorem opsP3_sub : (opsP3 : List (HloOp τ sig (Elt F))).Forall fun op => op.bufs ⊆ tcRefs τ sig :=
  ⟨reshape_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., unary_bufs_sub ..,
    reshape_bufs_sub .., unary_bufs_sub .., unary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    unary_bufs_sub .., unary_bufs_sub .., binary_bufs_sub .., binary_bufs_sub .., unary_bufs_sub .., unary_bufs_sub ..,
    binary_bufs_sub ..⟩

theorem opsP3_fresh : (opsP3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_append.mpr ⟨opsP0_sub, List.forall_append.mpr ⟨opsP1_sub, List.forall_append.mpr ⟨opsP2_sub, opsP3_sub⟩⟩⟩

theorem ops_fresh : ∀ op ∈ (ops : List (HloOp τ sig (Elt F))), op.fresh = ∅ :=
  List.forall_iff_forall_mem.mp
    (List.forall_append.mpr ⟨opsP0_fresh, List.forall_append.mpr ⟨opsP1_fresh, List.forall_append.mpr ⟨opsP2_fresh, opsP3_fresh⟩⟩⟩)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefChain1.lean ====
/-
  The reference program's 301 operations regrouped by stage: the first graph-convolution layer (through its
  normalised, clamped output), the second, the third, and the tail (the segment mean and the two affine maps).
  The concatenation of the four groups is the program's list, and the buffers' contents after the whole list are
  the groups' folds composed in order.  Each group writes only its own buffers: a buffer outside a group's list of
  written buffers holds after the group what it held before.
-/
import proofs.«161505_j35811437314143_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first layer: the edge rows, the neighbour sum, the perceptron, the column mean and variance, the normalisation: 95 operations. -/
abbrev opsL1 : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_cst (constant S_ .f32 0x00000000#32),
    StableHlo.unary main_cst main_v4 (broadcastInDim S100000x128 ![] bcast_S_S100000x128 : (⟨S_, .f32⟩ : BufTy).Contents (Elt F) → (⟨S100000x128, .f32⟩ : BufTy).Contents (Elt F)),
    StableHlo.nullary main_c (constantI S_ 32 0#32),
    StableHlo.unary main_c main_v5 (broadcastInDim S400000 ![] bcast_S_S400000 : (⟨S_, .i32⟩ : BufTy).Contents (Elt F) → (⟨S400000, .i32⟩ : BufTy).Contents (Elt F)),
    StableHlo.binary main_v1 main_v5 main_v6 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 100000#32),
    StableHlo.unary main_c_0 main_v7 (broadcastInDim S400000 ![] bcast_S_S400000 : (⟨S_, .i32⟩ : BufTy).Contents (Elt F) → (⟨S400000, .i32⟩ : BufTy).Contents (Elt F)),
    StableHlo.binary main_v1 main_v7 main_v8 (addi : (⟨S400000, .i32⟩ : BufTy).Contents (Elt F) → (⟨S400000, .i32⟩ : BufTy).Contents (Elt F) → (⟨S400000, .i32⟩ : BufTy).Contents (Elt F)),
    StableHlo.ternary main_v6 main_v8 main_v1 main_v9 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v9 main_v10 (broadcastInDim S400000x1 ![0] bcast_S400000_S400000x1_0 : (⟨S400000, .i32⟩ : BufTy).Contents (Elt F) → (⟨S400000x1, .i32⟩ : BufTy).Contents (Elt F)),
    StableHlo.binary main_arg0 main_v10 main_v11 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_c_1 (constantI S_ 32 0#32),
    StableHlo.unary main_c_1 main_v12 (broadcastInDim S400000 ![] bcast_S_S400000 : (⟨S_, .i32⟩ : BufTy).Contents (Elt F) → (⟨S400000, .i32⟩ : BufTy).Contents (Elt F)),
    StableHlo.binary main_v3 main_v12 main_v13 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 100000#32),
    StableHlo.unary main_c_2 main_v14 (broadcastInDim S400000 ![] bcast_S_S400000 : (⟨S_, .i32⟩ : BufTy).Contents (Elt F) → (⟨S400000, .i32⟩ : BufTy).Contents (Elt F)),
    StableHlo.binary main_v3 main_v14 main_v15 (addi : (⟨S400000, .i32⟩ : BufTy).Contents (Elt F) → (⟨S400000, .i32⟩ : BufTy).Contents (Elt F) → (⟨S400000, .i32⟩ : BufTy).Contents (Elt F)),
    StableHlo.ternary main_v13 main_v15 main_v3 main_v16 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v16 main_v17 (broadcastInDim S400000x1 ![0] bcast_S400000_S400000x1_0 : (⟨S400000, .i32⟩ : BufTy).Contents (Elt F) → (⟨S400000x1, .i32⟩ : BufTy).Contents (Elt F)),
    StableHlo.ternary main_v4 main_v17 main_v11 main_v18 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.binary main_arg0 main_v18 main_v19 (addf : (⟨S100000x128, .f32⟩ : BufTy).Contents (Elt F) → (⟨S100000x128, .f32⟩ : BufTy).Contents (Elt F) → (⟨S100000x128, .f32⟩ : BufTy).Contents (Elt F)),
    StableHlo.unary main_arg3 main_v20 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v20 main_v21 rfl shapeCasts_S1x128x128_S128x128,
    StableHlo.binary main_v19 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.unary main_v24 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v26 main_v27 (addf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x00000000#32),
    StableHlo.unary main_cst_3 main_v28 (broadcastInDim S100000x128 ![] bcast_S_S100000x128 : (⟨S_, .f32⟩ : BufTy).Contents (Elt F) → (⟨S100000x128, .f32⟩ : BufTy).Contents (Elt F)),
    StableHlo.binary main_v27 main_v28 main_v29 (maximumf : (⟨S100000x128, .f32⟩ : BufTy).Contents (Elt F) → (⟨S100000x128, .f32⟩ : BufTy).Contents (Elt F) → (⟨S100000x128, .f32⟩ : BufTy).Contents (Elt F)),
    StableHlo.unary main_arg5 main_v30 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v30 main_v31 rfl shapeCasts_S1x128x128_S128x128,
    StableHlo.binary main_v29 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v33 ((extractStridedSlice S1x128 ![0, 0] · slices_S3x128_S1x128_0_0) : (⟨S3x128, .f32⟩ : BufTy).Contents (Elt F) → (⟨S1x128, .f32⟩ : BufTy).Contents (Elt F)),
    StableHlo.reshape main_v33 main_v34 rfl shapeCasts_S1x128_S128,
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v36 main_v37 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x00000000#32),
    StableHlo.binary main_v37 main_cst_4 main_v38 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v39 (broadcastInDim S128 ![] bcast_S_S128 : (⟨S_, .f32⟩ : BufTy).Contents (Elt F) → (⟨S128, .f32⟩ : BufTy).Contents (Elt F)),
    StableHlo.binary main_v38 main_v39 main_v40 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call0.cst (constant S_ .f32 0x00000000#32),
    StableHlo.TRef.binary (.of main_v37) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v37) main_call0.v4 main_call0.v5 subf,
    StableHlo.TRef.binary main_call0.v5 main_call0.v5 main_call0.v6 mulf,
    StableHlo.TRef.unary (.of main_c_6) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v40 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v43 main_v44 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v45 (broadcastInDim S128 ![] bcast_S_S128 : (⟨S_, .f32⟩ : BufTy).Contents (Elt F) → (⟨S128, .f32⟩ : BufTy).Contents (Elt F)),
    StableHlo.binary main_v41 main_v45 main_v46 (addf : (⟨S128, .f32⟩ : BufTy).Contents (Elt F) → (⟨S128, .f32⟩ : BufTy).Contents (Elt F) → (⟨S128, .f32⟩ : BufTy).Contents (Elt F)),
    StableHlo.unary main_v46 main_v47 (Host.rsqrt : (⟨S128, .f32⟩ : BufTy).Contents (Elt F) → (⟨S128, .f32⟩ : BufTy).Contents (Elt F)),
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v49 main_v50 (mulf : (⟨S100000x128, .f32⟩ : BufTy).Contents (Elt F) → (⟨S100000x128, .f32⟩ : BufTy).Contents (Elt F) → (⟨S100000x128, .f32⟩ : BufTy).Contents (Elt F)),
    StableHlo.unary main_arg7 main_v51 ((extractStridedSlice S1x128 ![0, 0] · slices_S3x128_S1x128_0_0) : (⟨S3x128, .f32⟩ : BufTy).Contents (Elt F) → (⟨S1x128, .f32⟩ : BufTy).Contents (Elt F)),
    StableHlo.reshape main_v51 main_v52 rfl shapeCasts_S1x128_S128,
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v54 main_v55 (mulf : (⟨S100000x128, .f32⟩ : BufTy).Contents (Elt F) → (⟨S100000x128, .f32⟩ : BufTy).Contents (Elt F) → (⟨S100000x128, .f32⟩ : BufTy).Contents (Elt F)),
    StableHlo.unary main_arg8 main_v56 ((extractStridedSlice S1x128 ![0, 0] · slices_S3x128_S1x128_0_0) : (⟨S3x128, .f32⟩ : BufTy).Contents (Elt F) → (⟨S1x128, .f32⟩ : BufTy).Contents (Elt F)),
    StableHlo.reshape main_v56 main_v57 rfl shapeCasts_S1x128_S128,
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v59 main_v60 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.unary main_cst_8 main_v61 (broadcastInDim S100000x128 ![] bcast_S_S100000x128 : (⟨S_, .f32⟩ : BufTy).Contents (Elt F) → (⟨S100000x128, .f32⟩ : BufTy).Contents (Elt F)),
    StableHlo.binary main_v60 main_v61 main_v62 (maximumf : (⟨S100000x128, .f32⟩ : BufTy).Contents (Elt F) → (⟨S100000x128, .f32⟩ : BufTy).Contents (Elt F) → (⟨S100000x128, .f32⟩ : BufTy).Contents (Elt F)) ]

/-- The second layer, from the first layer's output: 91 operations. -/
abbrev opsL2 : List (HloOp τ sig (Elt F)) :=
  [ StableHlo.nullary main_cst_9 (constant S_ .f32 0x00000000#32),
    StableHlo.unary main_cst_9 main_v63 (broadcastInDim S100000x128 ![] bcast_S_S100000x128 : (⟨S_, .f32⟩ : BufTy).Contents (Elt F) → (⟨S100000x128, .f32⟩ : BufTy).Contents (Elt F)),
    StableHlo.nullary main_c_10 (constantI S_ 32 0#32),
    StableHlo.unary main_c_10 main_v64 (broadcastInDim S400000 ![] bcast_S_S400000 : (⟨S_, .i32⟩ : BufTy).Contents (Elt F) → (⟨S400000, .i32⟩ : BufTy).Contents (Elt F)),
    StableHlo.binary main_v1 main_v64 main_v65 (cmpi .slt : (⟨S400000, .i32⟩ : BufTy).Contents (Elt F) → (⟨S400000, .i32⟩ : BufTy).Contents (Elt F) → (⟨S400000, .i1⟩ : BufTy).Contents (Elt F)),
    StableHlo.nullary main_c_11 (constantI S_ 32 100000#32),
    StableHlo.unary main_c_11 main_v66 (broadcastInDim S400000 ![] bcast_S_S400000 : (⟨S_, .i32⟩ : BufTy).Contents (Elt F) → (⟨S400000, .i32⟩ : BufTy).Contents (Elt F)),
    StableHlo.binary main_v1 main_v66 main_v67 (addi : (⟨S400000, .i32⟩ : BufTy).Contents (Elt F) → (⟨S400000, .i32⟩ : BufTy).Contents (Elt F) → (⟨S400000, .i32⟩ : BufTy).Contents (Elt F)),
    StableHlo.ternary main_v65 main_v67 main_v1 main_v68 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v68 main_v69 (broadcastInDim S400000x1 ![0] bcast_S400000_S400000x1_0 : (⟨S400000, .i32⟩ : BufTy).Contents (Elt F) → (⟨S400000x1, .i32⟩ : BufTy).Contents (Elt F)),
    StableHlo.binary main_v62 main_v69 main_v70 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_c_12 (constantI S_ 32 0#32),
    StableHlo.unary main_c_12 main_v71 (broadcastInDim S400000 ![] bcast_S_S400000 : (⟨S_, .i32⟩ : BufTy).Contents (Elt F) → (⟨S400000, .i32⟩ : BufTy).Contents (Elt F)),
    StableHlo.binary main_v3 main_v71 main_v72 (cmpi .slt : (⟨S400000, .i32⟩ : BufTy).Contents (Elt F) → (⟨S400000, .i32⟩ : BufTy).Contents (Elt F) → (⟨S400000, .i1⟩ : BufTy).Contents (Elt F)),
    StableHlo.nullary main_c_13 (constantI S_ 32 100000#32),
    StableHlo.unary main_c_13 main_v73 (broadcastInDim S400000 ![] bcast_S_S400000 : (⟨S_, .i32⟩ : BufTy).Contents (Elt F) → (⟨S400000, .i32⟩ : BufTy).Contents (Elt F)),
    StableHlo.binary main_v3 main_v73 main_v74 (addi : (⟨S400000, .i32⟩ : BufTy).Contents (Elt F) → (⟨S400000, .i32⟩ : BufTy).Contents (Elt F) → (⟨S400000, .i32⟩ : BufTy).Contents (Elt F)),
    StableHlo.ternary main_v72 main_v74 main_v3 main_v75 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v75 main_v76 (broadcastInDim S400000x1 ![0] bcast_S400000_S400000x1_0 : (⟨S400000, .i32⟩ : BufTy).Contents (Elt F) → (⟨S400000x1, .i32⟩ : BufTy).Contents (Elt F)),
    StableHlo.ternary main_v63 main_v76 main_v70 main_v77 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.binary main_v62 main_v77 main_v78 (addf : (⟨S100000x128, .f32⟩ : BufTy).Contents (Elt F) → (⟨S100000x128, .f32⟩ : BufTy).Contents (Elt F) → (⟨S100000x128, .f32⟩ : BufTy).Contents (Elt F)),
    StableHlo.unary main_arg3 main_v79 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v79 main_v80 rfl shapeCasts_S1x128x128_S128x128,
    StableHlo.binary main_v78 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v82 ((extractStridedSlice S1x128 ![1, 0] · slices_S3x128_S1x128_1_0) : (⟨S3x128, .f32⟩ : BufTy).Contents (Elt F) → (⟨S1x128, .f32⟩ : BufTy).Contents (Elt F)),
    StableHlo.reshape main_v82 main_v83 rfl shapeCasts_S1x128_S128,
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v81 main_v85 main_v86 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x00000000#32),
    StableHlo.unary main_cst_14 main_v87 (broadcastInDim S100000x128 ![] bcast_S_S100000x128 : (⟨S_, .f32⟩ : BufTy).Contents (Elt F) → (⟨S100000x128, .f32⟩ : BufTy).Contents (Elt F)),
    StableHlo.binary main_v86 main_v87 main_v88 (maximumf : (⟨S100000x128, .f32⟩ : BufTy).Contents (Elt F) → (⟨S100000x128, .f32⟩ : BufTy).Contents (Elt F) → (⟨S100000x128, .f32⟩ : BufTy).Contents (Elt F)),
    StableHlo.unary main_arg5 main_v89 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v89 main_v90 rfl shapeCasts_S1x128x128_S128x128,
    StableHlo.binary main_v88 main_v90 main_v91 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v92 ((extractStridedSlice S1x128 ![1, 0] · slices_S3x128_S1x128_1_0) : (⟨S3x128, .f32⟩ : BufTy).Contents (Elt F) → (⟨S1x128, .f32⟩ : BufTy).Contents (Elt F)),
    StableHlo.reshape main_v92 main_v93 rfl shapeCasts_S1x128_S128,
    StableHlo.unary main_v93 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v95 main_v96 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.binary main_v96 main_cst_15 main_v97 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v98 (broadcastInDim S128 ![] bcast_S_S128 : (⟨S_, .f32⟩ : BufTy).Contents (Elt F) → (⟨S128, .f32⟩ : BufTy).Contents (Elt F)),
    StableHlo.binary main_v97 main_v98 main_v99 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call1.cst (constant S_ .f32 0x00000000#32),
    StableHlo.TRef.binary (.of main_v96) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v96) main_call1.v4 main_call1.v5 subf,
    StableHlo.TRef.binary main_call1.v5 main_call1.v5 main_call1.v6 mulf,
    StableHlo.TRef.unary (.of main_c_17) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v99 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v102 main_v103 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v104 (broadcastInDim S128 ![] bcast_S_S128 : (⟨S_, .f32⟩ : BufTy).Contents (Elt F) → (⟨S128, .f32⟩ : BufTy).Contents (Elt F)),
    StableHlo.binary main_v100 main_v104 main_v105 (addf : (⟨S128, .f32⟩ : BufTy).Contents (Elt F) → (⟨S128, .f32⟩ : BufTy).Contents (Elt F) → (⟨S128, .f32⟩ : BufTy).Contents (Elt F)),
    StableHlo.unary main_v105 main_v106 (Host.rsqrt : (⟨S128, .f32⟩ : BufTy).Contents (Elt F) → (⟨S128, .f32⟩ : BufTy).Contents (Elt F)),
    StableHlo.unary main_v106 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v103 main_v108 main_v109 (mulf : (⟨S100000x128, .f32⟩ : BufTy).Contents (Elt F) → (⟨S100000x128, .f32⟩ : BufTy).Contents (Elt F) → (⟨S100000x128, .f32⟩ : BufTy).Contents (Elt F)),
    StableHlo.unary main_arg7 main_v110 ((extractStridedSlice S1x128 ![1, 0] · slices_S3x128_S1x128_1_0) : (⟨S3x128, .f32⟩ : BufTy).Contents (Elt F) → (⟨S1x128, .f32⟩ : BufTy).Contents (Elt F)),
    StableHlo.reshape main_v110 main_v111 rfl shapeCasts_S1x128_S128,
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v109 main_v113 main_v114 (mulf : (⟨S100000x128, .f32⟩ : BufTy).Contents (Elt F) → (⟨S100000x128, .f32⟩ : BufTy).Contents (Elt F) → (⟨S100000x128, .f32⟩ : BufTy).Contents (Elt F)),
    StableHlo.unary main_arg8 main_v115 ((extractStridedSlice S1x128 ![1, 0] · slices_S3x128_S1x128_1_0) : (⟨S3x128, .f32⟩ : BufTy).Contents (Elt F) → (⟨S1x128, .f32⟩ : BufTy).Contents (Elt F)),
    StableHlo.reshape main_v115 main_v116 rfl shapeCasts_S1x128_S128,
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v118 main_v119 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.unary main_cst_19 main_v120 (broadcastInDim S100000x128 ![] bcast_S_S100000x128 : (⟨S_, .f32⟩ : BufTy).Contents (Elt F) → (⟨S100000x128, .f32⟩ : BufTy).Contents (Elt F)),
    StableHlo.binary main_v119 main_v120 main_v121 (maximumf : (⟨S100000x128, .f32⟩ : BufTy).Contents (Elt F) → (⟨S100000x128, .f32⟩ : BufTy).Contents (Elt F) → (⟨S100000x128, .f32⟩ : BufTy).Contents (Elt F)) ]

/-- The third layer, from the second layer's output: 91 operations. -/
abbrev opsL3 : List (HloOp τ sig (Elt F)) :=
  [ StableHlo.nullary main_cst_20 (constant S_ .f32 0x00000000#32),
    StableHlo.unary main_cst_20 main_v122 (broadcastInDim S100000x128 ![] bcast_S_S100000x128 : (⟨S_, .f32⟩ : BufTy).Contents (Elt F) → (⟨S100000x128, .f32⟩ : BufTy).Contents (Elt F)),
    StableHlo.nullary main_c_21 (constantI S_ 32 0#32),
    StableHlo.unary main_c_21 main_v123 (broadcastInDim S400000 ![] bcast_S_S400000 : (⟨S_, .i32⟩ : BufTy).Contents (Elt F) → (⟨S400000, .i32⟩ : BufTy).Contents (Elt F)),
    StableHlo.binary main_v1 main_v123 main_v124 (cmpi .slt : (⟨S400000, .i32⟩ : BufTy).Contents (Elt F) → (⟨S400000, .i32⟩ : BufTy).Contents (Elt F) → (⟨S400000, .i1⟩ : BufTy).Contents (Elt F)),
    StableHlo.nullary main_c_22 (constantI S_ 32 100000#32),
    StableHlo.unary main_c_22 main_v125 (broadcastInDim S400000 ![] bcast_S_S400000 : (⟨S_, .i32⟩ : BufTy).Contents (Elt F) → (⟨S400000, .i32⟩ : BufTy).Contents (Elt F)),
    StableHlo.binary main_v1 main_v125 main_v126 (addi : (⟨S400000, .i32⟩ : BufTy).Contents (Elt F) → (⟨S400000, .i32⟩ : BufTy).Contents (Elt F) → (⟨S400000, .i32⟩ : BufTy).Contents (Elt F)),
    StableHlo.ternary main_v124 main_v126 main_v1 main_v127 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v127 main_v128 (broadcastInDim S400000x1 ![0] bcast_S400000_S400000x1_0 : (⟨S400000, .i32⟩ : BufTy).Contents (Elt F) → (⟨S400000x1, .i32⟩ : BufTy).Contents (Elt F)),
    StableHlo.binary main_v121 main_v128 main_v129 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_c_23 (constantI S_ 32 0#32),
    StableHlo.unary main_c_23 main_v130 (broadcastInDim S400000 ![] bcast_S_S400000 : (⟨S_, .i32⟩ : BufTy).Contents (Elt F) → (⟨S400000, .i32⟩ : BufTy).Contents (Elt F)),
    StableHlo.binary main_v3 main_v130 main_v131 (cmpi .slt : (⟨S400000, .i32⟩ : BufTy).Contents (Elt F) → (⟨S400000, .i32⟩ : BufTy).Contents (Elt F) → (⟨S400000, .i1⟩ : BufTy).Contents (Elt F)),
    StableHlo.nullary main_c_24 (constantI S_ 32 100000#32),
    StableHlo.unary main_c_24 main_v132 (broadcastInDim S400000 ![] bcast_S_S400000 : (⟨S_, .i32⟩ : BufTy).Contents (Elt F) → (⟨S400000, .i32⟩ : BufTy).Contents (Elt F)),
    StableHlo.binary main_v3 main_v132 main_v133 (addi : (⟨S400000, .i32⟩ : BufTy).Contents (Elt F) → (⟨S400000, .i32⟩ : BufTy).Contents (Elt F) → (⟨S400000, .i32⟩ : BufTy).Contents (Elt F)),
    StableHlo.ternary main_v131 main_v133 main_v3 main_v134 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v134 main_v135 (broadcastInDim S400000x1 ![0] bcast_S400000_S400000x1_0 : (⟨S400000, .i32⟩ : BufTy).Contents (Elt F) → (⟨S400000x1, .i32⟩ : BufTy).Contents (Elt F)),
    StableHlo.ternary main_v122 main_v135 main_v129 main_v136 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.binary main_v121 main_v136 main_v137 (addf : (⟨S100000x128, .f32⟩ : BufTy).Contents (Elt F) → (⟨S100000x128, .f32⟩ : BufTy).Contents (Elt F) → (⟨S100000x128, .f32⟩ : BufTy).Contents (Elt F)),
    StableHlo.unary main_arg3 main_v138 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v138 main_v139 rfl shapeCasts_S1x128x128_S128x128,
    StableHlo.binary main_v137 main_v139 main_v140 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v141 ((extractStridedSlice S1x128 ![2, 0] · slices_S3x128_S1x128_2_0) : (⟨S3x128, .f32⟩ : BufTy).Contents (Elt F) → (⟨S1x128, .f32⟩ : BufTy).Contents (Elt F)),
    StableHlo.reshape main_v141 main_v142 rfl shapeCasts_S1x128_S128,
    StableHlo.unary main_v142 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v140 main_v144 main_v145 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x00000000#32),
    StableHlo.unary main_cst_25 main_v146 (broadcastInDim S100000x128 ![] bcast_S_S100000x128 : (⟨S_, .f32⟩ : BufTy).Contents (Elt F) → (⟨S100000x128, .f32⟩ : BufTy).Contents (Elt F)),
    StableHlo.binary main_v145 main_v146 main_v147 (maximumf : (⟨S100000x128, .f32⟩ : BufTy).Contents (Elt F) → (⟨S100000x128, .f32⟩ : BufTy).Contents (Elt F) → (⟨S100000x128, .f32⟩ : BufTy).Contents (Elt F)),
    StableHlo.unary main_arg5 main_v148 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v148 main_v149 rfl shapeCasts_S1x128x128_S128x128,
    StableHlo.binary main_v147 main_v149 main_v150 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v151 ((extractStridedSlice S1x128 ![2, 0] · slices_S3x128_S1x128_2_0) : (⟨S3x128, .f32⟩ : BufTy).Contents (Elt F) → (⟨S1x128, .f32⟩ : BufTy).Contents (Elt F)),
    StableHlo.reshape main_v151 main_v152 rfl shapeCasts_S1x128_S128,
    StableHlo.unary main_v152 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S100000x128 ![0, 1] bcast_S1x128_S100000x128_0_1 : (⟨S1x128, .f32⟩ : BufTy).Contents (Elt F) → (⟨S100000x128, .f32⟩ : BufTy).Contents (Elt F)),
    StableHlo.binary main_v150 main_v154 main_v155 (addf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x00000000#32),
    StableHlo.binary main_v155 main_cst_26 main_v156 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v157 (broadcastInDim S128 ![] bcast_S_S128 : (⟨S_, .f32⟩ : BufTy).Contents (Elt F) → (⟨S128, .f32⟩ : BufTy).Contents (Elt F)),
    StableHlo.binary main_v156 main_v157 main_v158 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call2.cst (constant S_ .f32 0x00000000#32),
    StableHlo.TRef.binary (.of main_v155) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v155) main_call2.v4 main_call2.v5 subf,
    StableHlo.TRef.binary main_call2.v5 main_call2.v5 main_call2.v6 mulf,
    StableHlo.TRef.unary (.of main_c_28) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v158 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),
    StableHlo.binary main_v155 main_v161 main_v162 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v163 (broadcastInDim S128 ![] bcast_S_S128 : (⟨S_, .f32⟩ : BufTy).Contents (Elt F) → (⟨S128, .f32⟩ : BufTy).Contents (Elt F)),
    StableHlo.binary main_v159 main_v163 main_v164 (addf : (⟨S128, .f32⟩ : BufTy).Contents (Elt F) → (⟨S128, .f32⟩ : BufTy).Contents (Elt F) → (⟨S128, .f32⟩ : BufTy).Contents (Elt F)),
    StableHlo.unary main_v164 main_v165 (Host.rsqrt : (⟨S128, .f32⟩ : BufTy).Contents (Elt F) → (⟨S128, .f32⟩ : BufTy).Contents (Elt F)),
    StableHlo.unary main_v165 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v167 main_v168 (mulf : (⟨S100000x128, .f32⟩ : BufTy).Contents (Elt F) → (⟨S100000x128, .f32⟩ : BufTy).Contents (Elt F) → (⟨S100000x128, .f32⟩ : BufTy).Contents (Elt F)),
    StableHlo.unary main_arg7 main_v169 ((extractStridedSlice S1x128 ![2, 0] · slices_S3x128_S1x128_2_0) : (⟨S3x128, .f32⟩ : BufTy).Contents (Elt F) → (⟨S1x128, .f32⟩ : BufTy).Contents (Elt F)),
    StableHlo.reshape main_v169 main_v170 rfl shapeCasts_S1x128_S128,
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v172 main_v173 (mulf : (⟨S100000x128, .f32⟩ : BufTy).Contents (Elt F) → (⟨S100000x128, .f32⟩ : BufTy).Contents (Elt F) → (⟨S100000x128, .f32⟩ : BufTy).Contents (Elt F)),
    StableHlo.unary main_arg8 main_v174 ((extractStridedSlice S1x128 ![2, 0] · slices_S3x128_S1x128_2_0) : (⟨S3x128, .f32⟩ : BufTy).Contents (Elt F) → (⟨S1x128, .f32⟩ : BufTy).Contents (Elt F)),
    StableHlo.reshape main_v174 main_v175 rfl shapeCasts_S1x128_S128,
    StableHlo.unary main_v175 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S100000x128 ![0, 1] bcast_S1x128_S100000x128_0_1 : (⟨S1x128, .f32⟩ : BufTy).Contents (Elt F) → (⟨S100000x128, .f32⟩ : BufTy).Contents (Elt F)),
    StableHlo.binary main_v173 main_v177 main_v178 (addf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x00000000#32),
    StableHlo.unary main_cst_30 main_v179 (broadcastInDim S100000x128 ![] bcast_S_S100000x128 : (⟨S_, .f32⟩ : BufTy).Contents (Elt F) → (⟨S100000x128, .f32⟩ : BufTy).Contents (Elt F)),
    StableHlo.binary main_v178 main_v179 main_v180 (maximumf : (⟨S100000x128, .f32⟩ : BufTy).Contents (Elt F) → (⟨S100000x128, .f32⟩ : BufTy).Contents (Elt F) → (⟨S100000x128, .f32⟩ : BufTy).Contents (Elt F)) ]

/-- The tail: the segment mean of the third layer's output and the two affine maps: 24 operations. -/
abbrev opsT : List (HloOp τ sig (Elt F)) :=
  [ StableHlo.nullary main_cst_31 (constant S_ .f32 0x00000000#32),
    StableHlo.unary main_cst_31 main_v181 (broadcastInDim S2048x128 ![] bcast_S_S2048x128 : (⟨S_, .f32⟩ : BufTy).Contents (Elt F) → (⟨S2048x128, .f32⟩ : BufTy).Contents (Elt F)),
    StableHlo.unary main_arg2 main_v182 (broadcastInDim S100000x1 ![0] bcast_S100000_S100000x1_0 : (⟨S100000, .i32⟩ : BufTy).Contents (Elt F) → (⟨S100000x1, .i32⟩ : BufTy).Contents (Elt F)),
    StableHlo.ternary main_v181 main_v182 main_v180 main_v183 ((fun x i u => Host.scatterAdd scatter_S2048x128_S100000x1_S100000x128_1_0_0_1 x i u) : (⟨S2048x128, .f32⟩ : BufTy).Contents (Elt F) → (⟨S100000x1, .i32⟩ : BufTy).Contents (Elt F) → (⟨S100000x128, .f32⟩ : BufTy).Contents (Elt F) → (⟨S2048x128, .f32⟩ : BufTy).Contents (Elt F)),
    StableHlo.nullary main_cst_32 (constant S_ .f32 0x3F800000#32),
    StableHlo.unary main_cst_32 main_v184 (broadcastInDim S100000 ![] bcast_S_S100000 : (⟨S_, .f32⟩ : BufTy).Contents (Elt F) → (⟨S100000, .f32⟩ : BufTy).Contents (Elt F)),
    StableHlo.nullary main_cst_33 (constant S_ .f32 0x00000000#32),
    StableHlo.unary main_cst_33 main_v185 (broadcastInDim S2048 ![] bcast_S_S2048 : (⟨S_, .f32⟩ : BufTy).Contents (Elt F) → (⟨S2048, .f32⟩ : BufTy).Contents (Elt F)),
    StableHlo.unary main_arg2 main_v186 (broadcastInDim S100000x1 ![0] bcast_S100000_S100000x1_0 : (⟨S100000, .i32⟩ : BufTy).Contents (Elt F) → (⟨S100000x1, .i32⟩ : BufTy).Contents (Elt F)),
    StableHlo.ternary main_v185 main_v186 main_v184 main_v187 ((fun x i u => Host.scatterAdd scatter_S2048_S100000x1_S100000_n_0_0_1 x i u) : (⟨S2048, .f32⟩ : BufTy).Contents (Elt F) → (⟨S100000x1, .i32⟩ : BufTy).Contents (Elt F) → (⟨S100000, .f32⟩ : BufTy).Contents (Elt F) → (⟨S2048, .f32⟩ : BufTy).Contents (Elt F)),
    StableHlo.nullary main_cst_34 (constant S_ .f32 0x3F800000#32),
    StableHlo.unary main_cst_34 main_v188 (broadcastInDim S2048 ![] bcast_S_S2048 : (⟨S_, .f32⟩ : BufTy).Contents (Elt F) → (⟨S2048, .f32⟩ : BufTy).Contents (Elt F)),
    StableHlo.binary main_v187 main_v188 main_v189 (maximumf : (⟨S2048, .f32⟩ : BufTy).Contents (Elt F) → (⟨S2048, .f32⟩ : BufTy).Contents (Elt F) → (⟨S2048, .f32⟩ : BufTy).Contents (Elt F)),
    StableHlo.unary main_v189 main_v190 (broadcastInDim S2048x1 ![0] bcast_S2048_S2048x1_0 : (⟨S2048, .f32⟩ : BufTy).Contents (Elt F) → (⟨S2048x1, .f32⟩ : BufTy).Contents (Elt F)),
    StableHlo.unary main_v190 main_v191 (broadcastInDim S2048x128 ![0, 1] bcast_S2048x1_S2048x128_0_1 : (⟨S2048x1, .f32⟩ : BufTy).Contents (Elt F) → (⟨S2048x128, .f32⟩ : BufTy).Contents (Elt F)),
    StableHlo.binary main_v183 main_v191 main_v192 (Host.divf : (⟨S2048x128, .f32⟩ : BufTy).Contents (Elt F) → (⟨S2048x128, .f32⟩ : BufTy).Contents (Elt F) → (⟨S2048x128, .f32⟩ : BufTy).Contents (Elt F)),
    StableHlo.binary main_v192 main_arg9 main_v193 ((fun l r => Host.dotGeneral dot_S2048x128_S128x64_S2048x64_1_0_0_1_n_n none l r) : (⟨S2048x128, .f32⟩ : BufTy).Contents (Elt F) → (⟨S128x64, .f32⟩ : BufTy).Contents (Elt F) → (⟨S2048x64, .f32⟩ : BufTy).Contents (Elt F)),
    StableHlo.unary main_arg10 main_v194 (broadcastInDim S1x64 ![1] bcast_S64_S1x64_1 : (⟨S64, .f32⟩ : BufTy).Contents (Elt F) → (⟨S1x64, .f32⟩ : BufTy).Contents (Elt F)),
    StableHlo.unary main_v194 main_v195 (broadcastInDim S2048x64 ![0, 1] bcast_S1x64_S2048x64_0_1 : (⟨S1x64, .f32⟩ : BufTy).Contents (Elt F) → (⟨S2048x64, .f32⟩ : BufTy).Contents (Elt F)),
    StableHlo.binary main_v193 main_v195 main_v196 (addf : (⟨S2048x64, .f32⟩ : BufTy).Contents (Elt F) → (⟨S2048x64, .f32⟩ : BufTy).Contents (Elt F) → (⟨S2048x64, .f32⟩ : BufTy).Contents (Elt F)),
    StableHlo.binary main_v192 main_arg11 main_v197 ((fun l r => Host.dotGeneral dot_S2048x128_S128x64_S2048x64_1_0_0_1_n_n none l r) : (⟨S2048x128, .f32⟩ : BufTy).Contents (Elt F) → (⟨S128x64, .f32⟩ : BufTy).Contents (Elt F) → (⟨S2048x64, .f32⟩ : BufTy).Contents (Elt F)),
    StableHlo.unary main_arg12 main_v198 (broadcastInDim S1x64 ![1] bcast_S64_S1x64_1 : (⟨S64, .f32⟩ : BufTy).Contents (Elt F) → (⟨S1x64, .f32⟩ : BufTy).Contents (Elt F)),
    StableHlo.unary main_v198 main_v199 (broadcastInDim S2048x64 ![0, 1] bcast_S1x64_S2048x64_0_1 : (⟨S1x64, .f32⟩ : BufTy).Contents (Elt F) → (⟨S2048x64, .f32⟩ : BufTy).Contents (Elt F)),
    StableHlo.binary main_v197 main_v199 main_v200 (addf : (⟨S2048x64, .f32⟩ : BufTy).Contents (Elt F) → (⟨S2048x64, .f32⟩ : BufTy).Contents (Elt F) → (⟨S2048x64, .f32⟩ : BufTy).Contents (Elt F)) ]

/-- The program's list is the four groups in order. -/
theorem ops_eq : (ops : List (HloOp τ sig (Elt F))) = opsL1 ++ (opsL2 ++ (opsL3 ++ opsT)) := rfl

/-- The contents after the whole program are the four groups' folds composed in order. -/
theorem after_ops (V : Valuation τ sig (Elt F)) :
    after ops V = after opsT (after opsL3 (after opsL2 (after opsL1 V))) := by
  rw [ops_eq, after_append, after_append, after_append]

/-- An operation whose written set is one reference of a list writes inside the list. -/
theorem writes_sub_of_mem {Val : EltTy → Type} {W : List (Ref sig .tc)} {op : HloOp τ sig Val} {y : Ref sig .tc}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- The buffers group L1 writes, in order. -/
abbrev writesL1 : List (Ref sig .tc) :=
  [ main_v0, main_v1, main_v2, main_v3, main_cst, main_v4, main_c, main_v5,
    main_v6, main_c_0, main_v7, main_v8, main_v9, main_v10, main_v11, main_c_1,
    main_v12, main_v13, main_c_2, main_v14, main_v15, main_v16, main_v17, main_v18,
    main_v19, main_v20, main_v21, main_v22, main_v23, main_v24, main_v25, main_v26,
    main_v27, main_cst_3, main_v28, main_v29, main_v30, main_v31, main_v32, main_v33,
    main_v34, main_v35, main_v36, main_v37, main_cst_4, main_v38, main_cst_5, main_v39,
    main_v40, main_c_6, main_call0.cst.ref, main_call0.v0.ref, main_call0.v1.ref, main_call0.cst_0.ref, main_call0.v2.ref, main_call0.v3.ref,
    main_call0.v4.ref, main_call0.v5.ref, main_call0.v6.ref, main_call0.v7.ref, main_call0.cst_1.ref, main_call0.v8.ref, main_call0.cst_2.ref, main_call0.v9.ref,
    main_call0.v10.ref, main_call0.v11.ref, main_call0.cst_3.ref, main_call0.v12.ref, main_call0.cst_4.ref, main_call0.call0.v0.ref, main_call0.call0.v1.ref, main_call0.call0.v2.ref,
    main_v42, main_v43, main_v44, main_cst_7, main_v45, main_v46, main_v47, main_v48,
    main_v49, main_v50, main_v51, main_v52, main_v53, main_v54, main_v55, main_v56,
    main_v57, main_v58, main_v59, main_v60, main_cst_8, main_v61, main_v62 ]

theorem opsL1_writes : (opsL1 : List (HloOp τ sig (Elt F))).Forall fun op => op.writes ⊆ ((writesL1).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide)⟩

/-- A buffer group L1 does not write holds after it what it held before. -/
theorem frameL1 (V : Valuation τ sig (Elt F)) {r : Ref sig .tc} (hr : r ∉ writesL1) :
    after opsL1 V (r : DevRef τ sig) = V (r : DevRef τ sig) :=
  after_of_writes_sub opsL1 V opsL1_writes hr

/-- The buffers group L2 writes, in order. -/
abbrev writesL2 : List (Ref sig .tc) :=
  [ main_cst_9, main_v63, main_c_10, main_v64, main_v65, main_c_11, main_v66, main_v67,
    main_v68, main_v69, main_v70, main_c_12, main_v71, main_v72, main_c_13, main_v73,
    main_v74, main_v75, main_v76, main_v77, main_v78, main_v79, main_v80, main_v81,
    main_v82, main_v83, main_v84, main_v85, main_v86, main_cst_14, main_v87, main_v88,
    main_v89, main_v90, main_v91, main_v92, main_v93, main_v94, main_v95, main_v96,
    main_cst_15, main_v97, main_cst_16, main_v98, main_v99, main_c_17, main_call1.cst.ref, main_call1.v0.ref,
    main_call1.v1.ref, main_call1.cst_0.ref, main_call1.v2.ref, main_call1.v3.ref, main_call1.v4.ref, main_call1.v5.ref, main_call1.v6.ref, main_call1.v7.ref,
    main_call1.cst_1.ref, main_call1.v8.ref, main_call1.cst_2.ref, main_call1.v9.ref, main_call1.v10.ref, main_call1.v11.ref, main_call1.cst_3.ref, main_call1.v12.ref,
    main_call1.cst_4.ref, main_call1.call0.v0.ref, main_call1.call0.v1.ref, main_call1.call0.v2.ref, main_v101, main_v102, main_v103, main_cst_18,
    main_v104, main_v105, main_v106, main_v107, main_v108, main_v109, main_v110, main_v111,
    main_v112, main_v113, main_v114, main_v115, main_v116, main_v117, main_v118, main_v119,
    main_cst_19, main_v120, main_v121 ]

theorem opsL2_writes : (opsL2 : List (HloOp τ sig (Elt F))).Forall fun op => op.writes ⊆ ((writesL2).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide)⟩

/-- A buffer group L2 does not write holds after it what it held before. -/
theorem frameL2 (V : Valuation τ sig (Elt F)) {r : Ref sig .tc} (hr : r ∉ writesL2) :
    after opsL2 V (r : DevRef τ sig) = V (r : DevRef τ sig) :=
  after_of_writes_sub opsL2 V opsL2_writes hr

/-- The buffers group L3 writes, in order. -/
abbrev writesL3 : List (Ref sig .tc) :=
  [ main_cst_20, main_v122, main_c_21, main_v123, main_v124, main_c_22, main_v125, main_v126,
    main_v127, main_v128, main_v129, main_c_23, main_v130, main_v131, main_c_24, main_v132,
    main_v133, main_v134, main_v135, main_v136, main_v137, main_v138, main_v139, main_v140,
    main_v141, main_v142, main_v143, main_v144, main_v145, main_cst_25, main_v146, main_v147,
    main_v148, main_v149, main_v150, main_v151, main_v152, main_v153, main_v154, main_v155,
    main_cst_26, main_v156, main_cst_27, main_v157, main_v158, main_c_28, main_call2.cst.ref, main_call2.v0.ref,
    main_call2.v1.ref, main_call2.cst_0.ref, main_call2.v2.ref, main_call2.v3.ref, main_call2.v4.ref, main_call2.v5.ref, main_call2.v6.ref, main_call2.v7.ref,
    main_call2.cst_1.ref, main_call2.v8.ref, main_call2.cst_2.ref, main_call2.v9.ref, main_call2.v10.ref, main_call2.v11.ref, main_call2.cst_3.ref, main_call2.v12.ref,
    main_call2.cst_4.ref, main_call2.call0.v0.ref, main_call2.call0.v1.ref, main_call2.call0.v2.ref, main_v160, main_v161, main_v162, main_cst_29,
    main_v163, main_v164, main_v165, main_v166, main_v167, main_v168, main_v169, main_v170,
    main_v171, main_v172, main_v173, main_v174, main_v175, main_v176, main_v177, main_v178,
    main_cst_30, main_v179, main_v180 ]

theorem opsL3_writes : (opsL3 : List (HloOp τ sig (Elt F))).Forall fun op => op.writes ⊆ ((writesL3).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide)⟩

/-- A buffer group L3 does not write holds after it what it held before. -/
theorem frameL3 (V : Valuation τ sig (Elt F)) {r : Ref sig .tc} (hr : r ∉ writesL3) :
    after opsL3 V (r : DevRef τ sig) = V (r : DevRef τ sig) :=
  after_of_writes_sub opsL3 V opsL3_writes hr

/-- The buffers group T writes, in order. -/
abbrev writesT : List (Ref sig .tc) :=
  [ main_cst_31, main_v181, main_v182, main_v183, main_cst_32, main_v184, main_cst_33, main_v185,
    main_v186, main_v187, main_cst_34, main_v188, main_v189, main_v190, main_v191, main_v192,
    main_v193, main_v194, main_v195, main_v196, main_v197, main_v198, main_v199, main_v200 ]

theorem opsT_writes : (opsT : List (HloOp τ sig (Elt F))).Forall fun op => op.writes ⊆ ((writesT).map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide)⟩

/-- A buffer group T does not write holds after it what it held before. -/
theorem frameT (V : Valuation τ sig (Elt F)) {r : Ref sig .tc} (hr : r ∉ writesT) :
    after opsT V (r : DevRef τ sig) = V (r : DevRef τ sig) :=
  after_of_writes_sub opsT V opsT_writes hr

end Cert.ReferenceIdeal.RefRun

end
-- ==== Proof.RefStages.lean ====
/-
  The reference program's arithmetic as named stage functions.

  Each definition is the composition of the operations the program applies, in the program's order and with the
  program's own shape records and side-condition constants, over typed arrays at the ideal instance (a float an
  extended real).  One graph-convolution layer is: the neighbour sum (agg), the two-layer perceptron with bias and
  clamp (zOf), the column mean (meanOf) and column variance (varOf), and the normalise / scale / shift / clamp
  (bnOf).  The tail is the segment mean over the batch vector (pool) and an affine map (projOf).  The per-layer
  parameters are slices of the stacked parameter arrays (matL, vecL).
-/
import proofs.«161505_j35811437314143_1_alg».proof.ReferenceIdeal
import Idealize.ShloMosaic.PureOps.Ideal

noncomputable section

namespace Cert.ReferenceIdeal.Stages

open Idealize.ShloMosaic Idealize.SL.Sem
open Cert.ReferenceIdeal Cert.ReferenceIdeal.Facts₀

variable [Facts₀]

/-- The float words the program spells: zero, the row count 1e5, the epsilon 1e-5, one, and the quiet NaN word. -/
abbrev zeroS : FVec Ideal S_ .f32 := constant (F := Ideal) S_ .f32 0x00000000#32
abbrev nS : FVec Ideal S_ .f32 := constant (F := Ideal) S_ .f32 0x47C35000#32
abbrev epsS : FVec Ideal S_ .f32 := constant (F := Ideal) S_ .f32 0x3727C5AC#32
abbrev oneS : FVec Ideal S_ .f32 := constant (F := Ideal) S_ .f32 0x3F800000#32
abbrev nanS : FVec Ideal S_ .f32 := constant (F := Ideal) S_ .f32 0x7FC00000#32

/-- An edge-index row, wrapped into range as the gather and the scatter take it: a negative entry has the row
    count added, and the vector becomes a column of one-entry index vectors. -/
def wrapIdx (v : IVec S400000 32) : IVec S400000x1 32 :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 100000#32)))
      v)

/-- Row 0 of the edge list (the source nodes) and row 1 (the destination nodes), as flat vectors. -/
def edgeRow0 (e : IVec S2x400000 32) : IVec S400000 32 :=
  shapeCast S400000 (extractStridedSlice S1x400000 ![0, 0] e slices_S2x400000_S1x400000_0_0) shapeCasts_S1x400000_S400000
def edgeRow1 (e : IVec S2x400000 32) : IVec S400000 32 :=
  shapeCast S400000 (extractStridedSlice S1x400000 ![1, 0] e slices_S2x400000_S1x400000_1_0) shapeCasts_S1x400000_S400000

/-- The source and the destination index columns of the edge list. -/
def srcIdx (e : IVec S2x400000 32) : IVec S400000x1 32 := wrapIdx (edgeRow0 e)
def dstIdx (e : IVec S2x400000 32) : IVec S400000x1 32 := wrapIdx (edgeRow1 e)

/-- The neighbour sum: the rows of h gathered at the edges' sources, added into the zero array at the edges'
    destinations. -/
def agg (h : FVec Ideal S100000x128 .f32) (e : IVec S2x400000 32) : FVec Ideal S100000x128 .f32 :=
  Host.scatterAdd scatter_S100000x128_S400000x1_S400000x128_1_0_0_1
    (broadcastInDim S100000x128 ![] bcast_S_S100000x128 zeroS)
    (dstIdx e)
    (Host.gather gather_S100000x128_S400000x1_S400000x128_1_0_n_n_0_1_1128 h (srcIdx e))

/-- Layer L's matrix out of a stack of three, and layer L's vector out of a stack of three: a slice, reshaped. -/
def matL : Fin 3 → FVec Ideal S3x128x128 .f32 → FVec Ideal S128x128 .f32
  | ⟨0, _⟩, x => shapeCast S128x128 (extractStridedSlice S1x128x128 ![0, 0, 0] x slices_S3x128x128_S1x128x128_0_0_0) shapeCasts_S1x128x128_S128x128
  | ⟨1, _⟩, x => shapeCast S128x128 (extractStridedSlice S1x128x128 ![1, 0, 0] x slices_S3x128x128_S1x128x128_1_0_0) shapeCasts_S1x128x128_S128x128
  | ⟨2, _⟩, x => shapeCast S128x128 (extractStridedSlice S1x128x128 ![2, 0, 0] x slices_S3x128x128_S1x128x128_2_0_0) shapeCasts_S1x128x128_S128x128
def vecL : Fin 3 → FVec Ideal S3x128 .f32 → FVec Ideal S128 .f32
  | ⟨0, _⟩, x => shapeCast S128 (extractStridedSlice S1x128 ![0, 0] x slices_S3x128_S1x128_0_0) shapeCasts_S1x128_S128
  | ⟨1, _⟩, x => shapeCast S128 (extractStridedSlice S1x128 ![1, 0] x slices_S3x128_S1x128_1_0) shapeCasts_S1x128_S128
  | ⟨2, _⟩, x => shapeCast S128 (extractStridedSlice S1x128 ![2, 0] x slices_S3x128_S1x128_2_0) shapeCasts_S1x128_S128

/-- The six per-layer parameters: the two weight matrices, the two biases, the scale and the shift. -/
abbrev w1 := @matL
abbrev w2 := @matL
abbrev b1 := @vecL
abbrev b2 := @vecL
abbrev gam := @vecL
abbrev bet := @vecL

/-- A length-128 vector spread over the 100000 rows. -/
def rows (v : FVec Ideal S128 .f32) : FVec Ideal S100000x128 .f32 :=
  broadcastInDim S100000x128 ![0, 1] bcast_S1x128_S100000x128_0_1 (broadcastInDim S1x128 ![1] bcast_S128_S1x128_1 v)

/-- The zero array of the node features' shape. -/
def zeros : FVec Ideal S100000x128 .f32 := broadcastInDim S100000x128 ![] bcast_S_S100000x128 zeroS

/-- The two-layer perceptron: ((h + a) · W1 + b1) clamped at zero, then · W2 + b2. -/
def zOf (h a : FVec Ideal S100000x128 .f32) (W1 : FVec Ideal S128x128 .f32) (c1 : FVec Ideal S128 .f32)
    (W2 : FVec Ideal S128x128 .f32) (c2 : FVec Ideal S128 .f32) : FVec Ideal S100000x128 .f32 :=
  addf
    (Host.dotGeneral dot_S100000x128_S128x128_S100000x128_1_0_0_1_n_n none
      (maximumf
        (addf (Host.dotGeneral dot_S100000x128_S128x128_S100000x128_1_0_0_1_n_n none (addf h a) W1) (rows c1))
        zeros)
      W2)
    (rows c2)

/-- The column sums, and the column means: the sums divided by the row count. -/
def sumOf (z : FVec Ideal S100000x128 .f32) : FVec Ideal S128 .f32 :=
  Host.reduceAdd z zeroS reducesTo_S100000x128_S128_d0 h_S_
def meanOf (z : FVec Ideal S100000x128 .f32) : FVec Ideal S128 .f32 :=
  Host.divf (sumOf z) (broadcastInDim S128 ![] bcast_S_S128 nS)

/-- Inside the variance: the deviations from the column mean (the mean computed through a [1, 128] row), and the
    row count less the (zero) degrees-of-freedom correction. -/
def devOf (z : FVec Ideal S100000x128 .f32) : FVec Ideal S100000x128 .f32 :=
  subf z
    (broadcastInDim S100000x128 ![0, 1] bcast_S1x128_S100000x128_0_1
      (Host.divf (broadcastInDim S1x128 ![1] bcast_S128_S1x128_1 (sumOf z)) (broadcastInDim S1x128 ![] bcast_S_S1x128 nS)))
def cntS : FVec Ideal S_ .f32 := subf nS (sitofp (F := Ideal) .f32 (constantI S_ 32 0#32))

/-- The column variance: the sum of squared deviations over the count where the count is positive, else NaN. -/
def varOf (z : FVec Ideal S100000x128 .f32) : FVec Ideal S128 .f32 :=
  select (broadcastInDim S128 ![] bcast_S_S128 (cmpf .ogt cntS zeroS))
    (Host.divf (Host.reduceAdd (mulf (devOf z) (devOf z)) zeroS reducesTo_S100000x128_S128_d0 h_S_)
      (broadcastInDim S128 ![] bcast_S_S128 cntS))
    (broadcastInDim S128 ![] bcast_S_S128 (id nanS))

/-- Normalise by the mean and the variance, scale, shift, clamp at zero. -/
def bnOf (z : FVec Ideal S100000x128 .f32) (mu var g b : FVec Ideal S128 .f32) : FVec Ideal S100000x128 .f32 :=
  maximumf
    (addf
      (mulf
        (mulf (subf z (rows mu)) (rows (Host.rsqrt (addf var (broadcastInDim S128 ![] bcast_S_S128 epsS)))))
        (rows g))
      (rows b))
    zeros

/-- The segment mean: the rows of h summed by their batch entry, over the segment sizes clamped below at one. -/
def pool (h : FVec Ideal S100000x128 .f32) (batch : IVec S100000 32) : FVec Ideal S2048x128 .f32 :=
  Host.divf
    (Host.scatterAdd scatter_S2048x128_S100000x1_S100000x128_1_0_0_1
      (broadcastInDim S2048x128 ![] bcast_S_S2048x128 zeroS)
      (broadcastInDim S100000x1 ![0] bcast_S100000_S100000x1_0 batch)
      h)
    (broadcastInDim S2048x128 ![0, 1] bcast_S2048x1_S2048x128_0_1
      (broadcastInDim S2048x1 ![0] bcast_S2048_S2048x1_0
        (maximumf
          (Host.scatterAdd scatter_S2048_S100000x1_S100000_n_0_0_1
            (broadcastInDim S2048 ![] bcast_S_S2048 zeroS)
            (broadcastInDim S100000x1 ![0] bcast_S100000_S100000x1_0 batch)
            (broadcastInDim S100000 ![] bcast_S_S100000 oneS))
          (broadcastInDim S2048 ![] bcast_S_S2048 oneS))))

/-- An affine map of the pooled rows. -/
def projOf (p : FVec Ideal S2048x128 .f32) (W : FVec Ideal S128x64 .f32) (b : FVec Ideal S64 .f32) : FVec Ideal S2048x64 .f32 :=
  addf (Host.dotGeneral dot_S2048x128_S128x64_S2048x64_1_0_0_1_n_n none p W)
    (broadcastInDim S2048x64 ![0, 1] bcast_S1x64_S2048x64_0_1 (broadcastInDim S1x64 ![1] bcast_S64_S1x64_1 b))

end Cert.ReferenceIdeal.Stages

end
-- ==== Proof.RefChain2.lean ====
/-
  The first layer's buffers after the first group of operations, each as its stage function of earlier buffers:
  unrolling the group's fold at the buffer reads off the composition of the operations that feed it, which is the
  stage function's definition.  The sums, the gather and the scatter-add stay folded throughout.
-/
import proofs.«161505_j35811437314143_1_alg».proof.Proof.RefChain1
import proofs.«161505_j35811437314143_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stages

variable (V : Valuation τ sig (Elt Ideal))

attribute [local irreducible] Host.reduceAdd Host.gather Host.scatterAdd in
set_option maxRecDepth 8192 in
/-- The source row of the edge list. -/
theorem L1_v1 : after (opsL1 (F := Ideal)) V (main_v1 : DevRef τ sig) = edgeRow0 (V (main_arg1 : DevRef τ sig)) := by
  simp only [after_cons, after_nil]
  rfl

attribute [local irreducible] Host.reduceAdd Host.gather Host.scatterAdd in
set_option maxRecDepth 8192 in
/-- The destination row of the edge list. -/
theorem L1_v3 : after (opsL1 (F := Ideal)) V (main_v3 : DevRef τ sig) = edgeRow1 (V (main_arg1 : DevRef τ sig)) := by
  simp only [after_cons, after_nil]
  rfl

attribute [local irreducible] Host.reduceAdd Host.gather Host.scatterAdd in
set_option maxRecDepth 8192 in
/-- The neighbour sum of the input features. -/
theorem L1_v18 : after (opsL1 (F := Ideal)) V (main_v18 : DevRef τ sig) = agg (V (main_arg0 : DevRef τ sig)) (V (main_arg1 : DevRef τ sig)) := by
  simp only [after_cons, after_nil]
  rfl

attribute [local irreducible] Host.reduceAdd Host.gather Host.scatterAdd in
set_option maxRecDepth 8192 in
/-- The perceptron's output is the stage function of the layer's input, its neighbour sum and the layer's slices of the stacked parameters. -/
theorem L1_v37 : after (opsL1 (F := Ideal)) V (main_v37 : DevRef τ sig) = zOf (V (main_arg0 : DevRef τ sig)) (after (opsL1 (F := Ideal)) V (main_v18 : DevRef τ sig)) (w1 0 (V (main_arg3 : DevRef τ sig))) (b1 0 (V (main_arg4 : DevRef τ sig))) (w2 0 (V (main_arg5 : DevRef τ sig))) (b2 0 (V (main_arg6 : DevRef τ sig))) := by
  simp only [after_cons, after_nil]
  rfl

attribute [local irreducible] Host.reduceAdd Host.gather Host.scatterAdd in
set_option maxRecDepth 8192 in
/-- The column mean. -/
theorem L1_v40 : after (opsL1 (F := Ideal)) V (main_v40 : DevRef τ sig) = meanOf (after (opsL1 (F := Ideal)) V (main_v37 : DevRef τ sig)) := by
  simp only [after_cons, after_nil]
  rfl

attribute [local irreducible] Host.reduceAdd Host.gather Host.scatterAdd in
set_option maxRecDepth 8192 in
/-- The column variance: the outlined function's body at this call, its correction argument the integer zero. -/
theorem L1_v41 : after (opsL1 (F := Ideal)) V (main_v41 : DevRef τ sig) = varOf (after (opsL1 (F := Ideal)) V (main_v37 : DevRef τ sig)) := by
  simp only [after_cons, after_nil]
  rfl

attribute [local irreducible] Host.reduceAdd Host.gather Host.scatterAdd in
set_option maxRecDepth 8192 in
/-- The normalised, scaled, shifted and clamped output. -/
theorem L1_v62 : after (opsL1 (F := Ideal)) V (main_v62 : DevRef τ sig) = bnOf (after (opsL1 (F := Ideal)) V (main_v37 : DevRef τ sig)) (after (opsL1 (F := Ideal)) V (main_v40 : DevRef τ sig)) (after (opsL1 (F := Ideal)) V (main_v41 : DevRef τ sig)) (gam 0 (V (main_arg7 : DevRef τ sig))) (bet 0 (V (main_arg8 : DevRef τ sig))) := by
  simp only [after_cons, after_nil]
  rfl

end Cert.ReferenceIdeal.RefRun

end
-- ==== Proof.RefChain3.lean ====
/-
  The second layer's buffers after the second group of operations, each as its stage function of earlier buffers
  (the first layer's output and the edge rows are read from the buffers the first group left).
-/
import proofs.«161505_j35811437314143_1_alg».proof.Proof.RefChain1
import proofs.«161505_j35811437314143_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stages

variable (V : Valuation τ sig (Elt Ideal))

attribute [local irreducible] Host.reduceAdd Host.gather Host.scatterAdd in
set_option maxRecDepth 8192 in
/-- The neighbour sum over the edge rows as this group finds them in their buffers. -/
theorem L2_v77_raw : after (opsL2 (F := Ideal)) V (main_v77 : DevRef τ sig) = Host.scatterAdd scatter_S100000x128_S400000x1_S400000x128_1_0_0_1 (broadcastInDim S100000x128 ![] bcast_S_S100000x128 zeroS) (wrapIdx (V (main_v3 : DevRef τ sig))) (Host.gather gather_S100000x128_S400000x1_S400000x128_1_0_n_n_0_1_1128 (V (main_v62 : DevRef τ sig)) (wrapIdx (V (main_v1 : DevRef τ sig)))) := by
  simp only [after_cons, after_nil]
  rfl

/-- The neighbour sum of the layer's input, the edge rows being those of the edge list. -/
theorem L2_v77 (e : IVec S2x400000 32) (h1 : V (main_v1 : DevRef τ sig) = edgeRow0 e) (h3 : V (main_v3 : DevRef τ sig) = edgeRow1 e) :
    after (opsL2 (F := Ideal)) V (main_v77 : DevRef τ sig) = agg (V (main_v62 : DevRef τ sig)) e := by
  rw [L2_v77_raw, h1, h3]
  rfl

attribute [local irreducible] Host.reduceAdd Host.gather Host.scatterAdd in
set_option maxRecDepth 8192 in
/-- The perceptron's output is the stage function of the layer's input, its neighbour sum and the layer's slices of the stacked parameters. -/
theorem L2_v96 : after (opsL2 (F := Ideal)) V (main_v96 : DevRef τ sig) = zOf (V (main_v62 : DevRef τ sig)) (after (opsL2 (F := Ideal)) V (main_v77 : DevRef τ sig)) (w1 1 (V (main_arg3 : DevRef τ sig))) (b1 1 (V (main_arg4 : DevRef τ sig))) (w2 1 (V (main_arg5 : DevRef τ sig))) (b2 1 (V (main_arg6 : DevRef τ sig))) := by
  simp only [after_cons, after_nil]
  rfl

attribute [local irreducible] Host.reduceAdd Host.gather Host.scatterAdd in
set_option maxRecDepth 8192 in
/-- The column mean. -/
theorem L2_v99 : after (opsL2 (F := Ideal)) V (main_v99 : DevRef τ sig) = meanOf (after (opsL2 (F := Ideal)) V (main_v96 : DevRef τ sig)) := by
  simp only [after_cons, after_nil]
  rfl

attribute [local irreducible] Host.reduceAdd Host.gather Host.scatterAdd in
set_option maxRecDepth 8192 in
/-- The column variance: the outlined function's body at this call, its correction argument the integer zero. -/
theorem L2_v100 : after (opsL2 (F := Ideal)) V (main_v100 : DevRef τ sig) = varOf (after (opsL2 (F := Ideal)) V (main_v96 : DevRef τ sig)) := by
  simp only [after_cons, after_nil]
  rfl

attribute [local irreducible] Host.reduceAdd Host.gather Host.scatterAdd in
set_option maxRecDepth 8192 in
/-- The normalised, scaled, shifted and clamped output. -/
theorem L2_v121 : after (opsL2 (F := Ideal)) V (main_v121 : DevRef τ sig) = bnOf (after (opsL2 (F := Ideal)) V (main_v96 : DevRef τ sig)) (after (opsL2 (F := Ideal)) V (main_v99 : DevRef τ sig)) (after (opsL2 (F := Ideal)) V (main_v100 : DevRef τ sig)) (gam 1 (V (main_arg7 : DevRef τ sig))) (bet 1 (V (main_arg8 : DevRef τ sig))) := by
  simp only [after_cons, after_nil]
  rfl

end Cert.ReferenceIdeal.RefRun

end
-- ==== Proof.RefChain4.lean ====
/-
  The third layer's buffers after the third group of operations, each as its stage function of earlier buffers
  (the second layer's output and the edge rows are read from the buffers the earlier groups left).
-/
import proofs.«161505_j35811437314143_1_alg».proof.Proof.RefChain1
import proofs.«161505_j35811437314143_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stages

variable (V : Valuation τ sig (Elt Ideal))

attribute [local irreducible] Host.reduceAdd Host.gather Host.scatterAdd in
set_option maxRecDepth 8192 in
/-- The neighbour sum over the edge rows as this group finds them in their buffers. -/
theorem L3_v136_raw : after (opsL3 (F := Ideal)) V (main_v136 : DevRef τ sig) = Host.scatterAdd scatter_S100000x128_S400000x1_S400000x128_1_0_0_1 (broadcastInDim S100000x128 ![] bcast_S_S100000x128 zeroS) (wrapIdx (V (main_v3 : DevRef τ sig))) (Host.gather gather_S100000x128_S400000x1_S400000x128_1_0_n_n_0_1_1128 (V (main_v121 : DevRef τ sig)) (wrapIdx (V (main_v1 : DevRef τ sig)))) := by
  simp only [after_cons, after_nil]
  rfl

/-- The neighbour sum of the layer's input, the edge rows being those of the edge list. -/
theorem L3_v136 (e : IVec S2x400000 32) (h1 : V (main_v1 : DevRef τ sig) = edgeRow0 e) (h3 : V (main_v3 : DevRef τ sig) = edgeRow1 e) :
    after (opsL3 (F := Ideal)) V (main_v136 : DevRef τ sig) = agg (V (main_v121 : DevRef τ sig)) e := by
  rw [L3_v136_raw, h1, h3]
  rfl

attribute [local irreducible] Host.reduceAdd Host.gather Host.scatterAdd in
set_option maxRecDepth 8192 in
/-- The perceptron's output is the stage function of the layer's input, its neighbour sum and the layer's slices of the stacked parameters. -/
theorem L3_v155 : after (opsL3 (F := Ideal)) V (main_v155 : DevRef τ sig) = zOf (V (main_v121 : DevRef τ sig)) (after (opsL3 (F := Ideal)) V (main_v136 : DevRef τ sig)) (w1 2 (V (main_arg3 : DevRef τ sig))) (b1 2 (V (main_arg4 : DevRef τ sig))) (w2 2 (V (main_arg5 : DevRef τ sig))) (b2 2 (V (main_arg6 : DevRef τ sig))) := by
  simp only [after_cons, after_nil]
  rfl

attribute [local irreducible] Host.reduceAdd Host.gather Host.scatterAdd in
set_option maxRecDepth 8192 in
/-- The column mean. -/
theorem L3_v158 : after (opsL3 (F := Ideal)) V (main_v158 : DevRef τ sig) = meanOf (after (opsL3 (F := Ideal)) V (main_v155 : DevRef τ sig)) := by
  simp only [after_cons, after_nil]
  rfl

attribute [local irreducible] Host.reduceAdd Host.gather Host.scatterAdd in
set_option maxRecDepth 8192 in
/-- The column variance: the outlined function's body at this call, its correction argument the integer zero. -/
theorem L3_v159 : after (opsL3 (F := Ideal)) V (main_v159 : DevRef τ sig) = varOf (after (opsL3 (F := Ideal)) V (main_v155 : DevRef τ sig)) := by
  simp only [after_cons, after_nil]
  rfl

attribute [local irreducible] Host.reduceAdd Host.gather Host.scatterAdd in
set_option maxRecDepth 8192 in
/-- The normalised, scaled, shifted and clamped output. -/
theorem L3_v180 : after (opsL3 (F := Ideal)) V (main_v180 : DevRef τ sig) = bnOf (after (opsL3 (F := Ideal)) V (main_v155 : DevRef τ sig)) (after (opsL3 (F := Ideal)) V (main_v158 : DevRef τ sig)) (after (opsL3 (F := Ideal)) V (main_v159 : DevRef τ sig)) (gam 2 (V (main_arg7 : DevRef τ sig))) (bet 2 (V (main_arg8 : DevRef τ sig))) := by
  simp only [after_cons, after_nil]
  rfl

end Cert.ReferenceIdeal.RefRun

end
-- ==== Proof.RefChain5.lean ====
/-
  The tail's buffers after the last group of operations: the segment mean of the third layer's output over the
  batch vector, and the two affine maps of it.
-/
import proofs.«161505_j35811437314143_1_alg».proof.Proof.RefChain1
import proofs.«161505_j35811437314143_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stages

variable (V : Valuation τ sig (Elt Ideal))

attribute [local irreducible] Host.reduceAdd Host.gather Host.scatterAdd in
set_option maxRecDepth 8192 in
/-- The segment mean. -/
theorem T_v192 : after (opsT (F := Ideal)) V (main_v192 : DevRef τ sig) = pool (V (main_v180 : DevRef τ sig)) (V (main_arg2 : DevRef τ sig)) := by
  simp only [after_cons, after_nil]
  rfl

attribute [local irreducible] Host.reduceAdd Host.gather Host.scatterAdd in
set_option maxRecDepth 8192 in
/-- The first affine map of the pooled rows. -/
theorem T_v196 : after (opsT (F := Ideal)) V (main_v196 : DevRef τ sig) = projOf (after (opsT (F := Ideal)) V (main_v192 : DevRef τ sig)) (V (main_arg9 : DevRef τ sig)) (V (main_arg10 : DevRef τ sig)) := by
  simp only [after_cons, after_nil]
  rfl

attribute [local irreducible] Host.reduceAdd Host.gather Host.scatterAdd in
set_option maxRecDepth 8192 in
/-- The second affine map of the pooled rows. -/
theorem T_v200 : after (opsT (F := Ideal)) V (main_v200 : DevRef τ sig) = projOf (after (opsT (F := Ideal)) V (main_v192 : DevRef τ sig)) (V (main_arg11 : DevRef τ sig)) (V (main_arg12 : DevRef τ sig)) := by
  simp only [after_cons, after_nil]
  rfl

end Cert.ReferenceIdeal.RefRun

end
-- ==== Proof.RefChain.lean ====
/-
  The reference program's buffers after the whole program, stage by stage.  The program's fold is the four groups'
  folds composed; a buffer written by one group is untouched by the later ones, so its final contents are that
  group's fold at it, which is the stage function of the buffers the stage reads — themselves final contents for
  the same reason — and of the arguments, which no operation writes.
-/
import proofs.«161505_j35811437314143_1_alg».proof.Proof.RefChain2
import proofs.«161505_j35811437314143_1_alg».proof.Proof.RefChain3
import proofs.«161505_j35811437314143_1_alg».proof.Proof.RefChain4
import proofs.«161505_j35811437314143_1_alg».proof.Proof.RefChain5

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stages

variable (V₀ : Valuation τ sig (Elt Ideal))

/-! ## A buffer's final contents are those after the last group that writes it -/

theorem A_of_none {r : Ref sig .tc} (h1 : r ∉ writesL1) (h2 : r ∉ writesL2) (h3 : r ∉ writesL3) (h4 : r ∉ writesT) :
    after (ops (F := Ideal)) V₀ (r : DevRef τ sig) = V₀ (r : DevRef τ sig) := by
  rw [after_ops, frameT _ h4, frameL3 _ h3, frameL2 _ h2, frameL1 _ h1]

theorem A_of_L1 {r : Ref sig .tc} (h2 : r ∉ writesL2) (h3 : r ∉ writesL3) (h4 : r ∉ writesT) :
    after (ops (F := Ideal)) V₀ (r : DevRef τ sig) = after (opsL1 (F := Ideal)) V₀ (r : DevRef τ sig) := by
  rw [after_ops, frameT _ h4, frameL3 _ h3, frameL2 _ h2]

theorem A_of_L2 {r : Ref sig .tc} (h3 : r ∉ writesL3) (h4 : r ∉ writesT) :
    after (ops (F := Ideal)) V₀ (r : DevRef τ sig)
      = after (opsL2 (F := Ideal)) (after (opsL1 (F := Ideal)) V₀) (r : DevRef τ sig) := by
  rw [after_ops, frameT _ h4, frameL3 _ h3]

theorem A_of_L3 {r : Ref sig .tc} (h4 : r ∉ writesT) :
    after (ops (F := Ideal)) V₀ (r : DevRef τ sig)
      = after (opsL3 (F := Ideal)) (after (opsL2 (F := Ideal)) (after (opsL1 (F := Ideal)) V₀)) (r : DevRef τ sig) := by
  rw [after_ops, frameT _ h4]

theorem A_of_T {r : Ref sig .tc} :
    after (ops (F := Ideal)) V₀ (r : DevRef τ sig)
      = after (opsT (F := Ideal)) (after (opsL3 (F := Ideal)) (after (opsL2 (F := Ideal)) (after (opsL1 (F := Ideal)) V₀))) (r : DevRef τ sig) := by
  rw [after_ops]

/-! ## The arguments: no operation writes them -/

theorem A_arg0 : after (ops (F := Ideal)) V₀ (main_arg0 : DevRef τ sig) = V₀ (main_arg0 : DevRef τ sig) :=
  A_of_none V₀ (r := main_arg0) (by decide) (by decide) (by decide) (by decide)

theorem A_arg1 : after (ops (F := Ideal)) V₀ (main_arg1 : DevRef τ sig) = V₀ (main_arg1 : DevRef τ sig) :=
  A_of_none V₀ (r := main_arg1) (by decide) (by decide) (by decide) (by decide)

theorem A_arg2 : after (ops (F := Ideal)) V₀ (main_arg2 : DevRef τ sig) = V₀ (main_arg2 : DevRef τ sig) :=
  A_of_none V₀ (r := main_arg2) (by decide) (by decide) (by decide) (by decide)

theorem A_arg3 : after (ops (F := Ideal)) V₀ (main_arg3 : DevRef τ sig) = V₀ (main_arg3 : DevRef τ sig) :=
  A_of_none V₀ (r := main_arg3) (by decide) (by decide) (by decide) (by decide)

theorem A_arg4 : after (ops (F := Ideal)) V₀ (main_arg4 : DevRef τ sig) = V₀ (main_arg4 : DevRef τ sig) :=
  A_of_none V₀ (r := main_arg4) (by decide) (by decide) (by decide) (by decide)

theorem A_arg5 : after (ops (F := Ideal)) V₀ (main_arg5 : DevRef τ sig) = V₀ (main_arg5 : DevRef τ sig) :=
  A_of_none V₀ (r := main_arg5) (by decide) (by decide) (by decide) (by decide)

theorem A_arg6 : after (ops (F := Ideal)) V₀ (main_arg6 : DevRef τ sig) = V₀ (main_arg6 : DevRef τ sig) :=
  A_of_none V₀ (r := main_arg6) (by decide) (by decide) (by decide) (by decide)

theorem A_arg7 : after (ops (F := Ideal)) V₀ (main_arg7 : DevRef τ sig) = V₀ (main_arg7 : DevRef τ sig) :=
  A_of_none V₀ (r := main_arg7) (by decide) (by decide) (by decide) (by decide)

theorem A_arg8 : after (ops (F := Ideal)) V₀ (main_arg8 : DevRef τ sig) = V₀ (main_arg8 : DevRef τ sig) :=
  A_of_none V₀ (r := main_arg8) (by decide) (by decide) (by decide) (by decide)

theorem A_arg9 : after (ops (F := Ideal)) V₀ (main_arg9 : DevRef τ sig) = V₀ (main_arg9 : DevRef τ sig) :=
  A_of_none V₀ (r := main_arg9) (by decide) (by decide) (by decide) (by decide)

theorem A_arg10 : after (ops (F := Ideal)) V₀ (main_arg10 : DevRef τ sig) = V₀ (main_arg10 : DevRef τ sig) :=
  A_of_none V₀ (r := main_arg10) (by decide) (by decide) (by decide) (by decide)

theorem A_arg11 : after (ops (F := Ideal)) V₀ (main_arg11 : DevRef τ sig) = V₀ (main_arg11 : DevRef τ sig) :=
  A_of_none V₀ (r := main_arg11) (by decide) (by decide) (by decide) (by decide)

theorem A_arg12 : after (ops (F := Ideal)) V₀ (main_arg12 : DevRef τ sig) = V₀ (main_arg12 : DevRef τ sig) :=
  A_of_none V₀ (r := main_arg12) (by decide) (by decide) (by decide) (by decide)

/-- The edge rows as the second and third groups find them: the first group's, untouched since. -/
theorem V1_v1 : after (opsL1 (F := Ideal)) V₀ (main_v1 : DevRef τ sig) = edgeRow0 (V₀ (main_arg1 : DevRef τ sig)) := L1_v1 V₀
theorem V1_v3 : after (opsL1 (F := Ideal)) V₀ (main_v3 : DevRef τ sig) = edgeRow1 (V₀ (main_arg1 : DevRef τ sig)) := L1_v3 V₀
theorem V2_v1 : after (opsL2 (F := Ideal)) (after (opsL1 (F := Ideal)) V₀) (main_v1 : DevRef τ sig) = edgeRow0 (V₀ (main_arg1 : DevRef τ sig)) :=
  (frameL2 _ (r := main_v1) (by decide)).trans (L1_v1 V₀)
theorem V2_v3 : after (opsL2 (F := Ideal)) (after (opsL1 (F := Ideal)) V₀) (main_v3 : DevRef τ sig) = edgeRow1 (V₀ (main_arg1 : DevRef τ sig)) :=
  (frameL2 _ (r := main_v3) (by decide)).trans (L1_v3 V₀)

/-! ## The first layer -/

theorem A_v18 : after (ops (F := Ideal)) V₀ (main_v18 : DevRef τ sig) = agg (V₀ (main_arg0 : DevRef τ sig)) (V₀ (main_arg1 : DevRef τ sig)) :=
  (A_of_L1 V₀ (r := main_v18) (by decide) (by decide) (by decide)).trans (L1_v18 V₀)

theorem A_v37 : after (ops (F := Ideal)) V₀ (main_v37 : DevRef τ sig) = zOf (V₀ (main_arg0 : DevRef τ sig)) (after (ops (F := Ideal)) V₀ (main_v18 : DevRef τ sig)) (w1 0 (V₀ (main_arg3 : DevRef τ sig))) (b1 0 (V₀ (main_arg4 : DevRef τ sig))) (w2 0 (V₀ (main_arg5 : DevRef τ sig))) (b2 0 (V₀ (main_arg6 : DevRef τ sig))) := by
  rw [A_of_L1 V₀ (r := main_v37) (by decide) (by decide) (by decide), A_of_L1 V₀ (r := main_v18) (by decide) (by decide) (by decide)]
  exact L1_v37 V₀

theorem A_v40 : after (ops (F := Ideal)) V₀ (main_v40 : DevRef τ sig) = meanOf (after (ops (F := Ideal)) V₀ (main_v37 : DevRef τ sig)) := by
  rw [A_of_L1 V₀ (r := main_v40) (by decide) (by decide) (by decide), A_of_L1 V₀ (r := main_v37) (by decide) (by decide) (by decide)]
  exact L1_v40 V₀

theorem A_v41 : after (ops (F := Ideal)) V₀ (main_v41 : DevRef τ sig) = varOf (after (ops (F := Ideal)) V₀ (main_v37 : DevRef τ sig)) := by
  rw [A_of_L1 V₀ (r := main_v41) (by decide) (by decide) (by decide), A_of_L1 V₀ (r := main_v37) (by decide) (by decide) (by decide)]
  exact L1_v41 V₀

theorem A_v62 : after (ops (F := Ideal)) V₀ (main_v62 : DevRef τ sig) = bnOf (after (ops (F := Ideal)) V₀ (main_v37 : DevRef τ sig)) (after (ops (F := Ideal)) V₀ (main_v40 : DevRef τ sig)) (after (ops (F := Ideal)) V₀ (main_v41 : DevRef τ sig)) (gam 0 (V₀ (main_arg7 : DevRef τ sig))) (bet 0 (V₀ (main_arg8 : DevRef τ sig))) := by
  rw [A_of_L1 V₀ (r := main_v62) (by decide) (by decide) (by decide), A_of_L1 V₀ (r := main_v37) (by decide) (by decide) (by decide), A_of_L1 V₀ (r := main_v40) (by decide) (by decide) (by decide), A_of_L1 V₀ (r := main_v41) (by decide) (by decide) (by decide)]
  exact L1_v62 V₀

/-! ## The second layer -/

theorem A_v77 : after (ops (F := Ideal)) V₀ (main_v77 : DevRef τ sig) = agg (after (ops (F := Ideal)) V₀ (main_v62 : DevRef τ sig)) (V₀ (main_arg1 : DevRef τ sig)) := by
  rw [A_of_L2 V₀ (r := main_v77) (by decide) (by decide), A_of_L1 V₀ (r := main_v62) (by decide) (by decide) (by decide)]
  exact L2_v77 _ (V₀ (main_arg1 : DevRef τ sig)) (V1_v1 V₀) (V1_v3 V₀)

theorem A_v96 : after (ops (F := Ideal)) V₀ (main_v96 : DevRef τ sig) = zOf (after (ops (F := Ideal)) V₀ (main_v62 : DevRef τ sig)) (after (ops (F := Ideal)) V₀ (main_v77 : DevRef τ sig)) (w1 1 (V₀ (main_arg3 : DevRef τ sig))) (b1 1 (V₀ (main_arg4 : DevRef τ sig))) (w2 1 (V₀ (main_arg5 : DevRef τ sig))) (b2 1 (V₀ (main_arg6 : DevRef τ sig))) := by
  rw [A_of_L2 V₀ (r := main_v96) (by decide) (by decide), A_of_L1 V₀ (r := main_v62) (by decide) (by decide) (by decide), A_of_L2 V₀ (r := main_v77) (by decide) (by decide), L2_v96,
    frameL1 _ (r := main_arg3) (by decide),
    frameL1 _ (r := main_arg4) (by decide),
    frameL1 _ (r := main_arg5) (by decide),
    frameL1 _ (r := main_arg6) (by decide)]

theorem A_v99 : after (ops (F := Ideal)) V₀ (main_v99 : DevRef τ sig) = meanOf (after (ops (F := Ideal)) V₀ (main_v96 : DevRef τ sig)) := by
  rw [A_of_L2 V₀ (r := main_v99) (by decide) (by decide), A_of_L2 V₀ (r := main_v96) (by decide) (by decide)]
  exact L2_v99 _

theorem A_v100 : after (ops (F := Ideal)) V₀ (main_v100 : DevRef τ sig) = varOf (after (ops (F := Ideal)) V₀ (main_v96 : DevRef τ sig)) := by
  rw [A_of_L2 V₀ (r := main_v100) (by decide) (by decide), A_of_L2 V₀ (r := main_v96) (by decide) (by decide)]
  exact L2_v100 _

theorem A_v121 : after (ops (F := Ideal)) V₀ (main_v121 : DevRef τ sig) = bnOf (after (ops (F := Ideal)) V₀ (main_v96 : DevRef τ sig)) (after (ops (F := Ideal)) V₀ (main_v99 : DevRef τ sig)) (after (ops (F := Ideal)) V₀ (main_v100 : DevRef τ sig)) (gam 1 (V₀ (main_arg7 : DevRef τ sig))) (bet 1 (V₀ (main_arg8 : DevRef τ sig))) := by
  rw [A_of_L2 V₀ (r := main_v121) (by decide) (by decide), A_of_L2 V₀ (r := main_v96) (by decide) (by decide), A_of_L2 V₀ (r := main_v99) (by decide) (by decide), A_of_L2 V₀ (r := main_v100) (by decide) (by decide), L2_v121,
    frameL1 _ (r := main_arg7) (by decide),
    frameL1 _ (r := main_arg8) (by decide)]

/-! ## The third layer -/

theorem A_v136 : after (ops (F := Ideal)) V₀ (main_v136 : DevRef τ sig) = agg (after (ops (F := Ideal)) V₀ (main_v121 : DevRef τ sig)) (V₀ (main_arg1 : DevRef τ sig)) := by
  rw [A_of_L3 V₀ (r := main_v136) (by decide), A_of_L2 V₀ (r := main_v121) (by decide) (by decide)]
  exact L3_v136 _ (V₀ (main_arg1 : DevRef τ sig)) (V2_v1 V₀) (V2_v3 V₀)

theorem A_v155 : after (ops (F := Ideal)) V₀ (main_v155 : DevRef τ sig) = zOf (after (ops (F := Ideal)) V₀ (main_v121 : DevRef τ sig)) (after (ops (F := Ideal)) V₀ (main_v136 : DevRef τ sig)) (w1 2 (V₀ (main_arg3 : DevRef τ sig))) (b1 2 (V₀ (main_arg4 : DevRef τ sig))) (w2 2 (V₀ (main_arg5 : DevRef τ sig))) (b2 2 (V₀ (main_arg6 : DevRef τ sig))) := by
  rw [A_of_L3 V₀ (r := main_v155) (by decide), A_of_L2 V₀ (r := main_v121) (by decide) (by decide), A_of_L3 V₀ (r := main_v136) (by decide), L3_v155,
    frameL2 _ (r := main_arg3) (by decide),
    frameL1 _ (r := main_arg3) (by decide),
    frameL2 _ (r := main_arg4) (by decide),
    frameL1 _ (r := main_arg4) (by decide),
    frameL2 _ (r := main_arg5) (by decide),
    frameL1 _ (r := main_arg5) (by decide),
    frameL2 _ (r := main_arg6) (by decide),
    frameL1 _ (r := main_arg6) (by decide)]

theorem A_v158 : after (ops (F := Ideal)) V₀ (main_v158 : DevRef τ sig) = meanOf (after (ops (F := Ideal)) V₀ (main_v155 : DevRef τ sig)) := by
  rw [A_of_L3 V₀ (r := main_v158) (by decide), A_of_L3 V₀ (r := main_v155) (by decide)]
  exact L3_v158 _

theorem A_v159 : after (ops (F := Ideal)) V₀ (main_v159 : DevRef τ sig) = varOf (after (ops (F := Ideal)) V₀ (main_v155 : DevRef τ sig)) := by
  rw [A_of_L3 V₀ (r := main_v159) (by decide), A_of_L3 V₀ (r := main_v155) (by decide)]
  exact L3_v159 _

theorem A_v180 : after (ops (F := Ideal)) V₀ (main_v180 : DevRef τ sig) = bnOf (after (ops (F := Ideal)) V₀ (main_v155 : DevRef τ sig)) (after (ops (F := Ideal)) V₀ (main_v158 : DevRef τ sig)) (after (ops (F := Ideal)) V₀ (main_v159 : DevRef τ sig)) (gam 2 (V₀ (main_arg7 : DevRef τ sig))) (bet 2 (V₀ (main_arg8 : DevRef τ sig))) := by
  rw [A_of_L3 V₀ (r := main_v180) (by decide), A_of_L3 V₀ (r := main_v155) (by decide), A_of_L3 V₀ (r := main_v158) (by decide), A_of_L3 V₀ (r := main_v159) (by decide), L3_v180,
    frameL2 _ (r := main_arg7) (by decide),
    frameL1 _ (r := main_arg7) (by decide),
    frameL2 _ (r := main_arg8) (by decide),
    frameL1 _ (r := main_arg8) (by decide)]

/-! ## The tail -/

theorem A_v192 : after (ops (F := Ideal)) V₀ (main_v192 : DevRef τ sig) = pool (after (ops (F := Ideal)) V₀ (main_v180 : DevRef τ sig)) (V₀ (main_arg2 : DevRef τ sig)) := by
  rw [A_of_T V₀ (r := main_v192), A_of_L3 V₀ (r := main_v180) (by decide), T_v192,
    frameL3 _ (r := main_arg2) (by decide),
    frameL2 _ (r := main_arg2) (by decide),
    frameL1 _ (r := main_arg2) (by decide)]

theorem A_v196 : after (ops (F := Ideal)) V₀ (main_v196 : DevRef τ sig) = projOf (after (ops (F := Ideal)) V₀ (main_v192 : DevRef τ sig)) (V₀ (main_arg9 : DevRef τ sig)) (V₀ (main_arg10 : DevRef τ sig)) := by
  rw [A_of_T V₀ (r := main_v196), A_of_T V₀ (r := main_v192), T_v196,
    frameL3 _ (r := main_arg9) (by decide),
    frameL2 _ (r := main_arg9) (by decide),
    frameL1 _ (r := main_arg9) (by decide),
    frameL3 _ (r := main_arg10) (by decide),
    frameL2 _ (r := main_arg10) (by decide),
    frameL1 _ (r := main_arg10) (by decide)]

theorem A_v200 : after (ops (F := Ideal)) V₀ (main_v200 : DevRef τ sig) = projOf (after (ops (F := Ideal)) V₀ (main_v192 : DevRef τ sig)) (V₀ (main_arg11 : DevRef τ sig)) (V₀ (main_arg12 : DevRef τ sig)) := by
  rw [A_of_T V₀ (r := main_v200), A_of_T V₀ (r := main_v192), T_v200,
    frameL3 _ (r := main_arg11) (by decide),
    frameL2 _ (r := main_arg11) (by decide),
    frameL1 _ (r := main_arg11) (by decide),
    frameL3 _ (r := main_arg12) (by decide),
    frameL2 _ (r := main_arg12) (by decide),
    frameL1 _ (r := main_arg12) (by decide)]

end Cert.ReferenceIdeal.RefRun

end
-- ==== Proof.Spec.lean ====
/-
  The mathematics both programs compute, index by index, on the extended reals.

  One graph-convolution layer: the node features `h` and their neighbour sums `a` go through a two-layer perceptron
  row by row (`mlp`); each output column is then normalised by its mean and variance over the 100000 rows, scaled,
  shifted and clamped at zero (`bn`).  The two programs differ in one place only: one takes the column variance as the
  mean of squares minus the square of the mean (`varK`), the other as the mean of squared deviations (`varR`).
  After three layers the pooled rows go through two affine maps (`proj`).
-/
import Idealize.ShloMosaic.PureOps.Ideal
import Idealize.ShloMosaic.Lib.ValueIdx

noncomputable section

namespace Cert.Spec

open Idealize.ShloMosaic Idealize.ShloMosaic.ValueIdx

/-- The float word of zero, of the batch-norm epsilon and of the row count, as the programs spell them. -/
def zero : EReal := Ideal.ofBits .f32 0x00000000#32
def eps : EReal := Ideal.ofBits .f32 0x3727C5AC#32
def nNodes : EReal := Ideal.ofBits .f32 0x47C35000#32

/-- A rank-2 array read by its two coordinates, and a [1, n] array read along its row. -/
def cur2 {n0 n1 : Nat} (A : (⟨2, ![n0, n1]⟩ : Shape).Idx → EReal) : Fin n0 → Fin n1 → EReal := fun p q => A (ix2 p q)
def row {n1 : Nat} (A : (⟨2, ![1, n1]⟩ : Shape).Idx → EReal) : Fin n1 → EReal := fun q => A (ix2 0 q)
def vec {n : Nat} (A : (⟨1, ![n]⟩ : Shape).Idx → EReal) : Fin n → EReal := fun q => A (ix1 q)

/-- The two-layer perceptron of one graph-convolution layer at row `i`, column `j`:
    `Σ_k max (Σ_l (h i l + a i l) · W1 l k + b1 k) 0 · W2 k j + b2 j`. -/
def mlp (h a : Fin 100000 → Fin 128 → EReal) (W1 : Fin 128 → Fin 128 → EReal) (b1 : Fin 128 → EReal)
    (W2 : Fin 128 → Fin 128 → EReal) (b2 : Fin 128 → EReal) : Fin 100000 → Fin 128 → EReal :=
  fun i j => (∑ k : Fin 128, max ((∑ l : Fin 128, (h i l + a i l) * W1 l k) + b1 k) zero * W2 k j) + b2 j

/-- Column sums over the 100000 rows, of the entries and of their squares. -/
def colSum (z : Fin 100000 → Fin 128 → EReal) : Fin 128 → EReal := fun j => ∑ i : Fin 100000, z i j
def colSumSq (z : Fin 100000 → Fin 128 → EReal) : Fin 128 → EReal := fun j => ∑ i : Fin 100000, z i j * z i j

/-- The column mean. -/
def mean (z : Fin 100000 → Fin 128 → EReal) : Fin 128 → EReal := fun j => Ideal.div (colSum z j) nNodes

/-- The column variance as the mean of squares minus the square of the mean. -/
def varK (z : Fin 100000 → Fin 128 → EReal) : Fin 128 → EReal :=
  fun j => Ideal.div (colSumSq z j) nNodes - mean z j * mean z j

/-- The column variance as the mean of the squared deviations from the mean. -/
def varR (z : Fin 100000 → Fin 128 → EReal) : Fin 128 → EReal :=
  fun j => Ideal.div (∑ i : Fin 100000, (z i j - mean z j) * (z i j - mean z j)) nNodes

/-- Normalise, scale, shift, clamp at zero. -/
def bn (z : Fin 100000 → Fin 128 → EReal) (mu var γ β : Fin 128 → EReal) : Fin 100000 → Fin 128 → EReal :=
  fun i j => max ((z i j - mu j) * Ideal.rsqrt (var j + eps) * γ j + β j) zero

/-- An affine map of the pooled rows: `Σ_k p i k · W k j + b j`. -/
def proj (p : Fin 2048 → Fin 128 → EReal) (W : Fin 128 → Fin 64 → EReal) (b : Fin 64 → EReal) : Fin 2048 → Fin 64 → EReal :=
  fun i j => (∑ k : Fin 128, p i k * W k j) + b j

end Cert.Spec

end
-- ==== Proof.KHost.lean ====
/-
  The host operations between the kernel regions, as named functions, and what they hold index by index.

  Between two regions the program slices one layer's weights out of the stacked parameters, forms the neighbour sums
  (a gather of the rows an edge list names, scatter-added into a zero array), and turns a region's two accumulated
  rows — column sums and column sums of squares — into the mean row and the variance row (mean of squares minus
  squared mean).  The neighbour sums and the final pooling are kept whole: both programs apply the very same
  operations, so they are never opened here.
-/
import proofs.«161505_j35811437314143_1_alg».proof.KernelIdeal
import proofs.«161505_j35811437314143_1_alg».proof.Proof.Gen.KernelIdeal
import proofs.«161505_j35811437314143_1_alg».proof.Proof.Spec
import Idealize.ShloMosaic.PureOps.Ideal
import Idealize.ShloMosaic.Lib.ValueIdx
import Idealize.ShloMosaic.Lib.Pipeline.Value
import Idealize.ShloMosaic.Lib.ValueLayout

noncomputable section

namespace Cert.KernelIdeal.KHost

open Idealize.ShloMosaic Idealize.ShloMosaic.ValueIdx Cert.KernelIdeal Cert.KernelIdeal.Facts₀ Cert.KernelIdeal.Facts Cert.Spec

/-! ## The edge list's two rows, wrapped into range, and the neighbour sums -/

def raw1 (E : IVec S2x400000 32) : IVec S400000 32 :=
  shapeCast S400000 (extractStridedSlice S1x400000 ![0, 0] E slices_S2x400000_S1x400000_0_0) shapeCasts_S1x400000_S400000
def raw3 (E : IVec S2x400000 32) : IVec S400000 32 :=
  shapeCast S400000 (extractStridedSlice S1x400000 ![1, 0] E slices_S2x400000_S1x400000_1_0) shapeCasts_S1x400000_S400000

/-- A negative index is moved up by the row count; the result is a column of index words. -/
def nidx (r : IVec S400000 32) : IVec S400000x1 32 :=
  broadcastInDim S400000x1 ![0] bcast_S400000_S400000x1_0
    (select (cmpi .slt r (broadcastInDim S400000 ![] bcast_S_S400000 (constantI S_ 32 0#32)))
      (addi r (broadcastInDim S400000 ![] bcast_S_S400000 (constantI S_ 32 100000#32))) r)

/-- The neighbour sums of the rows `h` along the edges `r1 → r3`. -/
def aggOf (h : FVec Ideal S100000x128 .f32) (r1 r3 : IVec S400000 32) : FVec Ideal S100000x128 .f32 :=
  Host.scatterAdd scatter_S100000x128_S400000x1_S400000x128_1_0_0_1
    (broadcastInDim S100000x128 ![] bcast_S_S100000x128 (constant S_ .f32 0x00000000#32))
    (nidx r3)
    (Host.gather gather_S100000x128_S400000x1_S400000x128_1_0_n_n_0_1_1128 h (nidx r1))

/-- The rows pooled per graph: segment sums divided by the segment sizes (at least one). -/
def poolOf (h : FVec Ideal S100000x128 .f32) (Bt : IVec S100000 32) : FVec Ideal S2048x128 .f32 :=
  Host.divf
    (Host.scatterAdd scatter_S2048x128_S100000x1_S100000x128_1_0_0_1
      (broadcastInDim S2048x128 ![] bcast_S_S2048x128 (constant S_ .f32 0x00000000#32))
      (broadcastInDim S100000x1 ![0] bcast_S100000_S100000x1_0 Bt) h)
    (broadcastInDim S2048x128 ![0, 1] bcast_S2048x1_S2048x128_0_1
      (broadcastInDim S2048x1 ![0] bcast_S2048_S2048x1_0
        (maximumf
          (Host.scatterAdd scatter_S2048_S100000x1_S100000_n_0_0_1
            (broadcastInDim S2048 ![] bcast_S_S2048 (constant S_ .f32 0x00000000#32))
            (broadcastInDim S100000x1 ![0] bcast_S100000_S100000x1_0 Bt)
            (broadcastInDim S100000 ![] bcast_S_S100000 (constant S_ .f32 0x3F800000#32)))
          (broadcastInDim S2048 ![] bcast_S_S2048 (constant S_ .f32 0x3F800000#32)))))

/-! ## One layer's parameters out of the stacks -/

def wsl0 (Ws : FVec Ideal S3x128x128 .f32) : FVec Ideal S128x128 .f32 :=
  shapeCast S128x128 (extractStridedSlice S1x128x128 ![0, 0, 0] Ws slices_S3x128x128_S1x128x128_0_0_0) shapeCasts_S1x128x128_S128x128
def wsl1 (Ws : FVec Ideal S3x128x128 .f32) : FVec Ideal S128x128 .f32 :=
  shapeCast S128x128 (extractStridedSlice S1x128x128 ![1, 0, 0] Ws slices_S3x128x128_S1x128x128_1_0_0) shapeCasts_S1x128x128_S128x128
def wsl2 (Ws : FVec Ideal S3x128x128 .f32) : FVec Ideal S128x128 .f32 :=
  shapeCast S128x128 (extractStridedSlice S1x128x128 ![2, 0, 0] Ws slices_S3x128x128_S1x128x128_2_0_0) shapeCasts_S1x128x128_S128x128
def bsl0 (Bs : FVec Ideal S3x128 .f32) : FVec Ideal S128 .f32 :=
  shapeCast S128 (extractStridedSlice S1x128 ![0, 0] Bs slices_S3x128_S1x128_0_0) shapeCasts_S1x128_S128
def bsl1 (Bs : FVec Ideal S3x128 .f32) : FVec Ideal S128 .f32 :=
  shapeCast S128 (extractStridedSlice S1x128 ![1, 0] Bs slices_S3x128_S1x128_1_0) shapeCasts_S1x128_S128
def bsl2 (Bs : FVec Ideal S3x128 .f32) : FVec Ideal S128 .f32 :=
  shapeCast S128 (extractStridedSlice S1x128 ![2, 0] Bs slices_S3x128_S1x128_2_0) shapeCasts_S1x128_S128
/-- A vector laid out as one row. -/
def toRow (v : FVec Ideal S128 .f32) : FVec Ideal S1x128 .f32 := shapeCast S1x128 v shapeCasts_S128_S1x128
def toRow64 (v : FVec Ideal S64 .f32) : FVec Ideal S1x64 .f32 := shapeCast S1x64 v shapeCasts_S64_S1x64

/-! ## The statistics rows out of the accumulated rows -/

def meanV (S : FVec Ideal S1x128 .f32) : FVec Ideal S128 .f32 :=
  Host.divf (shapeCast S128 S shapeCasts_S1x128_S128) (broadcastInDim S128 ![] bcast_S_S128 (constant S_ .f32 0x47C35000#32))
def varV (S SS : FVec Ideal S1x128 .f32) : FVec Ideal S128 .f32 :=
  subf (Host.divf (shapeCast S128 SS shapeCasts_S1x128_S128) (broadcastInDim S128 ![] bcast_S_S128 (constant S_ .f32 0x47C35000#32)))
    (mulf (meanV S) (meanV S))

/-! ## Read index by index -/

theorem wsl0_apply (Ws : FVec Ideal S3x128x128 .f32) (l k : Fin 128) : wsl0 Ws (ix2 l k) = Ws (ix3 (0 : Fin 3) l k) := by
  unfold wsl0
  rw [shapeCast_1ab_ab_apply]
  exact extractStridedSlice_apply _ _ _ _ (ix3 (0 : Fin 3) l k) (fun a => by
    match a with | ⟨0, _⟩ => rfl | ⟨1, _⟩ => exact (Nat.zero_add _).symm | ⟨2, _⟩ => exact (Nat.zero_add _).symm)
theorem wsl1_apply (Ws : FVec Ideal S3x128x128 .f32) (l k : Fin 128) : wsl1 Ws (ix2 l k) = Ws (ix3 (1 : Fin 3) l k) := by
  unfold wsl1
  rw [shapeCast_1ab_ab_apply]
  exact extractStridedSlice_apply _ _ _ _ (ix3 (1 : Fin 3) l k) (fun a => by
    match a with | ⟨0, _⟩ => rfl | ⟨1, _⟩ => exact (Nat.zero_add _).symm | ⟨2, _⟩ => exact (Nat.zero_add _).symm)
theorem wsl2_apply (Ws : FVec Ideal S3x128x128 .f32) (l k : Fin 128) : wsl2 Ws (ix2 l k) = Ws (ix3 (2 : Fin 3) l k) := by
  unfold wsl2
  rw [shapeCast_1ab_ab_apply]
  exact extractStridedSlice_apply _ _ _ _ (ix3 (2 : Fin 3) l k) (fun a => by
    match a with | ⟨0, _⟩ => rfl | ⟨1, _⟩ => exact (Nat.zero_add _).symm | ⟨2, _⟩ => exact (Nat.zero_add _).symm)

theorem bsl0_apply (Bs : FVec Ideal S3x128 .f32) (k : Fin 128) : bsl0 Bs (ix1 k) = Bs (ix2 (0 : Fin 3) k) := by
  unfold bsl0
  rw [shapeCast_1a_a_apply]
  exact extractStridedSlice_apply _ _ _ _ (ix2 (0 : Fin 3) k) (fun a => by
    match a with | ⟨0, _⟩ => rfl | ⟨1, _⟩ => exact (Nat.zero_add _).symm)
theorem bsl1_apply (Bs : FVec Ideal S3x128 .f32) (k : Fin 128) : bsl1 Bs (ix1 k) = Bs (ix2 (1 : Fin 3) k) := by
  unfold bsl1
  rw [shapeCast_1a_a_apply]
  exact extractStridedSlice_apply _ _ _ _ (ix2 (1 : Fin 3) k) (fun a => by
    match a with | ⟨0, _⟩ => rfl | ⟨1, _⟩ => exact (Nat.zero_add _).symm)
theorem bsl2_apply (Bs : FVec Ideal S3x128 .f32) (k : Fin 128) : bsl2 Bs (ix1 k) = Bs (ix2 (2 : Fin 3) k) := by
  unfold bsl2
  rw [shapeCast_1a_a_apply]
  exact extractStridedSlice_apply _ _ _ _ (ix2 (2 : Fin 3) k) (fun a => by
    match a with | ⟨0, _⟩ => rfl | ⟨1, _⟩ => exact (Nat.zero_add _).symm)

theorem toRow_apply (v : FVec Ideal S128 .f32) (k : Fin 128) : toRow v (ix2 (0 : Fin 1) k) = v (ix1 k) := by
  unfold toRow; exact shapeCast_a_1a_apply v _ 0 k
theorem toRow64_apply (v : FVec Ideal S64 .f32) (k : Fin 64) : toRow64 v (ix2 (0 : Fin 1) k) = v (ix1 k) := by
  unfold toRow64; exact shapeCast_a_1a_apply v _ 0 k

/-- The mean row: the accumulated column sum over the row count. -/
theorem meanV_apply (S : FVec Ideal S1x128 .f32) (q : Fin 128) : meanV S (ix1 q) = Ideal.div (S (ix2 (0 : Fin 1) q)) nNodes := by
  unfold meanV
  show Ideal.div (shapeCast S128 S shapeCasts_S1x128_S128 (ix1 q)) _ = _
  rw [shapeCast_1a_a_apply]
  rfl
/-- The variance row: mean of squares minus squared mean. -/
theorem varV_apply (S SS : FVec Ideal S1x128 .f32) (q : Fin 128) :
    varV S SS (ix1 q) = Ideal.div (SS (ix2 (0 : Fin 1) q)) nNodes - Ideal.div (S (ix2 (0 : Fin 1) q)) nNodes * Ideal.div (S (ix2 (0 : Fin 1) q)) nNodes := by
  unfold varV
  show Ideal.div (shapeCast S128 SS shapeCasts_S1x128_S128 (ix1 q)) _ - meanV S (ix1 q) * meanV S (ix1 q) = _
  rw [shapeCast_1a_a_apply, meanV_apply]
  rfl

end Cert.KernelIdeal.KHost

end
-- ==== Proof.KChainA.lean ====
import proofs.«161505_j35811437314143_1_alg».proof.Proof.Gen.KernelIdeal.Frame
import proofs.«161505_j35811437314143_1_alg».proof.Proof.KHost

set_option maxRecDepth 16384

noncomputable section

namespace Cert.KernelIdeal.KChainA

open Idealize.ShloMosaic Idealize.ShloMosaic.TcCoe Idealize.ShloMosaic.StableHlo Idealize.ShloMosaic.ValueIdx Idealize.SL.Sem
open Cert.KernelIdeal Cert.KernelIdeal.Gen Cert.KernelIdeal.KHost Cert.Spec

variable (m : (ℓ : Loc nD τ sig) → Buf (Elt Ideal) ℓ) (ρ : Dev nD → PrngReg) (c : Dev nD)

/-- No operation of a host stretch writes the buffer: the stretch leaves it as it was. -/
macro "host_keep " ops:ident : tactic =>
  `(tactic| (refine StableHlo.after_of_forall_not_mem _ _ (List.forall_iff_forall_mem.mp ?_)
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## After the first host stretch: region 0's operands -/

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  host_keep hostOps0

theorem W1_v1 : W1 m ρ c (Proc.devRef .tc main_v1) = raw1 (m ((c : Thread nD τ).loc main_arg1)) := by
  show StableHlo.after hostOps0 (W0 m ρ c) (Proc.devRef .tc main_v1) = _
  after_results_simp
  rfl
theorem W1_v3 : W1 m ρ c (Proc.devRef .tc main_v3) = raw3 (m ((c : Thread nD τ).loc main_arg1)) := by
  show StableHlo.after hostOps0 (W0 m ρ c) (Proc.devRef .tc main_v3) = _
  after_results_simp
  rfl
theorem W1_v18 : W1 m ρ c (Proc.devRef .tc main_v18)
    = aggOf (m ((c : Thread nD τ).loc main_arg0)) (raw1 (m ((c : Thread nD τ).loc main_arg1))) (raw3 (m ((c : Thread nD τ).loc main_arg1))) := by
  show StableHlo.after hostOps0 (W0 m ρ c) (Proc.devRef .tc main_v18) = _
  after_results_simp
  rfl
theorem W1_v20 : W1 m ρ c (Proc.devRef .tc main_v20) = wsl0 (m ((c : Thread nD τ).loc main_arg3)) := by
  show StableHlo.after hostOps0 (W0 m ρ c) (Proc.devRef .tc main_v20) = _
  after_results_simp
  rfl
theorem W1_v24 : W1 m ρ c (Proc.devRef .tc main_v24) = wsl0 (m ((c : Thread nD τ).loc main_arg5)) := by
  show StableHlo.after hostOps0 (W0 m ρ c) (Proc.devRef .tc main_v24) = _
  after_results_simp
  rfl
theorem W1_v27 : W1 m ρ c (Proc.devRef .tc main_v27) = toRow (bsl0 (m ((c : Thread nD τ).loc main_arg4))) := by
  show StableHlo.after hostOps0 (W0 m ρ c) (Proc.devRef .tc main_v27) = _
  after_results_simp
  rfl
theorem W1_v28 : W1 m ρ c (Proc.devRef .tc main_v28) = toRow (bsl0 (m ((c : Thread nD τ).loc main_arg6))) := by
  show StableHlo.after hostOps0 (W0 m ρ c) (Proc.devRef .tc main_v28) = _
  after_results_simp
  rfl

/-- One layer's perceptron output, row by row, from the layer's input rows `h`, the edge list and the layer's
    parameters: the neighbour sums are those of `h` itself. -/
def Zof (h : FVec Ideal S100000x128 .f32) (E : IVec S2x400000 32) (W1 : Fin 128 → Fin 128 → EReal) (b1 : Fin 128 → EReal)
    (W2 : Fin 128 → Fin 128 → EReal) (b2 : Fin 128 → EReal) : Fin 100000 → Fin 128 → EReal :=
  mlp (cur2 h) (cur2 (aggOf h (raw1 E) (raw3 E))) W1 b1 W2 b2

end Cert.KernelIdeal.KChainA

end
-- ==== Proof.KPull.lean ====
import proofs.«161505_j35811437314143_1_alg».proof.Proof.Gen.KernelIdeal.Frame
import proofs.«161505_j35811437314143_1_alg».proof.Proof.KHost
import proofs.«161505_j35811437314143_1_alg».proof.Proof.KChainA
set_option maxRecDepth 16384

noncomputable section

namespace Cert.KernelIdeal.KPull

open Idealize.ShloMosaic Idealize.ShloMosaic.TcCoe Idealize.ShloMosaic.StableHlo Idealize.ShloMosaic.ValueIdx Idealize.SL.Sem
open Cert.KernelIdeal Cert.KernelIdeal.Gen Cert.KernelIdeal.KHost Cert.KernelIdeal.KChainA Cert.Spec

variable (m : (ℓ : Loc nD τ sig) → Buf (Elt Ideal) ℓ) (ρ : Dev nD → PrngReg) (c : Dev nD)

/-- No operation of a host stretch writes the buffer: the stretch leaves it as it was. -/
macro "host_keep " ops:ident : tactic =>
  `(tactic| (refine StableHlo.after_of_forall_not_mem _ _ (List.forall_iff_forall_mem.mp ?_)
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## Buffers no later operation writes: read at a later boundary they hold what they held at launch (a stacked
    parameter) or after the first host stretch (the two rows of the edge list) -/
theorem W2_arg7 : W2 m ρ c (Proc.devRef .tc main_arg7) = m ((c : Thread nD τ).loc main_arg7) :=
  ((W2_of_ne m ρ c main_arg7 (by decide)).trans (by host_keep hostOps0 : W1 m ρ c (Proc.devRef .tc main_arg7) = W0 m ρ c (Proc.devRef .tc main_arg7))).trans rfl
theorem W2_arg8 : W2 m ρ c (Proc.devRef .tc main_arg8) = m ((c : Thread nD τ).loc main_arg8) :=
  ((W2_of_ne m ρ c main_arg8 (by decide)).trans (by host_keep hostOps0 : W1 m ρ c (Proc.devRef .tc main_arg8) = W0 m ρ c (Proc.devRef .tc main_arg8))).trans rfl
theorem W4_arg3 : W4 m ρ c (Proc.devRef .tc main_arg3) = m ((c : Thread nD τ).loc main_arg3) :=
  ((((W4_of_ne m ρ c main_arg3 (by decide)).trans (by host_keep hostOps1 : W3 m ρ c (Proc.devRef .tc main_arg3) = W2 m ρ c (Proc.devRef .tc main_arg3))).trans (W2_of_ne m ρ c main_arg3 (by decide))).trans (by host_keep hostOps0 : W1 m ρ c (Proc.devRef .tc main_arg3) = W0 m ρ c (Proc.devRef .tc main_arg3))).trans rfl
theorem W4_arg4 : W4 m ρ c (Proc.devRef .tc main_arg4) = m ((c : Thread nD τ).loc main_arg4) :=
  ((((W4_of_ne m ρ c main_arg4 (by decide)).trans (by host_keep hostOps1 : W3 m ρ c (Proc.devRef .tc main_arg4) = W2 m ρ c (Proc.devRef .tc main_arg4))).trans (W2_of_ne m ρ c main_arg4 (by decide))).trans (by host_keep hostOps0 : W1 m ρ c (Proc.devRef .tc main_arg4) = W0 m ρ c (Proc.devRef .tc main_arg4))).trans rfl
theorem W4_arg5 : W4 m ρ c (Proc.devRef .tc main_arg5) = m ((c : Thread nD τ).loc main_arg5) :=
  ((((W4_of_ne m ρ c main_arg5 (by decide)).trans (by host_keep hostOps1 : W3 m ρ c (Proc.devRef .tc main_arg5) = W2 m ρ c (Proc.devRef .tc main_arg5))).trans (W2_of_ne m ρ c main_arg5 (by decide))).trans (by host_keep hostOps0 : W1 m ρ c (Proc.devRef .tc main_arg5) = W0 m ρ c (Proc.devRef .tc main_arg5))).trans rfl
theorem W4_arg6 : W4 m ρ c (Proc.devRef .tc main_arg6) = m ((c : Thread nD τ).loc main_arg6) :=
  ((((W4_of_ne m ρ c main_arg6 (by decide)).trans (by host_keep hostOps1 : W3 m ρ c (Proc.devRef .tc main_arg6) = W2 m ρ c (Proc.devRef .tc main_arg6))).trans (W2_of_ne m ρ c main_arg6 (by decide))).trans (by host_keep hostOps0 : W1 m ρ c (Proc.devRef .tc main_arg6) = W0 m ρ c (Proc.devRef .tc main_arg6))).trans rfl
theorem W6_arg7 : W6 m ρ c (Proc.devRef .tc main_arg7) = m ((c : Thread nD τ).loc main_arg7) :=
  ((((((W6_of_ne m ρ c main_arg7 (by decide)).trans (by host_keep hostOps2 : W5 m ρ c (Proc.devRef .tc main_arg7) = W4 m ρ c (Proc.devRef .tc main_arg7))).trans (W4_of_ne m ρ c main_arg7 (by decide))).trans (by host_keep hostOps1 : W3 m ρ c (Proc.devRef .tc main_arg7) = W2 m ρ c (Proc.devRef .tc main_arg7))).trans (W2_of_ne m ρ c main_arg7 (by decide))).trans (by host_keep hostOps0 : W1 m ρ c (Proc.devRef .tc main_arg7) = W0 m ρ c (Proc.devRef .tc main_arg7))).trans rfl
theorem W6_arg8 : W6 m ρ c (Proc.devRef .tc main_arg8) = m ((c : Thread nD τ).loc main_arg8) :=
  ((((((W6_of_ne m ρ c main_arg8 (by decide)).trans (by host_keep hostOps2 : W5 m ρ c (Proc.devRef .tc main_arg8) = W4 m ρ c (Proc.devRef .tc main_arg8))).trans (W4_of_ne m ρ c main_arg8 (by decide))).trans (by host_keep hostOps1 : W3 m ρ c (Proc.devRef .tc main_arg8) = W2 m ρ c (Proc.devRef .tc main_arg8))).trans (W2_of_ne m ρ c main_arg8 (by decide))).trans (by host_keep hostOps0 : W1 m ρ c (Proc.devRef .tc main_arg8) = W0 m ρ c (Proc.devRef .tc main_arg8))).trans rfl
theorem W8_arg3 : W8 m ρ c (Proc.devRef .tc main_arg3) = m ((c : Thread nD τ).loc main_arg3) :=
  ((((((((W8_of_ne m ρ c main_arg3 (by decide)).trans (by host_keep hostOps3 : W7 m ρ c (Proc.devRef .tc main_arg3) = W6 m ρ c (Proc.devRef .tc main_arg3))).trans (W6_of_ne m ρ c main_arg3 (by decide))).trans (by host_keep hostOps2 : W5 m ρ c (Proc.devRef .tc main_arg3) = W4 m ρ c (Proc.devRef .tc main_arg3))).trans (W4_of_ne m ρ c main_arg3 (by decide))).trans (by host_keep hostOps1 : W3 m ρ c (Proc.devRef .tc main_arg3) = W2 m ρ c (Proc.devRef .tc main_arg3))).trans (W2_of_ne m ρ c main_arg3 (by decide))).trans (by host_keep hostOps0 : W1 m ρ c (Proc.devRef .tc main_arg3) = W0 m ρ c (Proc.devRef .tc main_arg3))).trans rfl
theorem W8_arg4 : W8 m ρ c (Proc.devRef .tc main_arg4) = m ((c : Thread nD τ).loc main_arg4) :=
  ((((((((W8_of_ne m ρ c main_arg4 (by decide)).trans (by host_keep hostOps3 : W7 m ρ c (Proc.devRef .tc main_arg4) = W6 m ρ c (Proc.devRef .tc main_arg4))).trans (W6_of_ne m ρ c main_arg4 (by decide))).trans (by host_keep hostOps2 : W5 m ρ c (Proc.devRef .tc main_arg4) = W4 m ρ c (Proc.devRef .tc main_arg4))).trans (W4_of_ne m ρ c main_arg4 (by decide))).trans (by host_keep hostOps1 : W3 m ρ c (Proc.devRef .tc main_arg4) = W2 m ρ c (Proc.devRef .tc main_arg4))).trans (W2_of_ne m ρ c main_arg4 (by decide))).trans (by host_keep hostOps0 : W1 m ρ c (Proc.devRef .tc main_arg4) = W0 m ρ c (Proc.devRef .tc main_arg4))).trans rfl
theorem W8_arg5 : W8 m ρ c (Proc.devRef .tc main_arg5) = m ((c : Thread nD τ).loc main_arg5) :=
  ((((((((W8_of_ne m ρ c main_arg5 (by decide)).trans (by host_keep hostOps3 : W7 m ρ c (Proc.devRef .tc main_arg5) = W6 m ρ c (Proc.devRef .tc main_arg5))).trans (W6_of_ne m ρ c main_arg5 (by decide))).trans (by host_keep hostOps2 : W5 m ρ c (Proc.devRef .tc main_arg5) = W4 m ρ c (Proc.devRef .tc main_arg5))).trans (W4_of_ne m ρ c main_arg5 (by decide))).trans (by host_keep hostOps1 : W3 m ρ c (Proc.devRef .tc main_arg5) = W2 m ρ c (Proc.devRef .tc main_arg5))).trans (W2_of_ne m ρ c main_arg5 (by decide))).trans (by host_keep hostOps0 : W1 m ρ c (Proc.devRef .tc main_arg5) = W0 m ρ c (Proc.devRef .tc main_arg5))).trans rfl
theorem W8_arg6 : W8 m ρ c (Proc.devRef .tc main_arg6) = m ((c : Thread nD τ).loc main_arg6) :=
  ((((((((W8_of_ne m ρ c main_arg6 (by decide)).trans (by host_keep hostOps3 : W7 m ρ c (Proc.devRef .tc main_arg6) = W6 m ρ c (Proc.devRef .tc main_arg6))).trans (W6_of_ne m ρ c main_arg6 (by decide))).trans (by host_keep hostOps2 : W5 m ρ c (Proc.devRef .tc main_arg6) = W4 m ρ c (Proc.devRef .tc main_arg6))).trans (W4_of_ne m ρ c main_arg6 (by decide))).trans (by host_keep hostOps1 : W3 m ρ c (Proc.devRef .tc main_arg6) = W2 m ρ c (Proc.devRef .tc main_arg6))).trans (W2_of_ne m ρ c main_arg6 (by decide))).trans (by host_keep hostOps0 : W1 m ρ c (Proc.devRef .tc main_arg6) = W0 m ρ c (Proc.devRef .tc main_arg6))).trans rfl
theorem W10_arg7 : W10 m ρ c (Proc.devRef .tc main_arg7) = m ((c : Thread nD τ).loc main_arg7) :=
  ((((((((((W10_of_ne m ρ c main_arg7 (by decide)).trans (by host_keep hostOps4 : W9 m ρ c (Proc.devRef .tc main_arg7) = W8 m ρ c (Proc.devRef .tc main_arg7))).trans (W8_of_ne m ρ c main_arg7 (by decide))).trans (by host_keep hostOps3 : W7 m ρ c (Proc.devRef .tc main_arg7) = W6 m ρ c (Proc.devRef .tc main_arg7))).trans (W6_of_ne m ρ c main_arg7 (by decide))).trans (by host_keep hostOps2 : W5 m ρ c (Proc.devRef .tc main_arg7) = W4 m ρ c (Proc.devRef .tc main_arg7))).trans (W4_of_ne m ρ c main_arg7 (by decide))).trans (by host_keep hostOps1 : W3 m ρ c (Proc.devRef .tc main_arg7) = W2 m ρ c (Proc.devRef .tc main_arg7))).trans (W2_of_ne m ρ c main_arg7 (by decide))).trans (by host_keep hostOps0 : W1 m ρ c (Proc.devRef .tc main_arg7) = W0 m ρ c (Proc.devRef .tc main_arg7))).trans rfl
theorem W10_arg8 : W10 m ρ c (Proc.devRef .tc main_arg8) = m ((c : Thread nD τ).loc main_arg8) :=
  ((((((((((W10_of_ne m ρ c main_arg8 (by decide)).trans (by host_keep hostOps4 : W9 m ρ c (Proc.devRef .tc main_arg8) = W8 m ρ c (Proc.devRef .tc main_arg8))).trans (W8_of_ne m ρ c main_arg8 (by decide))).trans (by host_keep hostOps3 : W7 m ρ c (Proc.devRef .tc main_arg8) = W6 m ρ c (Proc.devRef .tc main_arg8))).trans (W6_of_ne m ρ c main_arg8 (by decide))).trans (by host_keep hostOps2 : W5 m ρ c (Proc.devRef .tc main_arg8) = W4 m ρ c (Proc.devRef .tc main_arg8))).trans (W4_of_ne m ρ c main_arg8 (by decide))).trans (by host_keep hostOps1 : W3 m ρ c (Proc.devRef .tc main_arg8) = W2 m ρ c (Proc.devRef .tc main_arg8))).trans (W2_of_ne m ρ c main_arg8 (by decide))).trans (by host_keep hostOps0 : W1 m ρ c (Proc.devRef .tc main_arg8) = W0 m ρ c (Proc.devRef .tc main_arg8))).trans rfl
theorem W12_arg2 : W12 m ρ c (Proc.devRef .tc main_arg2) = m ((c : Thread nD τ).loc main_arg2) :=
  ((((((((((((W12_of_ne m ρ c main_arg2 (by decide)).trans (by host_keep hostOps5 : W11 m ρ c (Proc.devRef .tc main_arg2) = W10 m ρ c (Proc.devRef .tc main_arg2))).trans (W10_of_ne m ρ c main_arg2 (by decide))).trans (by host_keep hostOps4 : W9 m ρ c (Proc.devRef .tc main_arg2) = W8 m ρ c (Proc.devRef .tc main_arg2))).trans (W8_of_ne m ρ c main_arg2 (by decide))).trans (by host_keep hostOps3 : W7 m ρ c (Proc.devRef .tc main_arg2) = W6 m ρ c (Proc.devRef .tc main_arg2))).trans (W6_of_ne m ρ c main_arg2 (by decide))).trans (by host_keep hostOps2 : W5 m ρ c (Proc.devRef .tc main_arg2) = W4 m ρ c (Proc.devRef .tc main_arg2))).trans (W4_of_ne m ρ c main_arg2 (by decide))).trans (by host_keep hostOps1 : W3 m ρ c (Proc.devRef .tc main_arg2) = W2 m ρ c (Proc.devRef .tc main_arg2))).trans (W2_of_ne m ρ c main_arg2 (by decide))).trans (by host_keep hostOps0 : W1 m ρ c (Proc.devRef .tc main_arg2) = W0 m ρ c (Proc.devRef .tc main_arg2))).trans rfl
theorem W12_arg10 : W12 m ρ c (Proc.devRef .tc main_arg10) = m ((c : Thread nD τ).loc main_arg10) :=
  ((((((((((((W12_of_ne m ρ c main_arg10 (by decide)).trans (by host_keep hostOps5 : W11 m ρ c (Proc.devRef .tc main_arg10) = W10 m ρ c (Proc.devRef .tc main_arg10))).trans (W10_of_ne m ρ c main_arg10 (by decide))).trans (by host_keep hostOps4 : W9 m ρ c (Proc.devRef .tc main_arg10) = W8 m ρ c (Proc.devRef .tc main_arg10))).trans (W8_of_ne m ρ c main_arg10 (by decide))).trans (by host_keep hostOps3 : W7 m ρ c (Proc.devRef .tc main_arg10) = W6 m ρ c (Proc.devRef .tc main_arg10))).trans (W6_of_ne m ρ c main_arg10 (by decide))).trans (by host_keep hostOps2 : W5 m ρ c (Proc.devRef .tc main_arg10) = W4 m ρ c (Proc.devRef .tc main_arg10))).trans (W4_of_ne m ρ c main_arg10 (by decide))).trans (by host_keep hostOps1 : W3 m ρ c (Proc.devRef .tc main_arg10) = W2 m ρ c (Proc.devRef .tc main_arg10))).trans (W2_of_ne m ρ c main_arg10 (by decide))).trans (by host_keep hostOps0 : W1 m ρ c (Proc.devRef .tc main_arg10) = W0 m ρ c (Proc.devRef .tc main_arg10))).trans rfl
theorem W12_arg12 : W12 m ρ c (Proc.devRef .tc main_arg12) = m ((c : Thread nD τ).loc main_arg12) :=
  ((((((((((((W12_of_ne m ρ c main_arg12 (by decide)).trans (by host_keep hostOps5 : W11 m ρ c (Proc.devRef .tc main_arg12) = W10 m ρ c (Proc.devRef .tc main_arg12))).trans (W10_of_ne m ρ c main_arg12 (by decide))).trans (by host_keep hostOps4 : W9 m ρ c (Proc.devRef .tc main_arg12) = W8 m ρ c (Proc.devRef .tc main_arg12))).trans (W8_of_ne m ρ c main_arg12 (by decide))).trans (by host_keep hostOps3 : W7 m ρ c (Proc.devRef .tc main_arg12) = W6 m ρ c (Proc.devRef .tc main_arg12))).trans (W6_of_ne m ρ c main_arg12 (by decide))).trans (by host_keep hostOps2 : W5 m ρ c (Proc.devRef .tc main_arg12) = W4 m ρ c (Proc.devRef .tc main_arg12))).trans (W4_of_ne m ρ c main_arg12 (by decide))).trans (by host_keep hostOps1 : W3 m ρ c (Proc.devRef .tc main_arg12) = W2 m ρ c (Proc.devRef .tc main_arg12))).trans (W2_of_ne m ρ c main_arg12 (by decide))).trans (by host_keep hostOps0 : W1 m ρ c (Proc.devRef .tc main_arg12) = W0 m ρ c (Proc.devRef .tc main_arg12))).trans rfl
theorem W13_arg9 : W13 m ρ c (Proc.devRef .tc main_arg9) = m ((c : Thread nD τ).loc main_arg9) :=
  (((((((((((((by host_keep hostOps6 : W13 m ρ c (Proc.devRef .tc main_arg9) = W12 m ρ c (Proc.devRef .tc main_arg9)).trans (W12_of_ne m ρ c main_arg9 (by decide))).trans (by host_keep hostOps5 : W11 m ρ c (Proc.devRef .tc main_arg9) = W10 m ρ c (Proc.devRef .tc main_arg9))).trans (W10_of_ne m ρ c main_arg9 (by decide))).trans (by host_keep hostOps4 : W9 m ρ c (Proc.devRef .tc main_arg9) = W8 m ρ c (Proc.devRef .tc main_arg9))).trans (W8_of_ne m ρ c main_arg9 (by decide))).trans (by host_keep hostOps3 : W7 m ρ c (Proc.devRef .tc main_arg9) = W6 m ρ c (Proc.devRef .tc main_arg9))).trans (W6_of_ne m ρ c main_arg9 (by decide))).trans (by host_keep hostOps2 : W5 m ρ c (Proc.devRef .tc main_arg9) = W4 m ρ c (Proc.devRef .tc main_arg9))).trans (W4_of_ne m ρ c main_arg9 (by decide))).trans (by host_keep hostOps1 : W3 m ρ c (Proc.devRef .tc main_arg9) = W2 m ρ c (Proc.devRef .tc main_arg9))).trans (W2_of_ne m ρ c main_arg9 (by decide))).trans (by host_keep hostOps0 : W1 m ρ c (Proc.devRef .tc main_arg9) = W0 m ρ c (Proc.devRef .tc main_arg9))).trans rfl
theorem W13_arg11 : W13 m ρ c (Proc.devRef .tc main_arg11) = m ((c : Thread nD τ).loc main_arg11) :=
  (((((((((((((by host_keep hostOps6 : W13 m ρ c (Proc.devRef .tc main_arg11) = W12 m ρ c (Proc.devRef .tc main_arg11)).trans (W12_of_ne m ρ c main_arg11 (by decide))).trans (by host_keep hostOps5 : W11 m ρ c (Proc.devRef .tc main_arg11) = W10 m ρ c (Proc.devRef .tc main_arg11))).trans (W10_of_ne m ρ c main_arg11 (by decide))).trans (by host_keep hostOps4 : W9 m ρ c (Proc.devRef .tc main_arg11) = W8 m ρ c (Proc.devRef .tc main_arg11))).trans (W8_of_ne m ρ c main_arg11 (by decide))).trans (by host_keep hostOps3 : W7 m ρ c (Proc.devRef .tc main_arg11) = W6 m ρ c (Proc.devRef .tc main_arg11))).trans (W6_of_ne m ρ c main_arg11 (by decide))).trans (by host_keep hostOps2 : W5 m ρ c (Proc.devRef .tc main_arg11) = W4 m ρ c (Proc.devRef .tc main_arg11))).trans (W4_of_ne m ρ c main_arg11 (by decide))).trans (by host_keep hostOps1 : W3 m ρ c (Proc.devRef .tc main_arg11) = W2 m ρ c (Proc.devRef .tc main_arg11))).trans (W2_of_ne m ρ c main_arg11 (by decide))).trans (by host_keep hostOps0 : W1 m ρ c (Proc.devRef .tc main_arg11) = W0 m ρ c (Proc.devRef .tc main_arg11))).trans rfl
theorem W4_v1 : W4 m ρ c (Proc.devRef .tc main_v1) = raw1 (m ((c : Thread nD τ).loc main_arg1)) :=
  (((W4_of_ne m ρ c main_v1 (by decide)).trans (by host_keep hostOps1 : W3 m ρ c (Proc.devRef .tc main_v1) = W2 m ρ c (Proc.devRef .tc main_v1))).trans (W2_of_ne m ρ c main_v1 (by decide))).trans (W1_v1 m ρ c)
theorem W4_v3 : W4 m ρ c (Proc.devRef .tc main_v3) = raw3 (m ((c : Thread nD τ).loc main_arg1)) :=
  (((W4_of_ne m ρ c main_v3 (by decide)).trans (by host_keep hostOps1 : W3 m ρ c (Proc.devRef .tc main_v3) = W2 m ρ c (Proc.devRef .tc main_v3))).trans (W2_of_ne m ρ c main_v3 (by decide))).trans (W1_v3 m ρ c)
theorem W8_v1 : W8 m ρ c (Proc.devRef .tc main_v1) = raw1 (m ((c : Thread nD τ).loc main_arg1)) :=
  (((((((W8_of_ne m ρ c main_v1 (by decide)).trans (by host_keep hostOps3 : W7 m ρ c (Proc.devRef .tc main_v1) = W6 m ρ c (Proc.devRef .tc main_v1))).trans (W6_of_ne m ρ c main_v1 (by decide))).trans (by host_keep hostOps2 : W5 m ρ c (Proc.devRef .tc main_v1) = W4 m ρ c (Proc.devRef .tc main_v1))).trans (W4_of_ne m ρ c main_v1 (by decide))).trans (by host_keep hostOps1 : W3 m ρ c (Proc.devRef .tc main_v1) = W2 m ρ c (Proc.devRef .tc main_v1))).trans (W2_of_ne m ρ c main_v1 (by decide))).trans (W1_v1 m ρ c)
theorem W8_v3 : W8 m ρ c (Proc.devRef .tc main_v3) = raw3 (m ((c : Thread nD τ).loc main_arg1)) :=
  (((((((W8_of_ne m ρ c main_v3 (by decide)).trans (by host_keep hostOps3 : W7 m ρ c (Proc.devRef .tc main_v3) = W6 m ρ c (Proc.devRef .tc main_v3))).trans (W6_of_ne m ρ c main_v3 (by decide))).trans (by host_keep hostOps2 : W5 m ρ c (Proc.devRef .tc main_v3) = W4 m ρ c (Proc.devRef .tc main_v3))).trans (W4_of_ne m ρ c main_v3 (by decide))).trans (by host_keep hostOps1 : W3 m ρ c (Proc.devRef .tc main_v3) = W2 m ρ c (Proc.devRef .tc main_v3))).trans (W2_of_ne m ρ c main_v3 (by decide))).trans (W1_v3 m ρ c)

end Cert.KernelIdeal.KPull

end
-- ==== Proof.Slices.lean ====
/-
  Layer `L` of a stack of three matrices, of a stack of three vectors, read by coordinates; and the fact that a
  rank-2 array is determined by its entries at explicit coordinates.
-/
import proofs.«161505_j35811437314143_1_alg».proof.Proof.Spec

noncomputable section

namespace Cert.Spec

open Idealize.ShloMosaic Idealize.ShloMosaic.ValueIdx

/-- Matrix `L` of a [3, a, b] stack. -/
def sl3 {a b : Nat} (L : Fin 3) (Ws : (⟨3, ![3, a, b]⟩ : Shape).Idx → EReal) : Fin a → Fin b → EReal := fun l k => Ws (ix3 L l k)
/-- Row `L` of a [3, a] stack. -/
def sl2 {a : Nat} (L : Fin 3) (Bs : (⟨2, ![3, a]⟩ : Shape).Idx → EReal) : Fin a → EReal := fun k => Bs (ix2 L k)

/-- Two rank-2 arrays with the same entries at all explicit coordinates are equal. -/
theorem ext2 {n0 n1 : Nat} {A B : (⟨2, ![n0, n1]⟩ : Shape).Idx → EReal} (h : ∀ p q, A (ix2 p q) = B (ix2 p q)) : A = B := by
  funext i
  rw [eq_ix2 i]
  exact h _ _

end Cert.Spec

end
-- ==== Proof.LibMatmul.lean ====
/-
  A matrix product into a zero accumulator, and the host's product without one, read at an entry.

  For the plain dimension numbers of an M×K by K×N product (contract the left operand's second axis with the right
  operand's first, no batch axis), the product accumulated into the zero splat is, at entry (p, q) and over the
  extended reals, the sum over k of the left operand at (p, k) times the right operand at (k, q): the accumulator
  contributes 0 + · and the one-axis contraction index is its coordinate.  The host's product is the same sum.
-/
import Idealize.ShloMosaic.PureOps.Ideal.Laws
import Idealize.ShloMosaic.Lib.ValueIdx

noncomputable section

namespace Cert.LibMatmul

open Idealize.ShloMosaic Idealize.ShloMosaic.ValueIdx

variable (M K N : Nat)

/-- The left operand's index at output entry `i` and contraction index `q`: row of `i`, column `q`. -/
theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
/-- The right operand's index: row `q`, column of `i`. -/
theorem plain_rhs0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

variable {M K N}

/-- The contraction sum of a plain product at entry (p, q), re-indexed by the contracted coordinate. -/
theorem sum_contr_plain (x : (⟨2, ![M, K]⟩ : Shape).Idx → EReal) (w : (⟨2, ![K, N]⟩ : Shape).Idx → EReal) (p : Fin M) (q : Fin N) :
    (∑ k : (DotDims.plain M K N).contr.Idx, x ((DotDims.plain M K N).lhsIdx (ix2 p q) k) * w ((DotDims.plain M K N).rhsIdx (ix2 p q) k))
      = ∑ k : Fin K, x (ix2 p k) * w (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 M K N _ _).trans hk
      | ⟨1, _⟩ => exact plain_rhs1 M K N _ _)
  rw [el, er]

/-- The host's product (no accumulator) at entry (p, q): the same sum. -/
theorem dotGeneral_plain_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply]
  exact sum_contr_plain x w p q

/-- The product into the zero accumulator at entry (p, q): the sum over k of x(p, k) · w(k, q). -/
theorem matmul_plain_zero_apply {φ₁ φ₂ : FTy} (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply]
  exact sum_contr_plain x w p q

end Cert.LibMatmul

end
-- ==== Proof.GinBody.lean ====
/-
  The arithmetic of one grid point of the graph-convolution layer's first kernel, read entry by entry on the extended reals.

  A block holds 5000 rows of the node features `h` and of their neighbour sums `a`; the two weight matrices and the two
  bias rows are whole.  The block's output `z` is, row by row, the two-layer perceptron
  `Σ_k max (Σ_l (h r l + a r l) · W1 l k + b1 k) 0 · W2 k q + b2 q`: each matrix product accumulates into the zero splat,
  so its entry is the plain sum over the contracted coordinate; a bias row is broadcast over the 5000 rows.  The two running
  rows are the previous row plus the block's column sums of `z`, resp. of `z · z`; the rows stored at the first point are zero.
  Last, two facts about finite sums on a commutative monoid: a running sum taken point by point is the sum over the points,
  and twenty blocks of 5000 rows are the 100000 rows.
-/
import proofs.«161505_j35811437314143_1_alg».proof.Proof.Gen.KernelIdeal.Skeleton
import proofs.«161505_j35811437314143_1_alg».proof.Proof.Spec
import proofs.«161505_j35811437314143_1_alg».proof.Proof.LibMatmul
import Idealize.ShloMosaic.Lib.Pipeline.Value
import Idealize.ShloMosaic.Lib.ValueLayout
import Idealize.ShloMosaic.PureOps.Ideal.Laws

noncomputable section

namespace Cert.KernelIdeal.Gin

open Idealize.ShloMosaic Idealize.ShloMosaic.ValueIdx
open Cert.KernelIdeal Cert.KernelIdeal.Gen

/-- The perceptron on one block: row `r` of the block, column `q`. -/
def blockMlp (h a : Vec Ideal S5000x128 .f32) (W1 : Vec Ideal S128x128 .f32) (b1 : Vec Ideal S1x128 .f32)
    (W2 : Vec Ideal S128x128 .f32) (b2 : Vec Ideal S1x128 .f32) (r : Fin 5000) (q : Fin 128) : EReal :=
  (∑ k : Fin 128, max ((∑ l : Fin 128, (h (ix2 r l) + a (ix2 r l)) * W1 (ix2 l k)) + b1 (ix2 0 k)) Cert.Spec.zero * W2 (ix2 k q))
    + b2 (ix2 0 q)

/-- A 5000×128 by 128×128 product into the zero splat, at entry (r, q): the sum over the contracted coordinate. -/
theorem mm_apply (x : FVec Ideal S5000x128 .f32) (w : FVec Ideal S128x128 .f32) (r : Fin 5000) (q : Fin 128) :
    matmul dot_S5000x128_S128x128_S5000x128_1_0_0_1_n_n none x w (constant (F := Ideal) S5000x128 .f32 0x00000000#32) (ix2 r q)
      = ∑ k : Fin 128, x (ix2 r k) * w (ix2 k q) :=
  Cert.LibMatmul.matmul_plain_zero_apply none x w r q

/-- The sum of a 5000×128 block along its rows, at column `q`. -/
theorem colReduce_apply (v : FVec Ideal S5000x128 .f32) (q : Fin 128) :
    multiReduction (F := Ideal) .add [0] S128 v 0x00000000#32 reduces_S5000x128_S128 (.inl rfl) rfl (ix1 q)
      = ∑ r : Fin 5000, v (ix2 r q) := by
  refine (Ideal.multiReduction_add_single v 0x00000000#32 reduces_S5000x128_S128 (.inl rfl) rfl (ix1 q)).trans ?_
  refine Finset.sum_congr rfl fun r _ => congrArg v ?_
  funext a
  apply Fin.ext
  match a with
  | ⟨0, _⟩ => rfl
  | ⟨1, _⟩ => rfl

/-- The block of `z` at an entry: the perceptron of the blocks' rows. -/
theorem pay4_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (q : Fin 128) :
    k0_pay4 (F := Ideal) x0 x1 x2 x3 x4 x5 (ix2 r q) = blockMlp x0 x1 x2 x3 x4 x5 r q := by
  unfold k0_pay4 blockMlp
  simp only [shapeCast_self]
  rw [addf_apply, mm_apply, broadcastTo_1b_ab_apply]
  congr 1
  refine Finset.sum_congr rfl fun k _ => ?_
  rw [maximumf_apply, addf_apply, mm_apply, broadcastTo_1b_ab_apply]
  rfl

/-- The running row of column sums after a block: the row before plus the block's column sums of `z`. -/
theorem pay5_apply (x0 x1 : Vec Ideal S5000x128 .f32) (x2 : Vec Ideal S128x128 .f32) (x3 : Vec Ideal S1x128 .f32)
    (x4 : Vec Ideal S128x128 .f32) (x5 : Vec Ideal S1x128 .f32) (acc : Vec Ideal S1x128 .f32) (u : Fin 1) (q : Fin 128) :
    k0_pay5 (F := Ideal) x0 x1 x2 x3 x4 x5 acc (ix2 u q)
      = acc (ix2 u q) + ∑ r : Fin 5000, k0_pay4 (F := Ideal) x0 x1 x2 x3 x4 x5 (ix2 r q) := by
  unfold k0_pay5
  dsimp only
  rw [shapeCast_self, addf_apply, shapeCast_a_1a_apply, colReduce_apply]

/-- The running row of column sums of squares after a block. -/
theorem pay1_apply (z : FVec Ideal S5000x128 .f32) (acc : Vec Ideal S1x128 .f32) (u : Fin 1) (q : Fin 128) :
    k0_pay1 (F := Ideal) z acc (ix2 u q) = acc (ix2 u q) + ∑ r : Fin 5000, z (ix2 r q) * z (ix2 r q) := by
  unfold k0_pay1
  dsimp only
  rw [shapeCast_self, addf_apply, shapeCast_a_1a_apply, colReduce_apply]
  rfl

/-- The rows stored at the first point are zero. -/
theorem pay2_apply (j : S1x128.Idx) : k0_pay2 (F := Ideal) j = 0 := Ideal.ofBits_zero_f32
theorem pay3_apply (j : S1x128.Idx) : k0_pay3 (F := Ideal) j = 0 := Ideal.ofBits_zero_f32

/-- The three launches of the kernel print the same arithmetic, up to a cast of a shape to itself. -/
theorem k2_pay4_eq {F : FTy → Type} [FloatOps F] (x0 x1 : Vec F S5000x128 .f32) (x2 : Vec F S128x128 .f32) (x3 : Vec F S1x128 .f32)
    (x4 : Vec F S128x128 .f32) (x5 : Vec F S1x128 .f32) : k2_pay4 x0 x1 x2 x3 x4 x5 = k0_pay4 x0 x1 x2 x3 x4 x5 := by
  unfold k2_pay4 k0_pay4
  simp only [shapeCast_self]
theorem k2_pay5_eq {F : FTy → Type} [FloatOps F] (x0 x1 : Vec F S5000x128 .f32) (x2 : Vec F S128x128 .f32) (x3 : Vec F S1x128 .f32)
    (x4 : Vec F S128x128 .f32) (x5 : Vec F S1x128 .f32) (acc : Vec F S1x128 .f32) :
    k2_pay5 x0 x1 x2 x3 x4 x5 acc = k0_pay5 x0 x1 x2 x3 x4 x5 acc := by
  unfold k2_pay5 k0_pay5
  rw [k2_pay4_eq]
theorem k2_pay1_eq {F : FTy → Type} [FloatOps F] (z : FVec F S5000x128 .f32) (acc : Vec F S1x128 .f32) :
    k2_pay1 z acc = k0_pay1 z acc := rfl
theorem k2_pay2_eq {F : FTy → Type} [FloatOps F] : k2_pay2 (F := F) = k0_pay2 (F := F) := rfl
theorem k2_pay3_eq {F : FTy → Type} [FloatOps F] : k2_pay3 (F := F) = k0_pay3 (F := F) := rfl
theorem k4_pay4_eq {F : FTy → Type} [FloatOps F] (x0 x1 : Vec F S5000x128 .f32) (x2 : Vec F S128x128 .f32) (x3 : Vec F S1x128 .f32)
    (x4 : Vec F S128x128 .f32) (x5 : Vec F S1x128 .f32) : k4_pay4 x0 x1 x2 x3 x4 x5 = k0_pay4 x0 x1 x2 x3 x4 x5 := by
  unfold k4_pay4 k0_pay4
  simp only [shapeCast_self]
theorem k4_pay5_eq {F : FTy → Type} [FloatOps F] (x0 x1 : Vec F S5000x128 .f32) (x2 : Vec F S128x128 .f32) (x3 : Vec F S1x128 .f32)
    (x4 : Vec F S128x128 .f32) (x5 : Vec F S1x128 .f32) (acc : Vec F S1x128 .f32) :
    k4_pay5 x0 x1 x2 x3 x4 x5 acc = k0_pay5 x0 x1 x2 x3 x4 x5 acc := by
  unfold k4_pay5 k0_pay5
  rw [k4_pay4_eq]
theorem k4_pay1_eq {F : FTy → Type} [FloatOps F] (z : FVec F S5000x128 .f32) (acc : Vec F S1x128 .f32) :
    k4_pay1 z acc = k0_pay1 z acc := rfl
theorem k4_pay2_eq {F : FTy → Type} [FloatOps F] : k4_pay2 (F := F) = k0_pay2 (F := F) := rfl
theorem k4_pay3_eq {F : FTy → Type} [FloatOps F] : k4_pay3 (F := F) = k0_pay3 (F := F) := rfl

/-! ## Sums over the grid: the running sum point by point, and blocks of rows against all rows -/

/-- The sum of the first `n + 1` of `N` summands, taken in order. -/
def runSum {N : ℕ} (f : Fin N → EReal) : (n : ℕ) → n < N → EReal
  | 0, h => f ⟨0, h⟩
  | n + 1, h => runSum f n (Nat.lt_of_succ_lt h) + f ⟨n + 1, h⟩

theorem runSum_zero {N : ℕ} (f : Fin N → EReal) (h : 0 < N) : runSum f 0 h = f ⟨0, h⟩ := rfl
theorem runSum_succ {N : ℕ} (f : Fin N → EReal) (n : ℕ) (h : n + 1 < N) :
    runSum f (n + 1) h = runSum f n (Nat.lt_of_succ_lt h) + f ⟨n + 1, h⟩ := rfl

theorem runSum_eq {N : ℕ} (f : Fin N → EReal) : ∀ (n : ℕ) (h : n < N),
    runSum f n h = ∑ t : Fin (n + 1), f ⟨t.val, lt_of_lt_of_le t.isLt h⟩
  | 0, h => by
    rw [runSum_zero, Fin.sum_univ_one]
    rfl
  | n + 1, h => by
    rw [runSum_succ, runSum_eq f n, Fin.sum_univ_castSucc (n := n + 1)]
    rfl

/-- After the last point the running sum is the sum over all points. -/
theorem runSum_all {N : ℕ} (f : Fin N → EReal) (n : ℕ) (h : n < N) (hN : N = n + 1) :
    runSum f n h = ∑ t : Fin N, f t := by
  subst hN
  rw [runSum_eq]

/-- Twenty blocks of 5000 rows are the 100000 rows: row `r` of block `t` is row `5000 t + r`. -/
theorem sum_blocks {N : ℕ} (hN : N = 20) (g : Fin 100000 → EReal)
    (hlt : ∀ (t : Fin N) (r : Fin 5000), 5000 * t.val + r.val < 100000) :
    ∑ t : Fin N, ∑ r : Fin 5000, g ⟨5000 * t.val + r.val, hlt t r⟩ = ∑ i : Fin 100000, g i := by
  subst hN
  rw [← Fintype.sum_prod_type']
  refine Fintype.sum_equiv (finProdFinEquiv.trans (finCongr (by norm_num))) _ _ ?_
  rintro ⟨t, r⟩
  refine congrArg g (Fin.ext ?_)
  show 5000 * t.val + r.val = r.val + 5000 * t.val
  omega

end Cert.KernelIdeal.Gin

end
-- ==== Proof.Gin0.lean ====
/-
  One launch of the graph-convolution layer's first kernel (the launch whose region of the program has index 0), run over its
  grid of twenty points, read as values.

  Point `t` works on rows `5000 t … 5000 t + 4999`: it writes the perceptron's output for those rows into its block of `z`,
  and adds the block's column sums of `z` and of `z · z` to two one-row accumulators that stay in place from point to point
  (zeroed at the first point, written back after the last).  So after the region `z` holds the perceptron row by row, and the
  accumulators hold the sums over the blocks of all twenty points, which are the sums over all 100000 rows.
-/
import proofs.«161505_j35811437314143_1_alg».proof.Proof.Gen.KernelIdeal.Frame
import proofs.«161505_j35811437314143_1_alg».proof.Proof.GinBody
import Idealize.ShloMosaic.Lib.Pipeline.Value
import Idealize.ShloMosaic.Lib.ValueLayout
import Idealize.ShloMosaic.Lib.Tactic

noncomputable section

namespace Cert.KernelIdeal.Gin

open Idealize.ShloMosaic Idealize.ShloMosaic.TcCoe Idealize.SL.Sem Idealize.ShloMosaic.ValueIdx
open Idealize.ShloMosaic.Pipeline (Dat)
open Cert.KernelIdeal Cert.KernelIdeal.Gen

/-! ## What each control case leaves in the three output buffers, as the block arithmetic of the six input blocks -/

section Pieces
variable {F : FTy → Type} [FloatOps F]

theorem hz2_0 : (![0, 0] : Fin 2 → Nat) = fun _ => 0 := funext fun a => by fin_cases a <;> rfl

/-- First point: the output block is the perceptron of the input blocks. -/
theorem out_A_60 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 hc0 x0 x1 x2 x3 x4 x5 = k0_pay4 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  rw [View.canon_unit_zero hz2_0]
  simp only [View.readAt_eq_ld, harg1.read_unread, harg2.read_unread, harg3.read_unread, harg4.read_unread, harg5.read_unread, harg6.read_unread, View.ld_unit_zero (S := S5000x128) hz2_0, View.ld_unit_zero (S := S128x128) hz2_0, View.ld_unit_zero (S := S1x128) hz2_0]

/-- First point: the row of column sums is the zero row plus the block's column sums. -/
theorem out_A_70 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) :
    out0_A_7 c i arg1 harg1 arg2 harg2 arg3 harg3 arg4 harg4 arg5 harg5 arg6 harg6 arg7 harg7 arg8 harg8 arg9 harg9 hc0 x0 x1 x2 x3 x4 x5 = k0_pay5 x0 x1 x2 x3 x4 x5 k0_pay2 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz2_0, View.readCov_unit_zero (S := S1x128) _ hz2_0]
  simp only [View.readAt_eq_ld, harg1.read_unread, harg2.read_unread, harg3.read_unread, harg4.read_unread, harg5.read_unread, harg6.read_unread, View.ld_unit_zero (S := S5000x128) hz2_0, View.ld_unit_zero (S := S128x128) hz2_0, View.ld_unit_zero (S := S1x128) hz2_0]

/-- First point: the row of column sums of squares is the zero row plus the block's. -/
theorem out_A_80 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x0 x1 x2 x3 x4 x5) k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz2_0, View.readCov_unit_zero (S := S1x128) _ hz2_0]
  simp only [View.readAt_eq_ld, harg1.read_unread, harg2.read_unread, harg3.read_unread, harg4.read_unread, harg5.read_unread, harg6.read_unread, View.ld_unit_zero (S := S5000x128) hz2_0, View.ld_unit_zero (S := S128x128) hz2_0, View.ld_unit_zero (S := S1x128) hz2_0]

/-- A later point: the output block is the perceptron of the input blocks. -/
theorem out_B_60 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  rw [View.canon_unit_zero hz2_0]
  simp only [View.readAt_eq_ld, harg1.read_unread, harg2.read_unread, harg3.read_unread, harg4.read_unread, harg5.read_unread, harg6.read_unread, harg8.read_unread, harg9.read_unread, View.ld_unit_zero (S := S5000x128) hz2_0, View.ld_unit_zero (S := S128x128) hz2_0, View.ld_unit_zero (S := S1x128) hz2_0]

/-- A later point: the row of column sums is the row before plus the block's column sums. -/
theorem out_B_70 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  rw [View.canon_unit_zero hz2_0]
  simp only [View.readAt_eq_ld, harg1.read_unread, harg2.read_unread, harg3.read_unread, harg4.read_unread, harg5.read_unread, harg6.read_unread, harg8.read_unread, harg9.read_unread, View.ld_unit_zero (S := S5000x128) hz2_0, View.ld_unit_zero (S := S128x128) hz2_0, View.ld_unit_zero (S := S1x128) hz2_0]

/-- A later point: the row of column sums of squares is the row before plus the block's. -/
theorem out_B_80 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x1 x2 x3 x4 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2_0]
  simp only [View.readAt_eq_ld, harg1.read_unread, harg2.read_unread, harg3.read_unread, harg4.read_unread, harg5.read_unread, harg6.read_unread, harg8.read_unread, harg9.read_unread, View.ld_unit_zero (S := S5000x128) hz2_0, View.ld_unit_zero (S := S128x128) hz2_0, View.ld_unit_zero (S := S1x128) hz2_0]

end Pieces

/-! ## The running contents of the three outputs, point by point -/

section Run
variable (V : (c : Dev nD) → (b : Ref sig .tc) → Buf (Elt Ideal) ((c : Thread nD τ).loc b)) (c : Dev nD)

/-- The block of `z` computed at point `t`: the perceptron of the six input blocks of that point. -/
def zblk0 (t : Fin cfg0.N) : FVec Ideal S5000x128 .f32 :=
  k0_pay4 (F := Ideal) (iblk0 V c 0 t) (iblk0 V c 1 t) (iblk0 V c 2 t) (iblk0 V c 3 t) (iblk0 V c 4 t) (iblk0 V c 5 t)

/-- At the first point the accumulators are zeroed and then take the first block's sums. -/
theorem outsAt_A0 (t : Fin cfg0.N) (h0 : t.val % 20 = 0) :
    outsAt0 V c t.val t.isLt = (zblk0 V c t,
      k0_pay5 (F := Ideal) (iblk0 V c 0 t) (iblk0 V c 1 t) (iblk0 V c 2 t) (iblk0 V c 3 t) (iblk0 V c 4 t) (iblk0 V c 5 t) (k0_pay2 (F := Ideal)),
      k0_pay1 (F := Ideal) (zblk0 V c t) (k0_pay3 (F := Ideal))) := by
  rw [outsAt0_A V c t h0,
    out_A_60 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
    out_A_70 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
    out_A_80 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)]
  unfold zblk0
  rfl

/-- At a later point the accumulators take the point's block sums on top of what the point before left. -/
theorem outsAt_B0 (t : Fin cfg0.N) (h0 : ¬t.val % 20 = 0) :
    outsAt0 V c t.val t.isLt = (zblk0 V c t,
      k0_pay5 (F := Ideal) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1,
      k0_pay1 (F := Ideal) (zblk0 V c t) (outsAt0 V c (t.val - 1) (Nat.lt_of_le_of_lt (Nat.sub_le _ _) t.isLt)).2.2) := by
  rw [outsAt0_B V c t h0,
    out_B_60 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
    out_B_70 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
    out_B_80 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2]
  unfold zblk0
  rfl

end Run

/-! ## The blocks read off the arrays, and the invariant of the accumulation -/

section Value
variable (V : (c : Dev nD) → (b : Ref sig .tc) → Buf (Elt Ideal) ((c : Thread nD τ).loc b)) (c : Dev nD)

/-- The printed index maps over the grid: the row blocks of `h`, of the neighbour sums and of `z` move with the point,
    every other window stays on its one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `r` of the point's block of `h` is row `5000 t + r` of the array. -/
theorem iblk_0_0 (t : Fin cfg0.N) (r : Fin 5000) (hlt : 5000 * t.val + r.val < 100000) (l : Fin 128) :
    (iblk0 V c 0 t : Vec Ideal S5000x128 .f32) (ix2 r l) = (V c (Pipeline.arrRef spec0 0)) (ix2 ⟨5000 * t.val + r.val, hlt⟩ l) := by
  unfold iblk0
  rw [View.read_apply]
  refine congrArg (V c (Pipeline.arrRef spec0 0)) ?_
  obtain ⟨e0, e1, -⟩ := idx_facts0 t
  funext a; apply Fin.ext
  match a with
  | ⟨0, _⟩ => show win0_0.index t (0 : Fin 2) * 5000 + 1 * r.val = 5000 * t.val + r.val; rw [e0]; omega
  | ⟨1, _⟩ => show win0_0.index t (1 : Fin 2) * 128 + 1 * l.val = l.val; rw [e1]; omega

/-- Row `r` of the point's block of the neighbour sums is row `5000 t + r` of the array. -/
theorem iblk_1_0 (t : Fin cfg0.N) (r : Fin 5000) (hlt : 5000 * t.val + r.val < 100000) (l : Fin 128) :
    (iblk0 V c 1 t : Vec Ideal S5000x128 .f32) (ix2 r l) = (V c (Pipeline.arrRef spec0 1)) (ix2 ⟨5000 * t.val + r.val, hlt⟩ l) := by
  unfold iblk0
  rw [View.read_apply]
  refine congrArg (V c (Pipeline.arrRef spec0 1)) ?_
  obtain ⟨-, -, e0, e1, -⟩ := idx_facts0 t
  funext a; apply Fin.ext
  match a with
  | ⟨0, _⟩ => show win0_1.index t (0 : Fin 2) * 5000 + 1 * r.val = 5000 * t.val + r.val; rw [e0]; omega
  | ⟨1, _⟩ => show win0_1.index t (1 : Fin 2) * 128 + 1 * l.val = l.val; rw [e1]; omega

/-- The weight matrices and the bias rows are read whole at every point. -/
theorem iblk_2_0 (t : Fin cfg0.N) (l : Fin 128) (k : Fin 128) :
    (iblk0 V c 2 t : Vec Ideal S128x128 .f32) (ix2 l k) = (V c (Pipeline.arrRef spec0 2)) (ix2 l k) := by
  unfold iblk0
  rw [View.read_apply]
  refine congrArg (V c (Pipeline.arrRef spec0 2)) ?_
  obtain ⟨-, -, -, -, e0, e1, -⟩ := idx_facts0 t
  funext a; apply Fin.ext
  match a with
  | ⟨0, _⟩ => show win0_2.index t (0 : Fin 2) * 128 + 1 * l.val = l.val; rw [e0]; omega
  | ⟨1, _⟩ => show win0_2.index t (1 : Fin 2) * 128 + 1 * k.val = k.val; rw [e1]; omega
theorem iblk_3_0 (t : Fin cfg0.N) (u : Fin 1) (k : Fin 128) :
    (iblk0 V c 3 t : Vec Ideal S1x128 .f32) (ix2 u k) = (V c (Pipeline.arrRef spec0 3)) (ix2 0 k) := by
  unfold iblk0
  rw [View.read_apply]
  refine congrArg (V c (Pipeline.arrRef spec0 3)) ?_
  obtain ⟨-, -, -, -, -, -, e0, e1, -⟩ := idx_facts0 t
  funext a; apply Fin.ext
  match a with
  | ⟨0, _⟩ => show win0_3.index t (0 : Fin 2) * 1 + 1 * u.val = 0; rw [e0]; omega
  | ⟨1, _⟩ => show win0_3.index t (1 : Fin 2) * 128 + 1 * k.val = k.val; rw [e1]; omega
theorem iblk_4_0 (t : Fin cfg0.N) (l : Fin 128) (k : Fin 128) :
    (iblk0 V c 4 t : Vec Ideal S128x128 .f32) (ix2 l k) = (V c (Pipeline.arrRef spec0 4)) (ix2 l k) := by
  unfold iblk0
  rw [View.read_apply]
  refine congrArg (V c (Pipeline.arrRef spec0 4)) ?_
  obtain ⟨-, -, -, -, -, -, -, -, e0, e1, -⟩ := idx_facts0 t
  funext a; apply Fin.ext
  match a with
  | ⟨0, _⟩ => show win0_4.index t (0 : Fin 2) * 128 + 1 * l.val = l.val; rw [e0]; omega
  | ⟨1, _⟩ => show win0_4.index t (1 : Fin 2) * 128 + 1 * k.val = k.val; rw [e1]; omega
theorem iblk_5_0 (t : Fin cfg0.N) (u : Fin 1) (k : Fin 128) :
    (iblk0 V c 5 t : Vec Ideal S1x128 .f32) (ix2 u k) = (V c (Pipeline.arrRef spec0 5)) (ix2 0 k) := by
  unfold iblk0
  rw [View.read_apply]
  refine congrArg (V c (Pipeline.arrRef spec0 5)) ?_
  obtain ⟨-, -, -, -, -, -, -, -, -, -, e0, e1, -⟩ := idx_facts0 t
  funext a; apply Fin.ext
  match a with
  | ⟨0, _⟩ => show win0_5.index t (0 : Fin 2) * 1 + 1 * u.val = 0; rw [e0]; omega
  | ⟨1, _⟩ => show win0_5.index t (1 : Fin 2) * 128 + 1 * k.val = k.val; rw [e1]; omega

/-- The layer's `z` as one function of the arrays the region finds: the perceptron row by row. -/
def zAll0 : Fin 100000 → Fin 128 → EReal :=
  Cert.Spec.mlp (Cert.Spec.cur2 (n0 := 100000) (n1 := 128) (V c (Pipeline.arrRef spec0 0))) (Cert.Spec.cur2 (n0 := 100000) (n1 := 128) (V c (Pipeline.arrRef spec0 1)))
    (Cert.Spec.cur2 (n0 := 128) (n1 := 128) (V c (Pipeline.arrRef spec0 2))) (Cert.Spec.row (n1 := 128) (V c (Pipeline.arrRef spec0 3)))
    (Cert.Spec.cur2 (n0 := 128) (n1 := 128) (V c (Pipeline.arrRef spec0 4))) (Cert.Spec.row (n1 := 128) (V c (Pipeline.arrRef spec0 5)))

/-- The block of `z` at point `t` is rows `5000 t … 5000 t + 4999` of it. -/
theorem zblk_apply0 (t : Fin cfg0.N) (r : Fin 5000) (hlt : 5000 * t.val + r.val < 100000) (q : Fin 128) :
    zblk0 V c t (ix2 r q) = zAll0 V c ⟨5000 * t.val + r.val, hlt⟩ q := by
  unfold zblk0
  rw [pay4_apply]
  unfold blockMlp zAll0 Cert.Spec.mlp Cert.Spec.cur2 Cert.Spec.row
  simp only [iblk_0_0 V c t r hlt, iblk_1_0 V c t r hlt, iblk_2_0 V c t, iblk_3_0 V c t, iblk_4_0 V c t, iblk_5_0 V c t]

end Value

/-! ## The invariant of the accumulation, the write-backs, and the three arrays after the region -/

section Final
variable (V : (c : Dev nD) → (b : Ref sig .tc) → Buf (Elt Ideal) ((c : Thread nD τ).loc b)) (c : Dev nD)

open Cert.Spec (cur2 row mlp colSum colSumSq)

/-- After point `n` the output block holds the point's block of `z`, and the two accumulators hold the column sums of
    `z`, resp. of its squares, over the blocks of the points up to `n` — by induction on the point. -/
theorem outsAt_inv0 : ∀ (n : ℕ) (h : n < cfg0.N),
    (outsAt0 V c n h).1 = zblk0 V c ⟨n, h⟩
    ∧ (∀ (u : Fin 1) (q : Fin 128), (outsAt0 V c n h).2.1 (ix2 u q)
        = runSum (fun t => ∑ r : Fin 5000, zblk0 V c t (ix2 r q)) n h)
    ∧ (∀ (u : Fin 1) (q : Fin 128), (outsAt0 V c n h).2.2 (ix2 u q)
        = runSum (fun t => ∑ r : Fin 5000, zblk0 V c t (ix2 r q) * zblk0 V c t (ix2 r q)) n h)
  | 0, h => by
    have e : outsAt0 V c 0 h = _ := outsAt_A0 V c ⟨0, h⟩ rfl
    rw [e]
    refine ⟨rfl, fun u q => ?_, fun u q => ?_⟩
    · show k0_pay5 (F := Ideal) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay2 (F := Ideal)) (ix2 u q) = _
      rw [pay5_apply, pay2_apply, zero_add, runSum_zero]
      rfl
    · show k0_pay1 (F := Ideal) (zblk0 V c ⟨0, h⟩) (k0_pay3 (F := Ideal)) (ix2 u q) = _
      rw [pay1_apply, pay3_apply, zero_add, runSum_zero]
  | n + 1, h => by
    have hN : cfg0.N = 20 := N_0
    have hB : ¬(⟨n + 1, h⟩ : Fin cfg0.N).val % 20 = 0 := by dsimp only; omega
    have e : outsAt0 V c (n + 1) h = _ := outsAt_B0 V c ⟨n + 1, h⟩ hB
    obtain ⟨-, ih7, ih8⟩ := outsAt_inv0 n (Nat.lt_of_succ_lt h)
    rw [e]
    refine ⟨rfl, fun u q => ?_, fun u q => ?_⟩
    · show k0_pay5 (F := Ideal) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.1 (ix2 u q) = _
      rw [pay5_apply, ih7 u q, runSum_succ]
      rfl
    · show k0_pay1 (F := Ideal) (zblk0 V c ⟨n + 1, h⟩) (outsAt0 V c n (Nat.lt_of_succ_lt h)).2.2 (ix2 u q) = _
      rw [pay1_apply, ih8 u q, runSum_succ]

/-- What the three arrays end holding, as functions of the arrays the region finds. -/
def Gz_0 : S100000x128.Idx → EReal := fun i => zAll0 V c (i 0) (i 1)
def Gs_0 : S1x128.Idx → EReal := fun i => colSum (zAll0 V c) (i 1)
def Gss_0 : S1x128.Idx → EReal := fun i => colSumSq (zAll0 V c) (i 1)

/-- What point `t` writes back into `z`: rows `5000 t … 5000 t + 4999` of the perceptron's output. -/
theorem flushed6_0 (t : Fin cfg0.N) :
    (dat0 (F := Ideal) V c).flushed 6 t = ((cfg0.win 6).blk t).view.read (Elt Ideal) (Gz_0 V c) := by
  have hN : cfg0.N = 20 := N_0
  show (cfg0.win 6).cut (grid0.coords t) ((dat0 (F := Ideal) V c).after 6 t) = _
  rw [after0_6, (outsAt_inv0 V c t.val t.isLt).1]
  funext y
  obtain ⟨r, q, rfl⟩ : ∃ (r : Fin 5000) (q : Fin 128), y = ix2 r q := ⟨y 0, y 1, eq_ix2 y⟩
  have hlt : 5000 * t.val + r.val < 100000 := by have := t.isLt; have := r.isLt; omega
  rw [View.read_apply]
  have hemb : ((cfg0.win 6).blk t).view.emb (ix2 r q) = ix2 (⟨5000 * t.val + r.val, hlt⟩ : Fin 100000) q := by
    obtain ⟨-, -, -, -, -, -, -, -, -, -, -, -, e0, e1, -⟩ := idx_facts0 t
    funext a; apply Fin.ext
    match a with
    | ⟨0, _⟩ => show win0_6.index t (0 : Fin 2) * 5000 + 1 * r.val = 5000 * t.val + r.val; rw [e0]; omega
    | ⟨1, _⟩ => show win0_6.index t (1 : Fin 2) * 128 + 1 * q.val = q.val; rw [e1]; omega
  show zblk0 V c t (ix2 r q) = Gz_0 V c (((cfg0.win 6).blk t).view.emb (ix2 r q))
  rw [hemb]
  exact zblk_apply0 V c t r hlt q

/-- An index of the array of `z` is in point `t`'s block iff each coordinate is in the block's range on its axis. -/
theorem mem_blk6_0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v29_0).slice (win0_6.rect t)).set ↔ _
  rw [View.set_slice_whole, Rect.mem_set_unit]
  exact Iff.rfl

/-- Every row of `z` is in the block of the point `row / 5000`. -/
theorem cover6_0 (i : S100000x128.Idx) :
    ∃ t : Fin cfg0.N, (cfg0.win 6).flush t = true ∧ i ∈ ((cfg0.win 6).blk t).view.set := by
  have hN : cfg0.N = 20 := N_0
  have h0 : (i 0).val < 100000 := (i 0).isLt
  have h1 : (i 1).val < 128 := (i 1).isLt
  refine ⟨⟨(i 0).val / 5000, by omega⟩, flush0_6 _, ?_⟩
  obtain ⟨-, -, -, -, -, -, -, -, -, -, -, -, e0, e1, -⟩ := idx_facts0 (⟨(i 0).val / 5000, by omega⟩ : Fin cfg0.N)
  rw [mem_blk6_0]
  intro a
  match a with
  | ⟨0, _⟩ =>
    show win0_6.index _ (0 : Fin 2) * 5000 ≤ (i 0).val ∧ (i 0).val < win0_6.index _ (0 : Fin 2) * 5000 + 5000
    rw [e0]; dsimp only; omega
  | ⟨1, _⟩ =>
    show win0_6.index _ (1 : Fin 2) * 128 ≤ (i 1).val ∧ (i 1).val < win0_6.index _ (1 : Fin 2) * 128 + 128
    rw [e1]; omega

/-- What the write-back of the last point writes into the row of column sums: the sums over all 100000 rows.  The block of that
    window is the whole one-row array at every point. -/
theorem flushed7_0 (t : Fin cfg0.N) (hf : (cfg0.win 7).flush t = true) :
    (dat0 (F := Ideal) V c).flushed 7 t = ((cfg0.win 7).blk t).view.read (Elt Ideal) (Gs_0 V c) := by
  have hN : cfg0.N = 20 := N_0
  have h19 : t.val = 19 := by have := (flush0_7 t).mp hf; have := t.isLt; omega
  have hlt : ∀ (t' : Fin cfg0.N) (r : Fin 5000), 5000 * t'.val + r.val < 100000 := fun t' r => by
    have := t'.isLt; have := r.isLt; omega
  obtain ⟨-, -, -, -, -, -, -, -, -, -, -, -, -, -, e0, e1, -⟩ := idx_facts0 t
  show (cfg0.win 7).cut (grid0.coords t) ((dat0 (F := Ideal) V c).after 7 t) = _
  rw [after0_7]
  have hinv := (outsAt_inv0 V c t.val t.isLt).2.1
  generalize (outsAt0 V c t.val t.isLt).2.1 = X at hinv ⊢
  have hX : X = Gs_0 V c := by
    funext y
    obtain ⟨u, q, rfl⟩ : ∃ (u : Fin 1) (q : Fin 128), y = ix2 u q := ⟨y 0, y 1, eq_ix2 y⟩
    rw [hinv u q, runSum_all _ t.val t.isLt (by omega)]
    show _ = ∑ i : Fin 100000, zAll0 V c i q
    rw [← sum_blocks hN (fun i => zAll0 V c i q) hlt]
    refine Finset.sum_congr rfl fun t' _ => Finset.sum_congr rfl fun r _ => ?_
    rw [zblk_apply0 V c t' r (hlt t' r) q]
  rw [hX]
  have hz' : (fun a => win0_7.index t a * main_v29_1.ty.shape.size a) = fun _ => 0 := funext fun a => by
    match a with
    | ⟨0, _⟩ => show win0_7.index t (0 : Fin 2) * 1 = 0; rw [e0]
    | ⟨1, _⟩ => show win0_7.index t (1 : Fin 2) * 128 = 0; rw [e1]
  exact (Memref.read_access_unit_zero (Elt Ideal) main_v29_1 hz' (fun a => by rw [congrFun hz' a]; simp) (Gs_0 V c)).symm

/-- An index of the one-row array is in point `t`'s block iff each coordinate is in the block's range on its axis. -/
theorem mem_blk7_0 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v29_1).slice (win0_7.rect t)).set ↔ _
  rw [View.set_slice_whole, Rect.mem_set_unit]
  exact Iff.rfl

/-- The last point's block of the row of column sums is the whole one-row array. -/
theorem cover7_0 (i : S1x128.Idx) :
    ∃ t : Fin cfg0.N, (cfg0.win 7).flush t = true ∧ i ∈ ((cfg0.win 7).blk t).view.set := by
  have hN : cfg0.N = 20 := N_0
  have h0 : (i 0).val < 1 := (i 0).isLt
  have h1 : (i 1).val < 128 := (i 1).isLt
  refine ⟨⟨19, by omega⟩, (flush0_7 _).mpr rfl, ?_⟩
  obtain ⟨-, -, -, -, -, -, -, -, -, -, -, -, -, -, e0, e1, -⟩ := idx_facts0 (⟨19, by omega⟩ : Fin cfg0.N)
  rw [mem_blk7_0]
  intro a
  match a with
  | ⟨0, _⟩ =>
    show win0_7.index _ (0 : Fin 2) * 1 ≤ (i 0).val ∧ (i 0).val < win0_7.index _ (0 : Fin 2) * 1 + 1
    rw [e0]; omega
  | ⟨1, _⟩ =>
    show win0_7.index _ (1 : Fin 2) * 128 ≤ (i 1).val ∧ (i 1).val < win0_7.index _ (1 : Fin 2) * 128 + 128
    rw [e1]; omega

/-- What the write-back of the last point writes into the row of column sums of squares: the sums over all 100000 rows.  The block of that
    window is the whole one-row array at every point. -/
theorem flushed8_0 (t : Fin cfg0.N) (hf : (cfg0.win 8).flush t = true) :
    (dat0 (F := Ideal) V c).flushed 8 t = ((cfg0.win 8).blk t).view.read (Elt Ideal) (Gss_0 V c) := by
  have hN : cfg0.N = 20 := N_0
  have h19 : t.val = 19 := by have := (flush0_8 t).mp hf; have := t.isLt; omega
  have hlt : ∀ (t' : Fin cfg0.N) (r : Fin 5000), 5000 * t'.val + r.val < 100000 := fun t' r => by
    have := t'.isLt; have := r.isLt; omega
  obtain ⟨-, -, -, -, -, -, -, -, -, -, -, -, -, -, -, -, e0, e1⟩ := idx_facts0 t
  show (cfg0.win 8).cut (grid0.coords t) ((dat0 (F := Ideal) V c).after 8 t) = _
  rw [after0_8]
  have hinv := (outsAt_inv0 V c t.val t.isLt).2.2
  generalize (outsAt0 V c t.val t.isLt).2.2 = X at hinv ⊢
  have hX : X = Gss_0 V c := by
    funext y
    obtain ⟨u, q, rfl⟩ : ∃ (u : Fin 1) (q : Fin 128), y = ix2 u q := ⟨y 0, y 1, eq_ix2 y⟩
    rw [hinv u q, runSum_all _ t.val t.isLt (by omega)]
    show _ = ∑ i : Fin 100000, zAll0 V c i q * zAll0 V c i q
    rw [← sum_blocks hN (fun i => zAll0 V c i q * zAll0 V c i q) hlt]
    refine Finset.sum_congr rfl fun t' _ => Finset.sum_congr rfl fun r _ => ?_
    rw [zblk_apply0 V c t' r (hlt t' r) q]
  rw [hX]
  have hz' : (fun a => win0_8.index t a * main_v29_2.ty.shape.size a) = fun _ => 0 := funext fun a => by
    match a with
    | ⟨0, _⟩ => show win0_8.index t (0 : Fin 2) * 1 = 0; rw [e0]
    | ⟨1, _⟩ => show win0_8.index t (1 : Fin 2) * 128 = 0; rw [e1]
  exact (Memref.read_access_unit_zero (Elt Ideal) main_v29_2 hz' (fun a => by rw [congrFun hz' a]; simp) (Gss_0 V c)).symm

/-- An index of the one-row array is in point `t`'s block iff each coordinate is in the block's range on its axis. -/
theorem mem_blk8_0 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v29_2).slice (win0_8.rect t)).set ↔ _
  rw [View.set_slice_whole, Rect.mem_set_unit]
  exact Iff.rfl

/-- The last point's block of the row of column sums of squares is the whole one-row array. -/
theorem cover8_0 (i : S1x128.Idx) :
    ∃ t : Fin cfg0.N, (cfg0.win 8).flush t = true ∧ i ∈ ((cfg0.win 8).blk t).view.set := by
  have hN : cfg0.N = 20 := N_0
  have h0 : (i 0).val < 1 := (i 0).isLt
  have h1 : (i 1).val < 128 := (i 1).isLt
  refine ⟨⟨19, by omega⟩, (flush0_8 _).mpr rfl, ?_⟩
  obtain ⟨-, -, -, -, -, -, -, -, -, -, -, -, -, -, -, -, e0, e1⟩ := idx_facts0 (⟨19, by omega⟩ : Fin cfg0.N)
  rw [mem_blk8_0]
  intro a
  match a with
  | ⟨0, _⟩ =>
    show win0_8.index _ (0 : Fin 2) * 1 ≤ (i 0).val ∧ (i 0).val < win0_8.index _ (0 : Fin 2) * 1 + 1
    rw [e0]; omega
  | ⟨1, _⟩ =>
    show win0_8.index _ (1 : Fin 2) * 128 ≤ (i 1).val ∧ (i 1).val < win0_8.index _ (1 : Fin 2) * 128 + 128
    rw [e1]; omega

/-- After the region the array of `z` holds the perceptron's output, row by row. -/
theorem z0 (p : Fin 100000) (q : Fin 128) : (Gen.dat0 (F := Ideal) V c).arrAt 6 cfg0.N (ix2 p q) = mlp (cur2 (V c (Pipeline.arrRef spec0 0))) (cur2 (V c (Pipeline.arrRef spec0 1))) (cur2 (V c (Pipeline.arrRef spec0 2))) (row (V c (Pipeline.arrRef spec0 3))) (cur2 (V c (Pipeline.arrRef spec0 4))) (row (V c (Pipeline.arrRef spec0 5))) p q := by
  rw [(dat0 (F := Ideal) V c).arrAt_eq_of_cover 6 (Gz_0 V c) (fun t _ => flushed6_0 V c t) (cover6_0)]
  rfl

/-- After the region the first accumulator holds the column sums of `z` over all rows. -/
theorem s0 (q : Fin 128) : (Gen.dat0 (F := Ideal) V c).arrAt 7 cfg0.N (ix2 (0 : Fin 1) q) = colSum (mlp (cur2 (V c (Pipeline.arrRef spec0 0))) (cur2 (V c (Pipeline.arrRef spec0 1))) (cur2 (V c (Pipeline.arrRef spec0 2))) (row (V c (Pipeline.arrRef spec0 3))) (cur2 (V c (Pipeline.arrRef spec0 4))) (row (V c (Pipeline.arrRef spec0 5)))) q := by
  rw [(dat0 (F := Ideal) V c).arrAt_eq_of_cover 7 (Gs_0 V c) (flushed7_0 V c) (cover7_0)]
  rfl

/-- After the region the second accumulator holds the column sums of the squares of `z` over all rows. -/
theorem ss0 (q : Fin 128) : (Gen.dat0 (F := Ideal) V c).arrAt 8 cfg0.N (ix2 (0 : Fin 1) q) = colSumSq (mlp (cur2 (V c (Pipeline.arrRef spec0 0))) (cur2 (V c (Pipeline.arrRef spec0 1))) (cur2 (V c (Pipeline.arrRef spec0 2))) (row (V c (Pipeline.arrRef spec0 3))) (cur2 (V c (Pipeline.arrRef spec0 4))) (row (V c (Pipeline.arrRef spec0 5)))) q := by
  rw [(dat0 (F := Ideal) V c).arrAt_eq_of_cover 8 (Gss_0 V c) (flushed8_0 V c) (cover8_0)]
  rfl

end Final

end Cert.KernelIdeal.Gin
end
-- ==== Proof.BnBody.lean ====
/-
  The normalise / scale / shift / clamp kernel's stored value, read at one index of its block.

  The kernel loads a [5000,128] block `z` and four [1,128] rows (mean, variance, scale, shift), broadcasts each row
  down the 5000 rows, and stores `max (((z - mean) * rsqrt (variance + eps)) * scale + shift) 0`.  Read at row `r`,
  column `q` of the block this is the same formula over the entries `z r q` and the rows' entries at column `q`.
  The three launches of the kernel store the same term of their loaded values.

  `bnArr` is the [100000,128] array the twenty blocks make up: `Spec.bn` of the five operand arrays, index by index.
  When the block `z` is rows `5000 b … 5000 b + 4999` of an array and the four rows are the four row arrays, the
  stored block is rows `5000 b …` of `bnArr` (`pay_block`).
-/
import proofs.«161505_j35811437314143_1_alg».proof.Proof.Spec
import proofs.«161505_j35811437314143_1_alg».proof.Proof.Gen.KernelIdeal.Skeleton
import Idealize.ShloMosaic.Lib.Pipeline.Value
import Idealize.ShloMosaic.Lib.ValueIdx

noncomputable section

namespace Cert.KernelIdeal.Bn

open Cert.KernelIdeal Cert.KernelIdeal.Gen Idealize.ShloMosaic Idealize.ShloMosaic.ValueIdx
open Cert.Spec (cur2 row bn)

/-- The two zero offsets of a whole-buffer access, as the constant function. -/
theorem hz : (![0, 0] : Fin 2 → Nat) = fun _ => 0 := funext fun a => by fin_cases a <;> rfl

/-- A [1,128] row broadcast down 5000 rows, read at row `r`, column `q`, is the row's entry at column `q`. -/
theorem bcast_row_apply (x : Vec Ideal S1x128 .f32) (r : Fin 5000) (q : Fin 128) :
    broadcastTo S5000x128 x broadcasts_S1x128_S5000x128 (ix2 r q) = x (ix2 0 q) := by
  refine broadcastTo_apply x _ (ix2 r q) (ix2 0 q) (fun a => ?_)
  match a with
  | ⟨0, _⟩ => rfl
  | ⟨1, _⟩ => rfl

/-- The stored value at row `r`, column `q` of the block: normalise by the column's mean and variance, scale, shift,
    clamp at zero. -/
theorem pay_apply (x0 : Vec Ideal S5000x128 .f32) (x1 x2 x3 x4 : Vec Ideal S1x128 .f32) (r : Fin 5000) (q : Fin 128) :
    k1_pay1 (F := Ideal) x0 x1 x2 x3 x4 (ix2 r q)
      = max ((x0 (ix2 r q) - x1 (ix2 0 q)) * Ideal.rsqrt (x2 (ix2 0 q) + Cert.Spec.eps) * x3 (ix2 0 q) + x4 (ix2 0 q))
          Cert.Spec.zero := by
  unfold k1_pay1
  simp only [shapeCast_self]
  rw [maximumf_apply, addf_apply, mulf_apply, mulf_apply, subf_apply, bcast_row_apply, bcast_row_apply,
    bcast_row_apply, bcast_row_apply]
  rfl

/-- The second and third launches store the same term of their loaded values as the first. -/
theorem pay3_eq : @k3_pay1 = @k1_pay1 := rfl
theorem pay5_eq : @k5_pay1 = @k1_pay1 := rfl

/-- The normalised array, index by index: `Spec.bn` of the [100000,128] array and the four [1,128] rows. -/
def bnArr (z : S100000x128.Idx → EReal) (mu var γ β : S1x128.Idx → EReal) : S100000x128.Idx → EReal :=
  fun i => bn (cur2 z) (row mu) (row var) (row γ) (row β) ⟨(i 0).val, idx2_lt0 i⟩ ⟨(i 1).val, idx2_lt1 i⟩

/-- It read at row `p`, column `q`. -/
theorem bnArr_apply (z : S100000x128.Idx → EReal) (mu var γ β : S1x128.Idx → EReal) (p : Fin 100000) (q : Fin 128) :
    bnArr z mu var γ β (ix2 p q) = bn (cur2 z) (row mu) (row var) (row γ) (row β) p q := rfl

/-- Block `b` of the twenty: when the loaded block is rows `5000 b …` of `z` and the loaded rows are the four row
    arrays, the stored block is rows `5000 b …` of `bnArr`. -/
theorem pay_block (z : S100000x128.Idx → EReal) (mu var γ β : S1x128.Idx → EReal)
    (x0 : Vec Ideal S5000x128 .f32) (x1 x2 x3 x4 : Vec Ideal S1x128 .f32) (b : Nat) (hb : b < 20)
    (h0 : ∀ (r : Fin 5000) (q : Fin 128), x0 (ix2 r q) = z (ix2 (⟨b * 5000 + r.val, by omega⟩ : Fin 100000) q))
    (h1 : ∀ q : Fin 128, x1 (ix2 0 q) = mu (ix2 0 q)) (h2 : ∀ q : Fin 128, x2 (ix2 0 q) = var (ix2 0 q))
    (h3 : ∀ q : Fin 128, x3 (ix2 0 q) = γ (ix2 0 q)) (h4 : ∀ q : Fin 128, x4 (ix2 0 q) = β (ix2 0 q))
    (r : Fin 5000) (q : Fin 128) :
    k1_pay1 (F := Ideal) x0 x1 x2 x3 x4 (ix2 r q)
      = bnArr z mu var γ β (ix2 (⟨b * 5000 + r.val, by omega⟩ : Fin 100000) q) := by
  rw [pay_apply, bnArr_apply, h0, h1, h2, h3, h4]
  rfl

end Cert.KernelIdeal.Bn

end
-- ==== Proof.Bn1.lean ====
/-
  Launch 1 of the normalise / scale / shift / clamp kernel: the [100000,128] array it leaves.

  Twenty grid points; point `t` loads rows `5000 t … 5000 t + 4999` of the first operand and the whole of the four
  [1,128] row operands, and writes rows `5000 t …` of the result back.  So each point writes its rows of `bnArr` of
  the five operand arrays (`flushed1_eq`), the twenty row blocks fill the array (`cover1`), and the array ends
  holding `Spec.bn` of the operands index by index (`h1`).
-/
import proofs.«161505_j35811437314143_1_alg».proof.Proof.BnBody
import proofs.«161505_j35811437314143_1_alg».proof.Proof.Gen.KernelIdeal.Frame
import Idealize.ShloMosaic.Lib.Pipeline.Value

noncomputable section

namespace Cert.KernelIdeal.Bn

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (cur2 row bn)

variable (V : (c : Dev nD) → (b : Ref sig .tc) → Buf (Elt Ideal) ((c : Thread nD τ).loc b)) (c : Dev nD)

/-- The grid has twenty points. -/
theorem lt20_1 (t : Fin cfg1.N) : t.val < 20 :=
  Nat.lt_of_lt_of_eq t.isLt N_1

/-- The printed index maps, decided over the grid: the first operand's and the result's block index is the point's
    number on the row axis and zero on the column axis; the four rows' block index is zero on both axes. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first operand's block at point `t` is rows `5000 t …` of its array. -/
theorem blk1_0_apply (t : Fin cfg1.N) (r : Fin 5000) (q : Fin 128) :
    (iblk1 V c 0 t : Vec Ideal S5000x128 .f32) (ix2 r q)
      = (V c (Pipeline.arrRef spec1 0) : S100000x128.Idx → EReal)
          (ix2 (⟨t.val * 5000 + r.val, by have := lt20_1 t; omega⟩ : Fin 100000) q) := by
  obtain ⟨e0, e1, -⟩ := idx_facts1 t
  show V c (Pipeline.arrRef spec1 0) (((cfg1.win 0).blk t).view.emb (ix2 r q))
    = V c (Pipeline.arrRef spec1 0) (ix2 (⟨t.val * 5000 + r.val, _⟩ : Fin 100000) q)
  refine congrArg _ (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * q.val = q.val; omega

/-- Each row operand's block at every point is the whole row array. -/
theorem blk1_1_apply (t : Fin cfg1.N) (q : Fin 128) :
    (iblk1 V c 1 t : Vec Ideal S1x128 .f32) (ix2 0 q) = (V c (Pipeline.arrRef spec1 1) : S1x128.Idx → EReal) (ix2 0 q) := by
  obtain ⟨-, -, e0, e1, -⟩ := idx_facts1 t
  show V c (Pipeline.arrRef spec1 1) (((cfg1.win 1).blk t).view.emb (ix2 0 q)) = V c (Pipeline.arrRef spec1 1) (ix2 0 q)
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega
theorem blk1_2_apply (t : Fin cfg1.N) (q : Fin 128) :
    (iblk1 V c 2 t : Vec Ideal S1x128 .f32) (ix2 0 q) = (V c (Pipeline.arrRef spec1 2) : S1x128.Idx → EReal) (ix2 0 q) := by
  obtain ⟨-, -, -, -, e0, e1, -⟩ := idx_facts1 t
  show V c (Pipeline.arrRef spec1 2) (((cfg1.win 2).blk t).view.emb (ix2 0 q)) = V c (Pipeline.arrRef spec1 2) (ix2 0 q)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega
theorem blk1_3_apply (t : Fin cfg1.N) (q : Fin 128) :
    (iblk1 V c 3 t : Vec Ideal S1x128 .f32) (ix2 0 q) = (V c (Pipeline.arrRef spec1 3) : S1x128.Idx → EReal) (ix2 0 q) := by
  obtain ⟨-, -, -, -, -, -, e0, e1, -⟩ := idx_facts1 t
  show V c (Pipeline.arrRef spec1 3) (((cfg1.win 3).blk t).view.emb (ix2 0 q)) = V c (Pipeline.arrRef spec1 3) (ix2 0 q)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega
theorem blk1_4_apply (t : Fin cfg1.N) (q : Fin 128) :
    (iblk1 V c 4 t : Vec Ideal S1x128 .f32) (ix2 0 q) = (V c (Pipeline.arrRef spec1 4) : S1x128.Idx → EReal) (ix2 0 q) := by
  obtain ⟨-, -, -, -, -, -, -, -, e0, e1, -⟩ := idx_facts1 t
  show V c (Pipeline.arrRef spec1 4) (((cfg1.win 4).blk t).view.emb (ix2 0 q)) = V c (Pipeline.arrRef spec1 4) (ix2 0 q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- What the result array ends holding: `bnArr` of the five operand arrays as the launch finds them. -/
abbrev arr1 : S100000x128.Idx → EReal :=
  bnArr (V c (Pipeline.arrRef spec1 0)) (V c (Pipeline.arrRef spec1 1)) (V c (Pipeline.arrRef spec1 2))
    (V c (Pipeline.arrRef spec1 3)) (V c (Pipeline.arrRef spec1 4))

/-- WHAT POINT `t` WRITES BACK is block `t` of `arr1`. -/
theorem flushed1_eq (t : Fin cfg1.N) :
    (dat1 V c).flushed 5 t = ((cfg1.win 5).blk t).view.read (Elt Ideal) (arr1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  obtain ⟨-, -, -, -, -, -, -, -, -, -, e0, e1⟩ := idx_facts1 t
  funext j
  obtain ⟨r, q, rfl⟩ : ∃ (r : Fin 5000) (q : Fin 128), j = ix2 r q := ⟨j 0, j 1, eq_ix2 j⟩
  show k1_pay1 (F := Ideal) (iblk1 V c 0 t) (iblk1 V c 1 t) (iblk1 V c 2 t) (iblk1 V c 3 t) (iblk1 V c 4 t) (ix2 r q)
    = arr1 V c (((cfg1.win 5).blk t).view.emb (ix2 r q))
  rw [pay_block (V c (Pipeline.arrRef spec1 0)) (V c (Pipeline.arrRef spec1 1)) (V c (Pipeline.arrRef spec1 2))
    (V c (Pipeline.arrRef spec1 3)) (V c (Pipeline.arrRef spec1 4)) _ _ _ _ _ t.val (lt20_1 t)
    (blk1_0_apply V c t) (blk1_1_apply V c t) (blk1_2_apply V c t) (blk1_3_apply V c t) (blk1_4_apply V c t) r q]
  refine congrArg _ (funext fun a => Fin.ext ?_)
  match a with
  | ⟨0, _⟩ => show t.val * 5000 + r.val = win1_5.index t (0 : Fin 2) * 5000 + 1 * r.val; omega
  | ⟨1, _⟩ => show q.val = win1_5.index t (1 : Fin 2) * 128 + 1 * q.val; omega

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v46).slice (win1_5.rect t)).set ↔ _
  rw [View.set_slice_whole, Rect.mem_set_unit]
  exact Iff.rfl

/-- Every index of the array is in some point's block: row `p` is in block `p / 5000`. -/
theorem cover1 (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, e0, e1⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the launch is `arr1`. -/
theorem final1 : (dat1 V c).arrAt 5 cfg1.N = arr1 V c :=
  (dat1 V c).arrAt_eq_of_cover 5 (arr1 V c) (fun t _ => flushed1_eq V c t) (cover1)

/-- The result array read at row `p`, column `q`: normalise, scale, shift, clamp of the operands' entries. -/
theorem h1 (p : Fin 100000) (q : Fin 128) :
    (Gen.dat1 (F := Ideal) V c).arrAt 5 cfg1.N (ix2 p q)
      = bn (cur2 (V c (Pipeline.arrRef spec1 0))) (row (V c (Pipeline.arrRef spec1 1))) (row (V c (Pipeline.arrRef spec1 2)))
          (row (V c (Pipeline.arrRef spec1 3))) (row (V c (Pipeline.arrRef spec1 4))) p q := by
  rw [final1]
  rfl

end Cert.KernelIdeal.Bn

end
-- ==== Proof.KLayer0.lean ====
import proofs.«161505_j35811437314143_1_alg».proof.Proof.Gen.KernelIdeal.Frame
import proofs.«161505_j35811437314143_1_alg».proof.Proof.KHost
import proofs.«161505_j35811437314143_1_alg».proof.Proof.KPull
import proofs.«161505_j35811437314143_1_alg».proof.Proof.Slices
import proofs.«161505_j35811437314143_1_alg».proof.Proof.Gin0
import proofs.«161505_j35811437314143_1_alg».proof.Proof.Bn1
set_option maxRecDepth 16384

noncomputable section

namespace Cert.KernelIdeal.KLayer0

open Idealize.ShloMosaic Idealize.ShloMosaic.TcCoe Idealize.ShloMosaic.StableHlo Idealize.ShloMosaic.ValueIdx Idealize.SL.Sem
open Cert.KernelIdeal Cert.KernelIdeal.Gen Cert.KernelIdeal.KHost Cert.KernelIdeal.KChainA Cert.KernelIdeal.KPull Cert.Spec

variable (m : (ℓ : Loc nD τ sig) → Buf (Elt Ideal) ℓ) (ρ : Dev nD → PrngReg) (c : Dev nD)

/-- No operation of a host stretch writes the buffer: the stretch leaves it as it was. -/
macro "host_keep " ops:ident : tactic =>
  `(tactic| (refine StableHlo.after_of_forall_not_mem _ _ (List.forall_iff_forall_mem.mp ?_)
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## Layer 1: the host stretch before the accumulating region, the region, the statistics stretch, the normalising region -/

/-- The layer's input rows reach the accumulating region unchanged. -/
theorem hin_eq : W1 m ρ c (Proc.devRef .tc main_arg0) = (m ((c : Thread nD τ).loc main_arg0)) := W1_arg0 m ρ c

/-- The neighbour sums. -/
theorem agg_eq : W1 m ρ c (Proc.devRef .tc main_v18) = aggOf (m ((c : Thread nD τ).loc main_arg0)) (raw1 (m ((c : Thread nD τ).loc main_arg1))) (raw3 (m ((c : Thread nD τ).loc main_arg1))) := W1_v18 m ρ c

/-- The layer's two weight matrices and two bias rows, out of the stacks. -/
theorem w1_eq : cur2 (W1 m ρ c (Proc.devRef .tc main_v20)) = sl3 0 (m ((c : Thread nD τ).loc main_arg3)) := by
  have e : W1 m ρ c (Proc.devRef .tc main_v20) = wsl0 (m ((c : Thread nD τ).loc main_arg3)) := by
    show StableHlo.after hostOps0 (W0 m ρ c) (Proc.devRef .tc main_v20) = _
    after_results_simp
    rfl
  rw [e]
  funext l k
  exact wsl0_apply _ l k
theorem w2_eq : cur2 (W1 m ρ c (Proc.devRef .tc main_v24)) = sl3 0 (m ((c : Thread nD τ).loc main_arg5)) := by
  have e : W1 m ρ c (Proc.devRef .tc main_v24) = wsl0 (m ((c : Thread nD τ).loc main_arg5)) := by
    show StableHlo.after hostOps0 (W0 m ρ c) (Proc.devRef .tc main_v24) = _
    after_results_simp
    rfl
  rw [e]
  funext l k
  exact wsl0_apply _ l k
theorem b1_eq : row (W1 m ρ c (Proc.devRef .tc main_v27)) = sl2 0 (m ((c : Thread nD τ).loc main_arg4)) := by
  have e : W1 m ρ c (Proc.devRef .tc main_v27) = toRow (bsl0 (m ((c : Thread nD τ).loc main_arg4))) := by
    show StableHlo.after hostOps0 (W0 m ρ c) (Proc.devRef .tc main_v27) = _
    after_results_simp
    rfl
  rw [e]
  funext k
  exact (toRow_apply _ k).trans (bsl0_apply _ k)
theorem b2_eq : row (W1 m ρ c (Proc.devRef .tc main_v28)) = sl2 0 (m ((c : Thread nD τ).loc main_arg6)) := by
  have e : W1 m ρ c (Proc.devRef .tc main_v28) = toRow (bsl0 (m ((c : Thread nD τ).loc main_arg6))) := by
    show StableHlo.after hostOps0 (W0 m ρ c) (Proc.devRef .tc main_v28) = _
    after_results_simp
    rfl
  rw [e]
  funext k
  exact (toRow_apply _ k).trans (bsl0_apply _ k)

/-- The accumulating region leaves the perceptron's output, its column sums and the column sums of its squares. -/
theorem z_at (p : Fin 100000) (q : Fin 128) : W2 m ρ c (Proc.devRef .tc main_v29_0) (ix2 p q) = (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6)))) p q := by
  have e : W2 m ρ c (Proc.devRef .tc main_v29_0) = (dat0 (V1 m ρ) c).arrAt 6 cfg0.N := W2_arr m ρ c 6
  rw [e, Gin.z0 (V1 m ρ) c p q]
  have h0 : V1 m ρ c (Pipeline.arrRef spec0 0) = (m ((c : Thread nD τ).loc main_arg0)) := hin_eq m ρ c
  have h1 : V1 m ρ c (Pipeline.arrRef spec0 1) = aggOf (m ((c : Thread nD τ).loc main_arg0)) (raw1 (m ((c : Thread nD τ).loc main_arg1))) (raw3 (m ((c : Thread nD τ).loc main_arg1))) := agg_eq m ρ c
  have h2 : cur2 (V1 m ρ c (Pipeline.arrRef spec0 2)) = sl3 0 (m ((c : Thread nD τ).loc main_arg3)) := w1_eq m ρ c
  have h3 : row (V1 m ρ c (Pipeline.arrRef spec0 3)) = sl2 0 (m ((c : Thread nD τ).loc main_arg4)) := b1_eq m ρ c
  have h4 : cur2 (V1 m ρ c (Pipeline.arrRef spec0 4)) = sl3 0 (m ((c : Thread nD τ).loc main_arg5)) := w2_eq m ρ c
  have h5 : row (V1 m ρ c (Pipeline.arrRef spec0 5)) = sl2 0 (m ((c : Thread nD τ).loc main_arg6)) := b2_eq m ρ c
  unfold Zof
  rw [h0, h1, h2, h3, h4, h5]
theorem s_at (q : Fin 128) : W2 m ρ c (Proc.devRef .tc main_v29_1) (ix2 (0 : Fin 1) q) = colSum (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6)))) q := by
  have e : W2 m ρ c (Proc.devRef .tc main_v29_1) = (dat0 (V1 m ρ) c).arrAt 7 cfg0.N := W2_arr m ρ c 7
  rw [e, Gin.s0 (V1 m ρ) c q]
  have h0 : V1 m ρ c (Pipeline.arrRef spec0 0) = (m ((c : Thread nD τ).loc main_arg0)) := hin_eq m ρ c
  have h1 : V1 m ρ c (Pipeline.arrRef spec0 1) = aggOf (m ((c : Thread nD τ).loc main_arg0)) (raw1 (m ((c : Thread nD τ).loc main_arg1))) (raw3 (m ((c : Thread nD τ).loc main_arg1))) := agg_eq m ρ c
  have h2 : cur2 (V1 m ρ c (Pipeline.arrRef spec0 2)) = sl3 0 (m ((c : Thread nD τ).loc main_arg3)) := w1_eq m ρ c
  have h3 : row (V1 m ρ c (Pipeline.arrRef spec0 3)) = sl2 0 (m ((c : Thread nD τ).loc main_arg4)) := b1_eq m ρ c
  have h4 : cur2 (V1 m ρ c (Pipeline.arrRef spec0 4)) = sl3 0 (m ((c : Thread nD τ).loc main_arg5)) := w2_eq m ρ c
  have h5 : row (V1 m ρ c (Pipeline.arrRef spec0 5)) = sl2 0 (m ((c : Thread nD τ).loc main_arg6)) := b2_eq m ρ c
  unfold Zof
  rw [h0, h1, h2, h3, h4, h5]
theorem ss_at (q : Fin 128) : W2 m ρ c (Proc.devRef .tc main_v29_2) (ix2 (0 : Fin 1) q) = colSumSq (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6)))) q := by
  have e : W2 m ρ c (Proc.devRef .tc main_v29_2) = (dat0 (V1 m ρ) c).arrAt 8 cfg0.N := W2_arr m ρ c 8
  rw [e, Gin.ss0 (V1 m ρ) c q]
  have h0 : V1 m ρ c (Pipeline.arrRef spec0 0) = (m ((c : Thread nD τ).loc main_arg0)) := hin_eq m ρ c
  have h1 : V1 m ρ c (Pipeline.arrRef spec0 1) = aggOf (m ((c : Thread nD τ).loc main_arg0)) (raw1 (m ((c : Thread nD τ).loc main_arg1))) (raw3 (m ((c : Thread nD τ).loc main_arg1))) := agg_eq m ρ c
  have h2 : cur2 (V1 m ρ c (Pipeline.arrRef spec0 2)) = sl3 0 (m ((c : Thread nD τ).loc main_arg3)) := w1_eq m ρ c
  have h3 : row (V1 m ρ c (Pipeline.arrRef spec0 3)) = sl2 0 (m ((c : Thread nD τ).loc main_arg4)) := b1_eq m ρ c
  have h4 : cur2 (V1 m ρ c (Pipeline.arrRef spec0 4)) = sl3 0 (m ((c : Thread nD τ).loc main_arg5)) := w2_eq m ρ c
  have h5 : row (V1 m ρ c (Pipeline.arrRef spec0 5)) = sl2 0 (m ((c : Thread nD τ).loc main_arg6)) := b2_eq m ρ c
  unfold Zof
  rw [h0, h1, h2, h3, h4, h5]

/-- The statistics stretch: the perceptron's output passes through; the mean row, the variance row (mean of squares
    minus squared mean), the scale row and the shift row. -/
theorem zkeep_eq : cur2 (W3 m ρ c (Proc.devRef .tc main_v29_0)) = (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6)))) := by
  have e : W3 m ρ c (Proc.devRef .tc main_v29_0) = W2 m ρ c (Proc.devRef .tc main_v29_0) := by host_keep hostOps1
  rw [e]
  funext p q
  exact z_at m ρ c p q
theorem mean_eq : row (W3 m ρ c (Proc.devRef .tc main_v42)) = mean (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6)))) := by
  have e : W3 m ρ c (Proc.devRef .tc main_v42) = toRow (meanV (W2 m ρ c (Proc.devRef .tc main_v29_1))) := by
    show StableHlo.after hostOps1 (W2 m ρ c) (Proc.devRef .tc main_v42) = _
    after_results_simp
    rfl
  rw [e]
  funext q
  show toRow _ (ix2 (0 : Fin 1) q) = _
  rw [toRow_apply, meanV_apply, s_at m ρ c q]
  rfl
theorem var_eq : row (W3 m ρ c (Proc.devRef .tc main_v43)) = varK (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6)))) := by
  have e : W3 m ρ c (Proc.devRef .tc main_v43) = toRow (varV (W2 m ρ c (Proc.devRef .tc main_v29_1)) (W2 m ρ c (Proc.devRef .tc main_v29_2))) := by
    show StableHlo.after hostOps1 (W2 m ρ c) (Proc.devRef .tc main_v43) = _
    after_results_simp
    rfl
  rw [e]
  funext q
  show toRow _ (ix2 (0 : Fin 1) q) = _
  rw [toRow_apply, varV_apply, s_at m ρ c q, ss_at m ρ c q]
  rfl
theorem gam_eq : row (W3 m ρ c (Proc.devRef .tc main_v44)) = sl2 0 (m ((c : Thread nD τ).loc main_arg7)) := by
  have e : W3 m ρ c (Proc.devRef .tc main_v44) = toRow (bsl0 (W2 m ρ c (Proc.devRef .tc main_arg7))) := by
    show StableHlo.after hostOps1 (W2 m ρ c) (Proc.devRef .tc main_v44) = _
    after_results_simp
    rfl
  rw [e, W2_arg7 m ρ c]
  funext k
  exact (toRow_apply _ k).trans (bsl0_apply _ k)
theorem bet_eq : row (W3 m ρ c (Proc.devRef .tc main_v45)) = sl2 0 (m ((c : Thread nD τ).loc main_arg8)) := by
  have e : W3 m ρ c (Proc.devRef .tc main_v45) = toRow (bsl0 (W2 m ρ c (Proc.devRef .tc main_arg8))) := by
    show StableHlo.after hostOps1 (W2 m ρ c) (Proc.devRef .tc main_v45) = _
    after_results_simp
    rfl
  rw [e, W2_arg8 m ρ c]
  funext k
  exact (toRow_apply _ k).trans (bsl0_apply _ k)

/-- THE LAYER on the kernel's side: the normalising region leaves the perceptron's output normalised by its column
    mean and by the mean-of-squares-minus-squared-mean variance, scaled, shifted and clamped at zero. -/
theorem layer (p : Fin 100000) (q : Fin 128) :
    W4 m ρ c (Proc.devRef .tc main_v46) (ix2 p q) = bn (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6)))) (mean (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6))))) (varK (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6))))) (sl2 0 (m ((c : Thread nD τ).loc main_arg7))) (sl2 0 (m ((c : Thread nD τ).loc main_arg8))) p q := by
  have e : W4 m ρ c (Proc.devRef .tc main_v46) = (dat1 (V3 m ρ) c).arrAt 5 cfg1.N := W4_arr m ρ c 5
  rw [e, Bn.h1 (V3 m ρ) c p q]
  have h0 : cur2 (V3 m ρ c (Pipeline.arrRef spec1 0)) = (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6)))) := zkeep_eq m ρ c
  have h1 : row (V3 m ρ c (Pipeline.arrRef spec1 1)) = mean (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6)))) := mean_eq m ρ c
  have h2 : row (V3 m ρ c (Pipeline.arrRef spec1 2)) = varK (Zof (m ((c : Thread nD τ).loc main_arg0)) (m ((c : Thread nD τ).loc main_arg1)) (sl3 0 (m ((c : Thread nD τ).loc main_arg3))) (sl2 0 (m ((c : Thread nD τ).loc main_arg4))) (sl3 0 (m ((c : Thread nD τ).loc main_arg5))) (sl2 0 (m ((c : Thread nD τ).loc main_arg6)))) := var_eq m ρ c
  have h3 : row (V3 m ρ c (Pipeline.arrRef spec1 3)) = sl2 0 (m ((c : Thread nD τ).loc main_arg7)) := gam_eq m ρ c
  have h4 : row (V3 m ρ c (Pipeline.arrRef spec1 4)) = sl2 0 (m ((c : Thread nD τ).loc main_arg8)) := bet_eq m ρ c
  rw [h0, h1, h2, h3, h4]

end Cert.KernelIdeal.KLayer0

end
-- ==== Proof.Gin2.lean ====
/-
  One launch of the graph-convolution layer's first kernel (the launch whose region of the program has index 2), run over its
  grid of twenty points, read as values.

  Point `t` works on rows `5000 t … 5000 t + 4999`: it writes the perceptron's output for those rows into its block of `z`,
  and adds the block's column sums of `z` and of `z · z` to two one-row accumulators that stay in place from point to point
  (zeroed at the first point, written back after the last).  So after the region `z` holds the perceptron row by row, and the
  accumulators hold the sums over the blocks of all twenty points, which are the sums over all 100000 rows.
-/
import proofs.«161505_j35811437314143_1_alg».proof.Proof.Gen.KernelIdeal.Frame
import proofs.«161505_j35811437314143_1_alg».proof.Proof.GinBody
import Idealize.ShloMosaic.Lib.Pipeline.Value
import Idealize.ShloMosaic.Lib.ValueLayout
import Idealize.ShloMosaic.Lib.Tactic

noncomputable section

namespace Cert.KernelIdeal.Gin

open Idealize.ShloMosaic Idealize.ShloMosaic.TcCoe Idealize.SL.Sem Idealize.ShloMosaic.ValueIdx
open Idealize.ShloMosaic.Pipeline (Dat)
open Cert.KernelIdeal Cert.KernelIdeal.Gen

/-! ## What each control case leaves in the three output buffers, as the block arithmetic of the six input blocks -/

section Pieces
variable {F : FTy → Type} [FloatOps F]

theorem hz2_2 : (![0, 0] : Fin 2 → Nat) = fun _ => 0 := funext fun a => by fin_cases a <;> rfl

/-- First point: the output block is the perceptron of the input blocks. -/
theorem out_A_62 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) :
    out2_A_6 c i arg1 harg1 arg2 harg2 arg3 harg3 arg4 harg4 arg5 harg5 arg6 harg6 arg7 harg7 arg8 harg8 arg9 harg9 hc0 x0 x1 x2 x3 x4 x5 = k0_pay4 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  rw [View.canon_unit_zero hz2_2]
  simp only [View.readAt_eq_ld, harg1.read_unread, harg2.read_unread, harg3.read_unread, harg4.read_unread, harg5.read_unread, harg6.read_unread, View.ld_unit_zero (S := S5000x128) hz2_2, View.ld_unit_zero (S := S128x128) hz2_2, View.ld_unit_zero (S := S1x128) hz2_2]
  exact k2_pay4_eq x0 x1 x2 x3 x4 x5

/-- First point: the row of column sums is the zero row plus the block's column sums. -/
theorem out_A_72 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) :
    out2_A_7 c i arg1 harg1 arg2 harg2 arg3 harg3 arg4 harg4 arg5 harg5 arg6 harg6 arg7 harg7 arg8 harg8 arg9 harg9 hc0 x0 x1 x2 x3 x4 x5 = k0_pay5 x0 x1 x2 x3 x4 x5 k0_pay2 := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz2_2, View.readCov_unit_zero (S := S1x128) _ hz2_2]
  simp only [View.readAt_eq_ld, harg1.read_unread, harg2.read_unread, harg3.read_unread, harg4.read_unread, harg5.read_unread, harg6.read_unread, View.ld_unit_zero (S := S5000x128) hz2_2, View.ld_unit_zero (S := S128x128) hz2_2, View.ld_unit_zero (S := S1x128) hz2_2]
  rw [k2_pay5_eq, k2_pay2_eq]

/-- First point: the row of column sums of squares is the zero row plus the block's. -/
theorem out_A_82 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) :
    out2_A_8 c i arg1 harg1 arg2 harg2 arg3 harg3 arg4 harg4 arg5 harg5 arg6 harg6 arg7 harg7 arg8 harg8 arg9 harg9 hc0 x0 x1 x2 x3 x4 x5 = k0_pay1 (k0_pay4 x0 x1 x2 x3 x4 x5) k0_pay3 := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz2_2, View.readCov_unit_zero (S := S1x128) _ hz2_2]
  simp only [View.readAt_eq_ld, harg1.read_unread, harg2.read_unread, harg3.read_unread, harg4.read_unread, harg5.read_unread, harg6.read_unread, View.ld_unit_zero (S := S5000x128) hz2_2, View.ld_unit_zero (S := S128x128) hz2_2, View.ld_unit_zero (S := S1x128) hz2_2]
  rw [k2_pay1_eq, k2_pay4_eq, k2_pay3_eq]

/-- A later point: the output block is the perceptron of the input blocks. -/
theorem out_B_62 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out2_B_6 c i arg1 harg1 arg2 harg2 arg3 harg3 arg4 harg4 arg5 harg5 arg6 harg6 arg7 harg7 arg8 harg8 arg9 harg9 hc0 x0 x1 x2 x3 x4 x5 xo7 xo8 = k0_pay4 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  rw [View.canon_unit_zero hz2_2]
  simp only [View.readAt_eq_ld, harg1.read_unread, harg2.read_unread, harg3.read_unread, harg4.read_unread, harg5.read_unread, harg6.read_unread, harg8.read_unread, harg9.read_unread, View.ld_unit_zero (S := S5000x128) hz2_2, View.ld_unit_zero (S := S128x128) hz2_2, View.ld_unit_zero (S := S1x128) hz2_2]
  exact k2_pay4_eq x0 x1 x2 x3 x4 x5

/-- A later point: the row of column sums is the row before plus the block's column sums. -/
theorem out_B_72 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out2_B_7 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x4 x5 xo7 := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  rw [View.canon_unit_zero hz2_2]
  simp only [View.readAt_eq_ld, harg1.read_unread, harg2.read_unread, harg3.read_unread, harg4.read_unread, harg5.read_unread, harg6.read_unread, harg8.read_unread, harg9.read_unread, View.ld_unit_zero (S := S5000x128) hz2_2, View.ld_unit_zero (S := S128x128) hz2_2, View.ld_unit_zero (S := S1x128) hz2_2]
  rw [k2_pay5_eq]

/-- A later point: the row of column sums of squares is the row before plus the block's. -/
theorem out_B_82 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out2_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x1 x2 x3 x4 x5) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2_2]
  simp only [View.readAt_eq_ld, harg1.read_unread, harg2.read_unread, harg3.read_unread, harg4.read_unread, harg5.read_unread, harg6.read_unread, harg8.read_unread, harg9.read_unread, View.ld_unit_zero (S := S5000x128) hz2_2, View.ld_unit_zero (S := S128x128) hz2_2, View.ld_unit_zero (S := S1x128) hz2_2]
  rw [k2_pay1_eq, k2_pay4_eq]

end Pieces

/-! ## The running contents of the three outputs, point by point -/

section Run
variable (V : (c : Dev nD) → (b : Ref sig .tc) → Buf (Elt Ideal) ((c : Thread nD τ).loc b)) (c : Dev nD)

/-- The block of `z` computed at point `t`: the perceptron of the six input blocks of that point. -/
def zblk2 (t : Fin cfg2.N) : FVec Ideal S5000x128 .f32 :=
  k0_pay4 (F := Ideal) (iblk2 V c 0 t) (iblk2 V c 1 t) (iblk2 V c 2 t) (iblk2 V c 3 t) (iblk2 V c 4 t) (iblk2 V c 5 t)

/-- At the first point the accumulators are zeroed and then take the first block's sums. -/
theorem outsAt_A2 (t : Fin cfg2.N) (h0 : t.val % 20 = 0) :
    outsAt2 V c t.val t.isLt = (zblk2 V c t,
      k0_pay5 (F := Ideal) (iblk2 V c 0 t) (iblk2 V c 1 t) (iblk2 V c 2 t) (iblk2 V c 3 t) (iblk2 V c 4 t) (iblk2 V c 5 t) (k0_pay2 (F := Ideal)),
      k0_pay1 (F := Ideal) (zblk2 V c t) (k0_pay3 (F := Ideal))) := by
  rw [outsAt2_A V c t h0,
    out_A_62 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
    out_A_72 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
    out_A_82 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)]
  unfold zblk2
  rfl

/-- At a later point the accumulators take the point's block sums on top of what the point before left. -/
theorem outsAt_B2 (t : Fin cfg2.N) (h0 : ¬t.val % 20 = 0) :
    outsAt2 V c t.val t.isLt = (zblk2 V c t,
      k0_pay5 (F := Ideal) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1,
      k0_pay1 (F := Ideal) (zblk2 V c t) (outsAt2 V c (t.val - 1) (Nat.lt_of_le_of_lt (Nat.sub_le _ _) t.isLt)).2.2) := by
  rw [outsAt2_B V c t h0,
    out_B_62 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
    out_B_72 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
    out_B_82 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2]
  unfold zblk2
  rfl

end Run

/-! ## The blocks read off the arrays, and the invariant of the accumulation -/

section Value
variable (V : (c : Dev nD) → (b : Ref sig .tc) → Buf (Elt Ideal) ((c : Thread nD τ).loc b)) (c : Dev nD)

/-- The printed index maps over the grid: the row blocks of `h`, of the neighbour sums and of `z` move with the point,
    every other window stays on its one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row `r` of the point's block of `h` is row `5000 t + r` of the array. -/
theorem iblk_0_2 (t : Fin cfg2.N) (r : Fin 5000) (hlt : 5000 * t.val + r.val < 100000) (l : Fin 128) :
    (iblk2 V c 0 t : Vec Ideal S5000x128 .f32) (ix2 r l) = (V c (Pipeline.arrRef spec2 0)) (ix2 ⟨5000 * t.val + r.val, hlt⟩ l) := by
  unfold iblk2
  rw [View.read_apply]
  refine congrArg (V c (Pipeline.arrRef spec2 0)) ?_
  obtain ⟨e0, e1, -⟩ := idx_facts2 t
  funext a; apply Fin.ext
  match a with
  | ⟨0, _⟩ => show win2_0.index t (0 : Fin 2) * 5000 + 1 * r.val = 5000 * t.val + r.val; rw [e0]; omega
  | ⟨1, _⟩ => show win2_0.index t (1 : Fin 2) * 128 + 1 * l.val = l.val; rw [e1]; omega

/-- Row `r` of the point's block of the neighbour sums is row `5000 t + r` of the array. -/
theorem iblk_1_2 (t : Fin cfg2.N) (r : Fin 5000) (hlt : 5000 * t.val + r.val < 100000) (l : Fin 128) :
    (iblk2 V c 1 t : Vec Ideal S5000x128 .f32) (ix2 r l) = (V c (Pipeline.arrRef spec2 1)) (ix2 ⟨5000 * t.val + r.val, hlt⟩ l) := by
  unfold iblk2
  rw [View.read_apply]
  refine congrArg (V c (Pipeline.arrRef spec2 1)) ?_
  obtain ⟨-, -, e0, e1, -⟩ := idx_facts2 t
  funext a; apply Fin.ext
  match a with
  | ⟨0, _⟩ => show win2_1.index t (0 : Fin 2) * 5000 + 1 * r.val = 5000 * t.val + r.val; rw [e0]; omega
  | ⟨1, _⟩ => show win2_1.index t (1 : Fin 2) * 128 + 1 * l.val = l.val; rw [e1]; omega

/-- The weight matrices and the bias rows are read whole at every point. -/
theorem iblk_2_2 (t : Fin cfg2.N) (l : Fin 128) (k : Fin 128) :
    (iblk2 V c 2 t : Vec Ideal S128x128 .f32) (ix2 l k) = (V c (Pipeline.arrRef spec2 2)) (ix2 l k) := by
  unfold iblk2
  rw [View.read_apply]
  refine congrArg (V c (Pipeline.arrRef spec2 2)) ?_
  obtain ⟨-, -, -, -, e0, e1, -⟩ := idx_facts2 t
  funext a; apply Fin.ext
  match a with
  | ⟨0, _⟩ => show win2_2.index t (0 : Fin 2) * 128 + 1 * l.val = l.val; rw [e0]; omega
  | ⟨1, _⟩ => show win2_2.index t (1 : Fin 2) * 128 + 1 * k.val = k.val; rw [e1]; omega
theorem iblk_3_2 (t : Fin cfg2.N) (u : Fin 1) (k : Fin 128) :
    (iblk2 V c 3 t : Vec Ideal S1x128 .f32) (ix2 u k) = (V c (Pipeline.arrRef spec2 3)) (ix2 0 k) := by
  unfold iblk2
  rw [View.read_apply]
  refine congrArg (V c (Pipeline.arrRef spec2 3)) ?_
  obtain ⟨-, -, -, -, -, -, e0, e1, -⟩ := idx_facts2 t
  funext a; apply Fin.ext
  match a with
  | ⟨0, _⟩ => show win2_3.index t (0 : Fin 2) * 1 + 1 * u.val = 0; rw [e0]; omega
  | ⟨1, _⟩ => show win2_3.index t (1 : Fin 2) * 128 + 1 * k.val = k.val; rw [e1]; omega
theorem iblk_4_2 (t : Fin cfg2.N) (l : Fin 128) (k : Fin 128) :
    (iblk2 V c 4 t : Vec Ideal S128x128 .f32) (ix2 l k) = (V c (Pipeline.arrRef spec2 4)) (ix2 l k) := by
  unfold iblk2
  rw [View.read_apply]
  refine congrArg (V c (Pipeline.arrRef spec2 4)) ?_
  obtain ⟨-, -, -, -, -, -, -, -, e0, e1, -⟩ := idx_facts2 t
  funext a; apply Fin.ext
  match a with
  | ⟨0, _⟩ => show win2_4.index t (0 : Fin 2) * 128 + 1 * l.val = l.val; rw [e0]; omega
  | ⟨1, _⟩ => show win2_4.index t (1 : Fin 2) * 128 + 1 * k.val = k.val; rw [e1]; omega
theorem iblk_5_2 (t : Fin cfg2.N) (u : Fin 1) (k : Fin 128) :
    (iblk2 V c 5 t : Vec Ideal S1x128 .f32) (ix2 u k) = (V c (Pipeline.arrRef spec2 5)) (ix2 0 k) := by
  unfold iblk2
  rw [View.read_apply]
  refine congrArg (V c (Pipeline.arrRef spec2 5)) ?_
  obtain ⟨-, -, -, -, -, -, -, -, -, -, e0, e1, -⟩ := idx_facts2 t
  funext a; apply Fin.ext
  match a with
  | ⟨0, _⟩ => show win2_5.index t (0 : Fin 2) * 1 + 1 * u.val = 0; rw [e0]; omega
  | ⟨1, _⟩ => show win2_5.index t (1 : Fin 2) * 128 + 1 * k.val = k.val; rw [e1]; omega

/-- The layer's `z` as one function of the arrays the region finds: the perceptron row by row. -/
def zAll2 : Fin 100000 → Fin 128 → EReal :=
  Cert.Spec.mlp (Cert.Spec.cur2 (n0 := 100000) (n1 := 128) (V c (Pipeline.arrRef spec2 0))) (Cert.Spec.cur2 (n0 := 100000) (n1 := 128) (V c (Pipeline.arrRef spec2 1)))
    (Cert.Spec.cur2 (n0 := 128) (n1 := 128) (V c (Pipeline.arrRef spec2 2))) (Cert.Spec.row (n1 := 128) (V c (Pipeline.arrRef spec2 3)))
    (Cert.Spec.cur2 (n0 := 128) (n1 := 128) (V c (Pipeline.arrRef spec2 4))) (Cert.Spec.row (n1 := 128) (V c (Pipeline.arrRef spec2 5)))

/-- The block of `z` at point `t` is rows `5000 t … 5000 t + 4999` of it. -/
theorem zblk_apply2 (t : Fin cfg2.N) (r : Fin 5000) (hlt : 5000 * t.val + r.val < 100000) (q : Fin 128) :
    zblk2 V c t (ix2 r q) = zAll2 V c ⟨5000 * t.val + r.val, hlt⟩ q := by
  unfold zblk2
  rw [pay4_apply]
  unfold blockMlp zAll2 Cert.Spec.mlp Cert.Spec.cur2 Cert.Spec.row
  simp only [iblk_0_2 V c t r hlt, iblk_1_2 V c t r hlt, iblk_2_2 V c t, iblk_3_2 V c t, iblk_4_2 V c t, iblk_5_2 V c t]

end Value

/-! ## The invariant of the accumulation, the write-backs, and the three arrays after the region -/

section Final
variable (V : (c : Dev nD) → (b : Ref sig .tc) → Buf (Elt Ideal) ((c : Thread nD τ).loc b)) (c : Dev nD)

open Cert.Spec (cur2 row mlp colSum colSumSq)

/-- After point `n` the output block holds the point's block of `z`, and the two accumulators hold the column sums of
    `z`, resp. of its squares, over the blocks of the points up to `n` — by induction on the point. -/
theorem outsAt_inv2 : ∀ (n : ℕ) (h : n < cfg2.N),
    (outsAt2 V c n h).1 = zblk2 V c ⟨n, h⟩
    ∧ (∀ (u : Fin 1) (q : Fin 128), (outsAt2 V c n h).2.1 (ix2 u q)
        = runSum (fun t => ∑ r : Fin 5000, zblk2 V c t (ix2 r q)) n h)
    ∧ (∀ (u : Fin 1) (q : Fin 128), (outsAt2 V c n h).2.2 (ix2 u q)
        = runSum (fun t => ∑ r : Fin 5000, zblk2 V c t (ix2 r q) * zblk2 V c t (ix2 r q)) n h)
  | 0, h => by
    have e : outsAt2 V c 0 h = _ := outsAt_A2 V c ⟨0, h⟩ rfl
    rw [e]
    refine ⟨rfl, fun u q => ?_, fun u q => ?_⟩
    · show k0_pay5 (F := Ideal) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k0_pay2 (F := Ideal)) (ix2 u q) = _
      rw [pay5_apply, pay2_apply, zero_add, runSum_zero]
      rfl
    · show k0_pay1 (F := Ideal) (zblk2 V c ⟨0, h⟩) (k0_pay3 (F := Ideal)) (ix2 u q) = _
      rw [pay1_apply, pay3_apply, zero_add, runSum_zero]
  | n + 1, h => by
    have hN : cfg2.N = 20 := N_2
    have hB : ¬(⟨n + 1, h⟩ : Fin cfg2.N).val % 20 = 0 := by dsimp only; omega
    have e : outsAt2 V c (n + 1) h = _ := outsAt_B2 V c ⟨n + 1, h⟩ hB
    obtain ⟨-, ih7, ih8⟩ := outsAt_inv2 n (Nat.lt_of_succ_lt h)
    rw [e]
    refine ⟨rfl, fun u q => ?_, fun u q => ?_⟩
    · show k0_pay5 (F := Ideal) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.1 (ix2 u q) = _
      rw [pay5_apply, ih7 u q, runSum_succ]
      rfl
    · show k0_pay1 (F := Ideal) (zblk2 V c ⟨n + 1, h⟩) (outsAt2 V c n (Nat.lt_of_succ_lt h)).2.2 (ix2 u q) = _
      rw [pay1_apply, ih8 u q, runSum_succ]

/-- What the three arrays end holding, as functions of the arrays the region finds. -/
def Gz_2 : S100000x128.Idx → EReal := fun i => zAll2 V c (i 0) (i 1)
def Gs_2 : S1x128.Idx → EReal := fun i => colSum (zAll2 V c) (i 1)
def Gss_2 : S1x128.Idx → EReal := fun i => colSumSq (zAll2 V c) (i 1)

/-- What point `t` writes back into `z`: rows `5000 t … 5000 t + 4999` of the perceptron's output. -/
theorem flushed6_2 (t : Fin cfg2.N) :
    (dat2 (F := Ideal) V c).flushed 6 t = ((cfg2.win 6).blk t).view.read (Elt Ideal) (Gz_2 V c) := by
  have hN : cfg2.N = 20 := N_2
  show (cfg2.win 6).cut (grid2.coords t) ((dat2 (F := Ideal) V c).after 6 t) = _
  rw [after2_6, (outsAt_inv2 V c t.val t.isLt).1]
  funext y
  obtain ⟨r, q, rfl⟩ : ∃ (r : Fin 5000) (q : Fin 128), y = ix2 r q := ⟨y 0, y 1, eq_ix2 y⟩
  have hlt : 5000 * t.val + r.val < 100000 := by have := t.isLt; have := r.isLt; omega
  rw [View.read_apply]
  have hemb : ((cfg2.win 6).blk t).view.emb (ix2 r q) = ix2 (⟨5000 * t.val + r.val, hlt⟩ : Fin 100000) q := by
    obtain ⟨-, -, -, -, -, -, -, -, -, -, -, -, e0, e1, -⟩ := idx_facts2 t
    funext a; apply Fin.ext
    match a with
    | ⟨0, _⟩ => show win2_6.index t (0 : Fin 2) * 5000 + 1 * r.val = 5000 * t.val + r.val; rw [e0]; omega
    | ⟨1, _⟩ => show win2_6.index t (1 : Fin 2) * 128 + 1 * q.val = q.val; rw [e1]; omega
  show zblk2 V c t (ix2 r q) = Gz_2 V c (((cfg2.win 6).blk t).view.emb (ix2 r q))
  rw [hemb]
  exact zblk_apply2 V c t r hlt q

/-- An index of the array of `z` is in point `t`'s block iff each coordinate is in the block's range on its axis. -/
theorem mem_blk6_2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v72_0).slice (win2_6.rect t)).set ↔ _
  rw [View.set_slice_whole, Rect.mem_set_unit]
  exact Iff.rfl

/-- Every row of `z` is in the block of the point `row / 5000`. -/
theorem cover6_2 (i : S100000x128.Idx) :
    ∃ t : Fin cfg2.N, (cfg2.win 6).flush t = true ∧ i ∈ ((cfg2.win 6).blk t).view.set := by
  have hN : cfg2.N = 20 := N_2
  have h0 : (i 0).val < 100000 := (i 0).isLt
  have h1 : (i 1).val < 128 := (i 1).isLt
  refine ⟨⟨(i 0).val / 5000, by omega⟩, flush2_6 _, ?_⟩
  obtain ⟨-, -, -, -, -, -, -, -, -, -, -, -, e0, e1, -⟩ := idx_facts2 (⟨(i 0).val / 5000, by omega⟩ : Fin cfg2.N)
  rw [mem_blk6_2]
  intro a
  match a with
  | ⟨0, _⟩ =>
    show win2_6.index _ (0 : Fin 2) * 5000 ≤ (i 0).val ∧ (i 0).val < win2_6.index _ (0 : Fin 2) * 5000 + 5000
    rw [e0]; dsimp only; omega
  | ⟨1, _⟩ =>
    show win2_6.index _ (1 : Fin 2) * 128 ≤ (i 1).val ∧ (i 1).val < win2_6.index _ (1 : Fin 2) * 128 + 128
    rw [e1]; omega

/-- What the write-back of the last point writes into the row of column sums: the sums over all 100000 rows.  The block of that
    window is the whole one-row array at every point. -/
theorem flushed7_2 (t : Fin cfg2.N) (hf : (cfg2.win 7).flush t = true) :
    (dat2 (F := Ideal) V c).flushed 7 t = ((cfg2.win 7).blk t).view.read (Elt Ideal) (Gs_2 V c) := by
  have hN : cfg2.N = 20 := N_2
  have h19 : t.val = 19 := by have := (flush2_7 t).mp hf; have := t.isLt; omega
  have hlt : ∀ (t' : Fin cfg2.N) (r : Fin 5000), 5000 * t'.val + r.val < 100000 := fun t' r => by
    have := t'.isLt; have := r.isLt; omega
  obtain ⟨-, -, -, -, -, -, -, -, -, -, -, -, -, -, e0, e1, -⟩ := idx_facts2 t
  show (cfg2.win 7).cut (grid2.coords t) ((dat2 (F := Ideal) V c).after 7 t) = _
  rw [after2_7]
  have hinv := (outsAt_inv2 V c t.val t.isLt).2.1
  generalize (outsAt2 V c t.val t.isLt).2.1 = X at hinv ⊢
  have hX : X = Gs_2 V c := by
    funext y
    obtain ⟨u, q, rfl⟩ : ∃ (u : Fin 1) (q : Fin 128), y = ix2 u q := ⟨y 0, y 1, eq_ix2 y⟩
    rw [hinv u q, runSum_all _ t.val t.isLt (by omega)]
    show _ = ∑ i : Fin 100000, zAll2 V c i q
    rw [← sum_blocks hN (fun i => zAll2 V c i q) hlt]
    refine Finset.sum_congr rfl fun t' _ => Finset.sum_congr rfl fun r _ => ?_
    rw [zblk_apply2 V c t' r (hlt t' r) q]
  rw [hX]
  have hz' : (fun a => win2_7.index t a * main_v72_1.ty.shape.size a) = fun _ => 0 := funext fun a => by
    match a with
    | ⟨0, _⟩ => show win2_7.index t (0 : Fin 2) * 1 = 0; rw [e0]
    | ⟨1, _⟩ => show win2_7.index t (1 : Fin 2) * 128 = 0; rw [e1]
  exact (Memref.read_access_unit_zero (Elt Ideal) main_v72_1 hz' (fun a => by rw [congrFun hz' a]; simp) (Gs_2 V c)).symm

/-- An index of the one-row array is in point `t`'s block iff each coordinate is in the block's range on its axis. -/
theorem mem_blk7_2 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v72_1).slice (win2_7.rect t)).set ↔ _
  rw [View.set_slice_whole, Rect.mem_set_unit]
  exact Iff.rfl

/-- The last point's block of the row of column sums is the whole one-row array. -/
theorem cover7_2 (i : S1x128.Idx) :
    ∃ t : Fin cfg2.N, (cfg2.win 7).flush t = true ∧ i ∈ ((cfg2.win 7).blk t).view.set := by
  have hN : cfg2.N = 20 := N_2
  have h0 : (i 0).val < 1 := (i 0).isLt
  have h1 : (i 1).val < 128 := (i 1).isLt
  refine ⟨⟨19, by omega⟩, (flush2_7 _).mpr rfl, ?_⟩
  obtain ⟨-, -, -, -, -, -, -, -, -, -, -, -, -, -, e0, e1, -⟩ := idx_facts2 (⟨19, by omega⟩ : Fin cfg2.N)
  rw [mem_blk7_2]
  intro a
  match a with
  | ⟨0, _⟩ =>
    show win2_7.index _ (0 : Fin 2) * 1 ≤ (i 0).val ∧ (i 0).val < win2_7.index _ (0 : Fin 2) * 1 + 1
    rw [e0]; omega
  | ⟨1, _⟩ =>
    show win2_7.index _ (1 : Fin 2) * 128 ≤ (i 1).val ∧ (i 1).val < win2_7.index _ (1 : Fin 2) * 128 + 128
    rw [e1]; omega

/-- What the write-back of the last point writes into the row of column sums of squares: the sums over all 100000 rows.  The block of that
    window is the whole one-row array at every point. -/
theorem flushed8_2 (t : Fin cfg2.N) (hf : (cfg2.win 8).flush t = true) :
    (dat2 (F := Ideal) V c).flushed 8 t = ((cfg2.win 8).blk t).view.read (Elt Ideal) (Gss_2 V c) := by
  have hN : cfg2.N = 20 := N_2
  have h19 : t.val = 19 := by have := (flush2_8 t).mp hf; have := t.isLt; omega
  have hlt : ∀ (t' : Fin cfg2.N) (r : Fin 5000), 5000 * t'.val + r.val < 100000 := fun t' r => by
    have := t'.isLt; have := r.isLt; omega
  obtain ⟨-, -, -, -, -, -, -, -, -, -, -, -, -, -, -, -, e0, e1⟩ := idx_facts2 t
  show (cfg2.win 8).cut (grid2.coords t) ((dat2 (F := Ideal) V c).after 8 t) = _
  rw [after2_8]
  have hinv := (outsAt_inv2 V c t.val t.isLt).2.2
  generalize (outsAt2 V c t.val t.isLt).2.2 = X at hinv ⊢
  have hX : X = Gss_2 V c := by
    funext y
    obtain ⟨u, q, rfl⟩ : ∃ (u : Fin 1) (q : Fin 128), y = ix2 u q := ⟨y 0, y 1, eq_ix2 y⟩
    rw [hinv u q, runSum_all _ t.val t.isLt (by omega)]
    show _ = ∑ i : Fin 100000, zAll2 V c i q * zAll2 V c i q
    rw [← sum_blocks hN (fun i => zAll2 V c i q * zAll2 V c i q) hlt]
    refine Finset.sum_congr rfl fun t' _ => Finset.sum_congr rfl fun r _ => ?_
    rw [zblk_apply2 V c t' r (hlt t' r) q]
  rw [hX]
  have hz' : (fun a => win2_8.index t a * main_v72_2.ty.shape.size a) = fun _ => 0 := funext fun a => by
    match a with
    | ⟨0, _⟩ => show win2_8.index t (0 : Fin 2) * 1 = 0; rw [e0]
    | ⟨1, _⟩ => show win2_8.index t (1 : Fin 2) * 128 = 0; rw [e1]
  exact (Memref.read_access_unit_zero (Elt Ideal) main_v72_2 hz' (fun a => by rw [congrFun hz' a]; simp) (Gss_2 V c)).symm

/-- An index of the one-row array is in point `t`'s block iff each coordinate is in the block's range on its axis. -/
theorem mem_blk8_2 (t : Fin cfg2.N) (i : S1x128.Idx) :
    i ∈ ((cfg2.win 8).blk t).view.set ↔ ∀ a : Fin 2, win2_8.index t a * S1x128.size a ≤ (i a).val ∧ (i a).val < win2_8.index t a * S1x128.size a + S1x128.size a := by
  show i ∈ ((View.whole main_v72_2).slice (win2_8.rect t)).set ↔ _
  rw [View.set_slice_whole, Rect.mem_set_unit]
  exact Iff.rfl

/-- The last point's block of the row of column sums of squares is the whole one-row array. -/
theorem cover8_2 (i : S1x128.Idx) :
    ∃ t : Fin cfg2.N, (cfg2.win 8).flush t = true ∧ i ∈ ((cfg2.win 8).blk t).view.set := by
  have hN : cfg2.N = 20 := N_2
  have h0 : (i 0).val < 1 := (i 0).isLt
  have h1 : (i 1).val < 128 := (i 1).isLt
  refine ⟨⟨19, by omega⟩, (flush2_8 _).mpr rfl, ?_⟩
  obtain ⟨-, -, -, -, -, -, -, -, -, -, -, -, -, -, -, -, e0, e1⟩ := idx_facts2 (⟨19, by omega⟩ : Fin cfg2.N)
  rw [mem_blk8_2]
  intro a
  match a with
  | ⟨0, _⟩ =>
    show win2_8.index _ (0 : Fin 2) * 1 ≤ (i 0).val ∧ (i 0).val < win2_8.index _ (0 : Fin 2) * 1 + 1
    rw [e0]; omega
  | ⟨1, _⟩ =>
    show win2_8.index _ (1 : Fin 2) * 128 ≤ (i 1).val ∧ (i 1).val < win2_8.index _ (1 : Fin 2) * 128 + 128
    rw [e1]; omega

/-- After the region the array of `z` holds the perceptron's output, row by row. -/
theorem z2 (p : Fin 100000) (q : Fin 128) : (Gen.dat2 (F := Ideal) V c).arrAt 6 cfg2.N (ix2 p q) = mlp (cur2 (V c (Pipeline.arrRef spec2 0))) (cur2 (V c (Pipeline.arrRef spec2 1))) (cur2 (V c (Pipeline.arrRef spec2 2))) (row (V c (Pipeline.arrRef spec2 3))) (cur2 (V c (Pipeline.arrRef spec2 4))) (row (V c (Pipeline.arrRef spec2 5))) p q := by
  rw [(dat2 (F := Ideal) V c).arrAt_eq_of_cover 6 (Gz_2 V c) (fun t _ => flushed6_2 V c t) (cover6_2)]
  rfl

/-- After the region the first accumulator holds the column sums of `z` over all rows. -/
theorem s2 (q : Fin 128) : (Gen.dat2 (F := Ideal) V c).arrAt 7 cfg2.N (ix2 (0 : Fin 1) q) = colSum (mlp (cur2 (V c (Pipeline.arrRef spec2 0))) (cur2 (V c (Pipeline.arrRef spec2 1))) (cur2 (V c (Pipeline.arrRef spec2 2))) (row (V c (Pipeline.arrRef spec2 3))) (cur2 (V c (Pipeline.arrRef spec2 4))) (row (V c (Pipeline.arrRef spec2 5)))) q := by
  rw [(dat2 (F := Ideal) V c).arrAt_eq_of_cover 7 (Gs_2 V c) (flushed7_2 V c) (cover7_2)]
  rfl

/-- After the region the second accumulator holds the column sums of the squares of `z` over all rows. -/
theorem ss2 (q : Fin 128) : (Gen.dat2 (F := Ideal) V c).arrAt 8 cfg2.N (ix2 (0 : Fin 1) q) = colSumSq (mlp (cur2 (V c (Pipeline.arrRef spec2 0))) (cur2 (V c (Pipeline.arrRef spec2 1))) (cur2 (V c (Pipeline.arrRef spec2 2))) (row (V c (Pipeline.arrRef spec2 3))) (cur2 (V c (Pipeline.arrRef spec2 4))) (row (V c (Pipeline.arrRef spec2 5)))) q := by
  rw [(dat2 (F := Ideal) V c).arrAt_eq_of_cover 8 (Gss_2 V c) (flushed8_2 V c) (cover8_2)]
  rfl

end Final

end Cert.KernelIdeal.Gin
end
-- ==== Proof.Bn3.lean ====
/-
  Launch 3 of the normalise / scale / shift / clamp kernel: the [100000,128] array it leaves.

  Twenty grid points; point `t` loads rows `5000 t … 5000 t + 4999` of the first operand and the whole of the four
  [1,128] row operands, and writes rows `5000 t …` of the result back.  So each point writes its rows of `bnArr` of
  the five operand arrays (`flushed3_eq`), the twenty row blocks fill the array (`cover3`), and the array ends
  holding `Spec.bn` of the operands index by index (`h3`).
-/
import proofs.«161505_j35811437314143_1_alg».proof.Proof.BnBody
import proofs.«161505_j35811437314143_1_alg».proof.Proof.Gen.KernelIdeal.Frame
import Idealize.ShloMosaic.Lib.Pipeline.Value

noncomputable section

namespace Cert.KernelIdeal.Bn

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (cur2 row bn)

variable (V : (c : Dev nD) → (b : Ref sig .tc) → Buf (Elt Ideal) ((c : Thread nD τ).loc b)) (c : Dev nD)

/-- The grid has twenty points. -/
theorem lt20_3 (t : Fin cfg3.N) : t.val < 20 :=
  Nat.lt_of_lt_of_eq t.isLt N_3

/-- The printed index maps, decided over the grid: the first operand's and the result's block index is the point's
    number on the row axis and zero on the column axis; the four rows' block index is zero on both axes. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The first operand's block at point `t` is rows `5000 t …` of its array. -/
theorem blk3_0_apply (t : Fin cfg3.N) (r : Fin 5000) (q : Fin 128) :
    (iblk3 V c 0 t : Vec Ideal S5000x128 .f32) (ix2 r q)
      = (V c (Pipeline.arrRef spec3 0) : S100000x128.Idx → EReal)
          (ix2 (⟨t.val * 5000 + r.val, by have := lt20_3 t; omega⟩ : Fin 100000) q) := by
  obtain ⟨e0, e1, -⟩ := idx_facts3 t
  show V c (Pipeline.arrRef spec3 0) (((cfg3.win 0).blk t).view.emb (ix2 r q))
    = V c (Pipeline.arrRef spec3 0) (ix2 (⟨t.val * 5000 + r.val, _⟩ : Fin 100000) q)
  refine congrArg _ (funext fun a => Fin.ext ?_)
  match a with
  | ⟨0, _⟩ => show win3_0.index t (0 : Fin 2) * 5000 + 1 * r.val = t.val * 5000 + r.val; omega
  | ⟨1, _⟩ => show win3_0.index t (1 : Fin 2) * 128 + 1 * q.val = q.val; omega

/-- Each row operand's block at every point is the whole row array. -/
theorem blk3_1_apply (t : Fin cfg3.N) (q : Fin 128) :
    (iblk3 V c 1 t : Vec Ideal S1x128 .f32) (ix2 0 q) = (V c (Pipeline.arrRef spec3 1) : S1x128.Idx → EReal) (ix2 0 q) := by
  obtain ⟨-, -, e0, e1, -⟩ := idx_facts3 t
  show V c (Pipeline.arrRef spec3 1) (((cfg3.win 1).blk t).view.emb (ix2 0 q)) = V c (Pipeline.arrRef spec3 1) (ix2 0 q)
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega
theorem blk3_2_apply (t : Fin cfg3.N) (q : Fin 128) :
    (iblk3 V c 2 t : Vec Ideal S1x128 .f32) (ix2 0 q) = (V c (Pipeline.arrRef spec3 2) : S1x128.Idx → EReal) (ix2 0 q) := by
  obtain ⟨-, -, -, -, e0, e1, -⟩ := idx_facts3 t
  show V c (Pipeline.arrRef spec3 2) (((cfg3.win 2).blk t).view.emb (ix2 0 q)) = V c (Pipeline.arrRef spec3 2) (ix2 0 q)
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega
theorem blk3_3_apply (t : Fin cfg3.N) (q : Fin 128) :
    (iblk3 V c 3 t : Vec Ideal S1x128 .f32) (ix2 0 q) = (V c (Pipeline.arrRef spec3 3) : S1x128.Idx → EReal) (ix2 0 q) := by
  obtain ⟨-, -, -, -, -, -, e0, e1, -⟩ := idx_facts3 t
  show V c (Pipeline.arrRef spec3 3) (((cfg3.win 3).blk t).view.emb (ix2 0 q)) = V c (Pipeline.arrRef spec3 3) (ix2 0 q)
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega
theorem blk3_4_apply (t : Fin cfg3.N) (q : Fin 128) :
    (iblk3 V c 4 t : Vec Ideal S1x128 .f32) (ix2 0 q) = (V c (Pipeline.arrRef spec3 4) : S1x128.Idx → EReal) (ix2 0 q) := by
  obtain ⟨-, -, -, -, -, -, -, -, e0, e1, -⟩ := idx_facts3 t
  show V c (Pipeline.arrRef spec3 4) (((cfg3.win 4).blk t).view.emb (ix2 0 q)) = V c (Pipeline.arrRef spec3 4) (ix2 0 q)
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- What the result array ends holding: `bnArr` of the five operand arrays as the launch finds them. -/
abbrev arr3 : S100000x128.Idx → EReal :=
  bnArr (V c (Pipeline.arrRef spec3 0)) (V c (Pipeline.arrRef spec3 1)) (V c (Pipeline.arrRef spec3 2))
    (V c (Pipeline.arrRef spec3 3)) (V c (Pipeline.arrRef spec3 4))

/-- WHAT POINT `t` WRITES BACK is block `t` of `arr3`. -/
theorem flushed3_eq (t : Fin cfg3.N) :
    (dat3 V c).flushed 5 t = ((cfg3.win 5).blk t).view.read (Elt Ideal) (arr3 V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  obtain ⟨-, -, -, -, -, -, -, -, -, -, e0, e1⟩ := idx_facts3 t
  funext j
  obtain ⟨r, q, rfl⟩ : ∃ (r : Fin 5000) (q : Fin 128), j = ix2 r q := ⟨j 0, j 1, eq_ix2 j⟩
  show k3_pay1 (F := Ideal) (iblk3 V c 0 t) (iblk3 V c 1 t) (iblk3 V c 2 t) (iblk3 V c 3 t) (iblk3 V c 4 t) (ix2 r q)
    = arr3 V c (((cfg3.win 5).blk t).view.emb (ix2 r q))
  rw [pay3_eq, pay_block (V c (Pipeline.arrRef spec3 0)) (V c (Pipeline.arrRef spec3 1)) (V c (Pipeline.arrRef spec3 2))
    (V c (Pipeline.arrRef spec3 3)) (V c (Pipeline.arrRef spec3 4)) _ _ _ _ _ t.val (lt20_3 t)
    (blk3_0_apply V c t) (blk3_1_apply V c t) (blk3_2_apply V c t) (blk3_3_apply V c t) (blk3_4_apply V c t) r q]
  refine congrArg _ (funext fun a => Fin.ext ?_)
  match a with
  | ⟨0, _⟩ => show t.val * 5000 + r.val = win3_5.index t (0 : Fin 2) * 5000 + 1 * r.val; omega
  | ⟨1, _⟩ => show q.val = win3_5.index t (1 : Fin 2) * 128 + 1 * q.val; omega

/-- An index of the array is in point `t`'s block iff each coordinate is in the block's range on its axis. -/
theorem mem_blk3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v89).slice (win3_5.rect t)).set ↔ _
  rw [View.set_slice_whole, Rect.mem_set_unit]
  exact Iff.rfl

/-- Every index of the array is in some point's block: row `p` is in block `p / 5000`. -/
theorem cover3 (i : S100000x128.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  obtain ⟨t, ht⟩ : ∃ t : Fin cfg3.N, t.val = (i 0).val / 5000 :=
    ⟨⟨(i 0).val / 5000, by rw [show cfg3.N = 20 from N_3]; omega⟩, rfl⟩
  obtain ⟨-, -, -, -, -, -, -, -, -, -, e0, e1⟩ := idx_facts3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- THE ARRAY after the launch is `arr3`. -/
theorem final3 : (dat3 V c).arrAt 5 cfg3.N = arr3 V c :=
  (dat3 V c).arrAt_eq_of_cover 5 (arr3 V c) (fun t _ => flushed3_eq V c t) (cover3)

/-- The result array read at row `p`, column `q`: normalise, scale, shift, clamp of the operands' entries. -/
theorem h3 (p : Fin 100000) (q : Fin 128) :
    (Gen.dat3 (F := Ideal) V c).arrAt 5 cfg3.N (ix2 p q)
      = bn (cur2 (V c (Pipeline.arrRef spec3 0))) (row (V c (Pipeline.arrRef spec3 1))) (row (V c (Pipeline.arrRef spec3 2)))
          (row (V c (Pipeline.arrRef spec3 3))) (row (V c (Pipeline.arrRef spec3 4))) p q := by
  rw [final3]
  rfl

end Cert.KernelIdeal.Bn

end
-- ==== Proof.KLayer1.lean ====
import proofs.«161505_j35811437314143_1_alg».proof.Proof.Gen.KernelIdeal.Frame
import proofs.«161505_j35811437314143_1_alg».proof.Proof.KHost
import proofs.«161505_j35811437314143_1_alg».proof.Proof.KPull
import proofs.«161505_j35811437314143_1_alg».proof.Proof.Slices
import proofs.«161505_j35811437314143_1_alg».proof.Proof.Gin2
import proofs.«161505_j35811437314143_1_alg».proof.Proof.Bn3
set_option maxRecDepth 16384

noncomputable section

namespace Cert.KernelIdeal.KLayer1

open Idealize.ShloMosaic Idealize.ShloMosaic.TcCoe Idealize.ShloMosaic.StableHlo Idealize.ShloMosaic.ValueIdx Idealize.SL.Sem
open Cert.KernelIdeal Cert.KernelIdeal.Gen Cert.KernelIdeal.KHost Cert.KernelIdeal.KChainA Cert.KernelIdeal.KPull Cert.Spec

variable (m : (ℓ : Loc nD τ sig) → Buf (Elt Ideal) ℓ) (ρ : Dev nD → PrngReg) (c : Dev nD)

/-- No operation of a host stretch writes the buffer: the stretch leaves it as it was. -/
macro "host_keep " ops:ident : tactic =>
  `(tactic| (refine StableHlo.after_of_forall_not_mem _ _ (List.forall_iff_forall_mem.mp ?_)
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## Layer 2: the host stretch before the accumulating region, the region, the statistics stretch, the normalising region -/

/-- The layer's input rows reach the accumulating region unchanged. -/
theorem hin_eq : W5 m ρ c (Proc.devRef .tc main_v46) = (W4 m ρ c (Proc.devRef .tc main_v46)) := by host_keep hostOps2

/-- The neighbour sums. -/
theorem agg_eq : W5 m ρ c (Proc.devRef .tc main_v61) = aggOf (W4 m ρ c (Proc.devRef .tc main_v46)) (raw1 (m ((c : Thread nD τ).loc main_arg1))) (raw3 (m ((c : Thread nD τ).loc main_arg1))) := by
  have e : W5 m ρ c (Proc.devRef .tc main_v61) = aggOf (W4 m ρ c (Proc.devRef .tc main_v46)) (W4 m ρ c (Proc.devRef .tc main_v1)) (W4 m ρ c (Proc.devRef .tc main_v3)) := by
    show StableHlo.after hostOps2 (W4 m ρ c) (Proc.devRef .tc main_v61) = _
    after_results_simp
    rfl
  rw [e, W4_v1 m ρ c, W4_v3 m ρ c]

/-- The layer's two weight matrices and two bias rows, out of the stacks. -/
theorem w1_eq : cur2 (W5 m ρ c (Proc.devRef .tc main_v63)) = sl3 1 (m ((c : Thread nD τ).loc main_arg3)) := by
  have e : W5 m ρ c (Proc.devRef .tc main_v63) = wsl1 (W4 m ρ c (Proc.devRef .tc main_arg3)) := by
    show StableHlo.after hostOps2 (W4 m ρ c) (Proc.devRef .tc main_v63) = _
    after_results_simp
    rfl
  rw [e, W4_arg3 m ρ c]
  funext l k
  exact wsl1_apply _ l k
theorem w2_eq : cur2 (W5 m ρ c (Proc.devRef .tc main_v67)) = sl3 1 (m ((c : Thread nD τ).loc main_arg5)) := by
  have e : W5 m ρ c (Proc.devRef .tc main_v67) = wsl1 (W4 m ρ c (Proc.devRef .tc main_arg5)) := by
    show StableHlo.after hostOps2 (W4 m ρ c) (Proc.devRef .tc main_v67) = _
    after_results_simp
    rfl
  rw [e, W4_arg5 m ρ c]
  funext l k
  exact wsl1_apply _ l k
theorem b1_eq : row (W5 m ρ c (Proc.devRef .tc main_v70)) = sl2 1 (m ((c : Thread nD τ).loc main_arg4)) := by
  have e : W5 m ρ c (Proc.devRef .tc main_v70) = toRow (bsl1 (W4 m ρ c (Proc.devRef .tc main_arg4))) := by
    show StableHlo.after hostOps2 (W4 m ρ c) (Proc.devRef .tc main_v70) = _
    after_results_simp
    rfl
  rw [e, W4_arg4 m ρ c]
  funext k
  exact (toRow_apply _ k).trans (bsl1_apply _ k)
theorem b2_eq : row (W5 m ρ c (Proc.devRef .tc main_v71)) = sl2 1 (m ((c : Thread nD τ).loc main_arg6)) := by
  have e : W5 m ρ c (Proc.devRef .tc main_v71) = toRow (bsl1 (W4 m ρ c (Proc.devRef .tc main_arg6))) := by
    show StableHlo.after hostOps2 (W4 m ρ c) (Proc.devRef .tc main_v71) = _
    after_results_simp
    rfl
  rw [e, W4_arg6 m ρ c]
  funext k
  exact (toRow_apply _ k).trans (bsl1_apply _ k)

/-- The accumulating region leaves the perceptron's output, its column sums and the column sums of its squares. -/
theorem z_at (p : Fin 100000) (q : Fin 128) : W6 m ρ c (Proc.devRef .tc main_v72_0) (ix2 p q) = (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6)))) p q := by
  have e : W6 m ρ c (Proc.devRef .tc main_v72_0) = (dat2 (V5 m ρ) c).arrAt 6 cfg2.N := W6_arr m ρ c 6
  rw [e, Gin.z2 (V5 m ρ) c p q]
  have h0 : V5 m ρ c (Pipeline.arrRef spec2 0) = (W4 m ρ c (Proc.devRef .tc main_v46)) := hin_eq m ρ c
  have h1 : V5 m ρ c (Pipeline.arrRef spec2 1) = aggOf (W4 m ρ c (Proc.devRef .tc main_v46)) (raw1 (m ((c : Thread nD τ).loc main_arg1))) (raw3 (m ((c : Thread nD τ).loc main_arg1))) := agg_eq m ρ c
  have h2 : cur2 (V5 m ρ c (Pipeline.arrRef spec2 2)) = sl3 1 (m ((c : Thread nD τ).loc main_arg3)) := w1_eq m ρ c
  have h3 : row (V5 m ρ c (Pipeline.arrRef spec2 3)) = sl2 1 (m ((c : Thread nD τ).loc main_arg4)) := b1_eq m ρ c
  have h4 : cur2 (V5 m ρ c (Pipeline.arrRef spec2 4)) = sl3 1 (m ((c : Thread nD τ).loc main_arg5)) := w2_eq m ρ c
  have h5 : row (V5 m ρ c (Pipeline.arrRef spec2 5)) = sl2 1 (m ((c : Thread nD τ).loc main_arg6)) := b2_eq m ρ c
  unfold Zof
  rw [h0, h1, h2, h3, h4, h5]
theorem s_at (q : Fin 128) : W6 m ρ c (Proc.devRef .tc main_v72_1) (ix2 (0 : Fin 1) q) = colSum (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6)))) q := by
  have e : W6 m ρ c (Proc.devRef .tc main_v72_1) = (dat2 (V5 m ρ) c).arrAt 7 cfg2.N := W6_arr m ρ c 7
  rw [e, Gin.s2 (V5 m ρ) c q]
  have h0 : V5 m ρ c (Pipeline.arrRef spec2 0) = (W4 m ρ c (Proc.devRef .tc main_v46)) := hin_eq m ρ c
  have h1 : V5 m ρ c (Pipeline.arrRef spec2 1) = aggOf (W4 m ρ c (Proc.devRef .tc main_v46)) (raw1 (m ((c : Thread nD τ).loc main_arg1))) (raw3 (m ((c : Thread nD τ).loc main_arg1))) := agg_eq m ρ c
  have h2 : cur2 (V5 m ρ c (Pipeline.arrRef spec2 2)) = sl3 1 (m ((c : Thread nD τ).loc main_arg3)) := w1_eq m ρ c
  have h3 : row (V5 m ρ c (Pipeline.arrRef spec2 3)) = sl2 1 (m ((c : Thread nD τ).loc main_arg4)) := b1_eq m ρ c
  have h4 : cur2 (V5 m ρ c (Pipeline.arrRef spec2 4)) = sl3 1 (m ((c : Thread nD τ).loc main_arg5)) := w2_eq m ρ c
  have h5 : row (V5 m ρ c (Pipeline.arrRef spec2 5)) = sl2 1 (m ((c : Thread nD τ).loc main_arg6)) := b2_eq m ρ c
  unfold Zof
  rw [h0, h1, h2, h3, h4, h5]
theorem ss_at (q : Fin 128) : W6 m ρ c (Proc.devRef .tc main_v72_2) (ix2 (0 : Fin 1) q) = colSumSq (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6)))) q := by
  have e : W6 m ρ c (Proc.devRef .tc main_v72_2) = (dat2 (V5 m ρ) c).arrAt 8 cfg2.N := W6_arr m ρ c 8
  rw [e, Gin.ss2 (V5 m ρ) c q]
  have h0 : V5 m ρ c (Pipeline.arrRef spec2 0) = (W4 m ρ c (Proc.devRef .tc main_v46)) := hin_eq m ρ c
  have h1 : V5 m ρ c (Pipeline.arrRef spec2 1) = aggOf (W4 m ρ c (Proc.devRef .tc main_v46)) (raw1 (m ((c : Thread nD τ).loc main_arg1))) (raw3 (m ((c : Thread nD τ).loc main_arg1))) := agg_eq m ρ c
  have h2 : cur2 (V5 m ρ c (Pipeline.arrRef spec2 2)) = sl3 1 (m ((c : Thread nD τ).loc main_arg3)) := w1_eq m ρ c
  have h3 : row (V5 m ρ c (Pipeline.arrRef spec2 3)) = sl2 1 (m ((c : Thread nD τ).loc main_arg4)) := b1_eq m ρ c
  have h4 : cur2 (V5 m ρ c (Pipeline.arrRef spec2 4)) = sl3 1 (m ((c : Thread nD τ).loc main_arg5)) := w2_eq m ρ c
  have h5 : row (V5 m ρ c (Pipeline.arrRef spec2 5)) = sl2 1 (m ((c : Thread nD τ).loc main_arg6)) := b2_eq m ρ c
  unfold Zof
  rw [h0, h1, h2, h3, h4, h5]

/-- The statistics stretch: the perceptron's output passes through; the mean row, the variance row (mean of squares
    minus squared mean), the scale row and the shift row. -/
theorem zkeep_eq : cur2 (W7 m ρ c (Proc.devRef .tc main_v72_0)) = (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6)))) := by
  have e : W7 m ρ c (Proc.devRef .tc main_v72_0) = W6 m ρ c (Proc.devRef .tc main_v72_0) := by host_keep hostOps3
  rw [e]
  funext p q
  exact z_at m ρ c p q
theorem mean_eq : row (W7 m ρ c (Proc.devRef .tc main_v85)) = mean (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6)))) := by
  have e : W7 m ρ c (Proc.devRef .tc main_v85) = toRow (meanV (W6 m ρ c (Proc.devRef .tc main_v72_1))) := by
    show StableHlo.after hostOps3 (W6 m ρ c) (Proc.devRef .tc main_v85) = _
    after_results_simp
    rfl
  rw [e]
  funext q
  show toRow _ (ix2 (0 : Fin 1) q) = _
  rw [toRow_apply, meanV_apply, s_at m ρ c q]
  rfl
theorem var_eq : row (W7 m ρ c (Proc.devRef .tc main_v86)) = varK (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6)))) := by
  have e : W7 m ρ c (Proc.devRef .tc main_v86) = toRow (varV (W6 m ρ c (Proc.devRef .tc main_v72_1)) (W6 m ρ c (Proc.devRef .tc main_v72_2))) := by
    show StableHlo.after hostOps3 (W6 m ρ c) (Proc.devRef .tc main_v86) = _
    after_results_simp
    rfl
  rw [e]
  funext q
  show toRow _ (ix2 (0 : Fin 1) q) = _
  rw [toRow_apply, varV_apply, s_at m ρ c q, ss_at m ρ c q]
  rfl
theorem gam_eq : row (W7 m ρ c (Proc.devRef .tc main_v87)) = sl2 1 (m ((c : Thread nD τ).loc main_arg7)) := by
  have e : W7 m ρ c (Proc.devRef .tc main_v87) = toRow (bsl1 (W6 m ρ c (Proc.devRef .tc main_arg7))) := by
    show StableHlo.after hostOps3 (W6 m ρ c) (Proc.devRef .tc main_v87) = _
    after_results_simp
    rfl
  rw [e, W6_arg7 m ρ c]
  funext k
  exact (toRow_apply _ k).trans (bsl1_apply _ k)
theorem bet_eq : row (W7 m ρ c (Proc.devRef .tc main_v88)) = sl2 1 (m ((c : Thread nD τ).loc main_arg8)) := by
  have e : W7 m ρ c (Proc.devRef .tc main_v88) = toRow (bsl1 (W6 m ρ c (Proc.devRef .tc main_arg8))) := by
    show StableHlo.after hostOps3 (W6 m ρ c) (Proc.devRef .tc main_v88) = _
    after_results_simp
    rfl
  rw [e, W6_arg8 m ρ c]
  funext k
  exact (toRow_apply _ k).trans (bsl1_apply _ k)

/-- THE LAYER on the kernel's side: the normalising region leaves the perceptron's output normalised by its column
    mean and by the mean-of-squares-minus-squared-mean variance, scaled, shifted and clamped at zero. -/
theorem layer (p : Fin 100000) (q : Fin 128) :
    W8 m ρ c (Proc.devRef .tc main_v89) (ix2 p q) = bn (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6)))) (mean (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6))))) (varK (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6))))) (sl2 1 (m ((c : Thread nD τ).loc main_arg7))) (sl2 1 (m ((c : Thread nD τ).loc main_arg8))) p q := by
  have e : W8 m ρ c (Proc.devRef .tc main_v89) = (dat3 (V7 m ρ) c).arrAt 5 cfg3.N := W8_arr m ρ c 5
  rw [e, Bn.h3 (V7 m ρ) c p q]
  have h0 : cur2 (V7 m ρ c (Pipeline.arrRef spec3 0)) = (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6)))) := zkeep_eq m ρ c
  have h1 : row (V7 m ρ c (Pipeline.arrRef spec3 1)) = mean (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6)))) := mean_eq m ρ c
  have h2 : row (V7 m ρ c (Pipeline.arrRef spec3 2)) = varK (Zof (W4 m ρ c (Proc.devRef .tc main_v46)) (m ((c : Thread nD τ).loc main_arg1)) (sl3 1 (m ((c : Thread nD τ).loc main_arg3))) (sl2 1 (m ((c : Thread nD τ).loc main_arg4))) (sl3 1 (m ((c : Thread nD τ).loc main_arg5))) (sl2 1 (m ((c : Thread nD τ).loc main_arg6)))) := var_eq m ρ c
  have h3 : row (V7 m ρ c (Pipeline.arrRef spec3 3)) = sl2 1 (m ((c : Thread nD τ).loc main_arg7)) := gam_eq m ρ c
  have h4 : row (V7 m ρ c (Pipeline.arrRef spec3 4)) = sl2 1 (m ((c : Thread nD τ).loc main_arg8)) := bet_eq m ρ c
  rw [h0, h1, h2, h3, h4]

end Cert.KernelIdeal.KLayer1

end
-- ==== Proof.Gin4.lean ====
/-
  One launch of the graph-convolution layer's first kernel (the launch whose region of the program has index 4), run over its
  grid of twenty points, read as values.

  Point `t` works on rows `5000 t … 5000 t + 4999`: it writes the perceptron's output for those rows into its block of `z`,
  and adds the block's column sums of `z` and of `z · z` to two one-row accumulators that stay in place from point to point
  (zeroed at the first point, written back after the last).  So after the region `z` holds the perceptron row by row, and the
  accumulators hold the sums over the blocks of all twenty points, which are the sums over all 100000 rows.
-/
import proofs.«161505_j35811437314143_1_alg».proof.Proof.Gen.KernelIdeal.Frame
import proofs.«161505_j35811437314143_1_alg».proof.Proof.GinBody
import Idealize.ShloMosaic.Lib.Pipeline.Value
import Idealize.ShloMosaic.Lib.ValueLayout
import Idealize.ShloMosaic.Lib.Tactic

noncomputable section

namespace Cert.KernelIdeal.Gin

open Idealize.ShloMosaic Idealize.ShloMosaic.TcCoe Idealize.SL.Sem Idealize.ShloMosaic.ValueIdx
open Idealize.ShloMosaic.Pipeline (Dat)
open Cert.KernelIdeal Cert.KernelIdeal.Gen

/-! ## What each control case leaves in the three output buffers, as the block arithmetic of the six input blocks -/

section Pieces
variable {F : FTy → Type} [FloatOps F]

theorem hz2_4 : (![0, 0] : Fin 2 → Nat) = fun _ => 0 := funext fun a => by fin_cases a <;> rfl

/-- First point: the output block is the perceptron of the input blocks. -/
theorem out_A_64 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) :
    out4_A_6 c i arg1 harg1 arg2 harg2 arg3 harg3 arg4 harg4 arg5 harg5 arg6 harg6 arg7 harg7 arg8 harg8 arg9 harg9 hc0 x0 x1 x2 x3 x4 x5 = k0_pay4 x0 x1 x2 x3 x4 x5 := by
  unfold out4_A_6
  rw [View.read_writes_eq_canon _ _ _ (cover4_A_6 c i arg1 harg1 arg2 harg2 arg3 harg3 arg4 harg4 arg5 harg5 arg6 harg6 arg7 harg7 arg8 harg8 arg9 harg9 hc0 x0 x1 x2 x3 x4 x5)]
  unfold kernelRun4_A
  dsimp only
  rw [View.canon_unit_zero hz2_4]
  simp only [View.readAt_eq_ld, harg1.read_unread, harg2.read_unread, harg3.read_unread, harg4.read_unread, harg5.read_unread, harg6.read_unread, View.ld_unit_zero (S := S5000x128) hz2_4, View.ld_unit_zero (S := S128x128) hz2_4, View.ld_unit_zero (S := S1x128) hz2_4]
  exact k4_pay4_eq x0 x1 x2 x3 x4 x5

/-- First point: the row of column sums is the zero row plus the block's column sums. -/
theorem out_A_74 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) :
    out4_A_7 c i arg1 harg1 arg2 harg2 arg3 harg3 arg4 harg4 arg5 harg5 arg6 harg6 arg7 harg7 arg8 harg8 arg9 harg9 hc0 x0 x1 x2 x3 x4 x5 = k0_pay5 x0 x1 x2 x3 x4 x5 k0_pay2 := by
  unfold out4_A_7
  rw [View.read_writes_eq_canon _ _ _ (cover4_A_7 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_cons_unit_zero (S := S1x128) hz2_4, View.readCov_unit_zero (S := S1x128) _ hz2_4]
  simp only [View.readAt_eq_ld, harg1.read_unread, harg2.read_unread, harg3.read_unread, harg4.read_unread, harg5.read_unread, harg6.read_unread, View.ld_unit_zero (S := S5000x128) hz2_4, View.ld_unit_zero (S := S128x128) hz2_4, View.ld_unit_zero (S := S1x128) hz2_4]
  rw [k4_pay5_eq, k4_pay2_eq]

/-- First point: the row of column sums of squares is the zero row plus the block's. -/
theorem out_A_84 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) :
    out4_A_8 c i arg1 harg1 arg2 harg2 arg3 harg3 arg4 harg4 arg5 harg5 arg6 harg6 arg7 harg7 arg8 harg8 arg9 harg9 hc0 x0 x1 x2 x3 x4 x5 = k0_pay1 (k0_pay4 x0 x1 x2 x3 x4 x5) k0_pay3 := by
  unfold out4_A_8
  rw [View.read_writes_eq_canon _ _ _ (cover4_A_8 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_cons_unit_zero (S := S1x128) hz2_4, View.readCov_unit_zero (S := S1x128) _ hz2_4]
  simp only [View.readAt_eq_ld, harg1.read_unread, harg2.read_unread, harg3.read_unread, harg4.read_unread, harg5.read_unread, harg6.read_unread, View.ld_unit_zero (S := S5000x128) hz2_4, View.ld_unit_zero (S := S128x128) hz2_4, View.ld_unit_zero (S := S1x128) hz2_4]
  rw [k4_pay1_eq, k4_pay4_eq, k4_pay3_eq]

/-- A later point: the output block is the perceptron of the input blocks. -/
theorem out_B_64 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out4_B_6 c i arg1 harg1 arg2 harg2 arg3 harg3 arg4 harg4 arg5 harg5 arg6 harg6 arg7 harg7 arg8 harg8 arg9 harg9 hc0 x0 x1 x2 x3 x4 x5 xo7 xo8 = k0_pay4 x0 x1 x2 x3 x4 x5 := by
  unfold out4_B_6
  rw [View.read_writes_eq_canon _ _ _ (cover4_B_6 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  rw [View.canon_unit_zero hz2_4]
  simp only [View.readAt_eq_ld, harg1.read_unread, harg2.read_unread, harg3.read_unread, harg4.read_unread, harg5.read_unread, harg6.read_unread, harg8.read_unread, harg9.read_unread, View.ld_unit_zero (S := S5000x128) hz2_4, View.ld_unit_zero (S := S128x128) hz2_4, View.ld_unit_zero (S := S1x128) hz2_4]
  exact k4_pay4_eq x0 x1 x2 x3 x4 x5

/-- A later point: the row of column sums is the row before plus the block's column sums. -/
theorem out_B_74 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out4_B_7 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x4 x5 xo7 := by
  unfold out4_B_7
  rw [View.read_writes_eq_canon _ _ _ (cover4_B_7 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  rw [View.canon_unit_zero hz2_4]
  simp only [View.readAt_eq_ld, harg1.read_unread, harg2.read_unread, harg3.read_unread, harg4.read_unread, harg5.read_unread, harg6.read_unread, harg8.read_unread, harg9.read_unread, View.ld_unit_zero (S := S5000x128) hz2_4, View.ld_unit_zero (S := S128x128) hz2_4, View.ld_unit_zero (S := S1x128) hz2_4]
  rw [k4_pay5_eq]

/-- A later point: the row of column sums of squares is the row before plus the block's. -/
theorem out_B_84 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out4_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x1 x2 x3 x4 x5) xo8 := by
  unfold out4_B_8
  rw [View.read_writes_eq_canon _ _ _ (cover4_B_8 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  sl_unfold_words
  rw [View.canon_unit_zero hz2_4]
  simp only [View.readAt_eq_ld, harg1.read_unread, harg2.read_unread, harg3.read_unread, harg4.read_unread, harg5.read_unread, harg6.read_unread, harg8.read_unread, harg9.read_unread, View.ld_unit_zero (S := S5000x128) hz2_4, View.ld_unit_zero (S := S128x128) hz2_4, View.ld_unit_zero (S := S1x128) hz2_4]
  rw [k4_pay1_eq, k4_pay4_eq]

end Pieces

/-! ## The running contents of the three outputs, point by point -/

section Run
variable (V : (c : Dev nD) → (b : Ref sig .tc) → Buf (Elt Ideal) ((c : Thread nD τ).loc b)) (c : Dev nD)

/-- The block of `z` computed at point `t`: the perceptron of the six input blocks of that point. -/
def zblk4 (t : Fin cfg4.N) : FVec Ideal S5000x128 .f32 :=
  k0_pay4 (F := Ideal) (iblk4 V c 0 t) (iblk4 V c 1 t) (iblk4 V c 2 t) (iblk4 V c 3 t) (iblk4 V c 4 t) (iblk4 V c 5 t)

/-- At the first point the accumulators are zeroed and then take the first block's sums. -/
theorem outsAt_A4 (t : Fin cfg4.N) (h0 : t.val % 20 = 0) :
    outsAt4 V c t.val t.isLt = (zblk4 V c t,
      k0_pay5 (F := Ideal) (iblk4 V c 0 t) (iblk4 V c 1 t) (iblk4 V c 2 t) (iblk4 V c 3 t) (iblk4 V c 4 t) (iblk4 V c 5 t) (k0_pay2 (F := Ideal)),
      k0_pay1 (F := Ideal) (zblk4 V c t) (k0_pay3 (F := Ideal))) := by
  rw [outsAt4_A V c t h0,
    out_A_64 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
    out_A_74 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
    out_A_84 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)]
  unfold zblk4
  rfl

/-- At a later point the accumulators take the point's block sums on top of what the point before left. -/
theorem outsAt_B4 (t : Fin cfg4.N) (h0 : ¬t.val % 20 = 0) :
    outsAt4 V c t.val t.isLt = (zblk4 V c t,
      k0_pay5 (F := Ideal) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1,
      k0_pay1 (F := Ideal) (zblk4 V c t) (outsAt4 V c (t.val - 1) (Nat.lt_of_le_of_lt (Nat.sub_le _ _) t.isLt)).2.2) := by
  rw [outsAt4_B V c t h0,
    out_B_64 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2,
    out_B_74 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2,
    out_B_84 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2]
  unfold zblk4
  rfl

end Run

/-! ## The blocks read off the arrays, and the invariant of the accumulation -/

section Value
variable (V : (c : Dev nD) → (b : Ref sig .tc) → Buf (Elt Ideal) ((c : Thread nD τ).loc b)) (c : Dev nD)

/-- The printed index maps over the grid: the row blocks of `h`, of the neighbour sums and of `z` move with the point,
    every other window stays on its one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Row `r` of the point's block of `h` is row `5000 t + r` of the array. -/
theorem iblk_0_4 (t : Fin cfg4.N) (r : Fin 5000) (hlt : 5000 * t.val + r.val < 100000) (l : Fin 128) :
    (iblk4 V c 0 t : Vec Ideal S5000x128 .f32) (ix2 r l) = (V c (Pipeline.arrRef spec4 0)) (ix2 ⟨5000 * t.val + r.val, hlt⟩ l) := by
  unfold iblk4
  rw [View.read_apply]
  refine congrArg (V c (Pipeline.arrRef spec4 0)) ?_
  obtain ⟨e0, e1, -⟩ := idx_facts4 t
  funext a; apply Fin.ext
  match a with
  | ⟨0, _⟩ => show win4_0.index t (0 : Fin 2) * 5000 + 1 * r.val = 5000 * t.val + r.val; rw [e0]; omega
  | ⟨1, _⟩ => show win4_0.index t (1 : Fin 2) * 128 + 1 * l.val = l.val; rw [e1]; omega

/-- Row `r` of the point's block of the neighbour sums is row `5000 t + r` of the array. -/
theorem iblk_1_4 (t : Fin cfg4.N) (r : Fin 5000) (hlt : 5000 * t.val + r.val < 100000) (l : Fin 128) :
    (iblk4 V c 1 t : Vec Ideal S5000x128 .f32) (ix2 r l) = (V c (Pipeline.arrRef spec4 1)) (ix2 ⟨5000 * t.val + r.val, hlt⟩ l) := by
  unfold iblk4
  rw [View.read_apply]
  refine congrArg (V c (Pipeline.arrRef spec4 1)) ?_
  obtain ⟨-, -, e0, e1, -⟩ := idx_facts4 t
  funext a; apply Fin.ext
  match a with
  | ⟨0, _⟩ => show win4_1.index t (0 : Fin 2) * 5000 + 1 * r.val = 5000 * t.val + r.val; rw [e0]; omega
  | ⟨1, _⟩ => show win4_1.index t (1 : Fin 2) * 128 + 1 * l.val = l.val; rw [e1]; omega

/-- The weight matrices and the bias rows are read whole at every point. -/
theorem iblk_2_4 (t : Fin cfg4.N) (l : Fin 128) (k : Fin 128) :
    (iblk4 V c 2 t : Vec Ideal S128x128 .f32) (ix2 l k) = (V c (Pipeline.arrRef spec4 2)) (ix2 l k) := by
  unfold iblk4
  rw [View.read_apply]
  refine congrArg (V c (Pipeline.arrRef spec4 2)) ?_
  obtain ⟨-, -, -, -, e0, e1, -⟩ := idx_facts4 t
  funext a; apply Fin.ext
  match a with
  | ⟨0, _⟩ => show win4_2.index t (0 : Fin 2) * 128 + 1 * l.val = l.val; rw [e0]; omega
  | ⟨1, _⟩ => show win4_2.index t (1 : Fin 2) * 128 + 1 * k.val = k.val; rw [e1]; omega
theorem iblk_3_4 (t : Fin cfg4.N) (u : Fin 1) (k : Fin 128) :
    (iblk4 V c 3 t : Vec Ideal S1x128 .f32) (ix2 u k) = (V c (Pipeline.arrRef spec4 3)) (ix2 0 k) := by
  unfold iblk4
  rw [View.read_apply]
  refine congrArg (V c (Pipeline.arrRef spec4 3)) ?_
  obtain ⟨-, -, -, -, -, -, e0, e1, -⟩ := idx_facts4 t
  funext a; apply Fin.ext
  match a with
  | ⟨0, _⟩ => show win4_3.index t (0 : Fin 2) * 1 + 1 * u.val = 0; rw [e0]; omega
  | ⟨1, _⟩ => show win4_3.index t (1 : Fin 2) * 128 + 1 * k.val = k.val; rw [e1]; omega
theorem iblk_4_4 (t : Fin cfg4.N) (l : Fin 128) (k : Fin 128) :
    (iblk4 V c 4 t : Vec Ideal S128x128 .f32) (ix2 l k) = (V c (Pipeline.arrRef spec4 4)) (ix2 l k) := by
  unfold iblk4
  rw [View.read_apply]
  refine congrArg (V c (Pipeline.arrRef spec4 4)) ?_
  obtain ⟨-, -, -, -, -, -, -, -, e0, e1, -⟩ := idx_facts4 t
  funext a; apply Fin.ext
  match a with
  | ⟨0, _⟩ => show win4_4.index t (0 : Fin 2) * 128 + 1 * l.val = l.val; rw [e0]; omega
  | ⟨1, _⟩ => show win4_4.index t (1 : Fin 2) * 128 + 1 * k.val = k.val; rw [e1]; omega
theorem iblk_5_4 (t : Fin cfg4.N) (u : Fin 1) (k : Fin 128) :
    (iblk4 V c 5 t : Vec Ideal S1x128 .f32) (ix2 u k) = (V c (Pipeline.arrRef spec4 5)) (ix2 0 k) := by
  unfold iblk4
  rw [View.read_apply]
  refine congrArg (V c (Pipeline.arrRef spec4 5)) ?_
  obtain ⟨-, -, -, -, -, -, -, -, -, -, e0, e1, -⟩ := idx_facts4 t
  funext a; apply Fin.ext
  match a with
  | ⟨0, _⟩ => show win4_5.index t (0 : Fin 2) * 1 + 1 * u.val = 0; rw [e0]; omega
  | ⟨1, _⟩ => show win4_5.index t (1 : Fin 2) * 128 + 1 * k.val = k.val; rw [e1]; omega

/-- The layer's `z` as one function of the arrays the region finds: the perceptron row by row. -/
def zAll4 : Fin 100000 → Fin 128 → EReal :=
  Cert.Spec.mlp (Cert.Spec.cur2 (n0 := 100000) (n1 := 128) (V c (Pipeline.arrRef spec4 0))) (Cert.Spec.cur2 (n0 := 100000) (n1 := 128) (V c (Pipeline.arrRef spec4 1)))
    (Cert.Spec.cur2 (n0 := 128) (n1 := 128) (V c (Pipeline.arrRef spec4 2))) (Cert.Spec.row (n1 := 128) (V c (Pipeline.arrRef spec4 3)))
    (Cert.Spec.cur2 (n0 := 128) (n1 := 128) (V c (Pipeline.arrRef spec4 4))) (Cert.Spec.row (n1 := 128) (V c (Pipeline.arrRef spec4 5)))

/-- The block of `z` at point `t` is rows `5000 t … 5000 t + 4999` of it. -/
theorem zblk_apply4 (t : Fin cfg4.N) (r : Fin 5000) (hlt : 5000 * t.val + r.val < 100000) (q : Fin 128) :
    zblk4 V c t (ix2 r q) = zAll4 V c ⟨5000 * t.val + r.val, hlt⟩ q := by
  unfold zblk4
  rw [pay4_apply]
  unfold blockMlp zAll4 Cert.Spec.mlp Cert.Spec.cur2 Cert.Spec.row
  simp only [iblk_0_4 V c t r hlt, iblk_1_4 V c t r hlt, iblk_2_4 V c t, iblk_3_4 V c t, iblk_4_4 V c t, iblk_5_4 V c t]

end Value

/-! ## The invariant of the accumulation, the write-backs, and the three arrays after the region -/

section Final
variable (V : (c : Dev nD) → (b : Ref sig .tc) → Buf (Elt Ideal) ((c : Thread nD τ).loc b)) (c : Dev nD)

open Cert.Spec (cur2 row mlp colSum colSumSq)

/-- After point `n` the output block holds the point's block of `z`, and the two accumulators hold the column sums of
    `z`, resp. of its squares, over the blocks of the points up to `n` — by induction on the point. -/
theorem outsAt_inv4 : ∀ (n : ℕ) (h : n < cfg4.N),
    (outsAt4 V c n h).1 = zblk4 V c ⟨n, h⟩
    ∧ (∀ (u : Fin 1) (q : Fin 128), (outsAt4 V c n h).2.1 (ix2 u q)
        = runSum (fun t => ∑ r : Fin 5000, zblk4 V c t (ix2 r q)) n h)
    ∧ (∀ (u : Fin 1) (q : Fin 128), (outsAt4 V c n h).2.2 (ix2 u q)
        = runSum (fun t => ∑ r : Fin 5000, zblk4 V c t (ix2 r q) * zblk4 V c t (ix2 r q)) n h)
  | 0, h => by
    have e : outsAt4 V c 0 h = _ := outsAt_A4 V c ⟨0, h⟩ rfl
    rw [e]
    refine ⟨rfl, fun u q => ?_, fun u q => ?_⟩
    · show k0_pay5 (F := Ideal) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) (k0_pay2 (F := Ideal)) (ix2 u q) = _
      rw [pay5_apply, pay2_apply, zero_add, runSum_zero]
      rfl
    · show k0_pay1 (F := Ideal) (zblk4 V c ⟨0, h⟩) (k0_pay3 (F := Ideal)) (ix2 u q) = _
      rw [pay1_apply, pay3_apply, zero_add, runSum_zero]
  | n + 1, h => by
    have hN : cfg4.N = 20 := N_4
    have hB : ¬(⟨n + 1, h⟩ : Fin cfg4.N).val % 20 = 0 := by dsimp only; omega
    have e : outsAt4 V c (n + 1) h = _ := outsAt_B4 V c ⟨n + 1, h⟩ hB
    obtain ⟨-, ih7, ih8⟩ := outsAt_inv4 n (Nat.lt_of_succ_lt h)
    rw [e]
    refine ⟨rfl, fun u q => ?_, fun u q => ?_⟩
    · show k0_pay5 (F := Ideal) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (ix2 u q) = _
      rw [pay5_apply, ih7 u q, runSum_succ]
      rfl
    · show k0_pay1 (F := Ideal) (zblk4 V c ⟨n + 1, h⟩) (outsAt4 V c n (Nat.lt_of_succ_lt h)).2.2 (ix2 u q) = _
      rw [pay1_apply, ih8 u q, runSum_succ]

/-- What the three arrays end holding, as functions of the arrays the region finds. -/
def Gz_4 : S100000x128.Idx → EReal := fun i => zAll4 V c (i 0) (i 1)
def Gs_4 : S1x128.Idx → EReal := fun i => colSum (zAll4 V c) (i 1)
def Gss_4 : S1x128.Idx → EReal := fun i => colSumSq (zAll4 V c) (i 1)

/-- What point `t` writes back into `z`: rows `5000 t … 5000 t + 4999` of the perceptron's output. -/
theorem flushed6_4 (t : Fin cfg4.N) :
    (dat4 (F := Ideal) V c).flushed 6 t = ((cfg4.win 6).blk t).view.read (Elt Ideal) (Gz_4 V c) := by
  have hN : cfg4.N = 20 := N_4
  show (cfg4.win 6).cut (grid4.coords t) ((dat4 (F := Ideal) V c).after 6 t) = _
  rw [after4_6, (outsAt_inv4 V c t.val t.isLt).1]
  funext y
  obtain ⟨r, q, rfl⟩ : ∃ (r : Fin 5000) (q : Fin 128), y = ix2 r q := ⟨y 0, y 1, eq_ix2 y⟩
  have hlt : 5000 * t.val + r.val < 100000 := by have := t.isLt; have := r.isLt; omega
  rw [View.read_apply]
  have hemb : ((cfg4.win 6).blk t).view.emb (ix2 r q) = ix2 (⟨5000 * t.val + r.val, hlt⟩ : Fin 100000) q := by
    obtain ⟨-, -, -, -, -, -, -, -, -, -, -, -, e0, e1, -⟩ := idx_facts4 t
    funext a; apply Fin.ext
    match a with
    | ⟨0, _⟩ => show win4_6.index t (0 : Fin 2) * 5000 + 1 * r.val = 5000 * t.val + r.val; rw [e0]; omega
    | ⟨1, _⟩ => show win4_6.index t (1 : Fin 2) * 128 + 1 * q.val = q.val; rw [e1]; omega
  show zblk4 V c t (ix2 r q) = Gz_4 V c (((cfg4.win 6).blk t).view.emb (ix2 r q))
  rw [hemb]
  exact zblk_apply4 V c t r hlt q

/-- An index of the array of `z` is in point `t`'s block iff each coordinate is in the block's range on its axis. -/
theorem mem_blk6_4 (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v115_0).slice (win4_6.rect t)).set ↔ _
  rw [View.set_slice_whole, Rect.mem_set_unit]
  exact Iff.rfl

/-- Every row of `z` is in the block of the point `row / 5000`. -/
theorem cover6_4 (i : S100000x128.Idx) :
    ∃ t : Fin cfg4.N, (cfg4.win 6).flush t = true ∧ i ∈ ((cfg4.win 6).blk t).view.set := by
  have hN : cfg4.N = 20 := N_4
  have h0 : (i 0).val < 100000 := (i 0).isLt
  have h1 : (i 1).val < 128 := (i 1).isLt
  refine ⟨⟨(i 0).val / 5000, by omega⟩, flush4_6 _, ?_⟩
  obtain ⟨-, -, -, -, -, -, -, -, -, -, -, -, e0, e1, -⟩ := idx_facts4 (⟨(i 0).val / 5000, by omega⟩ : Fin cfg4.N)
  rw [mem_blk6_4]
  intro a
  match a with
  | ⟨0, _⟩ =>
    show win4_6.index _ (0 : Fin 2) * 5000 ≤ (i 0).val ∧ (i 0).val < win4_6.index _ (0 : Fin 2) * 5000 + 5000
    rw [e0]; dsimp only; omega
  | ⟨1, _⟩ =>
    show win4_6.index _ (1 : Fin 2) * 128 ≤ (i 1).val ∧ (i 1).val < win4_6.index _ (1 : Fin 2) * 128 + 128
    rw [e1]; omega

/-- What the write-back of the last point writes into the row of column sums: the sums over all 100000 rows.  The block of that
    window is the whole one-row array at every point. -/
theorem flushed7_4 (t : Fin cfg4.N) (hf : (cfg4.win 7).flush t = true) :
    (dat4 (F := Ideal) V c).flushed 7 t = ((cfg4.win 7).blk t).view.read (Elt Ideal) (Gs_4 V c) := by
  have hN : cfg4.N = 20 := N_4
  have h19 : t.val = 19 := by have := (flush4_7 t).mp hf; have := t.isLt; omega
  have hlt : ∀ (t' : Fin cfg4.N) (r : Fin 5000), 5000 * t'.val + r.val < 100000 := fun t' r => by
    have := t'.isLt; have := r.isLt; omega
  obtain ⟨-, -, -, -, -, -, -, -, -, -, -, -, -, -, e0, e1, -⟩ := idx_facts4 t
  show (cfg4.win 7).cut (grid4.coords t) ((dat4 (F := Ideal) V c).after 7 t) = _
  rw [after4_7]
  have hinv := (outsAt_inv4 V c t.val t.isLt).2.1
  generalize (outsAt4 V c t.val t.isLt).2.1 = X at hinv ⊢
  have hX : X = Gs_4 V c := by
    funext y
    obtain ⟨u, q, rfl⟩ : ∃ (u : Fin 1) (q : Fin 128), y = ix2 u q := ⟨y 0, y 1, eq_ix2 y⟩
    rw [hinv u q, runSum_all _ t.val t.isLt (by omega)]
    show _ = ∑ i : Fin 100000, zAll4 V c i q
    rw [← sum_blocks hN (fun i => zAll4 V c i q) hlt]
    refine Finset.sum_congr rfl fun t' _ => Finset.sum_congr rfl fun r _ => ?_
    rw [zblk_apply4 V c t' r (hlt t' r) q]
  rw [hX]
  have hz' : (fun a => win4_7.index t a * main_v115_1.ty.shape.size a) = fun _ => 0 := funext fun a => by
    match a with
    | ⟨0, _⟩ => show win4_7.index t (0 : Fin 2) * 1 = 0; rw [e0]
    | ⟨1, _⟩ => show win4_7.index t (1 : Fin 2) * 128 = 0; rw [e1]
  exact (Memref.read_access_unit_zero (Elt Ideal) main_v115_1 hz' (fun a => by rw [congrFun hz' a]; simp) (Gs_4 V c)).symm

/-- An index of the one-row array is in point `t`'s block iff each coordinate is in the block's range on its axis. -/
theorem mem_blk7_4 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v115_1).slice (win4_7.rect t)).set ↔ _
  rw [View.set_slice_whole, Rect.mem_set_unit]
  exact Iff.rfl

/-- The last point's block of the row of column sums is the whole one-row array. -/
theorem cover7_4 (i : S1x128.Idx) :
    ∃ t : Fin cfg4.N, (cfg4.win 7).flush t = true ∧ i ∈ ((cfg4.win 7).blk t).view.set := by
  have hN : cfg4.N = 20 := N_4
  have h0 : (i 0).val < 1 := (i 0).isLt
  have h1 : (i 1).val < 128 := (i 1).isLt
  refine ⟨⟨19, by omega⟩, (flush4_7 _).mpr rfl, ?_⟩
  obtain ⟨-, -, -, -, -, -, -, -, -, -, -, -, -, -, e0, e1, -⟩ := idx_facts4 (⟨19, by omega⟩ : Fin cfg4.N)
  rw [mem_blk7_4]
  intro a
  match a with
  | ⟨0, _⟩ =>
    show win4_7.index _ (0 : Fin 2) * 1 ≤ (i 0).val ∧ (i 0).val < win4_7.index _ (0 : Fin 2) * 1 + 1
    rw [e0]; omega
  | ⟨1, _⟩ =>
    show win4_7.index _ (1 : Fin 2) * 128 ≤ (i 1).val ∧ (i 1).val < win4_7.index _ (1 : Fin 2) * 128 + 128
    rw [e1]; omega

/-- What the write-back of the last point writes into the row of column sums of squares: the sums over all 100000 rows.  The block of that
    window is the whole one-row array at every point. -/
theorem flushed8_4 (t : Fin cfg4.N) (hf : (cfg4.win 8).flush t = true) :
    (dat4 (F := Ideal) V c).flushed 8 t = ((cfg4.win 8).blk t).view.read (Elt Ideal) (Gss_4 V c) := by
  have hN : cfg4.N = 20 := N_4
  have h19 : t.val = 19 := by have := (flush4_8 t).mp hf; have := t.isLt; omega
  have hlt : ∀ (t' : Fin cfg4.N) (r : Fin 5000), 5000 * t'.val + r.val < 100000 := fun t' r => by
    have := t'.isLt; have := r.isLt; omega
  obtain ⟨-, -, -, -, -, -, -, -, -, -, -, -, -, -, -, -, e0, e1⟩ := idx_facts4 t
  show (cfg4.win 8).cut (grid4.coords t) ((dat4 (F := Ideal) V c).after 8 t) = _
  rw [after4_8]
  have hinv := (outsAt_inv4 V c t.val t.isLt).2.2
  generalize (outsAt4 V c t.val t.isLt).2.2 = X at hinv ⊢
  have hX : X = Gss_4 V c := by
    funext y
    obtain ⟨u, q, rfl⟩ : ∃ (u : Fin 1) (q : Fin 128), y = ix2 u q := ⟨y 0, y 1, eq_ix2 y⟩
    rw [hinv u q, runSum_all _ t.val t.isLt (by omega)]
    show _ = ∑ i : Fin 100000, zAll4 V c i q * zAll4 V c i q
    rw [← sum_blocks hN (fun i => zAll4 V c i q * zAll4 V c i q) hlt]
    refine Finset.sum_congr rfl fun t' _ => Finset.sum_congr rfl fun r _ => ?_
    rw [zblk_apply4 V c t' r (hlt t' r) q]
  rw [hX]
  have hz' : (fun a => win4_8.index t a * main_v115_2.ty.shape.size a) = fun _ => 0 := funext fun a => by
    match a with
    | ⟨0, _⟩ => show win4_8.index t (0 : Fin 2) * 1 = 0; rw [e0]
    | ⟨1, _⟩ => show win4_8.index t (1 : Fin 2) * 128 = 0; rw [e1]
  exact (Memref.read_access_unit_zero (Elt Ideal) main_v115_2 hz' (fun a => by rw [congrFun hz' a]; simp) (Gss_4 V c)).symm

/-- An index of the one-row array is in point `t`'s block iff each coordinate is in the block's range on its axis. -/
theorem mem_blk8_4 (t : Fin cfg4.N) (i : S1x128.Idx) :
    i ∈ ((cfg4.win 8).blk t).view.set ↔ ∀ a : Fin 2, win4_8.index t a * S1x128.size a ≤ (i a).val ∧ (i a).val < win4_8.index t a * S1x128.size a + S1x128.size a := by
  show i ∈ ((View.whole main_v115_2).slice (win4_8.rect t)).set ↔ _
  rw [View.set_slice_whole, Rect.mem_set_unit]
  exact Iff.rfl

/-- The last point's block of the row of column sums of squares is the whole one-row array. -/
theorem cover8_4 (i : S1x128.Idx) :
    ∃ t : Fin cfg4.N, (cfg4.win 8).flush t = true ∧ i ∈ ((cfg4.win 8).blk t).view.set := by
  have hN : cfg4.N = 20 := N_4
  have h0 : (i 0).val < 1 := (i 0).isLt
  have h1 : (i 1).val < 128 := (i 1).isLt
  refine ⟨⟨19, by omega⟩, (flush4_8 _).mpr rfl, ?_⟩
  obtain ⟨-, -, -, -, -, -, -, -, -, -, -, -, -, -, -, -, e0, e1⟩ := idx_facts4 (⟨19, by omega⟩ : Fin cfg4.N)
  rw [mem_blk8_4]
  intro a
  match a with
  | ⟨0, _⟩ =>
    show win4_8.index _ (0 : Fin 2) * 1 ≤ (i 0).val ∧ (i 0).val < win4_8.index _ (0 : Fin 2) * 1 + 1
    rw [e0]; omega
  | ⟨1, _⟩ =>
    show win4_8.index _ (1 : Fin 2) * 128 ≤ (i 1).val ∧ (i 1).val < win4_8.index _ (1 : Fin 2) * 128 + 128
    rw [e1]; omega

/-- After the region the array of `z` holds the perceptron's output, row by row. -/
theorem z4 (p : Fin 100000) (q : Fin 128) : (Gen.dat4 (F := Ideal) V c).arrAt 6 cfg4.N (ix2 p q) = mlp (cur2 (V c (Pipeline.arrRef spec4 0))) (cur2 (V c (Pipeline.arrRef spec4 1))) (cur2 (V c (Pipeline.arrRef spec4 2))) (row (V c (Pipeline.arrRef spec4 3))) (cur2 (V c (Pipeline.arrRef spec4 4))) (row (V c (Pipeline.arrRef spec4 5))) p q := by
  rw [(dat4 (F := Ideal) V c).arrAt_eq_of_cover 6 (Gz_4 V c) (fun t _ => flushed6_4 V c t) (cover6_4)]
  rfl

/-- After the region the first accumulator holds the column sums of `z` over all rows. -/
theorem s4 (q : Fin 128) : (Gen.dat4 (F := Ideal) V c).arrAt 7 cfg4.N (ix2 (0 : Fin 1) q) = colSum (mlp (cur2 (V c (Pipeline.arrRef spec4 0))) (cur2 (V c (Pipeline.arrRef spec4 1))) (cur2 (V c (Pipeline.arrRef spec4 2))) (row (V c (Pipeline.arrRef spec4 3))) (cur2 (V c (Pipeline.arrRef spec4 4))) (row (V c (Pipeline.arrRef spec4 5)))) q := by
  rw [(dat4 (F := Ideal) V c).arrAt_eq_of_cover 7 (Gs_4 V c) (flushed7_4 V c) (cover7_4)]
  rfl

/-- After the region the second accumulator holds the column sums of the squares of `z` over all rows. -/
theorem ss4 (q : Fin 128) : (Gen.dat4 (F := Ideal) V c).arrAt 8 cfg4.N (ix2 (0 : Fin 1) q) = colSumSq (mlp (cur2 (V c (Pipeline.arrRef spec4 0))) (cur2 (V c (Pipeline.arrRef spec4 1))) (cur2 (V c (Pipeline.arrRef spec4 2))) (row (V c (Pipeline.arrRef spec4 3))) (cur2 (V c (Pipeline.arrRef spec4 4))) (row (V c (Pipeline.arrRef spec4 5)))) q := by
  rw [(dat4 (F := Ideal) V c).arrAt_eq_of_cover 8 (Gss_4 V c) (flushed8_4 V c) (cover8_4)]
  rfl

end Final

end Cert.KernelIdeal.Gin
end
-- ==== Proof.Bn5.lean ====
/-
  Launch 5 of the normalise / scale / shift / clamp kernel: the [100000,128] array it leaves.

  Twenty grid points; point `t` loads rows `5000 t … 5000 t + 4999` of the first operand and the whole of the four
  [1,128] row operands, and writes rows `5000 t …` of the result back.  So each point writes its rows of `bnArr` of
  the five operand arrays (`flushed5_eq`), the twenty row blocks fill the array (`cover5`), and the array ends
  holding `Spec.bn` of the operands index by index (`h5`).
-/
import proofs.«161505_j35811437314143_1_alg».proof.Proof.BnBody
import proofs.«161505_j35811437314143_1_alg».proof.Proof.Gen.KernelIdeal.Frame
import Idealize.ShloMosaic.Lib.Pipeline.Value

noncomputable section

namespace Cert.KernelIdeal.Bn

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (cur2 row bn)

variable (V : (c : Dev nD) → (b : Ref sig .tc) → Buf (Elt Ideal) ((c : Thread nD τ).loc b)) (c : Dev nD)

/-- The grid has twenty points. -/
theorem lt20_5 (t : Fin cfg5.N) : t.val < 20 :=
  Nat.lt_of_lt_of_eq t.isLt N_5

/-- The printed index maps, decided over the grid: the first operand's and the result's block index is the point's
    number on the row axis and zero on the column axis; the four rows' block index is zero on both axes. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The first operand's block at point `t` is rows `5000 t …` of its array. -/
theorem blk5_0_apply (t : Fin cfg5.N) (r : Fin 5000) (q : Fin 128) :
    (iblk5 V c 0 t : Vec Ideal S5000x128 .f32) (ix2 r q)
      = (V c (Pipeline.arrRef spec5 0) : S100000x128.Idx → EReal)
          (ix2 (⟨t.val * 5000 + r.val, by have := lt20_5 t; omega⟩ : Fin 100000) q) := by
  obtain ⟨e0, e1, -⟩ := idx_facts5 t
  show V c (Pipeline.arrRef spec5 0) (((cfg5.win 0).blk t).view.emb (ix2 r q))
    = V c (Pipeline.arrRef spec5 0) (ix2 (⟨t.val * 5000 + r.val, _⟩ : Fin 100000) q)
  refine congrArg _ (funext fun a => Fin.ext ?_)
  match a with
  | ⟨0, _⟩ => show win5_0.index t (0 : Fin 2) * 5000 + 1 * r.val = t.val * 5000 + r.val; omega
  | ⟨1, _⟩ => show win5_0.index t (1 : Fin 2) * 128 + 1 * q.val = q.val; omega

/-- Each row operand's block at every point is the whole row array. -/
theorem blk5_1_apply (t : Fin cfg5.N) (q : Fin 128) :
    (iblk5 V c 1 t : Vec Ideal S1x128 .f32) (ix2 0 q) = (V c (Pipeline.arrRef spec5 1) : S1x128.Idx → EReal) (ix2 0 q) := by
  obtain ⟨-, -, e0, e1, -⟩ := idx_facts5 t
  show V c (Pipeline.arrRef spec5 1) (((cfg5.win 1).blk t).view.emb (ix2 0 q)) = V c (Pipeline.arrRef spec5 1) (ix2 0 q)
  refine congrArg _ (funext fun a => Fin.ext ?_)
  match a with
  | ⟨0, _⟩ => show win5_1.index t (0 : Fin 2) * 1 + 1 * 0 = 0; omega
  | ⟨1, _⟩ => show win5_1.index t (1 : Fin 2) * 128 + 1 * q.val = q.val; omega
theorem blk5_2_apply (t : Fin cfg5.N) (q : Fin 128) :
    (iblk5 V c 2 t : Vec Ideal S1x128 .f32) (ix2 0 q) = (V c (Pipeline.arrRef spec5 2) : S1x128.Idx → EReal) (ix2 0 q) := by
  obtain ⟨-, -, -, -, e0, e1, -⟩ := idx_facts5 t
  show V c (Pipeline.arrRef spec5 2) (((cfg5.win 2).blk t).view.emb (ix2 0 q)) = V c (Pipeline.arrRef spec5 2) (ix2 0 q)
  refine congrArg _ (funext fun a => Fin.ext ?_)
  match a with
  | ⟨0, _⟩ => show win5_2.index t (0 : Fin 2) * 1 + 1 * 0 = 0; omega
  | ⟨1, _⟩ => show win5_2.index t (1 : Fin 2) * 128 + 1 * q.val = q.val; omega
theorem blk5_3_apply (t : Fin cfg5.N) (q : Fin 128) :
    (iblk5 V c 3 t : Vec Ideal S1x128 .f32) (ix2 0 q) = (V c (Pipeline.arrRef spec5 3) : S1x128.Idx → EReal) (ix2 0 q) := by
  obtain ⟨-, -, -, -, -, -, e0, e1, -⟩ := idx_facts5 t
  show V c (Pipeline.arrRef spec5 3) (((cfg5.win 3).blk t).view.emb (ix2 0 q)) = V c (Pipeline.arrRef spec5 3) (ix2 0 q)
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega
theorem blk5_4_apply (t : Fin cfg5.N) (q : Fin 128) :
    (iblk5 V c 4 t : Vec Ideal S1x128 .f32) (ix2 0 q) = (V c (Pipeline.arrRef spec5 4) : S1x128.Idx → EReal) (ix2 0 q) := by
  obtain ⟨-, -, -, -, -, -, -, -, e0, e1, -⟩ := idx_facts5 t
  show V c (Pipeline.arrRef spec5 4) (((cfg5.win 4).blk t).view.emb (ix2 0 q)) = V c (Pipeline.arrRef spec5 4) (ix2 0 q)
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * q.val = q.val; omega

/-- What the result array ends holding: `bnArr` of the five operand arrays as the launch finds them. -/
abbrev arr5 : S100000x128.Idx → EReal :=
  bnArr (V c (Pipeline.arrRef spec5 0)) (V c (Pipeline.arrRef spec5 1)) (V c (Pipeline.arrRef spec5 2))
    (V c (Pipeline.arrRef spec5 3)) (V c (Pipeline.arrRef spec5 4))

/-- WHAT POINT `t` WRITES BACK is block `t` of `arr5`. -/
theorem flushed5_eq (t : Fin cfg5.N) :
    (dat5 V c).flushed 5 t = ((cfg5.win 5).blk t).view.read (Elt Ideal) (arr5 V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  obtain ⟨-, -, -, -, -, -, -, -, -, -, e0, e1⟩ := idx_facts5 t
  funext j
  obtain ⟨r, q, rfl⟩ : ∃ (r : Fin 5000) (q : Fin 128), j = ix2 r q := ⟨j 0, j 1, eq_ix2 j⟩
  show k5_pay1 (F := Ideal) (iblk5 V c 0 t) (iblk5 V c 1 t) (iblk5 V c 2 t) (iblk5 V c 3 t) (iblk5 V c 4 t) (ix2 r q)
    = arr5 V c (((cfg5.win 5).blk t).view.emb (ix2 r q))
  rw [pay5_eq, pay_block (V c (Pipeline.arrRef spec5 0)) (V c (Pipeline.arrRef spec5 1)) (V c (Pipeline.arrRef spec5 2))
    (V c (Pipeline.arrRef spec5 3)) (V c (Pipeline.arrRef spec5 4)) _ _ _ _ _ t.val (lt20_5 t)
    (blk5_0_apply V c t) (blk5_1_apply V c t) (blk5_2_apply V c t) (blk5_3_apply V c t) (blk5_4_apply V c t) r q]
  refine congrArg _ (funext fun a => Fin.ext ?_)
  match a with
  | ⟨0, _⟩ => show t.val * 5000 + r.val = win5_5.index t (0 : Fin 2) * 5000 + 1 * r.val; omega
  | ⟨1, _⟩ => show q.val = win5_5.index t (1 : Fin 2) * 128 + 1 * q.val; omega

/-- An index of the array is in point `t`'s block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v132).slice (win5_5.rect t)).set ↔ _
  rw [View.set_slice_whole, Rect.mem_set_unit]
  exact Iff.rfl

/-- Every index of the array is in some point's block: row `p` is in block `p / 5000`. -/
theorem cover5 (i : S100000x128.Idx) :
    ∃ t : Fin cfg5.N, (cfg5.win 5).flush t = true ∧ i ∈ ((cfg5.win 5).blk t).view.set := by
  have hi0 : (i 0).val < 100000 := idx2_lt0 i
  have hi1 : (i 1).val < 128 := idx2_lt1 i
  obtain ⟨t, ht⟩ : ∃ t : Fin cfg5.N, t.val = (i 0).val / 5000 :=
    ⟨⟨(i 0).val / 5000, by rw [show cfg5.N = 20 from N_5]; omega⟩, rfl⟩
  obtain ⟨-, -, -, -, -, -, -, -, -, -, e0, e1⟩ := idx_facts5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- THE ARRAY after the launch is `arr5`. -/
theorem final5 : (dat5 V c).arrAt 5 cfg5.N = arr5 V c :=
  (dat5 V c).arrAt_eq_of_cover 5 (arr5 V c) (fun t _ => flushed5_eq V c t) (cover5)

/-- The result array read at row `p`, column `q`: normalise, scale, shift, clamp of the operands' entries. -/
theorem h5 (p : Fin 100000) (q : Fin 128) :
    (Gen.dat5 (F := Ideal) V c).arrAt 5 cfg5.N (ix2 p q)
      = bn (cur2 (V c (Pipeline.arrRef spec5 0))) (row (V c (Pipeline.arrRef spec5 1))) (row (V c (Pipeline.arrRef spec5 2)))
          (row (V c (Pipeline.arrRef spec5 3))) (row (V c (Pipeline.arrRef spec5 4))) p q := by
  rw [final5]
  rfl

end Cert.KernelIdeal.Bn

end
-- ==== Proof.KLayer2.lean ====
import proofs.«161505_j35811437314143_1_alg».proof.Proof.Gen.KernelIdeal.Frame
import proofs.«161505_j35811437314143_1_alg».proof.Proof.KHost
import proofs.«161505_j35811437314143_1_alg».proof.Proof.KPull
import proofs.«161505_j35811437314143_1_alg».proof.Proof.Slices
import proofs.«161505_j35811437314143_1_alg».proof.Proof.Gin4
import proofs.«161505_j35811437314143_1_alg».proof.Proof.Bn5
set_option maxRecDepth 16384

noncomputable section

namespace Cert.KernelIdeal.KLayer2

open Idealize.ShloMosaic Idealize.ShloMosaic.TcCoe Idealize.ShloMosaic.StableHlo Idealize.ShloMosaic.ValueIdx Idealize.SL.Sem
open Cert.KernelIdeal Cert.KernelIdeal.Gen Cert.KernelIdeal.KHost Cert.KernelIdeal.KChainA Cert.KernelIdeal.KPull Cert.Spec

variable (m : (ℓ : Loc nD τ sig) → Buf (Elt Ideal) ℓ) (ρ : Dev nD → PrngReg) (c : Dev nD)

/-- No operation of a host stretch writes the buffer: the stretch leaves it as it was. -/
macro "host_keep " ops:ident : tactic =>
  `(tactic| (refine StableHlo.after_of_forall_not_mem _ _ (List.forall_iff_forall_mem.mp ?_)
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## Layer 3: the host stretch before the accumulating region, the region, the statistics stretch, the normalising region -/

/-- The layer's input rows reach the accumulating region unchanged. -/
theorem hin_eq : W9 m ρ c (Proc.devRef .tc main_v89) = (W8 m ρ c (Proc.devRef .tc main_v89)) := by host_keep hostOps4

/-- The neighbour sums. -/
theorem agg_eq : W9 m ρ c (Proc.devRef .tc main_v104) = aggOf (W8 m ρ c (Proc.devRef .tc main_v89)) (raw1 (m ((c : Thread nD τ).loc main_arg1))) (raw3 (m ((c : Thread nD τ).loc main_arg1))) := by
  have e : W9 m ρ c (Proc.devRef .tc main_v104) = aggOf (W8 m ρ c (Proc.devRef .tc main_v89)) (W8 m ρ c (Proc.devRef .tc main_v1)) (W8 m ρ c (Proc.devRef .tc main_v3)) := by
    show StableHlo.after hostOps4 (W8 m ρ c) (Proc.devRef .tc main_v104) = _
    after_results_simp
    rfl
  rw [e, W8_v1 m ρ c, W8_v3 m ρ c]

/-- The layer's two weight matrices and two bias rows, out of the stacks. -/
theorem w1_eq : cur2 (W9 m ρ c (Proc.devRef .tc main_v106)) = sl3 2 (m ((c : Thread nD τ).loc main_arg3)) := by
  have e : W9 m ρ c (Proc.devRef .tc main_v106) = wsl2 (W8 m ρ c (Proc.devRef .tc main_arg3)) := by
    show StableHlo.after hostOps4 (W8 m ρ c) (Proc.devRef .tc main_v106) = _
    after_results_simp
    rfl
  rw [e, W8_arg3 m ρ c]
  funext l k
  exact wsl2_apply _ l k
theorem w2_eq : cur2 (W9 m ρ c (Proc.devRef .tc main_v110)) = sl3 2 (m ((c : Thread nD τ).loc main_arg5)) := by
  have e : W9 m ρ c (Proc.devRef .tc main_v110) = wsl2 (W8 m ρ c (Proc.devRef .tc main_arg5)) := by
    show StableHlo.after hostOps4 (W8 m ρ c) (Proc.devRef .tc main_v110) = _
    after_results_simp
    rfl
  rw [e, W8_arg5 m ρ c]
  funext l k
  exact wsl2_apply _ l k
theorem b1_eq : row (W9 m ρ c (Proc.devRef .tc main_v113)) = sl2 2 (m ((c : Thread nD τ).loc main_arg4)) := by
  have e : W9 m ρ c (Proc.devRef .tc main_v113) = toRow (bsl2 (W8 m ρ c (Proc.devRef .tc main_arg4))) := by
    show StableHlo.after hostOps4 (W8 m ρ c) (Proc.devRef .tc main_v113) = _
    after_results_simp
    rfl
  rw [e, W8_arg4 m ρ c]
  funext k
  exact (toRow_apply _ k).trans (bsl2_apply _ k)
theorem b2_eq : row (W9 m ρ c (Proc.devRef .tc main_v114)) = sl2 2 (m ((c : Thread nD τ).loc main_arg6)) := by
  have e : W9 m ρ c (Proc.devRef .tc main_v114) = toRow (bsl2 (W8 m ρ c (Proc.devRef .tc main_arg6))) := by
    show StableHlo.after hostOps4 (W8 m ρ c) (Proc.devRef .tc main_v114) = _
    after_results_simp
    rfl
  rw [e, W8_arg6 m ρ c]
  funext k
  exact (toRow_apply _ k).trans (bsl2_apply _ k)

/-- The accumulating region leaves the perceptron's output, its column sums and the column sums of its squares. -/
theorem z_at (p : Fin 100000) (q : Fin 128) : W10 m ρ c (Proc.devRef .tc main_v115_0) (ix2 p q) = (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6)))) p q := by
  have e : W10 m ρ c (Proc.devRef .tc main_v115_0) = (dat4 (V9 m ρ) c).arrAt 6 cfg4.N := W10_arr m ρ c 6
  rw [e, Gin.z4 (V9 m ρ) c p q]
  have h0 : V9 m ρ c (Pipeline.arrRef spec4 0) = (W8 m ρ c (Proc.devRef .tc main_v89)) := hin_eq m ρ c
  have h1 : V9 m ρ c (Pipeline.arrRef spec4 1) = aggOf (W8 m ρ c (Proc.devRef .tc main_v89)) (raw1 (m ((c : Thread nD τ).loc main_arg1))) (raw3 (m ((c : Thread nD τ).loc main_arg1))) := agg_eq m ρ c
  have h2 : cur2 (V9 m ρ c (Pipeline.arrRef spec4 2)) = sl3 2 (m ((c : Thread nD τ).loc main_arg3)) := w1_eq m ρ c
  have h3 : row (V9 m ρ c (Pipeline.arrRef spec4 3)) = sl2 2 (m ((c : Thread nD τ).loc main_arg4)) := b1_eq m ρ c
  have h4 : cur2 (V9 m ρ c (Pipeline.arrRef spec4 4)) = sl3 2 (m ((c : Thread nD τ).loc main_arg5)) := w2_eq m ρ c
  have h5 : row (V9 m ρ c (Pipeline.arrRef spec4 5)) = sl2 2 (m ((c : Thread nD τ).loc main_arg6)) := b2_eq m ρ c
  unfold Zof
  rw [h0, h1, h2, h3, h4, h5]
theorem s_at (q : Fin 128) : W10 m ρ c (Proc.devRef .tc main_v115_1) (ix2 (0 : Fin 1) q) = colSum (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6)))) q := by
  have e : W10 m ρ c (Proc.devRef .tc main_v115_1) = (dat4 (V9 m ρ) c).arrAt 7 cfg4.N := W10_arr m ρ c 7
  rw [e, Gin.s4 (V9 m ρ) c q]
  have h0 : V9 m ρ c (Pipeline.arrRef spec4 0) = (W8 m ρ c (Proc.devRef .tc main_v89)) := hin_eq m ρ c
  have h1 : V9 m ρ c (Pipeline.arrRef spec4 1) = aggOf (W8 m ρ c (Proc.devRef .tc main_v89)) (raw1 (m ((c : Thread nD τ).loc main_arg1))) (raw3 (m ((c : Thread nD τ).loc main_arg1))) := agg_eq m ρ c
  have h2 : cur2 (V9 m ρ c (Pipeline.arrRef spec4 2)) = sl3 2 (m ((c : Thread nD τ).loc main_arg3)) := w1_eq m ρ c
  have h3 : row (V9 m ρ c (Pipeline.arrRef spec4 3)) = sl2 2 (m ((c : Thread nD τ).loc main_arg4)) := b1_eq m ρ c
  have h4 : cur2 (V9 m ρ c (Pipeline.arrRef spec4 4)) = sl3 2 (m ((c : Thread nD τ).loc main_arg5)) := w2_eq m ρ c
  have h5 : row (V9 m ρ c (Pipeline.arrRef spec4 5)) = sl2 2 (m ((c : Thread nD τ).loc main_arg6)) := b2_eq m ρ c
  unfold Zof
  rw [h0, h1, h2, h3, h4, h5]
theorem ss_at (q : Fin 128) : W10 m ρ c (Proc.devRef .tc main_v115_2) (ix2 (0 : Fin 1) q) = colSumSq (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6)))) q := by
  have e : W10 m ρ c (Proc.devRef .tc main_v115_2) = (dat4 (V9 m ρ) c).arrAt 8 cfg4.N := W10_arr m ρ c 8
  rw [e, Gin.ss4 (V9 m ρ) c q]
  have h0 : V9 m ρ c (Pipeline.arrRef spec4 0) = (W8 m ρ c (Proc.devRef .tc main_v89)) := hin_eq m ρ c
  have h1 : V9 m ρ c (Pipeline.arrRef spec4 1) = aggOf (W8 m ρ c (Proc.devRef .tc main_v89)) (raw1 (m ((c : Thread nD τ).loc main_arg1))) (raw3 (m ((c : Thread nD τ).loc main_arg1))) := agg_eq m ρ c
  have h2 : cur2 (V9 m ρ c (Pipeline.arrRef spec4 2)) = sl3 2 (m ((c : Thread nD τ).loc main_arg3)) := w1_eq m ρ c
  have h3 : row (V9 m ρ c (Pipeline.arrRef spec4 3)) = sl2 2 (m ((c : Thread nD τ).loc main_arg4)) := b1_eq m ρ c
  have h4 : cur2 (V9 m ρ c (Pipeline.arrRef spec4 4)) = sl3 2 (m ((c : Thread nD τ).loc main_arg5)) := w2_eq m ρ c
  have h5 : row (V9 m ρ c (Pipeline.arrRef spec4 5)) = sl2 2 (m ((c : Thread nD τ).loc main_arg6)) := b2_eq m ρ c
  unfold Zof
  rw [h0, h1, h2, h3, h4, h5]

/-- The statistics stretch: the perceptron's output passes through; the mean row, the variance row (mean of squares
    minus squared mean), the scale row and the shift row. -/
theorem zkeep_eq : cur2 (W11 m ρ c (Proc.devRef .tc main_v115_0)) = (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6)))) := by
  have e : W11 m ρ c (Proc.devRef .tc main_v115_0) = W10 m ρ c (Proc.devRef .tc main_v115_0) := by host_keep hostOps5
  rw [e]
  funext p q
  exact z_at m ρ c p q
theorem mean_eq : row (W11 m ρ c (Proc.devRef .tc main_v128)) = mean (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6)))) := by
  have e : W11 m ρ c (Proc.devRef .tc main_v128) = toRow (meanV (W10 m ρ c (Proc.devRef .tc main_v115_1))) := by
    show StableHlo.after hostOps5 (W10 m ρ c) (Proc.devRef .tc main_v128) = _
    after_results_simp
    rfl
  rw [e]
  funext q
  show toRow _ (ix2 (0 : Fin 1) q) = _
  rw [toRow_apply, meanV_apply, s_at m ρ c q]
  rfl
theorem var_eq : row (W11 m ρ c (Proc.devRef .tc main_v129)) = varK (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6)))) := by
  have e : W11 m ρ c (Proc.devRef .tc main_v129) = toRow (varV (W10 m ρ c (Proc.devRef .tc main_v115_1)) (W10 m ρ c (Proc.devRef .tc main_v115_2))) := by
    show StableHlo.after hostOps5 (W10 m ρ c) (Proc.devRef .tc main_v129) = _
    after_results_simp
    rfl
  rw [e]
  funext q
  show toRow _ (ix2 (0 : Fin 1) q) = _
  rw [toRow_apply, varV_apply, s_at m ρ c q, ss_at m ρ c q]
  rfl
theorem gam_eq : row (W11 m ρ c (Proc.devRef .tc main_v130)) = sl2 2 (m ((c : Thread nD τ).loc main_arg7)) := by
  have e : W11 m ρ c (Proc.devRef .tc main_v130) = toRow (bsl2 (W10 m ρ c (Proc.devRef .tc main_arg7))) := by
    show StableHlo.after hostOps5 (W10 m ρ c) (Proc.devRef .tc main_v130) = _
    after_results_simp
    rfl
  rw [e, W10_arg7 m ρ c]
  funext k
  exact (toRow_apply _ k).trans (bsl2_apply _ k)
theorem bet_eq : row (W11 m ρ c (Proc.devRef .tc main_v131)) = sl2 2 (m ((c : Thread nD τ).loc main_arg8)) := by
  have e : W11 m ρ c (Proc.devRef .tc main_v131) = toRow (bsl2 (W10 m ρ c (Proc.devRef .tc main_arg8))) := by
    show StableHlo.after hostOps5 (W10 m ρ c) (Proc.devRef .tc main_v131) = _
    after_results_simp
    rfl
  rw [e, W10_arg8 m ρ c]
  funext k
  exact (toRow_apply _ k).trans (bsl2_apply _ k)

/-- THE LAYER on the kernel's side: the normalising region leaves the perceptron's output normalised by its column
    mean and by the mean-of-squares-minus-squared-mean variance, scaled, shifted and clamped at zero. -/
theorem layer (p : Fin 100000) (q : Fin 128) :
    W12 m ρ c (Proc.devRef .tc main_v132) (ix2 p q) = bn (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6)))) (mean (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6))))) (varK (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6))))) (sl2 2 (m ((c : Thread nD τ).loc main_arg7))) (sl2 2 (m ((c : Thread nD τ).loc main_arg8))) p q := by
  have e : W12 m ρ c (Proc.devRef .tc main_v132) = (dat5 (V11 m ρ) c).arrAt 5 cfg5.N := W12_arr m ρ c 5
  rw [e, Bn.h5 (V11 m ρ) c p q]
  have h0 : cur2 (V11 m ρ c (Pipeline.arrRef spec5 0)) = (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6)))) := zkeep_eq m ρ c
  have h1 : row (V11 m ρ c (Pipeline.arrRef spec5 1)) = mean (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6)))) := mean_eq m ρ c
  have h2 : row (V11 m ρ c (Pipeline.arrRef spec5 2)) = varK (Zof (W8 m ρ c (Proc.devRef .tc main_v89)) (m ((c : Thread nD τ).loc main_arg1)) (sl3 2 (m ((c : Thread nD τ).loc main_arg3))) (sl2 2 (m ((c : Thread nD τ).loc main_arg4))) (sl3 2 (m ((c : Thread nD τ).loc main_arg5))) (sl2 2 (m ((c : Thread nD τ).loc main_arg6)))) := var_eq m ρ c
  have h3 : row (V11 m ρ c (Pipeline.arrRef spec5 3)) = sl2 2 (m ((c : Thread nD τ).loc main_arg7)) := gam_eq m ρ c
  have h4 : row (V11 m ρ c (Pipeline.arrRef spec5 4)) = sl2 2 (m ((c : Thread nD τ).loc main_arg8)) := bet_eq m ρ c
  rw [h0, h1, h2, h3, h4]

end Cert.KernelIdeal.KLayer2

end
-- ==== Proof.Proj6.lean ====
/-
  The projection kernel: the two [2048,64] arrays it leaves.

  One grid point; every block is a whole array.  The kernel loads the pooled rows `x` [2048,128], two weight matrices
  [128,64] and two bias rows [1,64], and stores `x · W + b` for each pair: a product into the zero accumulator plus the
  bias row broadcast down the 2048 rows.  Read at row `p`, column `q` a stored value is `Σ_k x p k · W k q + b q`
  (`pay_apply`), so each result array ends holding `Spec.proj` of its operands index by index (`mu6`, `lv6`).
-/
import proofs.«161505_j35811437314143_1_alg».proof.Proof.Spec
import proofs.«161505_j35811437314143_1_alg».proof.Proof.LibMatmul
import proofs.«161505_j35811437314143_1_alg».proof.Proof.Gen.KernelIdeal.Frame
import Idealize.ShloMosaic.Lib.Pipeline.Value
import Idealize.ShloMosaic.Lib.ValueIdx

noncomputable section

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (cur2 row proj)

/-- The two zero offsets of a whole-buffer access, as the constant function. -/
theorem hz : (![0, 0] : Fin 2 → Nat) = fun _ => 0 := funext fun a => by fin_cases a <;> rfl

/-- A [1,64] row broadcast down 2048 rows, read at row `p`, column `q`, is the row's entry at column `q`. -/
theorem bcast_bias_apply (x : Vec Ideal S1x64 .f32) (p : Fin 2048) (q : Fin 64) :
    broadcastTo S2048x64 x broadcasts_S1x64_S2048x64 (ix2 p q) = x (ix2 0 q) := by
  refine broadcastTo_apply x _ (ix2 p q) (ix2 0 q) (fun a => ?_)
  match a with
  | ⟨0, _⟩ => rfl
  | ⟨1, _⟩ => rfl

/-- The stored value at row `p`, column `q`: the row of `x` against the column of `W`, plus the bias entry. -/
theorem pay_apply (x : Vec Ideal S2048x128 .f32) (w : Vec Ideal S128x64 .f32) (b : Vec Ideal S1x64 .f32)
    (p : Fin 2048) (q : Fin 64) :
    k6_pay2 (F := Ideal) x w b (ix2 p q) = (∑ k : Fin 128, x (ix2 p k) * w (ix2 k q)) + b (ix2 0 q) := by
  unfold k6_pay2 k6_pay1
  simp only [shapeCast_self, matmul]
  rw [addf_apply, bcast_bias_apply]
  have hm : FloatOps.matmul (F := Ideal) (φ₁ := .f32) (φ₂ := .f32) dot_S2048x128_S128x64_S2048x64_1_0_0_1_n_n none x w
      (constant (F := Ideal) S2048x64 .f32 0x00000000#32) (ix2 p q) = ∑ k : Fin 128, x (ix2 p k) * w (ix2 k q) :=
    Cert.LibMatmul.matmul_plain_zero_apply (φ₁ := .f32) (φ₂ := .f32) none x w p q
  rw [hm]

/-- The second store is the same term of its loaded values as the first. -/
theorem pay3_eq : @k6_pay3 = @k6_pay2 := rfl

/-- An affine map of the pooled rows as a [2048,64] array, index by index. -/
def projArr (x : S2048x128.Idx → EReal) (w : S128x64.Idx → EReal) (b : S1x64.Idx → EReal) : S2048x64.Idx → EReal :=
  fun i => proj (cur2 x) (cur2 w) (row b) ⟨(i 0).val, idx2_lt0 i⟩ ⟨(i 1).val, idx2_lt1 i⟩

/-- It read at row `p`, column `q`. -/
theorem projArr_apply (x : S2048x128.Idx → EReal) (w : S128x64.Idx → EReal) (b : S1x64.Idx → EReal) (p : Fin 2048) (q : Fin 64) :
    projArr x w b (ix2 p q) = proj (cur2 x) (cur2 w) (row b) p q := rfl

variable (V : (c : Dev nD) → (b : Ref sig .tc) → Buf (Elt Ideal) ((c : Thread nD τ).loc b)) (c : Dev nD)

/-- The printed index maps, decided over the one point: every window's block index is zero on both axes. -/
theorem idx_facts6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- Each operand's block at the point is its whole array. -/
theorem blk6_0_eq (t : Fin cfg6.N) :
    (iblk6 V c 0 t : Vec Ideal S2048x128 .f32) = (V c (Pipeline.arrRef spec6 0) : S2048x128.Idx → EReal) := by
  obtain ⟨e0, e1, -⟩ := idx_facts6 t
  funext j
  show V c (Pipeline.arrRef spec6 0) (((cfg6.win 0).blk t).view.emb j) = V c (Pipeline.arrRef spec6 0) j
  refine congrArg _ (funext fun a => Fin.ext ?_)
  match a with
  | ⟨0, _⟩ => show win6_0.index t (0 : Fin 2) * 2048 + 1 * (j 0).val = (j 0).val; omega
  | ⟨1, _⟩ => show win6_0.index t (1 : Fin 2) * 128 + 1 * (j 1).val = (j 1).val; omega
theorem blk6_1_eq (t : Fin cfg6.N) :
    (iblk6 V c 1 t : Vec Ideal S128x64 .f32) = (V c (Pipeline.arrRef spec6 1) : S128x64.Idx → EReal) := by
  obtain ⟨-, -, e0, e1, -⟩ := idx_facts6 t
  funext j
  show V c (Pipeline.arrRef spec6 1) (((cfg6.win 1).blk t).view.emb j) = V c (Pipeline.arrRef spec6 1) j
  refine congrArg _ (funext fun a => Fin.ext ?_)
  match a with
  | ⟨0, _⟩ => show win6_1.index t (0 : Fin 2) * 128 + 1 * (j 0).val = (j 0).val; omega
  | ⟨1, _⟩ => show win6_1.index t (1 : Fin 2) * 64 + 1 * (j 1).val = (j 1).val; omega
theorem blk6_2_eq (t : Fin cfg6.N) :
    (iblk6 V c 2 t : Vec Ideal S1x64 .f32) = (V c (Pipeline.arrRef spec6 2) : S1x64.Idx → EReal) := by
  obtain ⟨-, -, -, -, e0, e1, -⟩ := idx_facts6 t
  funext j
  show V c (Pipeline.arrRef spec6 2) (((cfg6.win 2).blk t).view.emb j) = V c (Pipeline.arrRef spec6 2) j
  refine congrArg _ (funext fun a => Fin.ext ?_)
  match a with
  | ⟨0, _⟩ => show win6_2.index t (0 : Fin 2) * 1 + 1 * (j 0).val = (j 0).val; omega
  | ⟨1, _⟩ => show win6_2.index t (1 : Fin 2) * 64 + 1 * (j 1).val = (j 1).val; omega
theorem blk6_3_eq (t : Fin cfg6.N) :
    (iblk6 V c 3 t : Vec Ideal S128x64 .f32) = (V c (Pipeline.arrRef spec6 3) : S128x64.Idx → EReal) := by
  obtain ⟨-, -, -, -, -, -, e0, e1, -⟩ := idx_facts6 t
  funext j
  show V c (Pipeline.arrRef spec6 3) (((cfg6.win 3).blk t).view.emb j) = V c (Pipeline.arrRef spec6 3) j
  refine congrArg _ (funext fun a => Fin.ext ?_)
  match a with
  | ⟨0, _⟩ => show win6_3.index t (0 : Fin 2) * 128 + 1 * (j 0).val = (j 0).val; omega
  | ⟨1, _⟩ => show win6_3.index t (1 : Fin 2) * 64 + 1 * (j 1).val = (j 1).val; omega
theorem blk6_4_eq (t : Fin cfg6.N) :
    (iblk6 V c 4 t : Vec Ideal S1x64 .f32) = (V c (Pipeline.arrRef spec6 4) : S1x64.Idx → EReal) := by
  obtain ⟨-, -, -, -, -, -, -, -, e0, e1, -⟩ := idx_facts6 t
  funext j
  show V c (Pipeline.arrRef spec6 4) (((cfg6.win 4).blk t).view.emb j) = V c (Pipeline.arrRef spec6 4) j
  refine congrArg _ (funext fun a => Fin.ext ?_)
  match a with
  | ⟨0, _⟩ => show win6_4.index t (0 : Fin 2) * 1 + 1 * (j 0).val = (j 0).val; omega
  | ⟨1, _⟩ => show win6_4.index t (1 : Fin 2) * 64 + 1 * (j 1).val = (j 1).val; omega

/-! ## Result 0 -/

/-- What result 0 ends holding: the affine map of the pooled rows by the first weight matrix and bias row. -/
abbrev muArr : S2048x64.Idx → EReal :=
  projArr (V c (Pipeline.arrRef spec6 0)) (V c (Pipeline.arrRef spec6 1)) (V c (Pipeline.arrRef spec6 2))

/-- WHAT THE POINT WRITES BACK to result 0 is the whole of `muArr`. -/
theorem flushed6_5_eq (t : Fin cfg6.N) :
    (dat6 V c).flushed 5 t = ((cfg6.win 5).blk t).view.read (Elt Ideal) (muArr V c) := by
  show (cfg6.win 5).cut (grid6.coords t) ((dat6 V c).after 5 t) = _
  rw [after6_5]
  unfold out6_5
  rw [View.canon_unit_zero hz]
  simp only [View.ld_unit_zero (S := S2048x128) hz, View.ld_unit_zero (S := S128x64) hz, View.ld_unit_zero (S := S1x64) hz]
  rw [blk6_0_eq, blk6_1_eq, blk6_2_eq]
  obtain ⟨-, -, -, -, -, -, -, -, -, -, e0, e1, -⟩ := idx_facts6 t
  funext j
  obtain ⟨p, q, rfl⟩ : ∃ (p : Fin 2048) (q : Fin 64), j = ix2 p q := ⟨j 0, j 1, eq_ix2 j⟩
  show k6_pay2 (F := Ideal) (V c (Pipeline.arrRef spec6 0)) (V c (Pipeline.arrRef spec6 1)) (V c (Pipeline.arrRef spec6 2)) (ix2 p q)
    = muArr V c (((cfg6.win 5).blk t).view.emb (ix2 p q))
  have he : ((cfg6.win 5).blk t).view.emb (ix2 p q) = (ix2 p q : S2048x64.Idx) := by
    refine funext fun a => Fin.ext ?_
    match a with
    | ⟨0, _⟩ => show win6_5.index t (0 : Fin 2) * 2048 + 1 * p.val = p.val; omega
    | ⟨1, _⟩ => show win6_5.index t (1 : Fin 2) * 64 + 1 * q.val = q.val; omega
  rw [he, pay_apply]
  exact (projArr_apply _ _ _ p q).symm

/-- An index of the array is in the point's block iff each coordinate is in the block's range on its axis. -/
theorem mem_blk6_5 (t : Fin cfg6.N) (i : S2048x64.Idx) :
    i ∈ ((cfg6.win 5).blk t).view.set ↔ ∀ a : Fin 2, win6_5.index t a * S2048x64.size a ≤ (i a).val ∧ (i a).val < win6_5.index t a * S2048x64.size a + S2048x64.size a := by
  show i ∈ ((View.whole main_v147_0).slice (win6_5.rect t)).set ↔ _
  rw [View.set_slice_whole, Rect.mem_set_unit]
  exact Iff.rfl

/-- The one point's block is the whole array. -/
theorem covered6_5 (i : S2048x64.Idx) :
    ∃ t : Fin cfg6.N, (cfg6.win 5).flush t = true ∧ i ∈ ((cfg6.win 5).blk t).view.set := by
  have hi0 : (i 0).val < 2048 := idx2_lt0 i
  have hi1 : (i 1).val < 64 := idx2_lt1 i
  obtain ⟨-, -, -, -, -, -, -, -, -, -, e0, e1, -⟩ := idx_facts6 t6_0
  refine ⟨t6_0, flush6_5 t6_0, ?_⟩
  rw [mem_blk6_5]
  intro a
  match a with
  | ⟨0, _⟩ => show win6_5.index t6_0 (0 : Fin 2) * 2048 ≤ (i 0).val ∧ (i 0).val < win6_5.index t6_0 (0 : Fin 2) * 2048 + 2048; omega
  | ⟨1, _⟩ => show win6_5.index t6_0 (1 : Fin 2) * 64 ≤ (i 1).val ∧ (i 1).val < win6_5.index t6_0 (1 : Fin 2) * 64 + 64; omega

/-- THE ARRAY after the launch is `muArr`. -/
theorem final6_5 : (dat6 V c).arrAt 5 cfg6.N = muArr V c :=
  (dat6 V c).arrAt_eq_of_cover 5 (muArr V c) (fun t _ => flushed6_5_eq V c t) (covered6_5)

/-! ## Result 1 -/

/-- What result 1 ends holding: the affine map of the pooled rows by the second weight matrix and bias row. -/
abbrev lvArr : S2048x64.Idx → EReal :=
  projArr (V c (Pipeline.arrRef spec6 0)) (V c (Pipeline.arrRef spec6 3)) (V c (Pipeline.arrRef spec6 4))

/-- WHAT THE POINT WRITES BACK to result 1 is the whole of `lvArr`. -/
theorem flushed6_6_eq (t : Fin cfg6.N) :
    (dat6 V c).flushed 6 t = ((cfg6.win 6).blk t).view.read (Elt Ideal) (lvArr V c) := by
  show (cfg6.win 6).cut (grid6.coords t) ((dat6 V c).after 6 t) = _
  rw [after6_6]
  unfold out6_6
  rw [View.canon_unit_zero hz]
  simp only [View.ld_unit_zero (S := S2048x128) hz, View.ld_unit_zero (S := S128x64) hz, View.ld_unit_zero (S := S1x64) hz]
  rw [blk6_0_eq, blk6_3_eq, blk6_4_eq]
  obtain ⟨-, -, -, -, -, -, -, -, -, -, -, -, e0, e1⟩ := idx_facts6 t
  funext j
  obtain ⟨p, q, rfl⟩ : ∃ (p : Fin 2048) (q : Fin 64), j = ix2 p q := ⟨j 0, j 1, eq_ix2 j⟩
  show k6_pay3 (F := Ideal) (V c (Pipeline.arrRef spec6 0)) (V c (Pipeline.arrRef spec6 3)) (V c (Pipeline.arrRef spec6 4)) (ix2 p q)
    = lvArr V c (((cfg6.win 6).blk t).view.emb (ix2 p q))
  have he : ((cfg6.win 6).blk t).view.emb (ix2 p q) = (ix2 p q : S2048x64.Idx) := by
    refine funext fun a => Fin.ext ?_
    match a with
    | ⟨0, _⟩ => show win6_6.index t (0 : Fin 2) * 2048 + 1 * p.val = p.val; omega
    | ⟨1, _⟩ => show win6_6.index t (1 : Fin 2) * 64 + 1 * q.val = q.val; omega
  rw [he, pay3_eq, pay_apply]
  exact (projArr_apply _ _ _ p q).symm

/-- An index of the array is in the point's block iff each coordinate is in the block's range on its axis. -/
theorem mem_blk6_6 (t : Fin cfg6.N) (i : S2048x64.Idx) :
    i ∈ ((cfg6.win 6).blk t).view.set ↔ ∀ a : Fin 2, win6_6.index t a * S2048x64.size a ≤ (i a).val ∧ (i a).val < win6_6.index t a * S2048x64.size a + S2048x64.size a := by
  show i ∈ ((View.whole main_v147_1).slice (win6_6.rect t)).set ↔ _
  rw [View.set_slice_whole, Rect.mem_set_unit]
  exact Iff.rfl

/-- The one point's block is the whole array. -/
theorem covered6_6 (i : S2048x64.Idx) :
    ∃ t : Fin cfg6.N, (cfg6.win 6).flush t = true ∧ i ∈ ((cfg6.win 6).blk t).view.set := by
  have hi0 : (i 0).val < 2048 := idx2_lt0 i
  have hi1 : (i 1).val < 64 := idx2_lt1 i
  obtain ⟨-, -, -, -, -, -, -, -, -, -, -, -, e0, e1⟩ := idx_facts6 t6_0
  refine ⟨t6_0, flush6_6 t6_0, ?_⟩
  rw [mem_blk6_6]
  intro a
  match a with
  | ⟨0, _⟩ => show win6_6.index t6_0 (0 : Fin 2) * 2048 ≤ (i 0).val ∧ (i 0).val < win6_6.index t6_0 (0 : Fin 2) * 2048 + 2048; omega
  | ⟨1, _⟩ => show win6_6.index t6_0 (1 : Fin 2) * 64 ≤ (i 1).val ∧ (i 1).val < win6_6.index t6_0 (1 : Fin 2) * 64 + 64; omega

/-- THE ARRAY after the launch is `lvArr`. -/
theorem final6_6 : (dat6 V c).arrAt 6 cfg6.N = lvArr V c :=
  (dat6 V c).arrAt_eq_of_cover 6 (lvArr V c) (fun t _ => flushed6_6_eq V c t) (covered6_6)

/-- Result 0 read at row `p`, column `q`. -/
theorem mu6 (p : Fin 2048) (q : Fin 64) :
    ((dat6 (F := Ideal) V c).arrAt 5 cfg6.N : S2048x64.Idx → EReal) (ix2 p q)
      = proj (cur2 (V c (Pipeline.arrRef spec6 0) : S2048x128.Idx → EReal)) (cur2 (V c (Pipeline.arrRef spec6 1) : S128x64.Idx → EReal))
          (row (V c (Pipeline.arrRef spec6 2) : S1x64.Idx → EReal)) p q := by
  rw [final6_5]
  rfl

/-- Result 1 read at row `p`, column `q`. -/
theorem lv6 (p : Fin 2048) (q : Fin 64) :
    ((dat6 (F := Ideal) V c).arrAt 6 cfg6.N : S2048x64.Idx → EReal) (ix2 p q)
      = proj (cur2 (V c (Pipeline.arrRef spec6 0) : S2048x128.Idx → EReal)) (cur2 (V c (Pipeline.arrRef spec6 3) : S128x64.Idx → EReal))
          (row (V c (Pipeline.arrRef spec6 4) : S1x64.Idx → EReal)) p q := by
  rw [final6_6]
  rfl

end Cert.KernelIdeal.Proj

end
-- ==== Proof.KTail.lean ====
import proofs.«161505_j35811437314143_1_alg».proof.Proof.Gen.KernelIdeal.Frame
import proofs.«161505_j35811437314143_1_alg».proof.Proof.KHost
import proofs.«161505_j35811437314143_1_alg».proof.Proof.KPull
import proofs.«161505_j35811437314143_1_alg».proof.Proof.Slices
import proofs.«161505_j35811437314143_1_alg».proof.Proof.Proj6
set_option maxRecDepth 16384

noncomputable section

namespace Cert.KernelIdeal.KTail

open Idealize.ShloMosaic Idealize.ShloMosaic.TcCoe Idealize.ShloMosaic.StableHlo Idealize.ShloMosaic.ValueIdx Idealize.SL.Sem
open Cert.KernelIdeal Cert.KernelIdeal.Gen Cert.KernelIdeal.KHost Cert.KernelIdeal.KChainA Cert.KernelIdeal.KPull Cert.Spec

variable (m : (ℓ : Loc nD τ sig) → Buf (Elt Ideal) ℓ) (ρ : Dev nD → PrngReg) (c : Dev nD)

/-- No operation of a host stretch writes the buffer: the stretch leaves it as it was. -/
macro "host_keep " ops:ident : tactic =>
  `(tactic| (refine StableHlo.after_of_forall_not_mem _ _ (List.forall_iff_forall_mem.mp ?_)
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## After the third layer: the pooling stretch and the projection region -/

/-- The pooled rows. -/
theorem pooled_eq : W13 m ρ c (Proc.devRef .tc main_v144) = poolOf (W12 m ρ c (Proc.devRef .tc main_v132)) (m ((c : Thread nD τ).loc main_arg2)) := by
  have e : W13 m ρ c (Proc.devRef .tc main_v144) = poolOf (W12 m ρ c (Proc.devRef .tc main_v132)) (W12 m ρ c (Proc.devRef .tc main_arg2)) := by
    show StableHlo.after hostOps6 (W12 m ρ c) (Proc.devRef .tc main_v144) = _
    after_results_simp
    rfl
  rw [e, W12_arg2 m ρ c]
/-- The two bias vectors laid out as rows. -/
theorem bmu_eq : row (W13 m ρ c (Proc.devRef .tc main_v145)) = vec (m ((c : Thread nD τ).loc main_arg10)) := by
  have e : W13 m ρ c (Proc.devRef .tc main_v145) = toRow64 (W12 m ρ c (Proc.devRef .tc main_arg10)) := by
    show StableHlo.after hostOps6 (W12 m ρ c) (Proc.devRef .tc main_v145) = _
    after_results_simp
    rfl
  rw [e, W12_arg10 m ρ c]
  funext k
  exact toRow64_apply _ k
theorem blv_eq : row (W13 m ρ c (Proc.devRef .tc main_v146)) = vec (m ((c : Thread nD τ).loc main_arg12)) := by
  have e : W13 m ρ c (Proc.devRef .tc main_v146) = toRow64 (W12 m ρ c (Proc.devRef .tc main_arg12)) := by
    show StableHlo.after hostOps6 (W12 m ρ c) (Proc.devRef .tc main_v146) = _
    after_results_simp
    rfl
  rw [e, W12_arg12 m ρ c]
  funext k
  exact toRow64_apply _ k

/-- THE TWO RESULTS on the kernel's side: affine maps of the pooled rows of the third layer's output. -/
theorem out0 (p : Fin 2048) (q : Fin 64) :
    W14 m ρ c (Proc.devRef .tc main_v147_0) (ix2 p q) = proj (cur2 (poolOf (W12 m ρ c (Proc.devRef .tc main_v132)) (m ((c : Thread nD τ).loc main_arg2)))) (cur2 (m ((c : Thread nD τ).loc main_arg9))) (vec (m ((c : Thread nD τ).loc main_arg10))) p q := by
  have e : W14 m ρ c (Proc.devRef .tc main_v147_0) = (dat6 (V13 m ρ) c).arrAt 5 cfg6.N := W14_arr m ρ c 5
  rw [e, Proj.mu6 (V13 m ρ) c p q]
  have h0 : V13 m ρ c (Pipeline.arrRef spec6 0) = poolOf (W12 m ρ c (Proc.devRef .tc main_v132)) (m ((c : Thread nD τ).loc main_arg2)) := pooled_eq m ρ c
  have h1 : V13 m ρ c (Pipeline.arrRef spec6 1) = (m ((c : Thread nD τ).loc main_arg9)) := W13_arg9 m ρ c
  have h2 : row (V13 m ρ c (Pipeline.arrRef spec6 2)) = vec (m ((c : Thread nD τ).loc main_arg10)) := bmu_eq m ρ c
  rw [h0, h1, h2]
theorem out1 (p : Fin 2048) (q : Fin 64) :
    W14 m ρ c (Proc.devRef .tc main_v147_1) (ix2 p q) = proj (cur2 (poolOf (W12 m ρ c (Proc.devRef .tc main_v132)) (m ((c : Thread nD τ).loc main_arg2)))) (cur2 (m ((c : Thread nD τ).loc main_arg11))) (vec (m ((c : Thread nD τ).loc main_arg12))) p q := by
  have e : W14 m ρ c (Proc.devRef .tc main_v147_1) = (dat6 (V13 m ρ) c).arrAt 6 cfg6.N := W14_arr m ρ c 6
  rw [e, Proj.lv6 (V13 m ρ) c p q]
  have h0 : V13 m ρ c (Pipeline.arrRef spec6 0) = poolOf (W12 m ρ c (Proc.devRef .tc main_v132)) (m ((c : Thread nD τ).loc main_arg2)) := pooled_eq m ρ c
  have h1 : V13 m ρ c (Pipeline.arrRef spec6 3) = (m ((c : Thread nD τ).loc main_arg11)) := W13_arg11 m ρ c
  have h2 : row (V13 m ρ c (Pipeline.arrRef spec6 4)) = vec (m ((c : Thread nD τ).loc main_arg12)) := blv_eq m ρ c
  rw [h0, h1, h2]

end Cert.KernelIdeal.KTail

end
-- ==== Proof.RefRead.lean ====
/-
  The reference program's stages read index by index.

  Each stage function is, at an entry of its result, the index-by-index mathematics: the perceptron is a double sum
  over the two contractions with the biases added and the clamp at zero between them; the column mean is the column
  sum over the row count; the normalisation subtracts the mean, multiplies by the reciprocal square root of the
  variance plus epsilon, scales, shifts and clamps; the projection is one contraction plus a bias; a layer's parameter
  is the stacked array at that layer's leading coordinate.
-/
import proofs.«161505_j35811437314143_1_alg».proof.Proof.RefStages
import proofs.«161505_j35811437314143_1_alg».proof.Proof.Spec
import proofs.«161505_j35811437314143_1_alg».proof.Proof.LibMatmul
import Idealize.ShloMosaic.Lib.ValueLayout
import Idealize.ShloMosaic.PureOps.Ideal.Laws

noncomputable section

namespace Cert.ReferenceIdeal.Stages

open Idealize.ShloMosaic Idealize.ShloMosaic.ValueIdx
open Cert.ReferenceIdeal Cert.ReferenceIdeal.Facts₀
open Cert

variable [Facts₀]

/-! ## Broadcasts at an index -/

/-- A scalar spread over any shape reads the scalar everywhere. -/
theorem splat_apply {α : Type} {t : Shape} (dims : Fin S_.rank → Fin t.rank) (h : S_.BroadcastsInDim t dims)
    (c : S_.Idx → α) (j : t.Idx) : broadcastInDim t dims h c j = c ix0 :=
  broadcastInDim_apply dims h c j ix0 (fun a => a.elim0)

/-- A length-128 vector spread over the rows reads, at (p, q), the vector at q. -/
theorem rows_apply (v : FVec Ideal S128 .f32) (p : Fin 100000) (q : Fin 128) : rows v (ix2 p q) = v (ix1 q) := by
  unfold rows
  refine (broadcastInDim_apply _ _ _ (ix2 p q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

/-- The zero array reads the zero word. -/
theorem zeros_apply (p : Fin 100000) (q : Fin 128) : zeros (ix2 p q) = Spec.zero :=
  splat_apply _ _ _ _

/-! ## The two contractions at an entry -/

theorem dot1_apply (X : FVec Ideal S100000x128 .f32) (W : FVec Ideal S128x128 .f32) (p : Fin 100000) (q : Fin 128) :
    Host.dotGeneral (F := Ideal) dot_S100000x128_S128x128_S100000x128_1_0_0_1_n_n none X W (ix2 p q)
      = ∑ k : Fin 128, X (ix2 p k) * W (ix2 k q) :=
  LibMatmul.dotGeneral_plain_apply none .single X W p q

theorem dot2_apply (X : FVec Ideal S2048x128 .f32) (W : FVec Ideal S128x64 .f32) (p : Fin 2048) (q : Fin 64) :
    Host.dotGeneral (F := Ideal) dot_S2048x128_S128x64_S2048x64_1_0_0_1_n_n none X W (ix2 p q)
      = ∑ k : Fin 128, X (ix2 p k) * W (ix2 k q) :=
  LibMatmul.dotGeneral_plain_apply none .single X W p q

/-! ## The perceptron -/

theorem zOf_apply (h a : FVec Ideal S100000x128 .f32) (W1 : FVec Ideal S128x128 .f32) (c1 : FVec Ideal S128 .f32)
    (W2 : FVec Ideal S128x128 .f32) (c2 : FVec Ideal S128 .f32) (p : Fin 100000) (q : Fin 128) :
    zOf h a W1 c1 W2 c2 (ix2 p q)
      = Spec.mlp (Spec.cur2 h) (Spec.cur2 a) (Spec.cur2 W1) (Spec.vec c1) (Spec.cur2 W2) (Spec.vec c2) p q := by
  unfold zOf Spec.mlp Spec.cur2 Spec.vec
  rw [addf_apply, dot1_apply, rows_apply]
  refine congrArg (· + c2 (ix1 q)) (Finset.sum_congr rfl fun k _ => ?_)
  rw [maximumf_apply, addf_apply, dot1_apply, rows_apply, zeros_apply]
  simp only [addf_apply]

/-! ## The column sum and the column mean -/

/-- A scalar word read at the scalar shape's one index. -/
theorem zeroS_apply (j : S_.Idx) : zeroS j = Spec.zero := rfl
theorem nS_apply (j : S_.Idx) : nS j = Spec.nNodes := rfl
theorem epsS_apply (j : S_.Idx) : epsS j = Spec.eps := rfl

/-- The host's sum over the rows, from the zero word: the column sum. -/
theorem sumOf_apply (z : FVec Ideal S100000x128 .f32) (q : Fin 128) : sumOf z (ix1 q) = ∑ i : Fin 100000, z (ix2 i q) := by
  have hR : S100000x128.Reduces [0] S128 := by decide
  unfold sumOf
  refine (Ideal.hostReduceAdd_single reducesTo_S100000x128_S128_d0 hR z _ (ix1 q)).trans ?_
  rw [zeroS_apply, Spec.zero, Ideal.ofBits_zero_f32, zero_add]
  refine Finset.sum_congr rfl fun i _ => congrArg z (funext fun a => ?_)
  match a with
  | ⟨0, _⟩ => rfl
  | ⟨1, _⟩ => rfl

theorem meanOf_apply (z : FVec Ideal S100000x128 .f32) (q : Fin 128) : meanOf z (ix1 q) = Spec.mean (Spec.cur2 z) q := by
  unfold meanOf Spec.mean Spec.colSum Spec.cur2
  show Ideal.div (sumOf z (ix1 q)) (broadcastInDim S128 ![] bcast_S_S128 nS (ix1 q)) = _
  rw [sumOf_apply, splat_apply, nS_apply]

/-! ## The normalisation -/

theorem bnOf_apply (z : FVec Ideal S100000x128 .f32) (mu var g b : FVec Ideal S128 .f32) (p : Fin 100000) (q : Fin 128) :
    bnOf z mu var g b (ix2 p q) = Spec.bn (Spec.cur2 z) (Spec.vec mu) (Spec.vec var) (Spec.vec g) (Spec.vec b) p q := by
  unfold bnOf Spec.bn Spec.cur2 Spec.vec
  rw [maximumf_apply, addf_apply, mulf_apply, mulf_apply, subf_apply, zeros_apply, rows_apply, rows_apply, rows_apply, rows_apply]
  show max ((z (ix2 p q) - mu (ix1 q)) * Ideal.rsqrt (var (ix1 q) + broadcastInDim S128 ![] bcast_S_S128 epsS (ix1 q)) * g (ix1 q) + b (ix1 q)) Spec.zero = _
  rw [splat_apply, epsS_apply]

/-! ## The projection -/

/-- A length-64 vector spread over the 2048 pooled rows reads, at (p, q), the vector at q. -/
theorem rows64_apply (v : FVec Ideal S64 .f32) (p : Fin 2048) (q : Fin 64) :
    broadcastInDim S2048x64 ![0, 1] bcast_S1x64_S2048x64_0_1 (broadcastInDim S1x64 ![1] bcast_S64_S1x64_1 v) (ix2 p q) = v (ix1 q) := by
  refine (broadcastInDim_apply _ _ _ (ix2 p q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

theorem projOf_apply (P : FVec Ideal S2048x128 .f32) (W : FVec Ideal S128x64 .f32) (b : FVec Ideal S64 .f32) (p : Fin 2048) (q : Fin 64) :
    projOf P W b (ix2 p q) = Spec.proj (Spec.cur2 P) (Spec.cur2 W) (Spec.vec b) p q := by
  unfold projOf Spec.proj Spec.cur2 Spec.vec
  rw [addf_apply, dot2_apply, rows64_apply]

/-! ## A layer's parameters out of the stacks -/

theorem matL_apply (L : Fin 3) (Ws : FVec Ideal S3x128x128 .f32) (l k : Fin 128) : matL L Ws (ix2 l k) = Ws (ix3 L l k) := by
  match L with
  | ⟨0, _⟩ =>
    refine (shapeCast_1ab_ab_apply _ _ l k).trans (extractStridedSlice_apply _ _ _ _ _ fun a => ?_)
    match a with
    | ⟨0, _⟩ => rfl
    | ⟨1, _⟩ => exact (Nat.zero_add _).symm
    | ⟨2, _⟩ => exact (Nat.zero_add _).symm
  | ⟨1, _⟩ =>
    refine (shapeCast_1ab_ab_apply _ _ l k).trans (extractStridedSlice_apply _ _ _ _ _ fun a => ?_)
    match a with
    | ⟨0, _⟩ => rfl
    | ⟨1, _⟩ => exact (Nat.zero_add _).symm
    | ⟨2, _⟩ => exact (Nat.zero_add _).symm
  | ⟨2, _⟩ =>
    refine (shapeCast_1ab_ab_apply _ _ l k).trans (extractStridedSlice_apply _ _ _ _ _ fun a => ?_)
    match a with
    | ⟨0, _⟩ => rfl
    | ⟨1, _⟩ => exact (Nat.zero_add _).symm
    | ⟨2, _⟩ => exact (Nat.zero_add _).symm

theorem vecL_apply (L : Fin 3) (Bs : FVec Ideal S3x128 .f32) (k : Fin 128) : vecL L Bs (ix1 k) = Bs (ix2 L k) := by
  match L with
  | ⟨0, _⟩ =>
    refine (shapeCast_1a_a_apply _ _ k).trans (extractStridedSlice_apply _ _ _ _ _ fun a => ?_)
    match a with
    | ⟨0, _⟩ => rfl
    | ⟨1, _⟩ => exact (Nat.zero_add _).symm
  | ⟨1, _⟩ =>
    refine (shapeCast_1a_a_apply _ _ k).trans (extractStridedSlice_apply _ _ _ _ _ fun a => ?_)
    match a with
    | ⟨0, _⟩ => rfl
    | ⟨1, _⟩ => exact (Nat.zero_add _).symm
  | ⟨2, _⟩ =>
    refine (shapeCast_1a_a_apply _ _ k).trans (extractStridedSlice_apply _ _ _ _ _ fun a => ?_)
    match a with
    | ⟨0, _⟩ => rfl
    | ⟨1, _⟩ => exact (Nat.zero_add _).symm

theorem w1_apply (L : Fin 3) (Ws : FVec Ideal S3x128x128 .f32) (l k : Fin 128) : w1 L Ws (ix2 l k) = Ws (ix3 L l k) := matL_apply L Ws l k
theorem w2_apply (L : Fin 3) (Ws : FVec Ideal S3x128x128 .f32) (l k : Fin 128) : w2 L Ws (ix2 l k) = Ws (ix3 L l k) := matL_apply L Ws l k
theorem b1_apply (L : Fin 3) (Bs : FVec Ideal S3x128 .f32) (k : Fin 128) : b1 L Bs (ix1 k) = Bs (ix2 L k) := vecL_apply L Bs k
theorem b2_apply (L : Fin 3) (Bs : FVec Ideal S3x128 .f32) (k : Fin 128) : b2 L Bs (ix1 k) = Bs (ix2 L k) := vecL_apply L Bs k
theorem gam_apply (L : Fin 3) (Bs : FVec Ideal S3x128 .f32) (k : Fin 128) : gam L Bs (ix1 k) = Bs (ix2 L k) := vecL_apply L Bs k
theorem bet_apply (L : Fin 3) (Bs : FVec Ideal S3x128 .f32) (k : Fin 128) : bet L Bs (ix1 k) = Bs (ix2 L k) := vecL_apply L Bs k

end Cert.ReferenceIdeal.Stages

end
-- ==== Proof.Algebra.lean ====
/-
  The real analysis that joins the two column variances.

  Every entry the layers read is the coercion of a real number ("finite").  On finite data the extended-real
  sums, products and the division by the row count are the coercions of the corresponding real expressions, so
  the identity  (1/N) Σ z² − ((1/N) Σ z)² = (1/N) Σ (z − (1/N) Σ z)²  (N = 100000, the number of rows) is the
  real one, and the normalised layer stays finite because the variance is nonnegative and the epsilon positive.
-/
import proofs.«161505_j35811437314143_1_alg».proof.Proof.Spec
import Idealize.ShloMosaic.PureOps.Ideal

noncomputable section

namespace Cert.Spec

open Idealize.ShloMosaic

/-- Every entry of a two-index family, resp. a one-index family, is the coercion of a real. -/
def Fin2 {a b : ℕ} (f : Fin a → Fin b → EReal) : Prop := ∀ i j, ∃ r : ℝ, f i j = (r : EReal)
def Fin1 {a : ℕ} (f : Fin a → EReal) : Prop := ∀ i, ∃ r : ℝ, f i = (r : EReal)

/-! ### The three float words -/

theorem zero_eq : zero = 0 := by
  simp [zero, Ideal.ofBits, Ideal.ieee]

/-- `0x47C35000`: exponent field 143, fraction field 4411392, so (2^23 + 4411392) · 2^(143 − 127 − 23) = 100000. -/
theorem nNodes_eq : nNodes = ((100000 : ℝ) : EReal) := by
  simp [nNodes, Ideal.ofBits, Ideal.ieee, -EReal.coe_mul]; norm_num

/-- `0x3727C5AC`: exponent field 110, fraction field 2606508: the positive real (2^23 + 2606508) · 2^(110 − 127 − 23). -/
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

end Cert.Spec

end
-- ==== Proof.RefRead2.lean ====
/-
  The reference program's column variance read index by index.

  The variance function computes the column mean through a [1, 128] row, subtracts it from every entry, sums the
  squared deviations over the rows and divides by the row count less a degrees-of-freedom correction, guarded by a
  comparison of that count with zero.  The correction is the integer zero, so the count is the row count 1e5, the
  guard holds, and the result is the mean of the squared deviations.
-/
import proofs.«161505_j35811437314143_1_alg».proof.Proof.RefRead
import proofs.«161505_j35811437314143_1_alg».proof.Proof.Algebra

noncomputable section

namespace Cert.ReferenceIdeal.Stages

open Idealize.ShloMosaic Idealize.ShloMosaic.ValueIdx
open Cert.ReferenceIdeal Cert.ReferenceIdeal.Facts₀
open Cert

variable [Facts₀]

/-- A length-128 vector laid out as a [1, 128] row reads, at (0, q), the vector at q. -/
theorem row1_apply (v : FVec Ideal S128 .f32) (q : Fin 128) :
    broadcastInDim S1x128 ![1] bcast_S128_S1x128_1 v (ix2 (0 : Fin 1) q) = v (ix1 q) := by
  refine broadcastInDim_apply _ _ _ (ix2 (0 : Fin 1) q) (ix1 q) ?_
  intro a
  match a with
  | ⟨0, _⟩ => rfl

/-- The count the variance divides by: the row count less the integer zero converted, which is the row count. -/
theorem cntS_apply (j : S_.Idx) : cntS j = Spec.nNodes := by
  show Spec.nNodes - (((0#32 : BitVec 32).toInt : ℝ) : EReal) = Spec.nNodes
  rw [show (0#32 : BitVec 32).toInt = 0 from by decide, Int.cast_zero, EReal.coe_zero, sub_zero]

/-- The guard: the row count exceeds zero. -/
theorem cnt_pos : FloatOps.cmpf (F := Ideal) (φ := .f32) .ogt Spec.nNodes Spec.zero = 1#1 := by
  have h : Spec.zero < Spec.nNodes := by
    rw [Spec.zero_eq, Spec.nNodes_eq]
    exact EReal.coe_pos.mpr (by norm_num)
  show BitVec.ofBool (decide (Spec.zero < Spec.nNodes)) = 1#1
  rw [decide_eq_true h]
  rfl

/-- The deviations: each entry less its column's mean. -/
theorem devOf_apply (z : FVec Ideal S100000x128 .f32) (p : Fin 100000) (q : Fin 128) :
    devOf z (ix2 p q) = z (ix2 p q) - Spec.mean (Spec.cur2 z) q := by
  unfold devOf
  rw [subf_apply]
  refine congrArg (z (ix2 p q) - ·) ?_
  refine (broadcastInDim_apply _ _ _ (ix2 p q) (ix2 (0 : Fin 1) q) ?_).trans ?_
  · intro a
    match a with
    | ⟨0, _⟩ => rfl
    | ⟨1, _⟩ => rfl
  · show Ideal.div (broadcastInDim S1x128 ![1] bcast_S128_S1x128_1 (sumOf z) (ix2 (0 : Fin 1) q))
        (broadcastInDim S1x128 ![] bcast_S_S1x128 nS (ix2 (0 : Fin 1) q)) = _
    rw [row1_apply, sumOf_apply, splat_apply, nS_apply]
    rfl

theorem varOf_apply (z : FVec Ideal S100000x128 .f32) (q : Fin 128) : varOf z (ix1 q) = Spec.varR (Spec.cur2 z) q := by
  unfold varOf
  rw [select_apply]
  have hc : broadcastInDim S128 ![] bcast_S_S128 (cmpf .ogt cntS zeroS) (ix1 q) = 1#1 := by
    rw [splat_apply, cmpf_apply, cntS_apply, zeroS_apply]
    exact cnt_pos
  rw [hc, select_one]
  show Ideal.div (sumOf (mulf (devOf z) (devOf z)) (ix1 q)) (broadcastInDim S128 ![] bcast_S_S128 cntS (ix1 q)) = _
  rw [sumOf_apply, splat_apply, cntS_apply]
  unfold Spec.varR
  refine congrArg (Ideal.div · Spec.nNodes) (Finset.sum_congr rfl fun i _ => ?_)
  rw [mulf_apply, devOf_apply]
  rfl

end Cert.ReferenceIdeal.Stages

end
-- ==== Proof.RefLayers.lean ====
/-
  The reference program's three layers and its two outputs, read at explicit coordinates as the index-by-index
  mathematics.

  The buffers' contents after the run are given stage by stage: the neighbour sum, the perceptron, the column mean
  and variance, the normalisation, and at the end the segment mean and the two affine maps.  Each stage read at an
  index is the corresponding formula; composing the stages of one layer gives the normalised perceptron output
  with the column mean and the squared-deviation variance of that same perceptron output.
-/
import proofs.«161505_j35811437314143_1_alg».proof.Proof.RefChain
import proofs.«161505_j35811437314143_1_alg».proof.Proof.RefRead2
import proofs.«161505_j35811437314143_1_alg».proof.Proof.Slices

noncomputable section

namespace Cert.ReferenceIdeal.RefLayers

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.Stages Cert.ReferenceIdeal.RefRun
open Cert

/-! ## The stages as whole arrays -/

theorem cur2_zOf (h a : FVec Ideal S100000x128 .f32) (W1 : FVec Ideal S128x128 .f32) (c1 : FVec Ideal S128 .f32)
    (W2 : FVec Ideal S128x128 .f32) (c2 : FVec Ideal S128 .f32) :
    Spec.cur2 (zOf h a W1 c1 W2 c2)
      = Spec.mlp (Spec.cur2 h) (Spec.cur2 a) (Spec.cur2 W1) (Spec.vec c1) (Spec.cur2 W2) (Spec.vec c2) :=
  funext fun p => funext fun q => zOf_apply h a W1 c1 W2 c2 p q

theorem vec_meanOf (z : FVec Ideal S100000x128 .f32) : Spec.vec (meanOf z) = Spec.mean (Spec.cur2 z) :=
  funext fun q => meanOf_apply z q

theorem vec_varOf (z : FVec Ideal S100000x128 .f32) : Spec.vec (varOf z) = Spec.varR (Spec.cur2 z) :=
  funext fun q => varOf_apply z q

theorem cur2_matL (L : Fin 3) (Ws : FVec Ideal S3x128x128 .f32) : Spec.cur2 (matL L Ws) = Spec.sl3 L Ws :=
  funext fun l => funext fun k => matL_apply L Ws l k

theorem vec_vecL (L : Fin 3) (Bs : FVec Ideal S3x128 .f32) : Spec.vec (vecL L Bs) = Spec.sl2 L Bs :=
  funext fun k => vecL_apply L Bs k

/-- The perceptron output of layer `L` on the features `h`, with the neighbour sums over the edge list `e` and the
    layer's slices of the four stacked parameter arrays. -/
def Zr (L : Fin 3) (h : FVec Ideal S100000x128 .f32) (e : IVec S2x400000 32)
    (W1s : FVec Ideal S3x128x128 .f32) (B1s : FVec Ideal S3x128 .f32)
    (W2s : FVec Ideal S3x128x128 .f32) (B2s : FVec Ideal S3x128 .f32) : Fin 100000 → Fin 128 → EReal :=
  Spec.mlp (Spec.cur2 h) (Spec.cur2 (agg h e)) (Spec.sl3 L W1s) (Spec.sl2 L B1s) (Spec.sl3 L W2s) (Spec.sl2 L B2s)

/-- One layer, stage by stage: if `a` is the neighbour sum of `h`, `z` the perceptron of `h` and `a`, `mu` and `var`
    the column mean and variance of `z`, then the normalised `z` read at (p, q) is the formula over `Zr`. -/
theorem layer_read (L : Fin 3) (h : FVec Ideal S100000x128 .f32) (e : IVec S2x400000 32)
    (W1s : FVec Ideal S3x128x128 .f32) (B1s : FVec Ideal S3x128 .f32)
    (W2s : FVec Ideal S3x128x128 .f32) (B2s : FVec Ideal S3x128 .f32) (Gs Bs : FVec Ideal S3x128 .f32)
    {a z : FVec Ideal S100000x128 .f32} {mu var : FVec Ideal S128 .f32}
    (ha : a = agg h e) (hz : z = zOf h a (w1 L W1s) (b1 L B1s) (w2 L W2s) (b2 L B2s))
    (hmu : mu = meanOf z) (hvar : var = varOf z) (p : Fin 100000) (q : Fin 128) :
    bnOf z mu var (gam L Gs) (bet L Bs) (ix2 p q)
      = Spec.bn (Zr L h e W1s B1s W2s B2s) (Spec.mean (Zr L h e W1s B1s W2s B2s))
          (Spec.varR (Zr L h e W1s B1s W2s B2s)) (Spec.sl2 L Gs) (Spec.sl2 L Bs) p q := by
  subst ha; subst hz; subst hmu; subst hvar
  rw [bnOf_apply, vec_meanOf, vec_varOf, cur2_zOf, cur2_matL, cur2_matL, vec_vecL, vec_vecL, vec_vecL, vec_vecL]
  rfl

/-! ## The run's buffers -/

section Run

variable (V₀ : Valuation τ sig (Elt Ideal))

/-- The first layer's output buffer: the normalised perceptron output of the input features. -/
theorem rlayer0 (p : Fin 100000) (q : Fin 128) :
    after (ops (F := Ideal)) V₀ (main_v62 : DevRef τ sig) (ix2 p q)
      = Spec.bn (Zr 0 (V₀ (main_arg0 : DevRef τ sig)) (V₀ (main_arg1 : DevRef τ sig)) (V₀ (main_arg3 : DevRef τ sig)) (V₀ (main_arg4 : DevRef τ sig)) (V₀ (main_arg5 : DevRef τ sig)) (V₀ (main_arg6 : DevRef τ sig)))
          (Spec.mean (Zr 0 (V₀ (main_arg0 : DevRef τ sig)) (V₀ (main_arg1 : DevRef τ sig)) (V₀ (main_arg3 : DevRef τ sig)) (V₀ (main_arg4 : DevRef τ sig)) (V₀ (main_arg5 : DevRef τ sig)) (V₀ (main_arg6 : DevRef τ sig))))
          (Spec.varR (Zr 0 (V₀ (main_arg0 : DevRef τ sig)) (V₀ (main_arg1 : DevRef τ sig)) (V₀ (main_arg3 : DevRef τ sig)) (V₀ (main_arg4 : DevRef τ sig)) (V₀ (main_arg5 : DevRef τ sig)) (V₀ (main_arg6 : DevRef τ sig))))
          (Spec.sl2 0 (V₀ (main_arg7 : DevRef τ sig))) (Spec.sl2 0 (V₀ (main_arg8 : DevRef τ sig))) p q := by
  rw [(A_v62 V₀)]
  exact layer_read 0 _ _ _ _ _ _ _ _ (A_v18 V₀) (A_v37 V₀) (A_v40 V₀) (A_v41 V₀) p q

/-- The second layer's output buffer: the same formula over the first layer's output. -/
theorem rlayer1 (p : Fin 100000) (q : Fin 128) :
    after (ops (F := Ideal)) V₀ (main_v121 : DevRef τ sig) (ix2 p q)
      = Spec.bn (Zr 1 (after (ops (F := Ideal)) V₀ (main_v62 : DevRef τ sig)) (V₀ (main_arg1 : DevRef τ sig)) (V₀ (main_arg3 : DevRef τ sig)) (V₀ (main_arg4 : DevRef τ sig)) (V₀ (main_arg5 : DevRef τ sig)) (V₀ (main_arg6 : DevRef τ sig)))
          (Spec.mean (Zr 1 (after (ops (F := Ideal)) V₀ (main_v62 : DevRef τ sig)) (V₀ (main_arg1 : DevRef τ sig)) (V₀ (main_arg3 : DevRef τ sig)) (V₀ (main_arg4 : DevRef τ sig)) (V₀ (main_arg5 : DevRef τ sig)) (V₀ (main_arg6 : DevRef τ sig))))
          (Spec.varR (Zr 1 (after (ops (F := Ideal)) V₀ (main_v62 : DevRef τ sig)) (V₀ (main_arg1 : DevRef τ sig)) (V₀ (main_arg3 : DevRef τ sig)) (V₀ (main_arg4 : DevRef τ sig)) (V₀ (main_arg5 : DevRef τ sig)) (V₀ (main_arg6 : DevRef τ sig))))
          (Spec.sl2 1 (V₀ (main_arg7 : DevRef τ sig))) (Spec.sl2 1 (V₀ (main_arg8 : DevRef τ sig))) p q := by
  rw [(A_v121 V₀)]
  exact layer_read 1 _ _ _ _ _ _ _ _ (A_v77 V₀) (A_v96 V₀) (A_v99 V₀) (A_v100 V₀) p q

/-- The third layer's output buffer: the same formula over the second layer's output. -/
theorem rlayer2 (p : Fin 100000) (q : Fin 128) :
    after (ops (F := Ideal)) V₀ (main_v180 : DevRef τ sig) (ix2 p q)
      = Spec.bn (Zr 2 (after (ops (F := Ideal)) V₀ (main_v121 : DevRef τ sig)) (V₀ (main_arg1 : DevRef τ sig)) (V₀ (main_arg3 : DevRef τ sig)) (V₀ (main_arg4 : DevRef τ sig)) (V₀ (main_arg5 : DevRef τ sig)) (V₀ (main_arg6 : DevRef τ sig)))
          (Spec.mean (Zr 2 (after (ops (F := Ideal)) V₀ (main_v121 : DevRef τ sig)) (V₀ (main_arg1 : DevRef τ sig)) (V₀ (main_arg3 : DevRef τ sig)) (V₀ (main_arg4 : DevRef τ sig)) (V₀ (main_arg5 : DevRef τ sig)) (V₀ (main_arg6 : DevRef τ sig))))
          (Spec.varR (Zr 2 (after (ops (F := Ideal)) V₀ (main_v121 : DevRef τ sig)) (V₀ (main_arg1 : DevRef τ sig)) (V₀ (main_arg3 : DevRef τ sig)) (V₀ (main_arg4 : DevRef τ sig)) (V₀ (main_arg5 : DevRef τ sig)) (V₀ (main_arg6 : DevRef τ sig))))
          (Spec.sl2 2 (V₀ (main_arg7 : DevRef τ sig))) (Spec.sl2 2 (V₀ (main_arg8 : DevRef τ sig))) p q := by
  rw [(A_v180 V₀)]
  exact layer_read 2 _ _ _ _ _ _ _ _ (A_v136 V₀) (A_v155 V₀) (A_v158 V₀) (A_v159 V₀) p q

/-- The first output: the affine map, with the first projection's weights and bias, of the segment means of the
    third layer's output. -/
theorem rout0 (p : Fin 2048) (q : Fin 64) :
    after (ops (F := Ideal)) V₀ (main_v196 : DevRef τ sig) (ix2 p q)
      = Spec.proj (Spec.cur2 (pool (after (ops (F := Ideal)) V₀ (main_v180 : DevRef τ sig)) (V₀ (main_arg2 : DevRef τ sig))))
          (Spec.cur2 (V₀ (main_arg9 : DevRef τ sig))) (Spec.vec (V₀ (main_arg10 : DevRef τ sig))) p q := by
  rw [(A_v196 V₀), (A_v192 V₀)]
  exact projOf_apply _ _ _ p q

/-- The second output: the same with the second projection's weights and bias. -/
theorem rout1 (p : Fin 2048) (q : Fin 64) :
    after (ops (F := Ideal)) V₀ (main_v200 : DevRef τ sig) (ix2 p q)
      = Spec.proj (Spec.cur2 (pool (after (ops (F := Ideal)) V₀ (main_v180 : DevRef τ sig)) (V₀ (main_arg2 : DevRef τ sig))))
          (Spec.cur2 (V₀ (main_arg11 : DevRef τ sig))) (Spec.vec (V₀ (main_arg12 : DevRef τ sig))) p q := by
  rw [(A_v200 V₀), (A_v192 V₀)]
  exact projOf_apply _ _ _ p q

end Run

end Cert.ReferenceIdeal.RefLayers

end
-- ==== Proof.Algebra2.lean ====
/-
  Finite data stay finite through one layer, and on finite data the two column variances agree.

  A "finite" entry is the coercion of a real number.  On such entries the extended-real sums, products,
  differences and the division by the row count N = 100000 are the coercions of the same real expressions, so
    (1/N) Σ z² − ((1/N) Σ z)²  =  (1/N) Σ (z − (1/N) Σ z)²
  is the real identity  Σ (z − m)² = Σ z² − 2 m Σ z + N m²  with m = (1/N) Σ z, divided by N.
  The second form is a sum of squares over a positive number, hence nonnegative; adding the positive epsilon
  keeps the argument of the reciprocal square root positive, so the normalised layer is finite again.
-/
import proofs.«161505_j35811437314143_1_alg».proof.Proof.Algebra

noncomputable section

namespace Cert.Spec

open Idealize.ShloMosaic

/-! ### Sums of coercions -/

/-- The coercion of a finite real sum is the extended-real sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem sum_finite {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨t, ht⟩ := ih (fun i hi => h i (Finset.mem_insert_of_mem hi))
    exact ⟨r + t, by rw [Finset.sum_insert ha, hr, ht, EReal.coe_add]⟩

/-- The same for a sum that keeps the terms satisfying `P` and replaces the others by zero. -/
theorem sum_ite_finite {ι : Type*} (s : Finset ι) (P : ι → Prop) [DecidablePred P] (f : ι → EReal)
    (h : ∀ i ∈ s, P i → ∃ r : ℝ, f i = (r : EReal)) :
    ∃ r : ℝ, ∑ i ∈ s, (if P i then f i else 0) = (r : EReal) := by
  refine sum_finite s _ (fun i hi => ?_)
  by_cases hP : P i
  · rw [if_pos hP]; exact h i hi hP
  · rw [if_neg hP]; exact ⟨0, by simp⟩

/-! ### Finite entries are closed under the arithmetic of a layer -/

theorem fin_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem fin_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem fin_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- Clamping a finite entry at the zero word keeps it finite: the maximum is one of its two arguments. -/
theorem fin_max_zero {x : EReal} (hx : ∃ r : ℝ, x = (r : EReal)) : ∃ r : ℝ, max x zero = (r : EReal) := by
  rcases max_choice x zero with h | h
  · rw [h]; exact hx
  · rw [h, zero_eq]; exact ⟨0, by simp⟩

/-- The two-layer perceptron maps finite data to finite data. -/
theorem mlp_finite {h a : Fin 100000 → Fin 128 → EReal} {W1 : Fin 128 → Fin 128 → EReal} {b1 : Fin 128 → EReal}
    {W2 : Fin 128 → Fin 128 → EReal} {b2 : Fin 128 → EReal} :
    Fin2 h → Fin2 a → Fin2 W1 → Fin1 b1 → Fin2 W2 → Fin1 b2 → Fin2 (mlp h a W1 b1 W2 b2) := by
  intro hh ha hW1 hb1 hW2 hb2 i j
  unfold mlp
  exact fin_add (sum_finite _ _ fun k _ => fin_mul (fin_max_zero (fin_add
    (sum_finite _ _ fun l _ => fin_mul (fin_add (hh i l) (ha i l)) (hW1 l k)) (hb1 k))) (hW2 k j)) (hb2 j)

/-! ### The column statistics of finite data, as coercions of real expressions -/

/-- Dividing the coercion of a real by the row-count word divides the real by 100000. -/
theorem div_nNodes (x : ℝ) : Ideal.div (x : EReal) nNodes = ((x / 100000 : ℝ) : EReal) := by
  rw [nNodes_eq, Ideal.div_coe (by norm_num), ← EReal.coe_mul]
  congr 1; ring

section Stats

variable {z : Fin 100000 → Fin 128 → EReal} {r : Fin 100000 → Fin 128 → ℝ}
  (hr : ∀ i j, z i j = (r i j : EReal)) (j : Fin 128)

include hr

theorem colSum_coe : colSum z j = ((∑ i, r i j : ℝ) : EReal) := by
  unfold colSum; simp only [hr]; exact (coe_sum _ _).symm

theorem colSumSq_coe : colSumSq z j = ((∑ i, r i j * r i j : ℝ) : EReal) := by
  unfold colSumSq; simp only [hr, ← EReal.coe_mul]; exact (coe_sum _ _).symm

theorem mean_coe : mean z j = (((∑ i, r i j) / 100000 : ℝ) : EReal) := by
  unfold mean; rw [colSum_coe hr j, div_nNodes]

theorem varK_coe : varK z j =
    (((∑ i, r i j * r i j) / 100000 - (∑ i, r i j) / 100000 * ((∑ i, r i j) / 100000) : ℝ) : EReal) := by
  unfold varK
  rw [colSumSq_coe hr j, mean_coe hr j, div_nNodes, ← EReal.coe_mul, ← EReal.coe_sub]

theorem varR_coe : varR z j =
    (((∑ i, (r i j - (∑ i, r i j) / 100000) * (r i j - (∑ i, r i j) / 100000)) / 100000 : ℝ) : EReal) := by
  unfold varR
  rw [mean_coe hr j]
  simp only [hr, ← EReal.coe_sub, ← EReal.coe_mul]
  rw [← coe_sum, div_nNodes]

end Stats

/-- Over a finite index type with N elements, the mean of the squares minus the square of the mean is the mean
    of the squared deviations:  Σ (x − m)² = Σ x² − 2 m Σ x + N m²  with  m = (Σ x) / N. -/
theorem real_var_identity {ι : Type*} [Fintype ι] (x : ι → ℝ) (N : ℝ) (hN : N ≠ 0)
    (hcard : (Fintype.card ι : ℝ) = N) :
    (∑ i, x i * x i) / N - (∑ i, x i) / N * ((∑ i, x i) / N)
      = (∑ i, (x i - (∑ i, x i) / N) * (x i - (∑ i, x i) / N)) / N := by
  generalize hS : (∑ i, x i) = S
  have h1 : ∑ i, (x i - S / N) * (x i - S / N)
      = (∑ i, x i * x i) - 2 * (S / N) * S + N * (S / N * (S / N)) := by
    have h2 : ∀ i, (x i - S / N) * (x i - S / N) = x i * x i - 2 * (S / N) * x i + S / N * (S / N) :=
      fun i => by ring
    simp only [h2]
    rw [Finset.sum_add_distrib, Finset.sum_sub_distrib, ← Finset.mul_sum, hS, Finset.sum_const,
      Finset.card_univ, nsmul_eq_mul, hcard]
  rw [h1]
  field_simp
  ring

/-- On finite data the two column variances agree. -/
theorem varK_eq_varR (z : Fin 100000 → Fin 128 → EReal) (hz : Fin2 z) : varK z = varR z := by
  choose r hr using hz
  funext j
  rw [varK_coe hr j, varR_coe hr j]
  congr 1
  exact real_var_identity (fun i => r i j) 100000 (by norm_num) (by simp)

/-- The variance of finite data, in the squared-deviation form, is the coercion of a nonnegative real. -/
theorem varR_nonneg_finite (z : Fin 100000 → Fin 128 → EReal) (hz : Fin2 z) :
    ∀ j, ∃ v : ℝ, 0 ≤ v ∧ varR z j = (v : EReal) := by
  choose r hr using hz
  intro j
  exact ⟨_, div_nonneg (Finset.sum_nonneg fun i _ => mul_self_nonneg _) (by norm_num), varR_coe hr j⟩

/-- The column means of finite data are finite. -/
theorem mean_finite (z : Fin 100000 → Fin 128 → EReal) (hz : Fin2 z) : Fin1 (mean z) := by
  choose r hr using hz
  intro j
  exact ⟨_, mean_coe hr j⟩

/-- The reciprocal square root of a nonnegative real plus the epsilon is finite. -/
theorem rsqrt_add_eps_finite {v : ℝ} (hv : 0 ≤ v) : ∃ s : ℝ, Ideal.rsqrt ((v : EReal) + eps) = (s : EReal) := by
  obtain ⟨e, he, hE⟩ := eps_pos
  have hpos : 0 < v + e := by linarith
  refine ⟨(Real.sqrt (v + e))⁻¹, ?_⟩
  rw [hE, ← EReal.coe_add, Ideal.rsqrt_coe, if_neg (not_lt.mpr hpos.le), if_neg hpos.ne']

/-- Normalising finite data by its own mean and squared-deviation variance, scaling, shifting and clamping
    gives finite data. -/
theorem bn_finite (z : Fin 100000 → Fin 128 → EReal) (hz : Fin2 z) (γ β : Fin 128 → EReal)
    (hγ : Fin1 γ) (hβ : Fin1 β) : Fin2 (bn z (mean z) (varR z) γ β) := by
  intro i j
  obtain ⟨v, hv, hV⟩ := varR_nonneg_finite z hz j
  unfold bn
  rw [hV]
  exact fin_max_zero (fin_add (fin_mul (fin_mul (fin_sub (hz i j) (mean_finite z hz j))
    (rsqrt_add_eps_finite hv)) (hγ j)) (hβ j))

/-- One normalised layer is the same with either form of the variance. -/
theorem layer_eq (z : Fin 100000 → Fin 128 → EReal) (hz : Fin2 z) (γ β : Fin 128 → EReal) :
    bn z (mean z) (varK z) γ β = bn z (mean z) (varR z) γ β := by
  rw [varK_eq_varR z hz]

end Cert.Spec

end
-- ==== Proof.LibScatterAdd.lean ====
/-
  The host's accumulating float scatter with ONE scattered operand axis, read at an operand index at the ideal
  values. The scatter indices are a column [U, 1] of integer words, one per update row; update row `u` is added
  into operand row `idx[u, 0]` (read as a signed integer), and is dropped when that is no row of the operand.
  So the result at row `r` is the operand's element plus the sum, over the update rows `u` whose index word is
  `r`, of the update's element (in the same column, when the rows have columns).

  Two layouts: an operand [S, C] with updates [U, C] (whole rows are scattered: the update's second axis is the
  window axis), and an operand [S] with updates [U] (single elements are scattered: no window axis).
-/
import Idealize.ShloMosaic.PureOps.Ideal
import Idealize.ShloMosaic.Lib.ValueIdx

noncomputable section

open scoped BigOperators

namespace Idealize.ShloMosaic

open ValueIdx

/-- An update index lands on the operand index `i` exactly when, on every operand axis, its window's start plus
    its window coordinate is `i`'s coordinate. -/
theorem ScatterDims.resultIdx?_eq_some_iff {s si u : Shape} (d : ScatterDims s si u) {w : ℕ} (j : u.Idx) (idx : IVec si w)
    (i : s.Idx) : d.resultIdx? j idx = some i ↔ ∀ a, d.start j idx a + (d.window j a : ℤ) = ((i a).val : ℤ) := by
  unfold ScatterDims.resultIdx?
  constructor
  · intro h a
    split at h
    · next hall =>
      have e := congrFun (Option.some.inj h) a
      have ev : (d.start j idx a + (d.window j a : ℤ)).toNat = (i a).val := congrArg Fin.val e
      have := (hall a).1
      omega
    · exact absurd h (by simp)
  · intro h
    have hall : ∀ a, 0 ≤ d.start j idx a + (d.window j a : ℤ) ∧ d.start j idx a + (d.window j a : ℤ) < s.size a := by
      intro a
      have := (i a).isLt
      rw [h a]
      exact ⟨Int.natCast_nonneg _, by exact_mod_cast this⟩
    rw [dif_pos hall]
    refine congrArg some (funext fun a => Fin.ext ?_)
    show (d.start j idx a + (d.window j a : ℤ)).toNat = (i a).val
    rw [h a, Int.toNat_natCast]

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## Whole rows scattered: operand [S, C], indices [U, 1], updates [U, C] -/

section Rows
variable {S C U w : ℕ}

private theorem rows_sKept (wf) :
    (ScatterDims.mk (s := ⟨2, ![S, C]⟩) (si := ⟨2, ![U, 1]⟩) (u := ⟨2, ![U, C]⟩) [1] [0] [0] 1 wf).sKept = [1] := rfl

private theorem rows_start0 (wf) (idx : IVec ⟨2, ![U, 1]⟩ w) (u : Fin U) (c : Fin C) :
    (ScatterDims.mk (s := ⟨2, ![S, C]⟩) (si := ⟨2, ![U, 1]⟩) (u := ⟨2, ![U, C]⟩) [1] [0] [0] 1 wf).start (ix2 u c) idx 0
      = (idx (ix2 u 0)).toInt := by
  unfold ScatterDims.start
  rw [dif_pos (List.mem_singleton.mpr rfl)]
  refine congrArg (fun k => (idx k).toInt) ?_
  funext b
  refine Fin.ext ?_
  match b with
  | ⟨0, _⟩ => rfl
  | ⟨1, _⟩ => rfl

private theorem rows_start1 (wf) (idx : IVec ⟨2, ![U, 1]⟩ w) (u : Fin U) (c : Fin C) :
    (ScatterDims.mk (s := ⟨2, ![S, C]⟩) (si := ⟨2, ![U, 1]⟩) (u := ⟨2, ![U, C]⟩) [1] [0] [0] 1 wf).start (ix2 u c) idx 1 = 0 := by
  unfold ScatterDims.start
  rw [dif_neg (fun h => absurd (congrArg Fin.val (List.mem_singleton.mp h)) Nat.one_ne_zero)]

private theorem rows_window0 (wf) (u : Fin U) (c : Fin C) :
    (ScatterDims.mk (s := ⟨2, ![S, C]⟩) (si := ⟨2, ![U, 1]⟩) (u := ⟨2, ![U, C]⟩) [1] [0] [0] 1 wf).window (ix2 u c) 0 = 0 := by
  unfold ScatterDims.window
  rw [dif_neg (by rw [rows_sKept]; exact fun h => absurd (congrArg Fin.val (List.mem_singleton.mp h)) Nat.zero_ne_one)]

private theorem rows_window1 (wf) (u : Fin U) (c : Fin C) :
    (ScatterDims.mk (s := ⟨2, ![S, C]⟩) (si := ⟨2, ![U, 1]⟩) (u := ⟨2, ![U, C]⟩) [1] [0] [0] 1 wf).window (ix2 u c) 1 = c.val := by
  unfold ScatterDims.window
  rw [dif_pos (by rw [rows_sKept]; exact List.mem_singleton.mpr rfl)]
  rfl

/-- Update element `(u, c)` lands on operand element `(r, c')` exactly when row `u`'s index word is `r` and the columns agree. -/
theorem ScatterDims.rows_resultIdx?_eq_some_iff (d : ScatterDims ⟨2, ![S, C]⟩ ⟨2, ![U, 1]⟩ ⟨2, ![U, C]⟩)
    (huw : d.updateWindowDims = [1]) (hiw : d.insertedWindowDims = [0]) (hsd : d.scatterDimsToOperandDims = [0])
    (hiv : d.indexVectorDim = 1) (idx : IVec ⟨2, ![U, 1]⟩ w) (u : Fin U) (c : Fin C) (r : Fin S) (c' : Fin C) :
    d.resultIdx? (ix2 u c) idx = some (ix2 r c') ↔ (idx (ix2 u 0)).toInt = (r.val : ℤ) ∧ c = c' := by
  obtain ⟨uw, iw, sd, iv, wf⟩ := d
  dsimp only at huw hiw hsd hiv
  subst huw hiw hsd hiv
  rw [ScatterDims.resultIdx?_eq_some_iff, Fin.forall_fin_two, rows_start0, rows_start1, rows_window0, rows_window1]
  show (idx (ix2 u 0)).toInt + ((0 : ℕ) : ℤ) = (r.val : ℤ) ∧ (0 : ℤ) + (c.val : ℤ) = (c'.val : ℤ) ↔ _
  constructor
  · rintro ⟨h0, h1⟩
    exact ⟨by omega, Fin.ext (by omega)⟩
  · rintro ⟨h0, rfl⟩
    exact ⟨by omega, by omega⟩

/-- THE ROW SCATTER READ AT `(r, c)`: the operand's element plus the sum over the update rows whose index word is `r`
    of the update's element in column `c`. -/
theorem Host.scatterAdd_rows_apply {φ : FTy} (d : ScatterDims ⟨2, ![S, C]⟩ ⟨2, ![U, 1]⟩ ⟨2, ![U, C]⟩)
    (huw : d.updateWindowDims = [1]) (hiw : d.insertedWindowDims = [0]) (hsd : d.scatterDimsToOperandDims = [0])
    (hiv : d.indexVectorDim = 1) (x : FVec Ideal ⟨2, ![S, C]⟩ φ) (idx : IVec ⟨2, ![U, 1]⟩ w)
    (upd : FVec Ideal ⟨2, ![U, C]⟩ φ) (r : Fin S) (c : Fin C) :
    Host.scatterAdd d x idx upd (ix2 r c)
      = x (ix2 r c) + ∑ u : Fin U, if (idx (ix2 u 0)).toInt = (r.val : ℤ) then upd (ix2 u c) else 0 := by
  unfold Host.scatterAdd
  rw [Ideal.hostScatterAdd_def]
  unfold Ideal.hostScatterAdd
  refine congrArg (x (ix2 r c) + ·) ?_
  rw [Finset.sum_filter, sum_idx2]
  refine Finset.sum_congr rfl fun u _ => ?_
  by_cases hu : (idx (ix2 u 0)).toInt = (r.val : ℤ)
  · rw [if_pos hu]
    rw [Finset.sum_eq_single c]
    · rw [if_pos ((ScatterDims.rows_resultIdx?_eq_some_iff d huw hiw hsd hiv idx u c r c).2 ⟨hu, rfl⟩)]
    · intro c' _ hc'
      rw [if_neg fun h => hc' ((ScatterDims.rows_resultIdx?_eq_some_iff d huw hiw hsd hiv idx u c' r c).1 h).2]
    · intro h; exact absurd (Finset.mem_univ c) h
  · rw [if_neg hu]
    refine Finset.sum_eq_zero fun c' _ => ?_
    rw [if_neg fun h => hu ((ScatterDims.rows_resultIdx?_eq_some_iff d huw hiw hsd hiv idx u c' r c).1 h).1]

end Rows

/-! ## Single elements scattered: operand [S], indices [U, 1], updates [U] -/

section Elements
variable {S U w : ℕ}

private theorem elts_sKept (wf) :
    (ScatterDims.mk (s := ⟨1, ![S]⟩) (si := ⟨2, ![U, 1]⟩) (u := ⟨1, ![U]⟩) [] [0] [0] 1 wf).sKept = [] := rfl

private theorem elts_start0 (wf) (idx : IVec ⟨2, ![U, 1]⟩ w) (u : Fin U) :
    (ScatterDims.mk (s := ⟨1, ![S]⟩) (si := ⟨2, ![U, 1]⟩) (u := ⟨1, ![U]⟩) [] [0] [0] 1 wf).start (ix1 u) idx 0
      = (idx (ix2 u 0)).toInt := by
  unfold ScatterDims.start
  rw [dif_pos (List.mem_singleton.mpr rfl)]
  refine congrArg (fun k => (idx k).toInt) ?_
  funext b
  refine Fin.ext ?_
  match b with
  | ⟨0, _⟩ => rfl
  | ⟨1, _⟩ => rfl

private theorem elts_window0 (wf) (u : Fin U) :
    (ScatterDims.mk (s := ⟨1, ![S]⟩) (si := ⟨2, ![U, 1]⟩) (u := ⟨1, ![U]⟩) [] [0] [0] 1 wf).window (ix1 u) 0 = 0 := by
  unfold ScatterDims.window
  rw [dif_neg (by rw [elts_sKept]; exact List.not_mem_nil)]

/-- Update element `u` lands on operand element `r` exactly when its index word is `r`. -/
theorem ScatterDims.elts_resultIdx?_eq_some_iff (d : ScatterDims ⟨1, ![S]⟩ ⟨2, ![U, 1]⟩ ⟨1, ![U]⟩)
    (huw : d.updateWindowDims = []) (hiw : d.insertedWindowDims = [0]) (hsd : d.scatterDimsToOperandDims = [0])
    (hiv : d.indexVectorDim = 1) (idx : IVec ⟨2, ![U, 1]⟩ w) (u : Fin U) (r : Fin S) :
    d.resultIdx? (ix1 u) idx = some (ix1 r) ↔ (idx (ix2 u 0)).toInt = (r.val : ℤ) := by
  obtain ⟨uw, iw, sd, iv, wf⟩ := d
  dsimp only at huw hiw hsd hiv
  subst huw hiw hsd hiv
  rw [ScatterDims.resultIdx?_eq_some_iff]
  constructor
  · intro h
    have h0 := h 0
    rw [elts_start0, elts_window0] at h0
    have : ((ix1 r : (⟨1, ![S]⟩ : Shape).Idx) 0).val = r.val := rfl
    omega
  · intro h a
    obtain rfl : a = 0 := Subsingleton.elim _ _
    rw [elts_start0, elts_window0]
    have : ((ix1 r : (⟨1, ![S]⟩ : Shape).Idx) 0).val = r.val := rfl
    omega

/-- THE ELEMENT SCATTER READ AT `r`: the operand's element plus the sum of the updates whose index word is `r`. -/
theorem Host.scatterAdd_elts_apply {φ : FTy} (d : ScatterDims ⟨1, ![S]⟩ ⟨2, ![U, 1]⟩ ⟨1, ![U]⟩)
    (huw : d.updateWindowDims = []) (hiw : d.insertedWindowDims = [0]) (hsd : d.scatterDimsToOperandDims = [0])
    (hiv : d.indexVectorDim = 1) (x : FVec Ideal ⟨1, ![S]⟩ φ) (idx : IVec ⟨2, ![U, 1]⟩ w)
    (upd : FVec Ideal ⟨1, ![U]⟩ φ) (r : Fin S) :
    Host.scatterAdd d x idx upd (ix1 r)
      = x (ix1 r) + ∑ u : Fin U, if (idx (ix2 u 0)).toInt = (r.val : ℤ) then upd (ix1 u) else 0 := by
  unfold Host.scatterAdd
  rw [Ideal.hostScatterAdd_def]
  unfold Ideal.hostScatterAdd
  refine congrArg (x (ix1 r) + ·) ?_
  rw [Finset.sum_filter, sum_idx1]
  refine Finset.sum_congr rfl fun u _ => ?_
  by_cases hu : (idx (ix2 u 0)).toInt = (r.val : ℤ)
  · rw [if_pos hu, if_pos ((ScatterDims.elts_resultIdx?_eq_some_iff d huw hiw hsd hiv idx u r).2 hu)]
  · rw [if_neg hu, if_neg fun h => hu ((ScatterDims.elts_resultIdx?_eq_some_iff d huw hiw hsd hiv idx u r).1 h)]

end Elements

end Idealize.ShloMosaic

end
-- ==== Proof.LibGather.lean ====
/-
  The host's gather with ONE gathered operand axis, read at a result index. The start indices are a column [U, 1]
  of integer words, one per result row; result row `u` reads operand row `idx[u, 0]`, read as a signed integer
  and clamped into `[0, N - 1]` (a negative word reads row 0, a word past the end the last row).

  Two layouts: an operand [N, C] with result [U, C] (whole rows are gathered: the result's second axis is the
  offset axis, of the full width), and an operand [N] with result [U] (single elements are gathered).
-/
import Idealize.ShloMosaic.PureOps.Ideal
import Idealize.ShloMosaic.Lib.ValueIdx

noncomputable section

namespace Idealize.ShloMosaic

open ValueIdx

/-! ## Whole rows gathered: operand [N, C], indices [U, 1], result [U, C] -/

section Rows
variable {α : Type} {N C U w : ℕ}

/-- THE ROW GATHER READ AT `(u, c)`: the operand at the row that index word `u` names (signed, clamped), column `c`. -/
theorem Host.gather_rows_apply (hN : 0 < N) (d : GatherDims ⟨2, ![N, C]⟩ ⟨2, ![U, 1]⟩ ⟨2, ![U, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![U, 1]⟩ w) (u : Fin U) (c : Fin C) :
    Host.gather d x idx (ix2 u c) = x (ix2 ⟨min (idx (ix2 u 0)).toInt.toNat (N - 1), by omega⟩ c) := by
  obtain ⟨od, cs, ob, sb, sm, iv, ss, wf⟩ := d
  dsimp only at hod hcs hob hsb hsm hiv hss
  subst hod hcs hob hsb hsm hiv hss
  unfold Host.gather
  refine congrArg x ?_
  funext a
  refine Fin.ext ?_
  match a with
  | ⟨0, _⟩ =>
    show GatherDims.start _ (ix2 u c) idx 0 + GatherDims.batchCoord _ (ix2 u c) 0 + GatherDims.offCoord _ (ix2 u c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun k => min (idx k).toInt.toNat (N - 1)) ?_
    funext b; refine Fin.ext ?_
    match b with
    | ⟨0, _⟩ => rfl
    | ⟨1, _⟩ => rfl
  | ⟨1, _⟩ =>
    show GatherDims.start _ (ix2 u c) idx 1 + GatherDims.batchCoord _ (ix2 u c) 1 + GatherDims.offCoord _ (ix2 u c) 1 = c.val
    rw [GatherDims.batchCoord_eq_zero _ _ _ List.not_mem_nil]
    unfold GatherDims.start
    rw [dif_neg (fun h => absurd (congrArg Fin.val (List.mem_singleton.mp h)) Nat.one_ne_zero)]
    unfold GatherDims.offCoord
    rw [dif_pos ((GatherDims.mem_sKept _ _).mpr
      ⟨fun h => absurd (congrArg Fin.val (List.mem_singleton.mp h)) Nat.one_ne_zero, List.not_mem_nil⟩)]
    simp only [Nat.zero_add, Nat.add_zero]
    rfl

end Rows

/-! ## Single elements gathered: operand [N], indices [U, 1], result [U] -/

section Elements
variable {α : Type} {N U w : ℕ}

/-- THE ELEMENT GATHER READ AT `u`: the operand at the position that index word `u` names (signed, clamped). -/
theorem Host.gather_elts_apply (hN : 0 < N) (d : GatherDims ⟨1, ![N]⟩ ⟨2, ![U, 1]⟩ ⟨1, ![U]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1]) (x : (⟨1, ![N]⟩ : Shape).Idx → α) (idx : IVec ⟨2, ![U, 1]⟩ w) (u : Fin U) :
    Host.gather d x idx (ix1 u) = x (ix1 ⟨min (idx (ix2 u 0)).toInt.toNat (N - 1), by omega⟩) := by
  obtain ⟨od, cs, ob, sb, sm, iv, ss, wf⟩ := d
  dsimp only at hod hcs hob hsb hsm hiv hss
  subst hod hcs hob hsb hsm hiv hss
  unfold Host.gather
  refine congrArg x ?_
  funext a
  obtain rfl : a = 0 := Subsingleton.elim _ _
  refine Fin.ext ?_
  show GatherDims.start _ (ix1 u) idx 0 + GatherDims.batchCoord _ (ix1 u) 0 + GatherDims.offCoord _ (ix1 u) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  refine congrArg (fun k => min (idx k).toInt.toNat (N - 1)) ?_
  funext b; refine Fin.ext ?_
  match b with
  | ⟨0, _⟩ => rfl
  | ⟨1, _⟩ => rfl

end Elements

end Idealize.ShloMosaic

end
-- ==== Proof.RefRead3.lean ====
/-
  The neighbour sum of finite node features is finite.

  The scatter-add into the zero array reads, at (p, q), zero plus the sum over the edges whose destination is p of the
  gathered entry in column q; a gathered entry is an entry of the node features, at the row the edge's source names.
  So every entry of the neighbour sum is a finite sum of entries of the node features or zeros.
-/
import proofs.«161505_j35811437314143_1_alg».proof.Proof.RefRead
import proofs.«161505_j35811437314143_1_alg».proof.Proof.Algebra2
import proofs.«161505_j35811437314143_1_alg».proof.Proof.LibScatterAdd
import proofs.«161505_j35811437314143_1_alg».proof.Proof.LibGather

noncomputable section

namespace Cert.ReferenceIdeal.Stages

open Idealize.ShloMosaic Idealize.ShloMosaic.ValueIdx
open Cert.ReferenceIdeal Cert.ReferenceIdeal.Facts₀
open Cert

variable [Facts₀]

/-- The neighbour sum at (p, q): the sum, over the edges into p, of the source rows' entries in column q. -/
theorem agg_apply (h : FVec Ideal S100000x128 .f32) (e : IVec S2x400000 32) (p : Fin 100000) (q : Fin 128) :
    agg h e (ix2 p q) = ∑ u : Fin 400000,
      if (dstIdx e (ix2 u (0 : Fin 1))).toInt = (p.val : ℤ)
      then h (ix2 ⟨min (srcIdx e (ix2 u (0 : Fin 1))).toInt.toNat (100000 - 1), by omega⟩ q) else 0 := by
  unfold agg
  refine (Host.scatterAdd_rows_apply scatter_S100000x128_S400000x1_S400000x128_1_0_0_1 rfl rfl rfl rfl _ _ _ p q).trans ?_
  rw [splat_apply, zeroS_apply, Spec.zero_eq, zero_add]
  refine Finset.sum_congr rfl fun u _ => ?_
  rw [Host.gather_rows_apply (by decide) gather_S100000x128_S400000x1_S400000x128_1_0_n_n_0_1_1128 rfl rfl rfl rfl rfl rfl rfl
    h (srcIdx e) u q]

theorem agg_finite (h : FVec Ideal S100000x128 .f32) (e : IVec S2x400000 32)
    (hh : ∀ (p : Fin 100000) (q : Fin 128), ∃ r : ℝ, h (ix2 p q) = (r : EReal)) :
    ∀ (p : Fin 100000) (q : Fin 128), ∃ r : ℝ, agg h e (ix2 p q) = (r : EReal) := by
  intro p q
  rw [agg_apply]
  exact Spec.sum_ite_finite Finset.univ _ _ (fun u _ _ => hh _ q)

end Cert.ReferenceIdeal.Stages

end
-- ==== Proof.PreFinite.lean ====
/-
  The precondition, read back: every float input the programs read is finite.

  The printed predicate compares, entry by entry, the absolute value of each float input with the float word
  0x7F800000 (+∞), reduces each comparison array by "and" to a single bit, and joins the bits by "and".  The claim
  says the final bit is 1.  Hence every joined bit is 1, every compared entry satisfies |x| < +∞, and an extended
  real with max x (−x) < +∞ is neither −∞ nor +∞: it is the coercion of a real number.
-/
import proofs.«161505_j35811437314143_1_alg».proof.Pre_finite_inputs
import Idealize.ShloMosaic.PureOps.Ideal
import Idealize.ShloMosaic.Lib.ValueIdx
import Idealize.ShloMosaic.Lib.ReduceAll

noncomputable section

namespace Cert.PreFinite

open Idealize.ShloMosaic Cert.Pre_finite_inputs

/-- The rank-0 shape has exactly one index. -/
instance : Subsingleton S_.Idx := ⟨fun a b => funext fun d => d.elim0⟩

/-- The float word `0x7F800000` denotes +∞. -/
theorem inf_eq : Ideal.ofBits .f32 0x7F800000#32 = ⊤ := by
  simp [Ideal.ofBits, Ideal.ieee]

/-- An extended real whose absolute value `max x (−x)` is strictly below +∞ is the coercion of a real. -/
theorem real_of_abs_lt_top (x : EReal) (h : max x (-x) < ⊤) : ∃ r : ℝ, x = (r : EReal) := by
  induction x using EReal.rec with
  | bot => simp at h
  | coe r => exact ⟨r, rfl⟩
  | top => simp at h

/-- One compared entry: if "|x| < +∞" came out as the bit 1, then `x` is the coercion of a real. -/
theorem elt_finite (x : EReal)
    (h : Ideal.cmp .olt (max x (-x)) (Ideal.ofBits .f32 0x7F800000#32) = 1#1) : ∃ r : ℝ, x = (r : EReal) := by
  rw [inf_eq] at h
  apply real_of_abs_lt_top
  by_contra hn
  simp [Ideal.cmp, hn] at h

/-- One input array: if the "and" over all entries of "|x| < +∞" is 1, every entry is the coercion of a real. -/
theorem all_finite {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
        (cmpf .olt (Host.absf x) (broadcastInDim s ![] bc (constant S_ .f32 0x7F800000#32)))
        (constantI S_ 1 1#1) hr hu ValueIdx.ix0 = 1#1) :
    ∀ i, ∃ r : ℝ, x i = (r : EReal) := by
  intro i
  have h := Host.reduce_andi_all _ _ hr hu _ e i
  exact elt_finite (x i) h

/-- A joined bit that is 1 had both its arguments 1. -/
theorem andi_split {x y : IVec S_ 1} {i : S_.Idx} (h : andi x y i = 1#1) : x i = 1#1 ∧ y i = 1#1 :=
  IntOp.andi_eq_one.1 h

section Decode

variable [Facts]

variable {a0 : FVec Ideal S100000x128 .f32} {a1 : IVec S2x400000 32} {a2 : IVec S100000 32}
  {a3 : FVec Ideal S3x128x128 .f32} {a4 : FVec Ideal S3x128 .f32} {a5 : FVec Ideal S3x128x128 .f32}
  {a6 a7 a8 : FVec Ideal S3x128 .f32} {a9 : FVec Ideal S128x64 .f32} {a10 : FVec Ideal S64 .f32}
  {a11 : FVec Ideal S128x64 .f32} {a12 : FVec Ideal S64 .f32}

/-- The whole conjunction: if the printed predicate is 1, every entry of each of its eleven float inputs is the
    coercion of a real. -/
theorem finite_all (h : fn (F := Ideal) a0 a1 a2 a3 a4 a5 a6 a7 a8 a9 a10 a11 a12 = fun _ => 1#1) :
    (∀ i, ∃ r : ℝ, a0 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal))
    ∧ (∀ i, ∃ r : ℝ, a11 i = (r : EReal)) ∧ (∀ i, ∃ r : ℝ, a12 i = (r : EReal)) := by
  have h0 := congrFun h ValueIdx.ix0
  dsimp only [fn, fn_part1, fn_part2, fn_part3] at h0
  obtain ⟨h0, e12⟩ := andi_split h0
  obtain ⟨h0, e11⟩ := andi_split h0
  obtain ⟨h0, e10⟩ := andi_split h0
  obtain ⟨h0, e9⟩ := andi_split h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨e0, e3⟩ := andi_split h0
  exact ⟨all_finite _ _ _ _ e0, all_finite _ _ _ _ e3, all_finite _ _ _ _ e4, all_finite _ _ _ _ e5,
    all_finite _ _ _ _ e6, all_finite _ _ _ _ e7, all_finite _ _ _ _ e8, all_finite _ _ _ _ e9,
    all_finite _ _ _ _ e10, all_finite _ _ _ _ e11, all_finite _ _ _ _ e12⟩

variable (h : fn (F := Ideal) a0 a1 a2 a3 a4 a5 a6 a7 a8 a9 a10 a11 a12 = fun _ => 1#1)
include h

theorem finite_arg0 : ∀ i, ∃ r : ℝ, a0 i = (r : EReal) := (finite_all h).1
theorem finite_arg3 : ∀ i, ∃ r : ℝ, a3 i = (r : EReal) := (finite_all h).2.1
theorem finite_arg4 : ∀ i, ∃ r : ℝ, a4 i = (r : EReal) := (finite_all h).2.2.1
theorem finite_arg5 : ∀ i, ∃ r : ℝ, a5 i = (r : EReal) := (finite_all h).2.2.2.1
theorem finite_arg6 : ∀ i, ∃ r : ℝ, a6 i = (r : EReal) := (finite_all h).2.2.2.2.1
theorem finite_arg7 : ∀ i, ∃ r : ℝ, a7 i = (r : EReal) := (finite_all h).2.2.2.2.2.1
theorem finite_arg8 : ∀ i, ∃ r : ℝ, a8 i = (r : EReal) := (finite_all h).2.2.2.2.2.2.1
theorem finite_arg9 : ∀ i, ∃ r : ℝ, a9 i = (r : EReal) := (finite_all h).2.2.2.2.2.2.2.1
theorem finite_arg10 : ∀ i, ∃ r : ℝ, a10 i = (r : EReal) := (finite_all h).2.2.2.2.2.2.2.2.1
theorem finite_arg11 : ∀ i, ∃ r : ℝ, a11 i = (r : EReal) := (finite_all h).2.2.2.2.2.2.2.2.2.1
theorem finite_arg12 : ∀ i, ∃ r : ℝ, a12 i = (r : EReal) := (finite_all h).2.2.2.2.2.2.2.2.2.2

end Decode

end Cert.PreFinite

end
-- ==== Proof.Bridge.lean ====
/-
  The two programs compute the same results.

  Layer by layer: if the kernel's and the reference's input rows agree and are real numbers, then so do their output
  rows.  The neighbour sums, the perceptron and the column means are the same expressions on both sides; the two
  spellings of the column variance — mean of squares minus squared mean, and mean of squared deviations — agree
  because every entry of the perceptron's output is a real number (a finite sum of products of reals), and the
  normalised rows are again real because the variance is a non-negative real and the epsilon is positive.  After the
  third layer both sides pool the same rows with the same operations and apply the same two affine maps.
-/
import proofs.«161505_j35811437314143_1_alg».proof.Defs
import proofs.«161505_j35811437314143_1_alg».proof.Proof.Gen.Pre_finite_inputs
import proofs.«161505_j35811437314143_1_alg».proof.Proof.KLayer0
import proofs.«161505_j35811437314143_1_alg».proof.Proof.KLayer1
import proofs.«161505_j35811437314143_1_alg».proof.Proof.KLayer2
import proofs.«161505_j35811437314143_1_alg».proof.Proof.KTail
import proofs.«161505_j35811437314143_1_alg».proof.Proof.RefLayers
import proofs.«161505_j35811437314143_1_alg».proof.Proof.RefRead3
import proofs.«161505_j35811437314143_1_alg».proof.Proof.Algebra2
import proofs.«161505_j35811437314143_1_alg».proof.Proof.PreFinite
import proofs.«161505_j35811437314143_1_alg».proof.Proof.Slices

set_option maxRecDepth 16384

noncomputable section

namespace Cert.Proof.Bridge

open Idealize.ShloMosaic Idealize.ShloMosaic.TcCoe Idealize.ShloMosaic.ValueIdx Idealize.SL.Sem Cert.Spec

/-- The neighbour sums and the pooling are spelled by the same operations in both programs. -/
theorem agg_same (h : FVec Ideal Cert.KernelIdeal.S100000x128 .f32) (E : IVec Cert.KernelIdeal.S2x400000 32) :
    Cert.KernelIdeal.KHost.aggOf h (Cert.KernelIdeal.KHost.raw1 E) (Cert.KernelIdeal.KHost.raw3 E) = Cert.ReferenceIdeal.Stages.agg h E := rfl
theorem pool_same (h : FVec Ideal Cert.KernelIdeal.S100000x128 .f32) (B : IVec Cert.KernelIdeal.S100000 32) :
    Cert.KernelIdeal.KHost.poolOf h B = Cert.ReferenceIdeal.Stages.pool h B := rfl

/-- ONE LAYER: from equal, real input rows (and equal, real parameters) to equal, real output rows. -/
theorem step (L : Fin 3) (T R : FVec Ideal Cert.KernelIdeal.S100000x128 .f32) (E E' : IVec Cert.KernelIdeal.S2x400000 32)
    (W1s W2s W1s' W2s' : FVec Ideal Cert.KernelIdeal.S3x128x128 .f32) (B1s B2s Gs Bes B1s' B2s' Gs' Bes' : FVec Ideal Cert.KernelIdeal.S3x128 .f32)
    (hTR : T = R) (hR : Fin2 (cur2 R)) (hE : E' = E)
    (e1 : W1s' = W1s) (e2 : B1s' = B1s) (e3 : W2s' = W2s) (e4 : B2s' = B2s) (e5 : Gs' = Gs) (e6 : Bes' = Bes)
    (hW1 : ∀ i, ∃ r : ℝ, W1s i = (r : EReal)) (hB1 : ∀ i, ∃ r : ℝ, B1s i = (r : EReal))
    (hW2 : ∀ i, ∃ r : ℝ, W2s i = (r : EReal)) (hB2 : ∀ i, ∃ r : ℝ, B2s i = (r : EReal))
    (hG : ∀ i, ∃ r : ℝ, Gs i = (r : EReal)) (hBe : ∀ i, ∃ r : ℝ, Bes i = (r : EReal))
    (T' R' : FVec Ideal Cert.KernelIdeal.S100000x128 .f32)
    (hT' : ∀ p q, T' (ix2 p q) = bn (Cert.KernelIdeal.KChainA.Zof T E (sl3 L W1s) (sl2 L B1s) (sl3 L W2s) (sl2 L B2s)) (mean (Cert.KernelIdeal.KChainA.Zof T E (sl3 L W1s) (sl2 L B1s) (sl3 L W2s) (sl2 L B2s))) (varK (Cert.KernelIdeal.KChainA.Zof T E (sl3 L W1s) (sl2 L B1s) (sl3 L W2s) (sl2 L B2s))) (sl2 L Gs) (sl2 L Bes) p q)
    (hR' : ∀ p q, R' (ix2 p q) = bn (Cert.ReferenceIdeal.RefLayers.Zr L R E' W1s' B1s' W2s' B2s') (mean (Cert.ReferenceIdeal.RefLayers.Zr L R E' W1s' B1s' W2s' B2s'))
        (varR (Cert.ReferenceIdeal.RefLayers.Zr L R E' W1s' B1s' W2s' B2s')) (sl2 L Gs') (sl2 L Bes') p q) :
    T' = R' ∧ Fin2 (cur2 R') := by
  subst hTR hE e1 e2 e3 e4 e5 e6
  have hZ : Cert.KernelIdeal.KChainA.Zof T E' (sl3 L W1s') (sl2 L B1s') (sl3 L W2s') (sl2 L B2s') = Cert.ReferenceIdeal.RefLayers.Zr L T E' W1s' B1s' W2s' B2s' := by
    unfold Cert.KernelIdeal.KChainA.Zof Cert.ReferenceIdeal.RefLayers.Zr
    rw [agg_same]
  have hz : Fin2 (Cert.ReferenceIdeal.RefLayers.Zr L T E' W1s' B1s' W2s' B2s') := by
    unfold Cert.ReferenceIdeal.RefLayers.Zr
    exact mlp_finite hR (fun p q => Cert.ReferenceIdeal.Stages.agg_finite T E' hR p q) (fun l k => hW1 _) (fun k => hB1 _) (fun l k => hW2 _) (fun k => hB2 _)
  refine ⟨ext2 fun p q => ?_, fun p q => ?_⟩
  · rw [hT', hR', hZ, layer_eq _ hz]
  · show ∃ r : ℝ, R' (ix2 p q) = (r : EReal)
    rw [hR']
    exact bn_finite _ hz _ _ (fun k => hG _) (fun k => hBe _) p q

/-- THE RESULTS AGREE: from memories that agree on the thirteen arguments, with every float argument finite, the
    reference's two result buffers end at the contents the kernel program's last boundary gives its two results. -/
theorem results_eq [hP : Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (StableHlo.after (Cert.ReferenceIdeal.RefRun.ops (F := Ideal)) (StableHlo.launchContents m' c) (Cert.ReferenceIdeal.main_v196 : DevRef Cert.ReferenceIdeal.τ Cert.ReferenceIdeal.sig)) = (Cert.KernelIdeal.Gen.W14 m ρ c (Proc.devRef .tc Cert.KernelIdeal.main_v147_0))
    ∧ (StableHlo.after (Cert.ReferenceIdeal.RefRun.ops (F := Ideal)) (StableHlo.launchContents m' c) (Cert.ReferenceIdeal.main_v200 : DevRef Cert.ReferenceIdeal.τ Cert.ReferenceIdeal.sig)) = (Cert.KernelIdeal.Gen.W14 m ρ c (Proc.devRef .tc Cert.KernelIdeal.main_v147_1)) := by
  have a0 : (StableHlo.launchContents m' c (Cert.ReferenceIdeal.main_arg0 : DevRef Cert.ReferenceIdeal.τ Cert.ReferenceIdeal.sig)) = m ((c.tc : Thread Cert.KernelIdeal.nD Cert.KernelIdeal.τ).loc Cert.KernelIdeal.main_arg0) := h0
  have a1 : (StableHlo.launchContents m' c (Cert.ReferenceIdeal.main_arg1 : DevRef Cert.ReferenceIdeal.τ Cert.ReferenceIdeal.sig)) = m ((c.tc : Thread Cert.KernelIdeal.nD Cert.KernelIdeal.τ).loc Cert.KernelIdeal.main_arg1) := h1
  have a2 : (StableHlo.launchContents m' c (Cert.ReferenceIdeal.main_arg2 : DevRef Cert.ReferenceIdeal.τ Cert.ReferenceIdeal.sig)) = m ((c.tc : Thread Cert.KernelIdeal.nD Cert.KernelIdeal.τ).loc Cert.KernelIdeal.main_arg2) := h2
  have a3 : (StableHlo.launchContents m' c (Cert.ReferenceIdeal.main_arg3 : DevRef Cert.ReferenceIdeal.τ Cert.ReferenceIdeal.sig)) = m ((c.tc : Thread Cert.KernelIdeal.nD Cert.KernelIdeal.τ).loc Cert.KernelIdeal.main_arg3) := h3
  have a4 : (StableHlo.launchContents m' c (Cert.ReferenceIdeal.main_arg4 : DevRef Cert.ReferenceIdeal.τ Cert.ReferenceIdeal.sig)) = m ((c.tc : Thread Cert.KernelIdeal.nD Cert.KernelIdeal.τ).loc Cert.KernelIdeal.main_arg4) := h4
  have a5 : (StableHlo.launchContents m' c (Cert.ReferenceIdeal.main_arg5 : DevRef Cert.ReferenceIdeal.τ Cert.ReferenceIdeal.sig)) = m ((c.tc : Thread Cert.KernelIdeal.nD Cert.KernelIdeal.τ).loc Cert.KernelIdeal.main_arg5) := h5
  have a6 : (StableHlo.launchContents m' c (Cert.ReferenceIdeal.main_arg6 : DevRef Cert.ReferenceIdeal.τ Cert.ReferenceIdeal.sig)) = m ((c.tc : Thread Cert.KernelIdeal.nD Cert.KernelIdeal.τ).loc Cert.KernelIdeal.main_arg6) := h6
  have a7 : (StableHlo.launchContents m' c (Cert.ReferenceIdeal.main_arg7 : DevRef Cert.ReferenceIdeal.τ Cert.ReferenceIdeal.sig)) = m ((c.tc : Thread Cert.KernelIdeal.nD Cert.KernelIdeal.τ).loc Cert.KernelIdeal.main_arg7) := h7
  have a8 : (StableHlo.launchContents m' c (Cert.ReferenceIdeal.main_arg8 : DevRef Cert.ReferenceIdeal.τ Cert.ReferenceIdeal.sig)) = m ((c.tc : Thread Cert.KernelIdeal.nD Cert.KernelIdeal.τ).loc Cert.KernelIdeal.main_arg8) := h8
  have a9 : (StableHlo.launchContents m' c (Cert.ReferenceIdeal.main_arg9 : DevRef Cert.ReferenceIdeal.τ Cert.ReferenceIdeal.sig)) = m ((c.tc : Thread Cert.KernelIdeal.nD Cert.KernelIdeal.τ).loc Cert.KernelIdeal.main_arg9) := h9
  have a10 : (StableHlo.launchContents m' c (Cert.ReferenceIdeal.main_arg10 : DevRef Cert.ReferenceIdeal.τ Cert.ReferenceIdeal.sig)) = m ((c.tc : Thread Cert.KernelIdeal.nD Cert.KernelIdeal.τ).loc Cert.KernelIdeal.main_arg10) := h10
  have a11 : (StableHlo.launchContents m' c (Cert.ReferenceIdeal.main_arg11 : DevRef Cert.ReferenceIdeal.τ Cert.ReferenceIdeal.sig)) = m ((c.tc : Thread Cert.KernelIdeal.nD Cert.KernelIdeal.τ).loc Cert.KernelIdeal.main_arg11) := h11
  have a12 : (StableHlo.launchContents m' c (Cert.ReferenceIdeal.main_arg12 : DevRef Cert.ReferenceIdeal.τ Cert.ReferenceIdeal.sig)) = m ((c.tc : Thread Cert.KernelIdeal.nD Cert.KernelIdeal.τ).loc Cert.KernelIdeal.main_arg12) := h12
  have f0 := Cert.PreFinite.finite_arg0 hpre
  have f3 := Cert.PreFinite.finite_arg3 hpre
  have f4 := Cert.PreFinite.finite_arg4 hpre
  have f5 := Cert.PreFinite.finite_arg5 hpre
  have f6 := Cert.PreFinite.finite_arg6 hpre
  have f7 := Cert.PreFinite.finite_arg7 hpre
  have f8 := Cert.PreFinite.finite_arg8 hpre
  -- layer 1
  have s1 := step 0 (m ((c.tc : Thread Cert.KernelIdeal.nD Cert.KernelIdeal.τ).loc Cert.KernelIdeal.main_arg0)) (StableHlo.launchContents m' c (Cert.ReferenceIdeal.main_arg0 : DevRef Cert.ReferenceIdeal.τ Cert.ReferenceIdeal.sig)) (m ((c.tc : Thread Cert.KernelIdeal.nD Cert.KernelIdeal.τ).loc Cert.KernelIdeal.main_arg1)) (StableHlo.launchContents m' c (Cert.ReferenceIdeal.main_arg1 : DevRef Cert.ReferenceIdeal.τ Cert.ReferenceIdeal.sig)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (StableHlo.launchContents m' c (Cert.ReferenceIdeal.main_arg3 : DevRef Cert.ReferenceIdeal.τ Cert.ReferenceIdeal.sig)) (StableHlo.launchContents m' c (Cert.ReferenceIdeal.main_arg5 : DevRef Cert.ReferenceIdeal.τ Cert.ReferenceIdeal.sig))
    (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (StableHlo.launchContents m' c (Cert.ReferenceIdeal.main_arg4 : DevRef Cert.ReferenceIdeal.τ Cert.ReferenceIdeal.sig)) (StableHlo.launchContents m' c (Cert.ReferenceIdeal.main_arg6 : DevRef Cert.ReferenceIdeal.τ Cert.ReferenceIdeal.sig)) (StableHlo.launchContents m' c (Cert.ReferenceIdeal.main_arg7 : DevRef Cert.ReferenceIdeal.τ Cert.ReferenceIdeal.sig)) (StableHlo.launchContents m' c (Cert.ReferenceIdeal.main_arg8 : DevRef Cert.ReferenceIdeal.τ Cert.ReferenceIdeal.sig))
    a0.symm (fun p q => by show ∃ r : ℝ, (StableHlo.launchContents m' c (Cert.ReferenceIdeal.main_arg0 : DevRef Cert.ReferenceIdeal.τ Cert.ReferenceIdeal.sig)) (ix2 p q) = (r : EReal); rw [a0]; exact f0 _) a1 a3 a4 a5 a6 a7 a8 f3 f4 f5 f6 f7 f8
    (Cert.KernelIdeal.Gen.W4 m ρ c (Proc.devRef .tc Cert.KernelIdeal.main_v46)) (StableHlo.after (Cert.ReferenceIdeal.RefRun.ops (F := Ideal)) (StableHlo.launchContents m' c) (Cert.ReferenceIdeal.main_v62 : DevRef Cert.ReferenceIdeal.τ Cert.ReferenceIdeal.sig))
    (Cert.KernelIdeal.KLayer0.layer m ρ c) (Cert.ReferenceIdeal.RefLayers.rlayer0 (StableHlo.launchContents m' c))
  -- layer 2
  have s2 := step 1 (Cert.KernelIdeal.Gen.W4 m ρ c (Proc.devRef .tc Cert.KernelIdeal.main_v46)) (StableHlo.after (Cert.ReferenceIdeal.RefRun.ops (F := Ideal)) (StableHlo.launchContents m' c) (Cert.ReferenceIdeal.main_v62 : DevRef Cert.ReferenceIdeal.τ Cert.ReferenceIdeal.sig)) (m ((c.tc : Thread Cert.KernelIdeal.nD Cert.KernelIdeal.τ).loc Cert.KernelIdeal.main_arg1)) (StableHlo.launchContents m' c (Cert.ReferenceIdeal.main_arg1 : DevRef Cert.ReferenceIdeal.τ Cert.ReferenceIdeal.sig)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (StableHlo.launchContents m' c (Cert.ReferenceIdeal.main_arg3 : DevRef Cert.ReferenceIdeal.τ Cert.ReferenceIdeal.sig)) (StableHlo.launchContents m' c (Cert.ReferenceIdeal.main_arg5 : DevRef Cert.ReferenceIdeal.τ Cert.ReferenceIdeal.sig))
    (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (StableHlo.launchContents m' c (Cert.ReferenceIdeal.main_arg4 : DevRef Cert.ReferenceIdeal.τ Cert.ReferenceIdeal.sig)) (StableHlo.launchContents m' c (Cert.ReferenceIdeal.main_arg6 : DevRef Cert.ReferenceIdeal.τ Cert.ReferenceIdeal.sig)) (StableHlo.launchContents m' c (Cert.ReferenceIdeal.main_arg7 : DevRef Cert.ReferenceIdeal.τ Cert.ReferenceIdeal.sig)) (StableHlo.launchContents m' c (Cert.ReferenceIdeal.main_arg8 : DevRef Cert.ReferenceIdeal.τ Cert.ReferenceIdeal.sig))
    s1.1 s1.2 a1 a3 a4 a5 a6 a7 a8 f3 f4 f5 f6 f7 f8
    (Cert.KernelIdeal.Gen.W8 m ρ c (Proc.devRef .tc Cert.KernelIdeal.main_v89)) (StableHlo.after (Cert.ReferenceIdeal.RefRun.ops (F := Ideal)) (StableHlo.launchContents m' c) (Cert.ReferenceIdeal.main_v121 : DevRef Cert.ReferenceIdeal.τ Cert.ReferenceIdeal.sig))
    (Cert.KernelIdeal.KLayer1.layer m ρ c) (Cert.ReferenceIdeal.RefLayers.rlayer1 (StableHlo.launchContents m' c))
  -- layer 3
  have s3 := step 2 (Cert.KernelIdeal.Gen.W8 m ρ c (Proc.devRef .tc Cert.KernelIdeal.main_v89)) (StableHlo.after (Cert.ReferenceIdeal.RefRun.ops (F := Ideal)) (StableHlo.launchContents m' c) (Cert.ReferenceIdeal.main_v121 : DevRef Cert.ReferenceIdeal.τ Cert.ReferenceIdeal.sig)) (m ((c.tc : Thread Cert.KernelIdeal.nD Cert.KernelIdeal.τ).loc Cert.KernelIdeal.main_arg1)) (StableHlo.launchContents m' c (Cert.ReferenceIdeal.main_arg1 : DevRef Cert.ReferenceIdeal.τ Cert.ReferenceIdeal.sig)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (StableHlo.launchContents m' c (Cert.ReferenceIdeal.main_arg3 : DevRef Cert.ReferenceIdeal.τ Cert.ReferenceIdeal.sig)) (StableHlo.launchContents m' c (Cert.ReferenceIdeal.main_arg5 : DevRef Cert.ReferenceIdeal.τ Cert.ReferenceIdeal.sig))
    (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (StableHlo.launchContents m' c (Cert.ReferenceIdeal.main_arg4 : DevRef Cert.ReferenceIdeal.τ Cert.ReferenceIdeal.sig)) (StableHlo.launchContents m' c (Cert.ReferenceIdeal.main_arg6 : DevRef Cert.ReferenceIdeal.τ Cert.ReferenceIdeal.sig)) (StableHlo.launchContents m' c (Cert.ReferenceIdeal.main_arg7 : DevRef Cert.ReferenceIdeal.τ Cert.ReferenceIdeal.sig)) (StableHlo.launchContents m' c (Cert.ReferenceIdeal.main_arg8 : DevRef Cert.ReferenceIdeal.τ Cert.ReferenceIdeal.sig))
    s2.1 s2.2 a1 a3 a4 a5 a6 a7 a8 f3 f4 f5 f6 f7 f8
    (Cert.KernelIdeal.Gen.W12 m ρ c (Proc.devRef .tc Cert.KernelIdeal.main_v132)) (StableHlo.after (Cert.ReferenceIdeal.RefRun.ops (F := Ideal)) (StableHlo.launchContents m' c) (Cert.ReferenceIdeal.main_v180 : DevRef Cert.ReferenceIdeal.τ Cert.ReferenceIdeal.sig))
    (Cert.KernelIdeal.KLayer2.layer m ρ c) (Cert.ReferenceIdeal.RefLayers.rlayer2 (StableHlo.launchContents m' c))
  refine ⟨ext2 fun p q => ?_, ext2 fun p q => ?_⟩
  · rw [Cert.ReferenceIdeal.RefLayers.rout0 (StableHlo.launchContents m' c) p q, Cert.KernelIdeal.KTail.out0 m ρ c p q, ← s3.1, pool_same, a2, a9, a10]
  · rw [Cert.ReferenceIdeal.RefLayers.rout1 (StableHlo.launchContents m' c) p q, Cert.KernelIdeal.KTail.out1 m ρ c p q, ← s3.1, pool_same, a2, a11, a12]

end Cert.Proof.Bridge

end
-- ==== Proof.lean ====
/-
  The certificate of a three-layer graph encoder: a kernel program of seven kernel regions among host operations against
  a plain host reference.

  Each layer adds to every node's features the sum of its neighbours' features, sends the rows through a two-layer
  perceptron, and normalises every column by its mean and variance over the 100000 rows before a scale, a shift and
  a clamp at zero; the rows are then pooled per graph and mapped by two affine maps.  The kernel program splits a
  layer into a region that computes the perceptron block by block while accumulating each column's sum and sum of
  squares over the blocks, host operations that turn the two accumulated rows into the mean and the variance
  (mean of squares minus squared mean), and an elementwise region; the reference takes the variance as the mean of
  squared deviations.  On real-valued data the two variances are one number, so the programs agree; the
  precondition (every float input finite) is what makes the data real-valued, layer after layer.

  The three frames: the two kernel programs' by the generated frame certificates, the reference's by its run (a
  straight line of host operations) with the results dropped.  The ledger of the ideal pass is empty.
-/
import proofs.«161505_j35811437314143_1_alg».proof.Defs
import proofs.«161505_j35811437314143_1_alg».proof.Proof.Gen.Kernel
import proofs.«161505_j35811437314143_1_alg».proof.Proof.Gen.Kernel.Skeleton
import proofs.«161505_j35811437314143_1_alg».proof.Proof.Gen.Kernel.Launch
import proofs.«161505_j35811437314143_1_alg».proof.Proof.Gen.Kernel.Points
import proofs.«161505_j35811437314143_1_alg».proof.Proof.Gen.Kernel.Frame
import proofs.«161505_j35811437314143_1_alg».proof.Proof.Gen.KernelIdeal
import proofs.«161505_j35811437314143_1_alg».proof.Proof.Gen.KernelIdeal.Skeleton
import proofs.«161505_j35811437314143_1_alg».proof.Proof.Gen.KernelIdeal.Launch
import proofs.«161505_j35811437314143_1_alg».proof.Proof.Gen.KernelIdeal.Points
import proofs.«161505_j35811437314143_1_alg».proof.Proof.Gen.KernelIdeal.Frame
import proofs.«161505_j35811437314143_1_alg».proof.Proof.Gen.ReferenceIdeal
import proofs.«161505_j35811437314143_1_alg».proof.Proof.Gen.Pre_finite_inputs
import proofs.«161505_j35811437314143_1_alg».proof.Proof.KRun
import proofs.«161505_j35811437314143_1_alg».proof.Proof.RefChain
import proofs.«161505_j35811437314143_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run has every buffer end at the operations' fold over the launch contents, and no
    operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.A_arg0 (StableHlo.launchContents m c)),
     (h c Cert.ReferenceIdeal.main_arg1).trans (Cert.ReferenceIdeal.RefRun.A_arg1 (StableHlo.launchContents m c)),
     (h c Cert.ReferenceIdeal.main_arg2).trans (Cert.ReferenceIdeal.RefRun.A_arg2 (StableHlo.launchContents m c)),
     (h c Cert.ReferenceIdeal.main_arg3).trans (Cert.ReferenceIdeal.RefRun.A_arg3 (StableHlo.launchContents m c)),
     (h c Cert.ReferenceIdeal.main_arg4).trans (Cert.ReferenceIdeal.RefRun.A_arg4 (StableHlo.launchContents m c)),
     (h c Cert.ReferenceIdeal.main_arg5).trans (Cert.ReferenceIdeal.RefRun.A_arg5 (StableHlo.launchContents m c)),
     (h c Cert.ReferenceIdeal.main_arg6).trans (Cert.ReferenceIdeal.RefRun.A_arg6 (StableHlo.launchContents m c)),
     (h c Cert.ReferenceIdeal.main_arg7).trans (Cert.ReferenceIdeal.RefRun.A_arg7 (StableHlo.launchContents m c)),
     (h c Cert.ReferenceIdeal.main_arg8).trans (Cert.ReferenceIdeal.RefRun.A_arg8 (StableHlo.launchContents m c)),
     (h c Cert.ReferenceIdeal.main_arg9).trans (Cert.ReferenceIdeal.RefRun.A_arg9 (StableHlo.launchContents m c)),
     (h c Cert.ReferenceIdeal.main_arg10).trans (Cert.ReferenceIdeal.RefRun.A_arg10 (StableHlo.launchContents m c)),
     (h c Cert.ReferenceIdeal.main_arg11).trans (Cert.ReferenceIdeal.RefRun.A_arg11 (StableHlo.launchContents m c)),
     (h c Cert.ReferenceIdeal.main_arg12).trans (Cert.ReferenceIdeal.RefRun.A_arg12 (StableHlo.launchContents m c))⟩)
    (Cert.ReferenceIdeal.RefRun.run_main (F := Ideal) m ρ)

/-- The two idealized programs, run from memories that agree on the arguments, end with equal results: the kernel
    program's results are what its last segment boundary holds, and the reference's run ends at the same arrays. -/
theorem algebraic : Cert.algebraic_KernelIdeal_ReferenceIdeal := by
  intro m ρ m' ρ' hpre hagree
  refine ⟨fun c => Cert.KernelIdeal.Gen.W14 m ρ c (Proc.devRef .tc Cert.KernelIdeal.main_v147_0),
    fun c => Cert.KernelIdeal.Gen.W14 m ρ c (Proc.devRef .tc Cert.KernelIdeal.main_v147_1),
    Cert.KernelIdeal.KRun.run_results (F := Ideal) m ρ, ?_⟩
  refine (θ_run Cert.ReferenceIdeal.defs _ _).mono (fun r h c => ?_) (Cert.ReferenceIdeal.RefRun.run_main (F := Ideal) m' ρ')
  obtain ⟨g0, g1, g2, g3, g4, g5, g6, g7, g8, g9, g10, g11, g12⟩ := hagree c
  have E := Cert.Proof.Bridge.results_eq m ρ m' c (hpre c) g0 g1 g2 g3 g4 g5 g6 g7 g8 g9 g10 g11 g12
  exact ⟨(h c Cert.ReferenceIdeal.main_v196).trans E.1, (h c Cert.ReferenceIdeal.main_v200).trans E.2,
     (h c Cert.ReferenceIdeal.main_arg0).trans (Cert.ReferenceIdeal.RefRun.A_arg0 (StableHlo.launchContents m' c)),
     (h c Cert.ReferenceIdeal.main_arg1).trans (Cert.ReferenceIdeal.RefRun.A_arg1 (StableHlo.launchContents m' c)),
     (h c Cert.ReferenceIdeal.main_arg2).trans (Cert.ReferenceIdeal.RefRun.A_arg2 (StableHlo.launchContents m' c)),
     (h c Cert.ReferenceIdeal.main_arg3).trans (Cert.ReferenceIdeal.RefRun.A_arg3 (StableHlo.launchContents m' c)),
     (h c Cert.ReferenceIdeal.main_arg4).trans (Cert.ReferenceIdeal.RefRun.A_arg4 (StableHlo.launchContents m' c)),
     (h c Cert.ReferenceIdeal.main_arg5).trans (Cert.ReferenceIdeal.RefRun.A_arg5 (StableHlo.launchContents m' c)),
     (h c Cert.ReferenceIdeal.main_arg6).trans (Cert.ReferenceIdeal.RefRun.A_arg6 (StableHlo.launchContents m' c)),
     (h c Cert.ReferenceIdeal.main_arg7).trans (Cert.ReferenceIdeal.RefRun.A_arg7 (StableHlo.launchContents m' c)),
     (h c Cert.ReferenceIdeal.main_arg8).trans (Cert.ReferenceIdeal.RefRun.A_arg8 (StableHlo.launchContents m' c)),
     (h c Cert.ReferenceIdeal.main_arg9).trans (Cert.ReferenceIdeal.RefRun.A_arg9 (StableHlo.launchContents m' c)),
     (h c Cert.ReferenceIdeal.main_arg10).trans (Cert.ReferenceIdeal.RefRun.A_arg10 (StableHlo.launchContents m' c)),
     (h c Cert.ReferenceIdeal.main_arg11).trans (Cert.ReferenceIdeal.RefRun.A_arg11 (StableHlo.launchContents m' c)),
     (h c Cert.ReferenceIdeal.main_arg12).trans (Cert.ReferenceIdeal.RefRun.A_arg12 (StableHlo.launchContents m' c))⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
